-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v129)) (v1 : (c : Dev Cert.KernelIdeal.nD) → Buf (Elt Ideal) ((c.tc : Thread Cert.KernelIdeal.nD Cert.KernelIdeal.τ).loc Cert.KernelIdeal.main_v110)) (v2 : (c : Dev Cert.KernelIdeal.nD) → Buf (Elt Ideal) ((c.tc : Thread Cert.KernelIdeal.nD Cert.KernelIdeal.τ).loc Cert.KernelIdeal.main_arg14)) (v3 : (c : Dev Cert.KernelIdeal.nD) → Buf (Elt Ideal) ((c.tc : Thread Cert.KernelIdeal.nD Cert.KernelIdeal.τ).loc Cert.KernelIdeal.main_arg15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_v110) = v1 c
          ∧ r.2.mem ((c.tc : Thread Cert.KernelIdeal.nD Cert.KernelIdeal.τ).loc Cert.KernelIdeal.main_arg14) = v2 c
          ∧ r.2.mem ((c.tc : Thread Cert.KernelIdeal.nD Cert.KernelIdeal.τ).loc Cert.KernelIdeal.main_arg15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v241) = v0 c
          ∧ r.2.mem ((c.tc : Thread Cert.ReferenceIdeal.nD Cert.ReferenceIdeal.τ).loc Cert.ReferenceIdeal.main_v188) = v1 c
          ∧ r.2.mem ((c.tc : Thread Cert.ReferenceIdeal.nD Cert.ReferenceIdeal.τ).loc Cert.ReferenceIdeal.main_arg14) = v2 c
          ∧ r.2.mem ((c.tc : Thread Cert.ReferenceIdeal.nD Cert.ReferenceIdeal.τ).loc Cert.ReferenceIdeal.main_arg15) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S2x400000 : Shape := ⟨2, ![2, 400000]⟩
abbrev S2x128x300 : Shape := ⟨3, ![2, 128, 300]⟩
abbrev S300 : Shape := ⟨1, ![300]⟩
abbrev S2x300x100 : Shape := ⟨3, ![2, 300, 100]⟩
abbrev S100 : Shape := ⟨1, ![100]⟩
abbrev S2x100x2 : Shape := ⟨3, ![2, 100, 2]⟩
abbrev S2 : Shape := ⟨1, ![2]⟩
abbrev S100x128 : Shape := ⟨2, ![100, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x128x300 : S_.BroadcastsInDim S2x128x300 (![] : Fin 0 → Fin S2x128x300.rank)
  reducesTo_S2x128x300_S_d0_1_2 : S2x128x300.ReducesTo [0, 1, 2] S_
  bcast_S_S300 : S_.BroadcastsInDim S300 (![] : Fin 0 → Fin S300.rank)
  reducesTo_S300_S_d0 : S300.ReducesTo [0] S_
  bcast_S_S2x300x100 : S_.BroadcastsInDim S2x300x100 (![] : Fin 0 → Fin S2x300x100.rank)
  reducesTo_S2x300x100_S_d0_1_2 : S2x300x100.ReducesTo [0, 1, 2] S_
  bcast_S_S100 : S_.BroadcastsInDim S100 (![] : Fin 0 → Fin S100.rank)
  reducesTo_S100_S_d0 : S100.ReducesTo [0] S_
  bcast_S_S2x100x2 : S_.BroadcastsInDim S2x100x2 (![] : Fin 0 → Fin S2x100x2.rank)
  reducesTo_S2x100x2_S_d0_1_2 : S2x100x2.ReducesTo [0, 1, 2] S_
  bcast_S_S2 : S_.BroadcastsInDim S2 (![] : Fin 0 → Fin S2.rank)
  reducesTo_S2_S_d0 : S2.ReducesTo [0] S_
  bcast_S_S100x128 : S_.BroadcastsInDim S100x128 (![] : Fin 0 → Fin S100x128.rank)
  reducesTo_S100x128_S_d0_1 : S100x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S1 .f32) (main_arg15 : FVec F S1 .f32) (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  let main_v54 : FVec F S1 .f32 := Host.absf main_arg14
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1 .f32 := Host.absf main_arg15
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg10 : FVec F S100x128 .f32) (main_arg11 : FVec F S100 .f32) (main_arg12 : FVec F S100x128 .f32) (main_arg13 : FVec F S100 .f32) (main_arg14 : FVec F S1 .f32) (main_arg15 : FVec F S1 .f32) (main_v33 : IVec S_ 1) : IVec S_ 1 :=
  let main_v34 : FVec F S100x128 .f32 := Host.absf main_arg10
  let main_cst_12 : FVec F S_ .f32 := constant S_ .f32 0x7F800000#32
  let main_v35 : FVec F S100x128 .f32 := broadcastInDim S100x128 ![] bcast_S_S100x128 main_cst_12
  let main_v36 : IVec S100x128 1 := cmpf .olt main_v34 main_v35
  let main_c_13 : IVec S_ 1 := constantI S_ 1 1#1
  let main_v37 : IVec S_ 1 := (fun x v => Host.reduce IntOp.andi x v reducesTo_S100x128_S_d0_1 h_S_) main_v36 main_c_13
  let main_v38 : IVec S_ 1 := andi main_v33 main_v37
  let main_v39 : FVec F S100 .f32 := Host.absf main_arg11
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S100x128 .f32 := Host.absf main_arg12
  let main_cst_16 : FVec F S_ .f32 := constant S_ .f32 0x7F800000#32
  let main_v45 : FVec F S100x128 .f32 := broadcastInDim S100x128 ![] bcast_S_S100x128 main_cst_16
  let main_v46 : IVec S100x128 1 := cmpf .olt main_v44 main_v45
  let main_c_17 : IVec S_ 1 := constantI S_ 1 1#1
  let main_v47 : IVec S_ 1 := (fun x v => Host.reduce IntOp.andi x v reducesTo_S100x128_S_d0_1 h_S_) main_v46 main_c_17
  let main_v48 : IVec S_ 1 := andi main_v43 main_v47
  let main_v49 : FVec F S100 .f32 := Host.absf main_arg13
  let main_cst_18 : FVec F S_ .f32 := constant S_ .f32 0x7F800000#32
  let main_v50 : FVec F S100 .f32 := broadcastInDim S100 ![] bcast_S_S100 main_cst_18
  fn_part3 (F := F) main_arg14 main_arg15 main_v48 main_v49 main_v50

def fn_part1 {F : FTy → Type} [FloatOps F] (main_arg7 : FVec F S100 .f32) (main_arg8 : FVec F S2x100x2 .f32) (main_arg9 : FVec F S2 .f32) (main_arg10 : FVec F S100x128 .f32) (main_arg11 : FVec F S100 .f32) (main_arg12 : FVec F S100x128 .f32) (main_arg13 : FVec F S100 .f32) (main_arg14 : FVec F S1 .f32) (main_arg15 : FVec F S1 .f32) (main_v13 : IVec S_ 1) (main_v16 : IVec S2x300x100 1) : IVec S_ 1 :=
  let main_c_5 : IVec S_ 1 := constantI S_ 1 1#1
  let main_v17 : IVec S_ 1 := (fun x v => Host.reduce IntOp.andi x v reducesTo_S2x300x100_S_d0_1_2 h_S_) main_v16 main_c_5
  let main_v18 : IVec S_ 1 := andi main_v13 main_v17
  let main_v19 : FVec F S100 .f32 := Host.absf main_arg7
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S2x100x2 .f32 := Host.absf main_arg8
  let main_cst_8 : FVec F S_ .f32 := constant S_ .f32 0x7F800000#32
  let main_v25 : FVec F S2x100x2 .f32 := broadcastInDim S2x100x2 ![] bcast_S_S2x100x2 main_cst_8
  let main_v26 : IVec S2x100x2 1 := cmpf .olt main_v24 main_v25
  let main_c_9 : IVec S_ 1 := constantI S_ 1 1#1
  let main_v27 : IVec S_ 1 := (fun x v => Host.reduce IntOp.andi x v reducesTo_S2x100x2_S_d0_1_2 h_S_) main_v26 main_c_9
  let main_v28 : IVec S_ 1 := andi main_v23 main_v27
  let main_v29 : FVec F S2 .f32 := Host.absf main_arg9
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : FVec F S50000x128 .f32) (main_arg1 : IVec S2x800000 32) (main_arg2 : IVec S2x400000 32) (main_arg3 : IVec S2x400000 32) (main_arg4 : FVec F S2x128x300 .f32) (main_arg5 : FVec F S300 .f32) (main_arg6 : FVec F S2x300x100 .f32) (main_arg7 : FVec F S100 .f32) (main_arg8 : FVec F S2x100x2 .f32) (main_arg9 : FVec F S2 .f32) (main_arg10 : FVec F S100x128 .f32) (main_arg11 : FVec F S100 .f32) (main_arg12 : FVec F S100x128 .f32) (main_arg13 : FVec F S100 .f32) (main_arg14 : FVec F S1 .f32) (main_arg15 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S2x128x300 .f32 := Host.absf main_arg4
  let main_cst_0 : FVec F S_ .f32 := constant S_ .f32 0x7F800000#32
  let main_v5 : FVec F S2x128x300 .f32 := broadcastInDim S2x128x300 ![] bcast_S_S2x128x300 main_cst_0
  let main_v6 : IVec S2x128x300 1 := cmpf .olt main_v4 main_v5
  let main_c_1 : IVec S_ 1 := constantI S_ 1 1#1
  let main_v7 : IVec S_ 1 := (fun x v => Host.reduce IntOp.andi x v reducesTo_S2x128x300_S_d0_1_2 h_S_) main_v6 main_c_1
  let main_v8 : IVec S_ 1 := andi main_v3 main_v7
  let main_v9 : FVec F S300 .f32 := Host.absf main_arg5
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S2x300x100 .f32 := Host.absf main_arg6
  let main_cst_4 : FVec F S_ .f32 := constant S_ .f32 0x7F800000#32
  let main_v15 : FVec F S2x300x100 .f32 := broadcastInDim S2x300x100 ![] bcast_S_S2x300x100 main_cst_4
  let main_v16 : IVec S2x300x100 1 := cmpf .olt main_v14 main_v15
  fn_part1 (F := F) main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S2x400000 : Shape := ⟨2, ![2, 400000]⟩
abbrev S2x128x300 : Shape := ⟨3, ![2, 128, 300]⟩
abbrev S300 : Shape := ⟨1, ![300]⟩
abbrev S2x300x100 : Shape := ⟨3, ![2, 300, 100]⟩
abbrev S100 : Shape := ⟨1, ![100]⟩
abbrev S2x100x2 : Shape := ⟨3, ![2, 100, 2]⟩
abbrev S2 : Shape := ⟨1, ![2]⟩
abbrev S100x128 : Shape := ⟨2, ![100, 128]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x300 : Shape := ⟨2, ![1, 300]⟩
abbrev S1x128x300 : Shape := ⟨3, ![1, 128, 300]⟩
abbrev S128x300 : Shape := ⟨2, ![128, 300]⟩
abbrev S50000x300 : Shape := ⟨2, ![50000, 300]⟩
abbrev S2000x128 : Shape := ⟨2, ![2000, 128]⟩
abbrev S2000x300 : Shape := ⟨2, ![2000, 300]⟩
abbrev S800000x300 : Shape := ⟨2, ![800000, 300]⟩
abbrev S1x100 : Shape := ⟨2, ![1, 100]⟩
abbrev S1x300x100 : Shape := ⟨3, ![1, 300, 100]⟩
abbrev S300x100 : Shape := ⟨2, ![300, 100]⟩
abbrev S50000x100 : Shape := ⟨2, ![50000, 100]⟩
abbrev S2000x100 : Shape := ⟨2, ![2000, 100]⟩
abbrev S128x100 : Shape := ⟨2, ![128, 100]⟩
abbrev S1x400000 : Shape := ⟨2, ![1, 400000]⟩
abbrev S400000 : Shape := ⟨1, ![400000]⟩
abbrev S400000x1 : Shape := ⟨2, ![400000, 1]⟩
abbrev S400000x100 : Shape := ⟨2, ![400000, 100]⟩
abbrev S1x1 : Shape := ⟨2, ![1, 1]⟩
abbrev S5000x100 : Shape := ⟨2, ![5000, 100]⟩
abbrev S5000 : Shape := ⟨1, ![5000]⟩
abbrev S5000x1 : Shape := ⟨2, ![5000, 1]⟩
abbrev S800000x100 : Shape := ⟨2, ![800000, 100]⟩
abbrev S1x2 : Shape := ⟨2, ![1, 2]⟩
abbrev S1x100x2 : Shape := ⟨3, ![1, 100, 2]⟩
abbrev S100x2 : Shape := ⟨2, ![100, 2]⟩
abbrev S50000x2 : Shape := ⟨2, ![50000, 2]⟩
abbrev S2000x2 : Shape := ⟨2, ![2000, 2]⟩

abbrev nBuf : Space → Nat
  | .hbm => 175
  | .vmem => 50
  | .smem => 0
  | _ => 0

abbrev hbmTy0_0 (i : Nat) : BufTy := match i % 128 with
  | 0 => ⟨S50000x128, .f32⟩
  | 1 => ⟨S2x800000, .i32⟩
  | 2 => ⟨S2x400000, .i32⟩
  | 3 => ⟨S2x400000, .i32⟩
  | 4 => ⟨S2x128x300, .f32⟩
  | 5 => ⟨S300, .f32⟩
  | 6 => ⟨S2x300x100, .f32⟩
  | 7 => ⟨S100, .f32⟩
  | 8 => ⟨S2x100x2, .f32⟩
  | 9 => ⟨S2, .f32⟩
  | 10 => ⟨S100x128, .f32⟩
  | 11 => ⟨S100, .f32⟩
  | 12 => ⟨S100x128, .f32⟩
  | 13 => ⟨S100, .f32⟩
  | 14 => ⟨S1, .f32⟩
  | 15 => ⟨S1, .f32⟩
  | 16 => ⟨S1x800000, .i32⟩
  | 17 => ⟨S800000, .i32⟩
  | 18 => ⟨S1x800000, .i32⟩
  | 19 => ⟨S800000, .i32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S800000, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S800000x1, .f32⟩
  | 67 => ⟨S800000x128, .f32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S1x300, .f32⟩
  | 74 => ⟨S1x128x300, .f32⟩
  | 75 => ⟨S128x300, .f32⟩
  | 76 => ⟨S1x128x300, .f32⟩
  | 77 => ⟨S128x300, .f32⟩
  | 78 => ⟨S50000x300, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x300, .f32⟩
  | 88 => ⟨S800000x1, .f32⟩
  | 89 => ⟨S800000x300, .f32⟩
  | 90 => ⟨S800000x300, .f32⟩
  | 91 => ⟨S_, .f32⟩
  | 92 => ⟨S50000x300, .f32⟩
  | 93 => ⟨S800000x1, .i32⟩
  | 94 => ⟨S50000x300, .f32⟩
  | 95 => ⟨S1x100, .f32⟩
  | 96 => ⟨S1x300x100, .f32⟩
  | 97 => ⟨S300x100, .f32⟩
  | 98 => ⟨S1x300x100, .f32⟩
  | 99 => ⟨S300x100, .f32⟩
  | 100 => ⟨S50000x100, .f32⟩
  | 101 => ⟨S128x100, .f32⟩
  | 102 => ⟨S128x100, .f32⟩
  | 103 => ⟨S1x100, .f32⟩
  | 104 => ⟨S1x100, .f32⟩
  | 105 => ⟨S50000x100, .f32⟩
  | 106 => ⟨S50000x100, .f32⟩
  | 107 => ⟨S1x400000, .i32⟩
  | 108 => ⟨S400000, .i32⟩
  | 109 => ⟨S_, .i32⟩
  | 110 => ⟨S400000, .i32⟩
  | 111 => ⟨S400000, .i1⟩
  | 112 => ⟨S_, .i32⟩
  | 113 => ⟨S400000, .i32⟩
  | 114 => ⟨S400000, .i32⟩
  | 115 => ⟨S400000, .i32⟩
  | 116 => ⟨S400000x1, .i32⟩
  | 117 => ⟨S400000x100, .f32⟩
  | 118 => ⟨S1x400000, .i32⟩
  | 119 => ⟨S400000, .i32⟩
  | 120 => ⟨S_, .i32⟩
  | 121 => ⟨S400000, .i32⟩
  | 122 => ⟨S400000, .i1⟩
  | 123 => ⟨S_, .i32⟩
  | 124 => ⟨S400000, .i32⟩
  | 125 => ⟨S400000, .i32⟩
  | 126 => ⟨S400000, .i32⟩
  | 127 => ⟨S400000x1, .i32⟩
  | _ => ⟨S50000x128, .f32⟩

abbrev hbmTy0_1 (i : Nat) : BufTy := match i % 128 with
  | 0 => ⟨S400000x100, .f32⟩
  | 1 => ⟨S1x400000, .i32⟩
  | 2 => ⟨S400000, .i32⟩
  | 3 => ⟨S_, .i32⟩
  | 4 => ⟨S400000, .i32⟩
  | 5 => ⟨S400000, .i1⟩
  | 6 => ⟨S_, .i32⟩
  | 7 => ⟨S400000, .i32⟩
  | 8 => ⟨S400000, .i32⟩
  | 9 => ⟨S400000, .i32⟩
  | 10 => ⟨S400000x1, .i32⟩
  | 11 => ⟨S400000x100, .f32⟩
  | 12 => ⟨S1x400000, .i32⟩
  | 13 => ⟨S400000, .i32⟩
  | 14 => ⟨S_, .i32⟩
  | 15 => ⟨S400000, .i32⟩
  | 16 => ⟨S400000, .i1⟩
  | 17 => ⟨S_, .i32⟩
  | 18 => ⟨S400000, .i32⟩
  | 19 => ⟨S400000, .i32⟩
  | 20 => ⟨S400000, .i32⟩
  | 21 => ⟨S400000x1, .i32⟩
  | 22 => ⟨S400000x100, .f32⟩
  | 23 => ⟨S1x1, .f32⟩
  | 24 => ⟨S_, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x100, .f32⟩
  | 34 => ⟨S800000x1, .f32⟩
  | 35 => ⟨S800000x100, .f32⟩
  | 36 => ⟨S800000x100, .f32⟩
  | 37 => ⟨S_, .f32⟩
  | 38 => ⟨S50000x100, .f32⟩
  | 39 => ⟨S800000x1, .i32⟩
  | 40 => ⟨S50000x100, .f32⟩
  | 41 => ⟨S1x2, .f32⟩
  | 42 => ⟨S1x100x2, .f32⟩
  | 43 => ⟨S100x2, .f32⟩
  | 44 => ⟨S1x100x2, .f32⟩
  | 45 => ⟨S100x2, .f32⟩
  | 46 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x300, .f32⟩
  | .local _ .vmem, ⟨5, _⟩ => ⟨S128x300, .f32⟩
  | .local _ .vmem, ⟨6, _⟩ => ⟨S1x300, .f32⟩
  | .local _ .vmem, ⟨7, _⟩ => ⟨S2000x300, .f32⟩
  | .local _ .vmem, ⟨8, _⟩ => ⟨S2000x300, .f32⟩
  | .local _ .vmem, ⟨9, _⟩ => ⟨S2000x300, .f32⟩
  | .local _ .vmem, ⟨10, _⟩ => ⟨S2000x300, .f32⟩
  | .local _ .vmem, ⟨11, _⟩ => ⟨S2000x300, .f32⟩
  | .local _ .vmem, ⟨12, _⟩ => ⟨S2000x300, .f32⟩
  | .local _ .vmem, ⟨13, _⟩ => ⟨S300x100, .f32⟩
  | .local _ .vmem, ⟨14, _⟩ => ⟨S300x100, .f32⟩
  | .local _ .vmem, ⟨15, _⟩ => ⟨S1x100, .f32⟩
  | .local _ .vmem, ⟨16, _⟩ => ⟨S2000x100, .f32⟩
  | .local _ .vmem, ⟨17, _⟩ => ⟨S2000x100, .f32⟩
  | .local _ .vmem, ⟨18, _⟩ => ⟨S2000x128, .f32⟩
  | .local _ .vmem, ⟨19, _⟩ => ⟨S2000x128, .f32⟩
  | .local _ .vmem, ⟨20, _⟩ => ⟨S2000x100, .f32⟩
  | .local _ .vmem, ⟨21, _⟩ => ⟨S2000x100, .f32⟩
  | .local _ .vmem, ⟨22, _⟩ => ⟨S128x100, .f32⟩
  | .local _ .vmem, ⟨23, _⟩ => ⟨S1x100, .f32⟩
  | .local _ .vmem, ⟨24, _⟩ => ⟨S128x100, .f32⟩
  | .local _ .vmem, ⟨25, _⟩ => ⟨S1x100, .f32⟩
  | .local _ .vmem, ⟨26, _⟩ => ⟨S2000x100, .f32⟩
  | .local _ .vmem, ⟨27, _⟩ => ⟨S2000x100, .f32⟩
  | .local _ .vmem, ⟨28, _⟩ => ⟨S2000x100, .f32⟩
  | .local _ .vmem, ⟨29, _⟩ => ⟨S2000x100, .f32⟩
  | .local _ .vmem, ⟨30, _⟩ => ⟨S5000x100, .f32⟩
  | .local _ .vmem, ⟨31, _⟩ => ⟨S5000x100, .f32⟩
  | .local _ .vmem, ⟨32, _⟩ => ⟨S5000x100, .f32⟩
  | .local _ .vmem, ⟨33, _⟩ => ⟨S5000x100, .f32⟩
  | .local _ .vmem, ⟨34, _⟩ => ⟨S5000x100, .f32⟩
  | .local _ .vmem, ⟨35, _⟩ => ⟨S5000x100, .f32⟩
  | .local _ .vmem, ⟨36, _⟩ => ⟨S5000x100, .f32⟩
  | .local _ .vmem, ⟨37, _⟩ => ⟨S5000x100, .f32⟩
  | .local _ .vmem, ⟨38, _⟩ => ⟨S1x1, .f32⟩
  | .local _ .vmem, ⟨39, _⟩ => ⟨S1x1, .f32⟩
  | .local _ .vmem, ⟨40, _⟩ => ⟨S1x1, .f32⟩
  | .local _ .vmem, ⟨41, _⟩ => ⟨S2000x100, .f32⟩
  | .local _ .vmem, ⟨42, _⟩ => ⟨S2000x100, .f32⟩
  | .local _ .vmem, ⟨43, _⟩ => ⟨S2000x100, .f32⟩
  | .local _ .vmem, ⟨44, _⟩ => ⟨S2000x100, .f32⟩
  | .local _ .vmem, ⟨45, _⟩ => ⟨S100x2, .f32⟩
  | .local _ .vmem, ⟨46, _⟩ => ⟨S100x2, .f32⟩
  | .local _ .vmem, ⟨47, _⟩ => ⟨S1x2, .f32⟩
  | .local _ .vmem, ⟨48, _⟩ => ⟨S2000x2, .f32⟩
  | .local _ .vmem, ⟨49, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_c_6 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_7 : Ref sig .tc := ⟨.hbm, 57, rfl⟩
abbrev main_v30 : Ref sig .tc := ⟨.hbm, 58, rfl⟩
abbrev main_v31 : Ref sig .tc := ⟨.hbm, 59, rfl⟩
abbrev main_c_8 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_10 : Ref sig .tc := ⟨.hbm, 79, rfl⟩
abbrev main_v49 : Ref sig .tc := ⟨.hbm, 80, rfl⟩
abbrev main_v50 : Ref sig .tc := ⟨.hbm, 81, rfl⟩
abbrev main_c_11 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72_0 : Ref sig .tc := ⟨.hbm, 105, rfl⟩
abbrev main_v72_1 : Ref sig .tc := ⟨.hbm, 106, rfl⟩
abbrev main_v73 : Ref sig .tc := ⟨.hbm, 107, rfl⟩
abbrev main_v74 : Ref sig .tc := ⟨.hbm, 108, rfl⟩
abbrev main_c_13 : Ref sig .tc := ⟨.hbm, 109, rfl⟩
abbrev main_v75 : Ref sig .tc := ⟨.hbm, 110, rfl⟩
abbrev main_v76 : Ref sig .tc := ⟨.hbm, 111, rfl⟩
abbrev main_c_14 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_15 : Ref sig .tc := ⟨.hbm, 120, rfl⟩
abbrev main_v84 : Ref sig .tc := ⟨.hbm, 121, rfl⟩
abbrev main_v85 : Ref sig .tc := ⟨.hbm, 122, rfl⟩
abbrev main_c_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_17 : Ref sig .tc := ⟨.hbm, 131, rfl⟩
abbrev main_v93 : Ref sig .tc := ⟨.hbm, 132, rfl⟩
abbrev main_v94 : Ref sig .tc := ⟨.hbm, 133, rfl⟩
abbrev main_c_18 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c_19 : Ref sig .tc := ⟨.hbm, 142, rfl⟩
abbrev main_v102 : Ref sig .tc := ⟨.hbm, 143, rfl⟩
abbrev main_v103 : Ref sig .tc := ⟨.hbm, 144, rfl⟩
abbrev main_c_20 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_c_21 : Ref sig .tc := ⟨.hbm, 153, rfl⟩
abbrev main_v111 : Ref sig .tc := ⟨.hbm, 154, rfl⟩
abbrev main_v112 : Ref sig .tc := ⟨.hbm, 155, rfl⟩
abbrev main_c_22 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_23 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_scratch0 : Ref sig .tc := ⟨.vmem, 39, rfl⟩
abbrev cc3_scratch1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg5_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x300 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S300x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x100 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x100 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x100 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x100 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x100 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![80], ![false]⟩

def k3_cond2 (i : grid3.Coords) : BitVec 1 :=
  let arg0 : BitVec 32 := BitVec.ofNat 32 (i 0).val
  let c79_i32 : BitVec 32 := 79#32
  let v41 : BitVec 1 := Scalar.cmpi .eq arg0 c79_i32
  let v42 : BitVec 32 := Scalar.extui v41
  let c0_i32_22 : BitVec 32 := 0#32
  let v43 : BitVec 1 := Scalar.cmpi .ne v42 c0_i32_22
  v43

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x100 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x100 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x100 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x100 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x100 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x100 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S100x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S100x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x2 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S300_S1x300 : S300.ShapeCasts S1x300
  slices_S2x128x300_S1x128x300_0_0_0 : S2x128x300.Slices ![0, 0, 0] S1x128x300
  shapeCasts_S1x128x300_S128x300 : S1x128x300.ShapeCasts S128x300
  slices_S2x128x300_S1x128x300_1_0_0 : S2x128x300.Slices ![1, 0, 0] S1x128x300
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x300_S128x300_0_0 : ∀ a, (![0, 0] : Fin 2 → Nat) a + S128x300.size a ≤ S128x300.size a
  h_S128x300 : 0 < S128x300.numel
  shapeCasts_S128x300_S128x300 : S128x300.ShapeCasts S128x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  inb_S2000x300_S2000x300_0_0 : ∀ a, (![0, 0] : Fin 2 → Nat) a + S2000x300.size a ≤ S2000x300.size a
  h_S2000x300 : 0 < S2000x300.numel
  bcast_S800000x1_S800000x300_0_1 : S800000x1.BroadcastsInDim S800000x300 (![0, 1] : Fin 2 → Fin S800000x300.rank)
  bcast_S_S50000x300 : S_.BroadcastsInDim S50000x300 (![] : Fin 0 → Fin S50000x300.rank)
  shapeCasts_S100_S1x100 : S100.ShapeCasts S1x100
  slices_S2x300x100_S1x300x100_0_0_0 : S2x300x100.Slices ![0, 0, 0] S1x300x100
  shapeCasts_S1x300x100_S300x100 : S1x300x100.ShapeCasts S300x100
  slices_S2x300x100_S1x300x100_1_0_0 : S2x300x100.Slices ![1, 0, 0] S1x300x100
  shapeCasts_S2000x300_S2000x300 : S2000x300.ShapeCasts S2000x300
  inb_S300x100_S300x100_0_0 : ∀ a, (![0, 0] : Fin 2 → Nat) a + S300x100.size a ≤ S300x100.size a
  h_S300x100 : 0 < S300x100.numel
  shapeCasts_S300x100_S300x100 : S300x100.ShapeCasts S300x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2000x100 : S1x100.Broadcasts S2000x100
  inb_S2000x100_S2000x100_0_0 : ∀ a, (![0, 0] : Fin 2 → Nat) a + S2000x100.size a ≤ S2000x100.size a
  h_S2000x100 : 0 < S2000x100.numel
  transposes_S100x128_S128x100_1_0 : S100x128.Transposes [1, 0] S128x100
  inb_S128x100_S128x100_0_0 : ∀ a, (![0, 0] : Fin 2 → Nat) a + S128x100.size a ≤ S128x100.size a
  h_S128x100 : 0 < S128x100.numel
  shapeCasts_S128x100_S128x100 : S128x100.ShapeCasts S128x100
  shapeCasts_S2000x100_S2000x100 : S2000x100.ShapeCasts S2000x100
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x100_S5000x100_0_0 : ∀ a, (![0, 0] : Fin 2 → Nat) a + S5000x100.size a ≤ S5000x100.size a
  h_S5000x100 : 0 < S5000x100.numel
  shapeCasts_S5000x100_S5000x100 : S5000x100.ShapeCasts S5000x100
  reduces_S5000x100_S5000 : S5000x100.Reduces [1] S5000
  shapeCasts_S5000_S5000x1 : S5000.ShapeCasts S5000x1
  reduces_S5000x1_S1 : S5000x1.Reduces [0] S1
  shapeCasts_S1_S1x1 : S1.ShapeCasts S1x1
  shapeCasts_S1x1_S_ : S1x1.ShapeCasts S_
  bcast_S800000x1_S800000x100_0_1 : S800000x1.BroadcastsInDim S800000x100 (![0, 1] : Fin 2 → Fin S800000x100.rank)
  bcast_S_S50000x100 : S_.BroadcastsInDim S50000x100 (![] : Fin 0 → Fin S50000x100.rank)
  shapeCasts_S2_S1x2 : S2.ShapeCasts S1x2
  slices_S2x100x2_S1x100x2_0_0_0 : S2x100x2.Slices ![0, 0, 0] S1x100x2
  shapeCasts_S1x100x2_S100x2 : S1x100x2.ShapeCasts S100x2
  slices_S2x100x2_S1x100x2_1_0_0 : S2x100x2.Slices ![1, 0, 0] S1x100x2
  inb_S100x2_S100x2_0_0 : ∀ a, (![0, 0] : Fin 2 → Nat) a + S100x2.size a ≤ S100x2.size a
  h_S100x2 : 0 < S100x2.numel
  shapeCasts_S100x2_S100x2 : S100x2.ShapeCasts S100x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x300_S2000x300_1_0_0_1_n_n_wf : DotDims.WF S2000x128 S128x300 S2000x300 [1] [0] [0] [1] [] []
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  dot_S2000x300_S300x100_S2000x100_1_0_0_1_n_n_wf : DotDims.WF S2000x300 S300x100 S2000x100 [1] [0] [0] [1] [] []
  dot_S2000x128_S128x100_S2000x100_1_0_0_1_n_n_wf : DotDims.WF S2000x128 S128x100 S2000x100 [1] [0] [0] [1] [] []
  gather_S50000x100_S400000x1_S400000x100_1_0_n_n_0_1_1100_wf : GatherDims.WF S50000x100 S400000x1 S400000x100 [1] [0] [] [0] [] 1 ![1, 100]
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S2000x100_S100x2_S2000x2_1_0_0_1_n_n_wf : DotDims.WF S2000x100 S100x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x300.size a ≤ S128x300.size a
  hwx0_2 : ∀ i : grid0.Coords, EltTy.bits .f32 = 32 ∨ (Rect.block (s := S128x300) S128x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x300.size a ≤ S128x300.size a
  hwx0_3 : ∀ i : grid0.Coords, EltTy.bits .f32 = 32 ∨ (Rect.block (s := S128x300) S128x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x300.size a ≤ S1x300.size a
  hwx0_4 : ∀ i : grid0.Coords, EltTy.bits .f32 = 32 ∨ (Rect.block (s := S1x300) S1x300.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x300.size a ≤ S50000x300.size a
  hwx0_5 : ∀ i : grid0.Coords, EltTy.bits .f32 = 32 ∨ (Rect.block (s := S50000x300) S2000x300.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x300.size a ≤ S50000x300.size a
  hwx1_0 : ∀ i : grid1.Coords, EltTy.bits .f32 = 32 ∨ (Rect.block (s := S50000x300) S2000x300.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x300.size a ≤ S50000x300.size a
  hwx1_1 : ∀ i : grid1.Coords, EltTy.bits .f32 = 32 ∨ (Rect.block (s := S50000x300) S2000x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x100.size a ≤ S300x100.size a
  hwx1_2 : ∀ i : grid1.Coords, EltTy.bits .f32 = 32 ∨ (Rect.block (s := S300x100) S300x100.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x100.size a ≤ S300x100.size a
  hwx1_3 : ∀ i : grid1.Coords, EltTy.bits .f32 = 32 ∨ (Rect.block (s := S300x100) S300x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x100.size a ≤ S1x100.size a
  hwx1_4 : ∀ i : grid1.Coords, EltTy.bits .f32 = 32 ∨ (Rect.block (s := S1x100) S1x100.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x100.size a ≤ S50000x100.size a
  hwx1_5 : ∀ i : grid1.Coords, EltTy.bits .f32 = 32 ∨ (Rect.block (s := S50000x100) S2000x100.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x100.size a ≤ S50000x100.size a
  hwx2_1 : ∀ i : grid2.Coords, EltTy.bits .f32 = 32 ∨ (Rect.block (s := S50000x100) S2000x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x100.size a ≤ S128x100.size a
  hwx2_2 : ∀ i : grid2.Coords, EltTy.bits .f32 = 32 ∨ (Rect.block (s := S128x100) S128x100.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x100.size a ≤ S1x100.size a
  hwx2_3 : ∀ i : grid2.Coords, EltTy.bits .f32 = 32 ∨ (Rect.block (s := S1x100) S1x100.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x100.size a ≤ S128x100.size a
  hwx2_4 : ∀ i : grid2.Coords, EltTy.bits .f32 = 32 ∨ (Rect.block (s := S128x100) S128x100.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x100.size a ≤ S1x100.size a
  hwx2_5 : ∀ i : grid2.Coords, EltTy.bits .f32 = 32 ∨ (Rect.block (s := S1x100) S1x100.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x100.size a ≤ S50000x100.size a
  hwx2_6 : ∀ i : grid2.Coords, EltTy.bits .f32 = 32 ∨ (Rect.block (s := S50000x100) S2000x100.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x100.size a ≤ S50000x100.size a
  hwx2_7 : ∀ i : grid2.Coords, EltTy.bits .f32 = 32 ∨ (Rect.block (s := S50000x100) S2000x100.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x100.size a ≤ S400000x100.size a
  hwx3_0 : ∀ i : grid3.Coords, EltTy.bits .f32 = 32 ∨ (Rect.block (s := S400000x100) S5000x100.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x100.size a ≤ S400000x100.size a
  hwx3_1 : ∀ i : grid3.Coords, EltTy.bits .f32 = 32 ∨ (Rect.block (s := S400000x100) S5000x100.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x100.size a ≤ S400000x100.size a
  hwx3_2 : ∀ i : grid3.Coords, EltTy.bits .f32 = 32 ∨ (Rect.block (s := S400000x100) S5000x100.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x100.size a ≤ S400000x100.size a
  hwx3_3 : ∀ i : grid3.Coords, EltTy.bits .f32 = 32 ∨ (Rect.block (s := S400000x100) S5000x100.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x100.size a ≤ S50000x100.size a
  hwx4_0 : ∀ i : grid4.Coords, EltTy.bits .f32 = 32 ∨ (Rect.block (s := S50000x100) S2000x100.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x100.size a ≤ S50000x100.size a
  hwx4_1 : ∀ i : grid4.Coords, EltTy.bits .f32 = 32 ∨ (Rect.block (s := S50000x100) S2000x100.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S100x2.size a ≤ S100x2.size a
  hwx4_2 : ∀ i : grid4.Coords, EltTy.bits .f32 = 32 ∨ (Rect.block (s := S100x2) S100x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S100x2.size a ≤ S100x2.size a
  hwx4_3 : ∀ i : grid4.Coords, EltTy.bits .f32 = 32 ∨ (Rect.block (s := S100x2) S100x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x2.size a ≤ S50000x2.size a
  hwx4_5 : ∀ i : grid4.Coords, EltTy.bits .f32 = 32 ∨ (Rect.block (s := S50000x2) S2000x2.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x300_S2000x300_1_0_0_1_n_n : DotDims S2000x128 S128x300 S2000x300 where
  lhsContracting := [1]
  rhsContracting := [0]
  lhsNonContracting := [0]
  rhsNonContracting := [1]
  lhsBatch := []
  rhsBatch := []
  wf := dot_S2000x128_S128x300_S2000x300_1_0_0_1_n_n_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def dot_S2000x300_S300x100_S2000x100_1_0_0_1_n_n : DotDims S2000x300 S300x100 S2000x100 where
  lhsContracting := [1]
  rhsContracting := [0]
  lhsNonContracting := [0]
  rhsNonContracting := [1]
  lhsBatch := []
  rhsBatch := []
  wf := dot_S2000x300_S300x100_S2000x100_1_0_0_1_n_n_wf
def dot_S2000x128_S128x100_S2000x100_1_0_0_1_n_n : DotDims S2000x128 S128x100 S2000x100 where
  lhsContracting := [1]
  rhsContracting := [0]
  lhsNonContracting := [0]
  rhsNonContracting := [1]
  lhsBatch := []
  rhsBatch := []
  wf := dot_S2000x128_S128x100_S2000x100_1_0_0_1_n_n_wf
def gather_S50000x100_S400000x1_S400000x100_1_0_n_n_0_1_1100 : GatherDims S50000x100 S400000x1 S400000x100 where
  offsetDims := [1]
  collapsedSliceDims := [0]
  operandBatchingDims := []
  startIndicesBatchingDims := []
  startIndexMap := [0]
  indexVectorDim := 1
  sliceSizes := ![1, 100]
  wf := gather_S50000x100_S400000x1_S400000x100_1_0_n_n_0_1_1100_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S2000x100_S100x2_S2000x2_1_0_0_1_n_n : DotDims S2000x100 S100x2 S2000x2 where
  lhsContracting := [1]
  rhsContracting := [0]
  lhsNonContracting := [0]
  rhsNonContracting := [1]
  lhsBatch := []
  rhsBatch := []
  wf := dot_S2000x100_S100x2_S2000x2_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S128x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S128x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S1x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S2000x300.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S2000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S2000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v64) S300x100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S300x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62) S1x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v67) S2000x100.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S2000x100.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v68) S128x100.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S1x100.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S128x100.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S1x100.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v72_0) S2000x100.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v72_1) S2000x100.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v81) S5000x100.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S5000x100.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v99) S5000x100.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v108) S5000x100.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v109) S1x1.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v72_0) S2000x100.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v123) S2000x100.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v126) S100x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v128) S100x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v124) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v129) S2000x2.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S2x400000 : Shape := ⟨2, ![2, 400000]⟩
abbrev S2x128x300 : Shape := ⟨3, ![2, 128, 300]⟩
abbrev S300 : Shape := ⟨1, ![300]⟩
abbrev S2x300x100 : Shape := ⟨3, ![2, 300, 100]⟩
abbrev S100 : Shape := ⟨1, ![100]⟩
abbrev S2x100x2 : Shape := ⟨3, ![2, 100, 2]⟩
abbrev S2 : Shape := ⟨1, ![2]⟩
abbrev S100x128 : Shape := ⟨2, ![100, 128]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128x300 : Shape := ⟨3, ![1, 128, 300]⟩
abbrev S128x300 : Shape := ⟨2, ![128, 300]⟩
abbrev S50000x300 : Shape := ⟨2, ![50000, 300]⟩
abbrev S1x300 : Shape := ⟨2, ![1, 300]⟩
abbrev S800000x300 : Shape := ⟨2, ![800000, 300]⟩
abbrev S1x300x100 : Shape := ⟨3, ![1, 300, 100]⟩
abbrev S300x100 : Shape := ⟨2, ![300, 100]⟩
abbrev S50000x100 : Shape := ⟨2, ![50000, 100]⟩
abbrev S1x100 : Shape := ⟨2, ![1, 100]⟩
abbrev S128x100 : Shape := ⟨2, ![128, 100]⟩
abbrev S1x400000 : Shape := ⟨2, ![1, 400000]⟩
abbrev S400000 : Shape := ⟨1, ![400000]⟩
abbrev S400000x1 : Shape := ⟨2, ![400000, 1]⟩
abbrev S400000x100 : Shape := ⟨2, ![400000, 100]⟩
abbrev S800000x100 : Shape := ⟨2, ![800000, 100]⟩
abbrev S1x100x2 : Shape := ⟨3, ![1, 100, 2]⟩
abbrev S100x2 : Shape := ⟨2, ![100, 2]⟩
abbrev S50000x2 : Shape := ⟨2, ![50000, 2]⟩
abbrev S1x2 : Shape := ⟨2, ![1, 2]⟩

abbrev nBuf : Space → Nat
  | .hbm => 329
  | .vmem => 0
  | .smem => 0
  | _ => 0

abbrev hbmTy0_0 (i : Nat) : BufTy := match i % 128 with
  | 0 => ⟨S50000x128, .f32⟩
  | 1 => ⟨S2x800000, .i32⟩
  | 2 => ⟨S2x400000, .i32⟩
  | 3 => ⟨S2x400000, .i32⟩
  | 4 => ⟨S2x128x300, .f32⟩
  | 5 => ⟨S300, .f32⟩
  | 6 => ⟨S2x300x100, .f32⟩
  | 7 => ⟨S100, .f32⟩
  | 8 => ⟨S2x100x2, .f32⟩
  | 9 => ⟨S2, .f32⟩
  | 10 => ⟨S100x128, .f32⟩
  | 11 => ⟨S100, .f32⟩
  | 12 => ⟨S100x128, .f32⟩
  | 13 => ⟨S100, .f32⟩
  | 14 => ⟨S1, .f32⟩
  | 15 => ⟨S1, .f32⟩
  | 16 => ⟨S1x800000, .i32⟩
  | 17 => ⟨S800000, .i32⟩
  | 18 => ⟨S1x800000, .i32⟩
  | 19 => ⟨S800000, .i32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S800000, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S800000x1, .f32⟩
  | 67 => ⟨S800000x128, .f32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S1x128x300, .f32⟩
  | 74 => ⟨S128x300, .f32⟩
  | 75 => ⟨S50000x300, .f32⟩
  | 76 => ⟨S1x128x300, .f32⟩
  | 77 => ⟨S128x300, .f32⟩
  | 78 => ⟨S50000x300, .f32⟩
  | 79 => ⟨S50000x300, .f32⟩
  | 80 => ⟨S1x300, .f32⟩
  | 81 => ⟨S50000x300, .f32⟩
  | 82 => ⟨S50000x300, .f32⟩
  | 83 => ⟨S_, .f32⟩
  | 84 => ⟨S50000x300, .f32⟩
  | 85 => ⟨S50000x300, .f32⟩
  | 86 => ⟨S1x800000, .i32⟩
  | 87 => ⟨S800000, .i32⟩
  | 88 => ⟨S1x800000, .i32⟩
  | 89 => ⟨S800000, .i32⟩
  | 90 => ⟨S_, .f32⟩
  | 91 => ⟨S800000, .f32⟩
  | 92 => ⟨S_, .f32⟩
  | 93 => ⟨S50000, .f32⟩
  | 94 => ⟨S800000x1, .i32⟩
  | 95 => ⟨S50000, .f32⟩
  | 96 => ⟨S_, .f32⟩
  | 97 => ⟨S50000, .f32⟩
  | 98 => ⟨S50000, .i1⟩
  | 99 => ⟨S50000, .f32⟩
  | 100 => ⟨S_, .f32⟩
  | 101 => ⟨S50000, .f32⟩
  | 102 => ⟨S50000, .f32⟩
  | 103 => ⟨S_, .f32⟩
  | 104 => ⟨S_, .f32⟩
  | 105 => ⟨S50000, .f32⟩
  | 106 => ⟨S50000, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000, .f32⟩
  | 116 => ⟨S800000, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000, .f32⟩
  | 126 => ⟨S800000, .f32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x300, .f32⟩
  | 8 => ⟨S800000x1, .f32⟩
  | 9 => ⟨S800000x300, .f32⟩
  | 10 => ⟨S800000x300, .f32⟩
  | 11 => ⟨S_, .f32⟩
  | 12 => ⟨S50000x300, .f32⟩
  | 13 => ⟨S800000x1, .i32⟩
  | 14 => ⟨S50000x300, .f32⟩
  | 15 => ⟨S1x300x100, .f32⟩
  | 16 => ⟨S300x100, .f32⟩
  | 17 => ⟨S50000x100, .f32⟩
  | 18 => ⟨S1x300x100, .f32⟩
  | 19 => ⟨S300x100, .f32⟩
  | 20 => ⟨S50000x100, .f32⟩
  | 21 => ⟨S50000x100, .f32⟩
  | 22 => ⟨S1x100, .f32⟩
  | 23 => ⟨S50000x100, .f32⟩
  | 24 => ⟨S50000x100, .f32⟩
  | 25 => ⟨S_, .f32⟩
  | 26 => ⟨S50000x100, .f32⟩
  | 27 => ⟨S50000x100, .f32⟩
  | 28 => ⟨S128x100, .f32⟩
  | 29 => ⟨S50000x100, .f32⟩
  | 30 => ⟨S1x100, .f32⟩
  | 31 => ⟨S50000x100, .f32⟩
  | 32 => ⟨S50000x100, .f32⟩
  | 33 => ⟨S_, .f32⟩
  | 34 => ⟨S50000x100, .f32⟩
  | 35 => ⟨S50000x100, .f32⟩
  | 36 => ⟨S50000x100, .f32⟩
  | 37 => ⟨S128x100, .f32⟩
  | 38 => ⟨S50000x100, .f32⟩
  | 39 => ⟨S1x100, .f32⟩
  | 40 => ⟨S50000x100, .f32⟩
  | 41 => ⟨S50000x100, .f32⟩
  | 42 => ⟨S_, .f32⟩
  | 43 => ⟨S50000x100, .f32⟩
  | 44 => ⟨S50000x100, .f32⟩
  | 45 => ⟨S50000x100, .f32⟩
  | 46 => ⟨S1x400000, .i32⟩
  | 47 => ⟨S400000, .i32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S400000x100, .f32⟩
  | 57 => ⟨S1x400000, .i32⟩
  | 58 => ⟨S400000, .i32⟩
  | 59 => ⟨S_, .i32⟩
  | 60 => ⟨S400000, .i32⟩
  | 61 => ⟨S400000, .i1⟩
  | 62 => ⟨S_, .i32⟩
  | 63 => ⟨S400000, .i32⟩
  | 64 => ⟨S400000, .i32⟩
  | 65 => ⟨S400000, .i32⟩
  | 66 => ⟨S400000x1, .i32⟩
  | 67 => ⟨S400000x100, .f32⟩
  | 68 => ⟨S400000x100, .f32⟩
  | 69 => ⟨S_, .f32⟩
  | 70 => ⟨S400000, .f32⟩
  | 71 => ⟨S400000, .f32⟩
  | 72 => ⟨S400000, .f32⟩
  | 73 => ⟨S_, .f32⟩
  | 74 => ⟨S400000, .f32⟩
  | 75 => ⟨S400000, .f32⟩
  | 76 => ⟨S_, .f32⟩
  | 77 => ⟨S400000, .f32⟩
  | 78 => ⟨S400000, .f32⟩
  | 79 => ⟨S_, .f32⟩
  | 80 => ⟨S400000, .f32⟩
  | 81 => ⟨S400000, .f32⟩
  | 82 => ⟨S400000, .f32⟩
  | 83 => ⟨S_, .f32⟩
  | 84 => ⟨S_, .f32⟩
  | 85 => ⟨S_, .f32⟩
  | 86 => ⟨S_, .f32⟩
  | 87 => ⟨S_, .f32⟩
  | 88 => ⟨S1x400000, .i32⟩
  | 89 => ⟨S400000, .i32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S400000x100, .f32⟩
  | 99 => ⟨S1x400000, .i32⟩
  | 100 => ⟨S400000, .i32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000x100, .f32⟩
  | 110 => ⟨S400000x100, .f32⟩
  | 111 => ⟨S_, .f32⟩
  | 112 => ⟨S400000, .f32⟩
  | 113 => ⟨S400000, .f32⟩
  | 114 => ⟨S400000, .f32⟩
  | 115 => ⟨S_, .f32⟩
  | 116 => ⟨S400000, .f32⟩
  | 117 => ⟨S400000, .f32⟩
  | 118 => ⟨S_, .f32⟩
  | 119 => ⟨S400000, .f32⟩
  | 120 => ⟨S400000, .f32⟩
  | 121 => ⟨S_, .f32⟩
  | 122 => ⟨S400000, .f32⟩
  | 123 => ⟨S400000, .f32⟩
  | 124 => ⟨S_, .f32⟩
  | 125 => ⟨S400000, .f32⟩
  | 126 => ⟨S400000, .f32⟩
  | 127 => ⟨S400000, .f32⟩
  | _ => ⟨S50000x128, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .i1⟩
  | 19 => ⟨S50000, .f32⟩
  | 20 => ⟨S_, .f32⟩
  | 21 => ⟨S50000, .f32⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x100, .f32⟩
  | 56 => ⟨S800000x1, .f32⟩
  | 57 => ⟨S800000x100, .f32⟩
  | 58 => ⟨S800000x100, .f32⟩
  | 59 => ⟨S_, .f32⟩
  | 60 => ⟨S50000x100, .f32⟩
  | 61 => ⟨S800000x1, .i32⟩
  | 62 => ⟨S50000x100, .f32⟩
  | 63 => ⟨S1x100x2, .f32⟩
  | 64 => ⟨S100x2, .f32⟩
  | 65 => ⟨S50000x2, .f32⟩
  | 66 => ⟨S1x100x2, .f32⟩
  | 67 => ⟨S100x2, .f32⟩
  | 68 => ⟨S50000x2, .f32⟩
  | 69 => ⟨S50000x2, .f32⟩
  | 70 => ⟨S1x2, .f32⟩
  | 71 => ⟨S50000x2, .f32⟩
  | 72 => ⟨S50000x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_c_6 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_7 : Ref sig .tc := ⟨.hbm, 57, rfl⟩
abbrev main_v30 : Ref sig .tc := ⟨.hbm, 58, rfl⟩
abbrev main_v31 : Ref sig .tc := ⟨.hbm, 59, rfl⟩
abbrev main_c_8 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_v66 : Ref sig .tc := ⟨.hbm, 102, rfl⟩
abbrev main_cst_14 : Ref sig .tc := ⟨.hbm, 103, rfl⟩
abbrev main_call2_v0 : Ref sig .tc := ⟨.hbm, 104, rfl⟩
abbrev main_call2_v1 : Ref sig .tc := ⟨.hbm, 105, rfl⟩
abbrev main_v67 : Ref sig .tc := ⟨.hbm, 106, rfl⟩
abbrev main_c_15 : Ref sig .tc := ⟨.hbm, 107, rfl⟩
abbrev main_v68 : Ref sig .tc := ⟨.hbm, 108, rfl⟩
abbrev main_v69 : Ref sig .tc := ⟨.hbm, 109, rfl⟩
abbrev main_c_16 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_c_17 : Ref sig .tc := ⟨.hbm, 117, rfl⟩
abbrev main_v76 : Ref sig .tc := ⟨.hbm, 118, rfl⟩
abbrev main_v77 : Ref sig .tc := ⟨.hbm, 119, rfl⟩
abbrev main_c_18 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_19 : Ref sig .tc := ⟨.hbm, 127, rfl⟩
abbrev main_v84 : Ref sig .tc := ⟨.hbm, 128, rfl⟩
abbrev main_v85 : Ref sig .tc := ⟨.hbm, 129, rfl⟩
abbrev main_c_20 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_21 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_call3_cst : Ref sig .tc := ⟨.hbm, 153, rfl⟩
abbrev main_call3_v0 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_call4_cst : Ref sig .tc := ⟨.hbm, 161, rfl⟩
abbrev main_call4_v0 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_call5_cst : Ref sig .tc := ⟨.hbm, 170, rfl⟩
abbrev main_call5_v0 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_c_22 : Ref sig .tc := ⟨.hbm, 176, rfl⟩
abbrev main_v124 : Ref sig .tc := ⟨.hbm, 177, rfl⟩
abbrev main_v125 : Ref sig .tc := ⟨.hbm, 178, rfl⟩
abbrev main_c_23 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_c_24 : Ref sig .tc := ⟨.hbm, 187, rfl⟩
abbrev main_v133 : Ref sig .tc := ⟨.hbm, 188, rfl⟩
abbrev main_v134 : Ref sig .tc := ⟨.hbm, 189, rfl⟩
abbrev main_c_25 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_26 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_cst_27 : Ref sig .tc := ⟨.hbm, 201, rfl⟩
abbrev main_v144 : Ref sig .tc := ⟨.hbm, 202, rfl⟩
abbrev main_v145 : Ref sig .tc := ⟨.hbm, 203, rfl⟩
abbrev main_cst_28 : Ref sig .tc := ⟨.hbm, 204, rfl⟩
abbrev main_v146 : Ref sig .tc := ⟨.hbm, 205, rfl⟩
abbrev main_v147 : Ref sig .tc := ⟨.hbm, 206, rfl⟩
abbrev main_cst_29 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_cst_30 : Ref sig .tc := ⟨.hbm, 211, rfl⟩
abbrev main_v151 : Ref sig .tc := ⟨.hbm, 212, rfl⟩
abbrev main_cst_31 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_c_32 : Ref sig .tc := ⟨.hbm, 218, rfl⟩
abbrev main_v156 : Ref sig .tc := ⟨.hbm, 219, rfl⟩
abbrev main_v157 : Ref sig .tc := ⟨.hbm, 220, rfl⟩
abbrev main_c_33 : Ref sig .tc := ⟨.hbm, 221, rfl⟩
abbrev main_v158 : Ref sig .tc := ⟨.hbm, 222, rfl⟩
abbrev main_v159 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_c_34 : Ref sig .tc := ⟨.hbm, 229, rfl⟩
abbrev main_v165 : Ref sig .tc := ⟨.hbm, 230, rfl⟩
abbrev main_v166 : Ref sig .tc := ⟨.hbm, 231, rfl⟩
abbrev main_c_35 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_cst_36 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_cst_37 : Ref sig .tc := ⟨.hbm, 243, rfl⟩
abbrev main_v176 : Ref sig .tc := ⟨.hbm, 244, rfl⟩
abbrev main_v177 : Ref sig .tc := ⟨.hbm, 245, rfl⟩
abbrev main_cst_38 : Ref sig .tc := ⟨.hbm, 246, rfl⟩
abbrev main_v178 : Ref sig .tc := ⟨.hbm, 247, rfl⟩
abbrev main_v179 : Ref sig .tc := ⟨.hbm, 248, rfl⟩
abbrev main_cst_39 : Ref sig .tc := ⟨.hbm, 249, rfl⟩
abbrev main_v180 : Ref sig .tc := ⟨.hbm, 250, rfl⟩
abbrev main_v181 : Ref sig .tc := ⟨.hbm, 251, rfl⟩
abbrev main_cst_40 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_cst_41 : Ref sig .tc := ⟨.hbm, 256, rfl⟩
abbrev main_v185 : Ref sig .tc := ⟨.hbm, 257, rfl⟩
abbrev main_cst_42 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_cst_43 : Ref sig .tc := ⟨.hbm, 266, rfl⟩
abbrev main_v193 : Ref sig .tc := ⟨.hbm, 267, rfl⟩
abbrev main_cst_44 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_cst_45 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_cst_46 : Ref sig .tc := ⟨.hbm, 276, rfl⟩
abbrev main_v200 : Ref sig .tc := ⟨.hbm, 277, rfl⟩
abbrev main_v201 : Ref sig .tc := ⟨.hbm, 278, rfl⟩
abbrev main_cst_47 : Ref sig .tc := ⟨.hbm, 279, rfl⟩
abbrev main_call6_v0 : Ref sig .tc := ⟨.hbm, 280, rfl⟩
abbrev main_call6_v1 : Ref sig .tc := ⟨.hbm, 281, rfl⟩
abbrev main_v202 : Ref sig .tc := ⟨.hbm, 282, rfl⟩
abbrev main_c_48 : Ref sig .tc := ⟨.hbm, 283, rfl⟩
abbrev main_v203 : Ref sig .tc := ⟨.hbm, 284, rfl⟩
abbrev main_v204 : Ref sig .tc := ⟨.hbm, 285, rfl⟩
abbrev main_c_49 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_c_50 : Ref sig .tc := ⟨.hbm, 293, rfl⟩
abbrev main_v211 : Ref sig .tc := ⟨.hbm, 294, rfl⟩
abbrev main_v212 : Ref sig .tc := ⟨.hbm, 295, rfl⟩
abbrev main_c_51 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_c_52 : Ref sig .tc := ⟨.hbm, 303, rfl⟩
abbrev main_v219 : Ref sig .tc := ⟨.hbm, 304, rfl⟩
abbrev main_v220 : Ref sig .tc := ⟨.hbm, 305, rfl⟩
abbrev main_c_53 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_v224 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_cst_54 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S2x128x300_S1x128x300_0_0_0 : S2x128x300.Slices ![0, 0, 0] S1x128x300
  shapeCasts_S1x128x300_S128x300 : S1x128x300.ShapeCasts S128x300
  slices_S2x128x300_S1x128x300_1_0_0 : S2x128x300.Slices ![1, 0, 0] S1x128x300
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  bcast_S_S50000x300 : S_.BroadcastsInDim S50000x300 (![] : Fin 0 → Fin S50000x300.rank)
  bcast_S800000x1_S800000x300_0_1 : S800000x1.BroadcastsInDim S800000x300 (![0, 1] : Fin 2 → Fin S800000x300.rank)
  slices_S2x300x100_S1x300x100_0_0_0 : S2x300x100.Slices ![0, 0, 0] S1x300x100
  shapeCasts_S1x300x100_S300x100 : S1x300x100.ShapeCasts S300x100
  slices_S2x300x100_S1x300x100_1_0_0 : S2x300x100.Slices ![1, 0, 0] S1x300x100
  bcast_S100_S1x100_1 : S100.BroadcastsInDim S1x100 (![1] : Fin 1 → Fin S1x100.rank)
  bcast_S1x100_S50000x100_0_1 : S1x100.BroadcastsInDim S50000x100 (![0, 1] : Fin 2 → Fin S50000x100.rank)
  bcast_S_S50000x100 : S_.BroadcastsInDim S50000x100 (![] : Fin 0 → Fin S50000x100.rank)
  transposes_S100x128_S128x100_1_0 : S100x128.Transposes [1, 0] S128x100
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  slices_S2x400000_S1x400000_1_0 : S2x400000.Slices ![1, 0] S1x400000
  reducesTo_S400000x100_S400000_d1 : S400000x100.ReducesTo [1] S400000
  h_S_ : 0 < S_.numel
  reducesTo_S400000_S_d0 : S400000.ReducesTo [0] S_
  bcast_S800000x1_S800000x100_0_1 : S800000x1.BroadcastsInDim S800000x100 (![0, 1] : Fin 2 → Fin S800000x100.rank)
  slices_S2x100x2_S1x100x2_0_0_0 : S2x100x2.Slices ![0, 0, 0] S1x100x2
  shapeCasts_S1x100x2_S100x2 : S1x100x2.ShapeCasts S100x2
  slices_S2x100x2_S1x100x2_1_0_0 : S2x100x2.Slices ![1, 0, 0] S1x100x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x300_S50000x300_1_0_0_1_n_n_wf : DotDims.WF S50000x128 S128x300 S50000x300 [1] [0] [0] [1] [] []
  gather_S50000x300_S800000x1_S800000x300_1_0_n_n_0_1_1300_wf : GatherDims.WF S50000x300 S800000x1 S800000x300 [1] [0] [] [0] [] 1 ![1, 300]
  scatter_S50000x300_S800000x1_S800000x300_1_0_0_1_wf : ScatterDims.WF S50000x300 S800000x1 S800000x300 [1] [0] [0] 1
  dot_S50000x300_S300x100_S50000x100_1_0_0_1_n_n_wf : DotDims.WF S50000x300 S300x100 S50000x100 [1] [0] [0] [1] [] []
  dot_S50000x128_S128x100_S50000x100_1_0_0_1_n_n_wf : DotDims.WF S50000x128 S128x100 S50000x100 [1] [0] [0] [1] [] []
  gather_S50000x100_S400000x1_S400000x100_1_0_n_n_0_1_1100_wf : GatherDims.WF S50000x100 S400000x1 S400000x100 [1] [0] [] [0] [] 1 ![1, 100]
  gather_S50000x100_S800000x1_S800000x100_1_0_n_n_0_1_1100_wf : GatherDims.WF S50000x100 S800000x1 S800000x100 [1] [0] [] [0] [] 1 ![1, 100]
  scatter_S50000x100_S800000x1_S800000x100_1_0_0_1_wf : ScatterDims.WF S50000x100 S800000x1 S800000x100 [1] [0] [0] 1
  dot_S50000x100_S100x2_S50000x2_1_0_0_1_n_n_wf : DotDims.WF S50000x100 S100x2 S50000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x300_S50000x300_1_0_0_1_n_n : DotDims S50000x128 S128x300 S50000x300 where
  lhsContracting := [1]
  rhsContracting := [0]
  lhsNonContracting := [0]
  rhsNonContracting := [1]
  lhsBatch := []
  rhsBatch := []
  wf := dot_S50000x128_S128x300_S50000x300_1_0_0_1_n_n_wf
def gather_S50000x300_S800000x1_S800000x300_1_0_n_n_0_1_1300 : GatherDims S50000x300 S800000x1 S800000x300 where
  offsetDims := [1]
  collapsedSliceDims := [0]
  operandBatchingDims := []
  startIndicesBatchingDims := []
  startIndexMap := [0]
  indexVectorDim := 1
  sliceSizes := ![1, 300]
  wf := gather_S50000x300_S800000x1_S800000x300_1_0_n_n_0_1_1300_wf
def scatter_S50000x300_S800000x1_S800000x300_1_0_0_1 : ScatterDims S50000x300 S800000x1 S800000x300 where
  updateWindowDims := [1]
  insertedWindowDims := [0]
  scatterDimsToOperandDims := [0]
  indexVectorDim := 1
  wf := scatter_S50000x300_S800000x1_S800000x300_1_0_0_1_wf
def dot_S50000x300_S300x100_S50000x100_1_0_0_1_n_n : DotDims S50000x300 S300x100 S50000x100 where
  lhsContracting := [1]
  rhsContracting := [0]
  lhsNonContracting := [0]
  rhsNonContracting := [1]
  lhsBatch := []
  rhsBatch := []
  wf := dot_S50000x300_S300x100_S50000x100_1_0_0_1_n_n_wf
def dot_S50000x128_S128x100_S50000x100_1_0_0_1_n_n : DotDims S50000x128 S128x100 S50000x100 where
  lhsContracting := [1]
  rhsContracting := [0]
  lhsNonContracting := [0]
  rhsNonContracting := [1]
  lhsBatch := []
  rhsBatch := []
  wf := dot_S50000x128_S128x100_S50000x100_1_0_0_1_n_n_wf
def gather_S50000x100_S400000x1_S400000x100_1_0_n_n_0_1_1100 : GatherDims S50000x100 S400000x1 S400000x100 where
  offsetDims := [1]
  collapsedSliceDims := [0]
  operandBatchingDims := []
  startIndicesBatchingDims := []
  startIndexMap := [0]
  indexVectorDim := 1
  sliceSizes := ![1, 100]
  wf := gather_S50000x100_S400000x1_S400000x100_1_0_n_n_0_1_1100_wf
def gather_S50000x100_S800000x1_S800000x100_1_0_n_n_0_1_1100 : GatherDims S50000x100 S800000x1 S800000x100 where
  offsetDims := [1]
  collapsedSliceDims := [0]
  operandBatchingDims := []
  startIndicesBatchingDims := []
  startIndexMap := [0]
  indexVectorDim := 1
  sliceSizes := ![1, 100]
  wf := gather_S50000x100_S800000x1_S800000x100_1_0_n_n_0_1_1100_wf
def scatter_S50000x100_S800000x1_S800000x100_1_0_0_1 : ScatterDims S50000x100 S800000x1 S800000x100 where
  updateWindowDims := [1]
  insertedWindowDims := [0]
  scatterDimsToOperandDims := [0]
  indexVectorDim := 1
  wf := scatter_S50000x100_S800000x1_S800000x100_1_0_0_1_wf
def dot_S50000x100_S100x2_S50000x2_1_0_0_1_n_n : DotDims S50000x100 S100x2 S50000x2 where
  lhsContracting := [1]
  rhsContracting := [0]
  lhsNonContracting := [0]
  rhsNonContracting := [1]
  lhsBatch := []
  rhsBatch := []
  wf := dot_S50000x100_S100x2_S50000x2_1_0_0_1_n_n_wf

class Facts : Prop extends Facts₀ where

variable [Facts]
-- ==== Proof.K.Reg0.lean ====
/-
  Region 0 of the kernel program as printed: one Chebyshev layer `relu (x · W₀ + T₁x · W₁ + b)` on a block of 2000 rows.
  The pipeline walks the 50000 rows in 25 blocks; at each block the body reads the block of `x` and of `T₁x`
  (2000×128 each), the two whole weight matrices (128×300) and the bias row (1×300), and stores the 2000×300 result
  block whole. Stated here, at any contents `V` of the buffers when the region is entered: what each window's staging
  buffer holds at a grid point, the body's Hoare triple (run symbolically), the proof data of the pipeline and the
  body obligation at a generic grid point.
-/
import proofs.«176792_j62921270886524_2_alg».proof.Proof.Gen.Kernel.Launch
import proofs.«176792_j62921270886524_2_alg».proof.Proof.Gen.Kernel.Skeleton
import proofs.«176792_j62921270886524_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: the two row blocks move
    with the point, the weights and the bias are fetched once and their block index never moves. -/
theorem before_of0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! The rectangles the body reads and writes: every buffer whole. -/
abbrev rRow : Rect S2000x128 := Rect.unit (s := S2000x128) ![0, 0] S2000x128.size inb_S2000x128_S2000x128_0_0
abbrev rW : Rect S128x300 := Rect.unit (s := S128x300) ![0, 0] S128x300.size inb_S128x300_S128x300_0_0
abbrev rB : Rect S1x300 := Rect.unit (s := S1x300) ![0, 0] S1x300.size inb_S1x300_S1x300_0_0
abbrev rOut : Rect S2000x300 := Rect.unit (s := S2000x300) ![0, 0] S2000x300.size inb_S2000x300_S2000x300_0_0

/-- The result block after the body, from the five input blocks: its one store. -/
def out5 (x0 x1 : Vec F S2000x128 .f32) (x2 x3 : Vec F S128x300 .f32) (x4 : Vec F S1x300 .f32) : Vec F S2000x300 .f32 :=
  View.canon [⟨rOut, k0_pay1 (View.ld x0 rRow) (View.ld x1 rRow) (View.ld x2 rW) (View.ld x3 rW) (View.ld x4 rB)⟩]

/-- The one store covers the result block. -/
theorem cover5 (p0 : Vec F S2000x300 .f32) (y : S2000x300.Idx) :
    ∃ pc ∈ ([⟨rOut, p0⟩] : List (View.Piece (Elt F) S2000x300 .f32)), y ∈ pc.1.set :=
  View.cover_of_tiled [⟨rOut, p0⟩] S2000x300.size (by rfl) y

set_option maxHeartbeats 4000000 in
/-- The body on whole staging buffers, the inputs' at given contents and the output's at anything, runs to its return
    with the inputs as they were and the output at `out5` of the inputs. -/
theorem sound_kernel (c : Dev nD) (E : Set ℕ)
    (a0 : Memref sig .tc .vmem S2000x128 .f32) (h0 : a0.IsWhole) (a1 : Memref sig .tc .vmem S2000x128 .f32) (h1 : a1.IsWhole)
    (a2 : Memref sig .tc .vmem S128x300 .f32) (h2 : a2.IsWhole) (a3 : Memref sig .tc .vmem S128x300 .f32) (h3 : a3.IsWhole)
    (a4 : Memref sig .tc .vmem S1x300 .f32) (h4 : a4.IsWhole) (a5 : Memref sig .tc .vmem S2000x300 .f32) (h5 : a5.IsWhole)
    (i : grid0.Coords)
    (x0 x1 : Vec F S2000x128 .f32) (x2 x3 : Vec F S128x300 .f32) (x4 : Vec F S1x300 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out5 x0 x1 x2 x3 x4)) -∗ K ⟨⟩))
      ⊢ wp frame (wpE (defs₀ (F := F)) Variants.none c none) E (cc0_kernel i a0 h0 a1 h1 a2 h2 a3 h3 a4 h4 a5 h5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of this pipeline on core `c`: the arrays as the region finds them; after the body at point `t` each
    input's buffer at its block and the output's at `out5` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = iblk V c 3 t := by dsimp only [dat0]
theorem after4 (c : Dev nD) (t : Fin cfg0.N) : (dat0 V c).after 4 t = iblk V c 4 t := by dsimp only [dat0]
theorem after5 (c : Dev nD) (t : Fin cfg0.N) :
    (dat0 V c).after 5 t = out5 (iblk V c 0 t) (iblk V c 1 t) (iblk V c 2 t) (iblk V c 3 t) (iblk V c 4 t) := by dsimp only [dat0]

theorem before0 (c : Dev nD) (t : Fin cfg0.N) (d) : (dat0 V c).before 0 t d = iblk V c 0 t :=
  before_of0 V (dat0 V c) (A_eq0 V c 0) (after0 V c) t d
theorem before1 (c : Dev nD) (t : Fin cfg0.N) (d) : (dat0 V c).before 1 t d = iblk V c 1 t :=
  before_of1 V (dat0 V c) (A_eq0 V c 1) (after1 V c) t d
theorem before2 (c : Dev nD) (t : Fin cfg0.N) (d) : (dat0 V c).before 2 t d = iblk V c 2 t :=
  before_of2 V (dat0 V c) (A_eq0 V c 2) (after2 V c) t d
theorem before3 (c : Dev nD) (t : Fin cfg0.N) (d) : (dat0 V c).before 3 t d = iblk V c 3 t :=
  before_of3 V (dat0 V c) (A_eq0 V c 3) (after3 V c) t d
theorem before4 (c : Dev nD) (t : Fin cfg0.N) (d) : (dat0 V c).before 4 t d = iblk V c 4 t :=
  before_of4 V (dat0 V c) (A_eq0 V c 4) (after4 V c) t d

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat0 V c).Φ t.succ = (dat0 V c).Φ t.castSucc from rfl,
    show (dat0 V c).owesAt () t.succ = (dat0 V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation0 (c : Dev nD) : BodyObligation (dat0 (F := F) V c) (defs₀ (F := F)) Variants.none () Set.univ := fun t => by
  rw [bigSep_W0, bigSep_W0]
  exact sound_body V c t

end Cert.Kernel.Reg0

end
-- ==== Proof.K.Reg1.lean ====
/-
  Region 1 of the kernel program as printed: the second Chebyshev layer `relu (h · W₀ + T₁h · W₁ + b)` on a block of
  2000 rows. The pipeline walks the 50000 rows in 25 blocks; at each block the body reads the block of `h` and of
  `T₁h` (2000×300 each), the two whole weight matrices (300×100) and the bias row (1×100), and stores the 2000×100
  result block whole. Stated here, at any contents `V` of the buffers when the region is entered: what each window's
  staging buffer holds at a grid point, the body's Hoare triple (run symbolically), the proof data of the pipeline and
  the body obligation at a generic grid point.
-/
import proofs.«176792_j62921270886524_2_alg».proof.Proof.Gen.Kernel.Launch
import proofs.«176792_j62921270886524_2_alg».proof.Proof.Gen.Kernel.Skeleton
import proofs.«176792_j62921270886524_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not: the two row blocks move
    with the point, the weights and the bias are fetched once and their block index never moves. -/
theorem before_of0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! The rectangles the body reads and writes: every buffer whole. -/
abbrev rRow : Rect S2000x300 := Rect.unit (s := S2000x300) ![0, 0] S2000x300.size inb_S2000x300_S2000x300_0_0
abbrev rW : Rect S300x100 := Rect.unit (s := S300x100) ![0, 0] S300x100.size inb_S300x100_S300x100_0_0
abbrev rB : Rect S1x100 := Rect.unit (s := S1x100) ![0, 0] S1x100.size inb_S1x100_S1x100_0_0
abbrev rOut : Rect S2000x100 := Rect.unit (s := S2000x100) ![0, 0] S2000x100.size inb_S2000x100_S2000x100_0_0

/-- The result block after the body, from the five input blocks: its one store. -/
def out5 (x0 x1 : Vec F S2000x300 .f32) (x2 x3 : Vec F S300x100 .f32) (x4 : Vec F S1x100 .f32) : Vec F S2000x100 .f32 :=
  View.canon [⟨rOut, k1_pay1 (View.ld x0 rRow) (View.ld x1 rRow) (View.ld x2 rW) (View.ld x3 rW) (View.ld x4 rB)⟩]

/-- The one store covers the result block. -/
theorem cover5 (p0 : Vec F S2000x100 .f32) (y : S2000x100.Idx) :
    ∃ pc ∈ ([⟨rOut, p0⟩] : List (View.Piece (Elt F) S2000x100 .f32)), y ∈ pc.1.set :=
  View.cover_of_tiled [⟨rOut, p0⟩] S2000x100.size (by rfl) y

set_option maxHeartbeats 4000000 in
/-- The body on whole staging buffers, the inputs' at given contents and the output's at anything, runs to its return
    with the inputs as they were and the output at `out5` of the inputs. -/
theorem sound_kernel (c : Dev nD) (E : Set ℕ)
    (a0 : Memref sig .tc .vmem S2000x300 .f32) (h0 : a0.IsWhole) (a1 : Memref sig .tc .vmem S2000x300 .f32) (h1 : a1.IsWhole)
    (a2 : Memref sig .tc .vmem S300x100 .f32) (h2 : a2.IsWhole) (a3 : Memref sig .tc .vmem S300x100 .f32) (h3 : a3.IsWhole)
    (a4 : Memref sig .tc .vmem S1x100 .f32) (h4 : a4.IsWhole) (a5 : Memref sig .tc .vmem S2000x100 .f32) (h5 : a5.IsWhole)
    (i : grid1.Coords)
    (x0 x1 : Vec F S2000x300 .f32) (x2 x3 : Vec F S300x100 .f32) (x4 : Vec F S1x100 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out5 x0 x1 x2 x3 x4)) -∗ K ⟨⟩))
      ⊢ wp frame (wpE (defs₀ (F := F)) Variants.none c none) E (cc1_kernel i a0 h0 a1 h1 a2 h2 a3 h3 a4 h4 a5 h5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of this pipeline on core `c`: the arrays as the region finds them; after the body at point `t` each
    input's buffer at its block and the output's at `out5` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after0 (c : Dev nD) (t : Fin cfg1.N) : (dat1 V c).after 0 t = iblk V c 0 t := by dsimp only [dat1]
theorem after1 (c : Dev nD) (t : Fin cfg1.N) : (dat1 V c).after 1 t = iblk V c 1 t := by dsimp only [dat1]
theorem after2 (c : Dev nD) (t : Fin cfg1.N) : (dat1 V c).after 2 t = iblk V c 2 t := by dsimp only [dat1]
theorem after3 (c : Dev nD) (t : Fin cfg1.N) : (dat1 V c).after 3 t = iblk V c 3 t := by dsimp only [dat1]
theorem after4 (c : Dev nD) (t : Fin cfg1.N) : (dat1 V c).after 4 t = iblk V c 4 t := by dsimp only [dat1]
theorem after5 (c : Dev nD) (t : Fin cfg1.N) :
    (dat1 V c).after 5 t = out5 (iblk V c 0 t) (iblk V c 1 t) (iblk V c 2 t) (iblk V c 3 t) (iblk V c 4 t) := by dsimp only [dat1]

theorem before0 (c : Dev nD) (t : Fin cfg1.N) (d) : (dat1 V c).before 0 t d = iblk V c 0 t :=
  before_of0 V (dat1 V c) (A_eq1 V c 0) (after0 V c) t d
theorem before1 (c : Dev nD) (t : Fin cfg1.N) (d) : (dat1 V c).before 1 t d = iblk V c 1 t :=
  before_of1 V (dat1 V c) (A_eq1 V c 1) (after1 V c) t d
theorem before2 (c : Dev nD) (t : Fin cfg1.N) (d) : (dat1 V c).before 2 t d = iblk V c 2 t :=
  before_of2 V (dat1 V c) (A_eq1 V c 2) (after2 V c) t d
theorem before3 (c : Dev nD) (t : Fin cfg1.N) (d) : (dat1 V c).before 3 t d = iblk V c 3 t :=
  before_of3 V (dat1 V c) (A_eq1 V c 3) (after3 V c) t d
theorem before4 (c : Dev nD) (t : Fin cfg1.N) (d) : (dat1 V c).before 4 t d = iblk V c 4 t :=
  before_of4 V (dat1 V c) (A_eq1 V c 4) (after4 V c) t d

/-! ## The body obligation, at a generic point -/

def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat1 V c).Φ t.succ = (dat1 V c).Φ t.castSucc from rfl,
    show (dat1 V c).owesAt () t.succ = (dat1 V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body V c t

end Cert.Kernel.Reg1

end
-- ==== Proof.K.Reg2.lean ====
/-
  Region 2 of the kernel program as printed: the two linear heads on a block of 2000 rows,
  `x₂ = x₁ + relu (x₀ · A₁ + b₁)` and `z = x₁ + relu (x₀ · A₂ + b₂)` (`A₁`, `A₂` the transposed weights, 128×100).
  The pipeline walks the 50000 rows in 25 blocks; at each block the body reads the block of `x₀` (2000×128) and of
  `x₁` (2000×100), the two weight matrices and the two bias rows (1×100), and stores the two 2000×100 result blocks
  whole. Stated here, at any contents `V` of the buffers when the region is entered: what each window's staging buffer
  holds at a grid point, the body's Hoare triple (run symbolically), the proof data of the pipeline and the body
  obligation at a generic grid point.
-/
import proofs.«176792_j62921270886524_2_alg».proof.Proof.Gen.Kernel.Launch
import proofs.«176792_j62921270886524_2_alg».proof.Proof.Gen.Kernel.Skeleton
import proofs.«176792_j62921270886524_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, fetched there or not: the two row blocks move
    with the point, the weights and the biases are fetched once and their block index never moves. -/
theorem before_of0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of4 {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of5 {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! The rectangles the body reads and writes: every buffer whole. -/
abbrev rX : Rect S2000x128 := Rect.unit (s := S2000x128) ![0, 0] S2000x128.size inb_S2000x128_S2000x128_0_0
abbrev rH : Rect S2000x100 := Rect.unit (s := S2000x100) ![0, 0] S2000x100.size inb_S2000x100_S2000x100_0_0
abbrev rW : Rect S128x100 := Rect.unit (s := S128x100) ![0, 0] S128x100.size inb_S128x100_S128x100_0_0
abbrev rB : Rect S1x100 := Rect.unit (s := S1x100) ![0, 0] S1x100.size inb_S1x100_S1x100_0_0

/-- The first result block after the body, from the input blocks: its one store. -/
def out6 (x0 : Vec F S2000x128 .f32) (x1 : Vec F S2000x100 .f32) (x2 : Vec F S128x100 .f32) (x3 : Vec F S1x100 .f32) : Vec F S2000x100 .f32 :=
  View.canon [⟨rH, k2_pay2 (View.ld x0 rX) (View.ld x2 rW) (View.ld x3 rB) (View.ld x1 rH)⟩]
/-- The second result block after the body, from the input blocks: its one store. -/
def out7 (x0 : Vec F S2000x128 .f32) (x1 : Vec F S2000x100 .f32) (x4 : Vec F S128x100 .f32) (x5 : Vec F S1x100 .f32) : Vec F S2000x100 .f32 :=
  View.canon [⟨rH, k2_pay3 (View.ld x0 rX) (View.ld x4 rW) (View.ld x5 rB) (View.ld x1 rH)⟩]

/-- One whole store covers a result block. -/
theorem coverH (p0 : Vec F S2000x100 .f32) (y : S2000x100.Idx) :
    ∃ pc ∈ ([⟨rH, p0⟩] : List (View.Piece (Elt F) S2000x100 .f32)), y ∈ pc.1.set :=
  View.cover_of_tiled [⟨rH, p0⟩] S2000x100.size (by rfl) y

set_option maxHeartbeats 4000000 in
/-- The body on whole staging buffers, the inputs' at given contents and the outputs' at anything, runs to its return
    with the inputs as they were and the outputs at `out6`, `out7` of the inputs. -/
theorem sound_kernel (c : Dev nD) (E : Set ℕ)
    (a0 : Memref sig .tc .vmem S2000x128 .f32) (h0 : a0.IsWhole) (a1 : Memref sig .tc .vmem S2000x100 .f32) (h1 : a1.IsWhole)
    (a2 : Memref sig .tc .vmem S128x100 .f32) (h2 : a2.IsWhole) (a3 : Memref sig .tc .vmem S1x100 .f32) (h3 : a3.IsWhole)
    (a4 : Memref sig .tc .vmem S128x100 .f32) (h4 : a4.IsWhole) (a5 : Memref sig .tc .vmem S1x100 .f32) (h5 : a5.IsWhole)
    (a6 : Memref sig .tc .vmem S2000x100 .f32) (h6 : a6.IsWhole) (a7 : Memref sig .tc .vmem S2000x100 .f32) (h7 : a7.IsWhole)
    (i : grid2.Coords)
    (x0 : Vec F S2000x128 .f32) (x1 : Vec F S2000x100 .f32) (x2 : Vec F S128x100 .f32) (x3 : Vec F S1x100 .f32)
    (x4 : Vec F S128x100 .f32) (x5 : Vec F S1x100 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (out6 x0 x1 x2 x3) ∗ owns (c : Thread nD τ) a7 fullShare (out7 x0 x1 x4 x5)) -∗ K ⟨⟩))
      ⊢ wp frame (wpE (defs₀ (F := F)) Variants.none c none) E (cc2__lin_heads_kernel i a0 h0 a1 h1 a2 h2 a3 h3 a4 h4 a5 h5 a6 h6 a7 h7) K := by
  simp only [cc2__lin_heads_kernel_eq_skeleton]; unfold cc2__lin_heads_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverH _)
  iexists _; isplitr
  swap; · iexact H7
  ipureintro
  exact View.read_writes_eq_canon _ _ _ (coverH _)

/-! ## The pipeline's proof data -/

/-- The proof data of this pipeline on core `c`: the arrays as the region finds them; after the body at point `t` each
    input's buffer at its block and the outputs' at `out6`, `out7` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t)
    | ⟨7, _⟩ => out7 (iblk V c 0 t) (iblk V c 1 t) (iblk V c 4 t) (iblk V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after0 (c : Dev nD) (t : Fin cfg2.N) : (dat2 V c).after 0 t = iblk V c 0 t := by dsimp only [dat2]
theorem after1 (c : Dev nD) (t : Fin cfg2.N) : (dat2 V c).after 1 t = iblk V c 1 t := by dsimp only [dat2]
theorem after2 (c : Dev nD) (t : Fin cfg2.N) : (dat2 V c).after 2 t = iblk V c 2 t := by dsimp only [dat2]
theorem after3 (c : Dev nD) (t : Fin cfg2.N) : (dat2 V c).after 3 t = iblk V c 3 t := by dsimp only [dat2]
theorem after4 (c : Dev nD) (t : Fin cfg2.N) : (dat2 V c).after 4 t = iblk V c 4 t := by dsimp only [dat2]
theorem after5 (c : Dev nD) (t : Fin cfg2.N) : (dat2 V c).after 5 t = iblk V c 5 t := by dsimp only [dat2]
theorem after6 (c : Dev nD) (t : Fin cfg2.N) :
    (dat2 V c).after 6 t = out6 (iblk V c 0 t) (iblk V c 1 t) (iblk V c 2 t) (iblk V c 3 t) := by dsimp only [dat2]
theorem after7 (c : Dev nD) (t : Fin cfg2.N) :
    (dat2 V c).after 7 t = out7 (iblk V c 0 t) (iblk V c 1 t) (iblk V c 4 t) (iblk V c 5 t) := by dsimp only [dat2]

theorem before0 (c : Dev nD) (t : Fin cfg2.N) (d) : (dat2 V c).before 0 t d = iblk V c 0 t :=
  before_of0 V (dat2 V c) (A_eq2 V c 0) (after0 V c) t d
theorem before1 (c : Dev nD) (t : Fin cfg2.N) (d) : (dat2 V c).before 1 t d = iblk V c 1 t :=
  before_of1 V (dat2 V c) (A_eq2 V c 1) (after1 V c) t d
theorem before2 (c : Dev nD) (t : Fin cfg2.N) (d) : (dat2 V c).before 2 t d = iblk V c 2 t :=
  before_of2 V (dat2 V c) (A_eq2 V c 2) (after2 V c) t d
theorem before3 (c : Dev nD) (t : Fin cfg2.N) (d) : (dat2 V c).before 3 t d = iblk V c 3 t :=
  before_of3 V (dat2 V c) (A_eq2 V c 3) (after3 V c) t d
theorem before4 (c : Dev nD) (t : Fin cfg2.N) (d) : (dat2 V c).before 4 t d = iblk V c 4 t :=
  before_of4 V (dat2 V c) (A_eq2 V c 4) (after4 V c) t d
theorem before5 (c : Dev nD) (t : Fin cfg2.N) (d) : (dat2 V c).before 5 t d = iblk V c 5 t :=
  before_of5 V (dat2 V c) (A_eq2 V c 5) (after5 V c) t d

/-! ## The body obligation, at a generic point -/

def bodyPre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so `sound_kernel` applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4, before5]
  rw [show (dat2 V c).Φ t.succ = (dat2 V c).Φ t.castSucc from rfl,
    show (dat2 V c).owesAt () t.succ = (dat2 V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation2 (c : Dev nD) : BodyObligation (dat2 (F := F) V c) (defs₀ (F := F)) Variants.none () Set.univ := fun t => by
  rw [bigSep_W2, bigSep_W2]
  exact sound_body V c t

end Cert.Kernel.Reg2

end
-- ==== Proof.K.Reg3.lean ====
/-
  Region 3 of the kernel program: the loss reduction. The pipeline walks 80 blocks of 5000 rows; at each block the
  body reads four 5000×100 blocks, adds the block's two partial sums into two 1×1 accumulators the kernel keeps
  between points (zeroed at the first point), and at the last point stores the combined, scaled sum into the 1×1
  output block, which is written back there and only there. Stated here, at any contents `V` of the buffers when the
  region is entered: the body's two conditions in closed form over the grid, where the output window is idle, the
  body run whole in each of its three cases (first, middle, last point), what the output block and the two
  accumulators hold after each point (`accAt`, by recursion on the point), the proof data of the pipeline with an
  invariant that carries the accumulators' contents from point to point, the body obligation, and the passages
  between that invariant and the one the launch hands over.
-/
import proofs.«176792_j62921270886524_2_alg».proof.Proof.Gen.Kernel.Launch
import proofs.«176792_j62921270886524_2_alg».proof.Proof.Gen.Kernel.Skeleton
import proofs.«176792_j62921270886524_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point: each of the four is fetched at every point. -/
theorem before_of0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the grid -/

/-- The first conditional's condition: the point's coordinate is 0. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

/-- The second conditional's condition: the point's coordinate is 79. -/
abbrev cond3_1 (i : grid3.Coords) : Prop := k3_cond2 i = 1#1
theorem hcond3_1 : ∀ t : Fin cfg3.N, cond3_1 (grid3.coords t) ↔ t.val = 79 :=
  (by decide +kernel : ∀ t : Fin grid3.N, cond3_1 (grid3.coords t) ↔ t.val = 79)

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
/-- Before the last point the output window is idle and not written back. -/
theorem idle3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- At the last point it is live. -/
theorem live3_4 : ∀ t : Fin cfg3.N, cond3_1 (grid3.coords t) → cfg3.idle 4 (grid3.coords t) = false := by decide +kernel

/-! ## The memrefs the body is called with -/

abbrev ms0 (t : Fin cfg3.N) : Memref sig .tc .vmem S5000x100 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S5000x100 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S5000x100 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S5000x100 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S1x1 .f32 := win3_4.stage (cfg3.slots t 4)
abbrev hs4 (t : Fin cfg3.N) : (ms4 t).IsWhole := hstage3_4 ((cfg3.slots t 4).cast nbuf3_4)
/-- The two accumulators: whole scoped buffers of the kernel's own. -/
abbrev scM0 : Memref sig .tc .vmem S1x1 .f32 := Memref.whole cc3_scratch0
abbrev scM1 : Memref sig .tc .vmem S1x1 .f32 := Memref.whole cc3_scratch1
/-- The views through which the accumulators' and the output block's contents are stated. -/
abbrev VS0 : View sig .tc .vmem S1x1 .f32 := scM0.view
abbrev VS1 : View sig .tc .vmem S1x1 .f32 := scM1.view
abbrev VO : View sig .tc .vmem S1x1 .f32 := scM0.view

/-- Every scoped buffer but the two accumulators and the staging buffers, each at some contents. -/
abbrev restBut (c : Dev nD) : sProp 𝕄 :=
  Pipeline.scopedRestBut (Ix := Unit) (Name := ℕ) (U := UR sig nD τ) (Lvl := ℕ) (Val := Elt F) spec3 c [cc3_scratch0, cc3_scratch1]

/-- The region's invariant with the two accumulators as memrefs owned at some contents. -/
theorem PhiA_eq (c : Dev nD) :
    (Pipeline.ΦA spec3 c : sProp 𝕄)
      = iprop(iprop(iprop((∃ d, owns (c : Thread nD τ) scM0 fullShare d) ∗ (∃ d, owns (c : Thread nD τ) scM1 fullShare d)) ∗ restBut (F := F) c) ∗ (∃ r, prngReg c r)) := by
  unfold Pipeline.ΦA; rw [scopedRest3_split]; simp only [scM0, scM1, owns_whole]; try rfl

/-! ## The body run whole, in each of its three cases

In each case the pieces the body's stores leave in the output block and in the two accumulators (last store first)
come with the proof that on whole memrefs — the inputs' at given contents — the body runs to its continuation with
the inputs as they were and those pieces written. -/

set_option maxHeartbeats 4000000 in
/-- The first point: both accumulators at anything; the output block handed back untouched. -/
noncomputable def kernelRun_A (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond3_0 i) (hc1 : ¬cond3_1 i)
    (x0 x1 x2 x3 : Vec F S5000x100 .f32) :
    Σ' (L4 : List (View.Piece (Elt F) S1x1 .f32)) (LS0 : List (View.Piece (Elt F) S1x1 .f32)), { LS1 : List (View.Piece (Elt F) S1x1 .f32) //
      ∀ (xi4 : Vec F S1x1 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare xi4 ∗ (∃ d, owns (c : Thread nD τ) a5 fullShare d) ∗ (∃ d, owns (c : Thread nD τ) a6 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare xi4 ∗ (∃ f, a5.view.loc (c : Thread nD τ) ↦[a5.view.set]{fullShare} a5.view.writes (Elt F) f LS0) ∗ (∃ f, a6.view.loc (c : Thread nD τ) ↦[a6.view.set]{fullShare} a6.view.writes (Elt F) f LS1)) -∗ K ⟨⟩))
          ⊢ wp frame (wpE (defs₀ (F := F)) Variants.none c none) E (cc3_kernel i a0 h0 a1 h1 a2 h2 a3 h3 a4 h4 a5 h5 a6 h6) K } := by
  refine ⟨[], ?_, ?_, fun xi4 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := h0.eq_unread hf0; obtain rfl := h1.eq_unread hf1; obtain rfl := h2.eq_unread hf2; obtain rfl := h3.eq_unread hf3; obtain rfl := h4.eq_unread hf4
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [HS0]; · iexists _; iexact HS0
    iexists _; iexact HS1

set_option maxHeartbeats 4000000 in
/-- A middle point: the accumulators at what the point before left; the output block handed back untouched. -/
noncomputable def kernelRun_B (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : ¬cond3_1 i)
    (x0 x1 x2 x3 : Vec F S5000x100 .f32) (xs0 xs1 : Vec F S1x1 .f32) :
    Σ' (L4 : List (View.Piece (Elt F) S1x1 .f32)) (LS0 : List (View.Piece (Elt F) S1x1 .f32)), { LS1 : List (View.Piece (Elt F) S1x1 .f32) //
      ∀ (xi4 : Vec F S1x1 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare xi4 ∗ owns (c : Thread nD τ) a5 fullShare xs0 ∗ owns (c : Thread nD τ) a6 fullShare xs1
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare xi4 ∗ (∃ f, a5.view.loc (c : Thread nD τ) ↦[a5.view.set]{fullShare} a5.view.writes (Elt F) f LS0) ∗ (∃ f, a6.view.loc (c : Thread nD τ) ↦[a6.view.set]{fullShare} a6.view.writes (Elt F) f LS1)) -∗ K ⟨⟩))
          ⊢ wp frame (wpE (defs₀ (F := F)) Variants.none c none) E (cc3_kernel i a0 h0 a1 h1 a2 h2 a3 h3 a4 h4 a5 h5 a6 h6) K } := by
  refine ⟨[], ?_, ?_, fun xi4 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := h0.eq_unread hf0; obtain rfl := h1.eq_unread hf1; obtain rfl := h2.eq_unread hf2; obtain rfl := h3.eq_unread hf3; obtain rfl := h4.eq_unread hf4
    obtain rfl := h5.eq_unread hfs0; obtain rfl := h6.eq_unread hfs1
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [HS0]; · iexists _; iexact HS0
    iexists _; iexact HS1

set_option maxHeartbeats 4000000 in
/-- The last point: the accumulators at what the point before left; the output block at anything, stored whole. -/
noncomputable def kernelRun_C (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : cond3_1 i)
    (x0 x1 x2 x3 : Vec F S5000x100 .f32) (xs0 xs1 : Vec F S1x1 .f32) :
    Σ' (L4 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d) ∗ owns (c : Thread nD τ) a5 fullShare xs0 ∗ owns (c : Thread nD τ) a6 fullShare xs1
            ∗ (iprop(owns (c : Thread nD τ) a0 fullShare x0 ∗ owns (c : Thread nD τ) a1 fullShare x1 ∗ owns (c : Thread nD τ) a2 fullShare x2 ∗ owns (c : Thread nD τ) a3 fullShare x3 ∗ (∃ f, a4.view.loc (c : Thread nD τ) ↦[a4.view.set]{fullShare} a4.view.writes (Elt F) f L4) ∗ (∃ f, a5.view.loc (c : Thread nD τ) ↦[a5.view.set]{fullShare} a5.view.writes (Elt F) f LS0) ∗ (∃ f, a6.view.loc (c : Thread nD τ) ↦[a6.view.set]{fullShare} a6.view.writes (Elt F) f LS1)) -∗ K ⟨⟩))
          ⊢ wp frame (wpE (defs₀ (F := F)) Variants.none c none) E (cc3_kernel i a0 h0 a1 h1 a2 h2 a3 h3 a4 h4 a5 h5 a6 h6) K } := by
  refine ⟨?_, ?_, ?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := h0.eq_unread hf0; obtain rfl := h1.eq_unread hf1; obtain rfl := h2.eq_unread hf2; obtain rfl := h3.eq_unread hf3
    obtain rfl := h5.eq_unread hfs0; obtain rfl := h6.eq_unread hfs1
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    isplitl [HS0]; · iexists _; iexact HS0
    iexists _; iexact HS1

/-! ## The pieces cover: every store is of the whole 1×1 block -/

theorem scoverA0 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond3_0 i) (hc1 : ¬cond3_1 i) (x0 x1 x2 x3 : Vec F S5000x100 .f32) (y : S1x1.Idx) :
    ∃ pc ∈ (kernelRun_A c i a0 h0 a1 h1 a2 h2 a3 h3 a4 h4 a5 h5 a6 h6 hc0 hc1 x0 x1 x2 x3).2.1, y ∈ pc.1.set :=
  View.cover_of_tiledL (kernelRun_A c i a0 h0 a1 h1 a2 h2 a3 h3 a4 h4 a5 h5 a6 h6 hc0 hc1 x0 x1 x2 x3).2.1 S1x1.size (by sl_kernel_rfl) y
theorem scoverA1 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond3_0 i) (hc1 : ¬cond3_1 i) (x0 x1 x2 x3 : Vec F S5000x100 .f32) (y : S1x1.Idx) :
    ∃ pc ∈ (kernelRun_A c i a0 h0 a1 h1 a2 h2 a3 h3 a4 h4 a5 h5 a6 h6 hc0 hc1 x0 x1 x2 x3).2.2.1, y ∈ pc.1.set :=
  View.cover_of_tiledL (kernelRun_A c i a0 h0 a1 h1 a2 h2 a3 h3 a4 h4 a5 h5 a6 h6 hc0 hc1 x0 x1 x2 x3).2.2.1 S1x1.size (by sl_kernel_rfl) y
theorem scoverB0 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : ¬cond3_1 i) (x0 x1 x2 x3 : Vec F S5000x100 .f32) (xs0 xs1 : Vec F S1x1 .f32) (y : S1x1.Idx) :
    ∃ pc ∈ (kernelRun_B c i a0 h0 a1 h1 a2 h2 a3 h3 a4 h4 a5 h5 a6 h6 hc0 hc1 x0 x1 x2 x3 xs0 xs1).2.1, y ∈ pc.1.set :=
  View.cover_of_tiledL (kernelRun_B c i a0 h0 a1 h1 a2 h2 a3 h3 a4 h4 a5 h5 a6 h6 hc0 hc1 x0 x1 x2 x3 xs0 xs1).2.1 S1x1.size (by sl_kernel_rfl) y
theorem scoverB1 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : ¬cond3_1 i) (x0 x1 x2 x3 : Vec F S5000x100 .f32) (xs0 xs1 : Vec F S1x1 .f32) (y : S1x1.Idx) :
    ∃ pc ∈ (kernelRun_B c i a0 h0 a1 h1 a2 h2 a3 h3 a4 h4 a5 h5 a6 h6 hc0 hc1 x0 x1 x2 x3 xs0 xs1).2.2.1, y ∈ pc.1.set :=
  View.cover_of_tiledL (kernelRun_B c i a0 h0 a1 h1 a2 h2 a3 h3 a4 h4 a5 h5 a6 h6 hc0 hc1 x0 x1 x2 x3 xs0 xs1).2.2.1 S1x1.size (by sl_kernel_rfl) y
theorem coverC4 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : cond3_1 i) (x0 x1 x2 x3 : Vec F S5000x100 .f32) (xs0 xs1 : Vec F S1x1 .f32) (y : S1x1.Idx) :
    ∃ pc ∈ (kernelRun_C c i a0 h0 a1 h1 a2 h2 a3 h3 a4 h4 a5 h5 a6 h6 hc0 hc1 x0 x1 x2 x3 xs0 xs1).1, y ∈ pc.1.set :=
  View.cover_of_tiledL (kernelRun_C c i a0 h0 a1 h1 a2 h2 a3 h3 a4 h4 a5 h5 a6 h6 hc0 hc1 x0 x1 x2 x3 xs0 xs1).1 S1x1.size (by sl_kernel_rfl) y
theorem scoverC0 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : cond3_1 i) (x0 x1 x2 x3 : Vec F S5000x100 .f32) (xs0 xs1 : Vec F S1x1 .f32) (y : S1x1.Idx) :
    ∃ pc ∈ (kernelRun_C c i a0 h0 a1 h1 a2 h2 a3 h3 a4 h4 a5 h5 a6 h6 hc0 hc1 x0 x1 x2 x3 xs0 xs1).2.1, y ∈ pc.1.set :=
  View.cover_of_tiledL (kernelRun_C c i a0 h0 a1 h1 a2 h2 a3 h3 a4 h4 a5 h5 a6 h6 hc0 hc1 x0 x1 x2 x3 xs0 xs1).2.1 S1x1.size (by sl_kernel_rfl) y
theorem scoverC1 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : cond3_1 i) (x0 x1 x2 x3 : Vec F S5000x100 .f32) (xs0 xs1 : Vec F S1x1 .f32) (y : S1x1.Idx) :
    ∃ pc ∈ (kernelRun_C c i a0 h0 a1 h1 a2 h2 a3 h3 a4 h4 a5 h5 a6 h6 hc0 hc1 x0 x1 x2 x3 xs0 xs1).2.2.1, y ∈ pc.1.set :=
  View.cover_of_tiledL (kernelRun_C c i a0 h0 a1 h1 a2 h2 a3 h3 a4 h4 a5 h5 a6 h6 hc0 hc1 x0 x1 x2 x3 xs0 xs1).2.2.1 S1x1.size (by sl_kernel_rfl) y

/-! ## What the output block and the accumulators hold after each point -/

theorem hA0 (t : Fin cfg3.N) (h : t.val = 0) : cond3_0 (grid3.coords t) := (hcond3_0 t).mpr h
theorem hA1 (t : Fin cfg3.N) (h : t.val = 0) : ¬cond3_1 (grid3.coords t) := fun h' => by have := (hcond3_1 t).mp h'; omega
theorem hB0 (t : Fin cfg3.N) (h : t.val ≠ 0) : ¬cond3_0 (grid3.coords t) := fun h' => h ((hcond3_0 t).mp h')
theorem hB1 (t : Fin cfg3.N) (h : t.val ≠ 79) : ¬cond3_1 (grid3.coords t) := fun h' => h ((hcond3_1 t).mp h')
theorem hC0 (t : Fin cfg3.N) (h : t.val = 79) : ¬cond3_0 (grid3.coords t) := fun h' => by have := (hcond3_0 t).mp h'; omega
theorem hC1 (t : Fin cfg3.N) (h : t.val = 79) : cond3_1 (grid3.coords t) := (hcond3_1 t).mpr h

/-- The first point's run at its memrefs and input blocks. -/
abbrev runA (c : Dev nD) (t : Fin cfg3.N) (h : t.val = 0) :=
  kernelRun_A (F := F) c (grid3.coords t) (ms0 t) (hs0 t) (ms1 t) (hs1 t) (ms2 t) (hs2 t) (ms3 t) (hs3 t) (ms4 t) (hs4 t) scM0 (Memref.isWhole_whole _) scM1 (Memref.isWhole_whole _) (hA0 t h) (hA1 t h) (iblk V c 0 t) (iblk V c 1 t) (iblk V c 2 t) (iblk V c 3 t)
/-- A middle point's, over what the point before left in the accumulators. -/
abbrev runB (c : Dev nD) (t : Fin cfg3.N) (h0 : t.val ≠ 0) (h1 : t.val ≠ 79) (xs0 xs1 : Vec F S1x1 .f32) :=
  kernelRun_B (F := F) c (grid3.coords t) (ms0 t) (hs0 t) (ms1 t) (hs1 t) (ms2 t) (hs2 t) (ms3 t) (hs3 t) (ms4 t) (hs4 t) scM0 (Memref.isWhole_whole _) scM1 (Memref.isWhole_whole _) (hB0 t h0) (hB1 t h1) (iblk V c 0 t) (iblk V c 1 t) (iblk V c 2 t) (iblk V c 3 t) xs0 xs1
/-- The last point's. -/
abbrev runC (c : Dev nD) (t : Fin cfg3.N) (h : t.val = 79) (xs0 xs1 : Vec F S1x1 .f32) :=
  kernelRun_C (F := F) c (grid3.coords t) (ms0 t) (hs0 t) (ms1 t) (hs1 t) (ms2 t) (hs2 t) (ms3 t) (hs3 t) (ms4 t) (hs4 t) scM0 (Memref.isWhole_whole _) scM1 (Memref.isWhole_whole _) (hC0 t h) (hC1 t h) (iblk V c 0 t) (iblk V c 1 t) (iblk V c 2 t) (iblk V c 3 t) xs0 xs1

/-- The pieces read back: (output block, first accumulator, second accumulator). Where the case stores nothing into
    the output block the first component is a placeholder nothing consults. -/
def resA (c : Dev nD) (t : Fin cfg3.N) (h : t.val = 0) : Vec F S1x1 .f32 × Vec F S1x1 .f32 × Vec F S1x1 .f32 :=
  (VO.read (Elt F) (VO.writes (Elt F) VO.junk (runA V c t h).1),
   VS0.read (Elt F) (VS0.writes (Elt F) VS0.junk (runA V c t h).2.1),
   VS1.read (Elt F) (VS1.writes (Elt F) VS1.junk (runA V c t h).2.2.1))
def resB (c : Dev nD) (t : Fin cfg3.N) (h0 : t.val ≠ 0) (h1 : t.val ≠ 79) (xs0 xs1 : Vec F S1x1 .f32) : Vec F S1x1 .f32 × Vec F S1x1 .f32 × Vec F S1x1 .f32 :=
  (VO.read (Elt F) (VO.writes (Elt F) VO.junk (runB V c t h0 h1 xs0 xs1).1),
   VS0.read (Elt F) (VS0.writes (Elt F) VS0.junk (runB V c t h0 h1 xs0 xs1).2.1),
   VS1.read (Elt F) (VS1.writes (Elt F) VS1.junk (runB V c t h0 h1 xs0 xs1).2.2.1))
def resC (c : Dev nD) (t : Fin cfg3.N) (h : t.val = 79) (xs0 xs1 : Vec F S1x1 .f32) : Vec F S1x1 .f32 × Vec F S1x1 .f32 × Vec F S1x1 .f32 :=
  (VO.read (Elt F) (VO.writes (Elt F) VO.junk (runC V c t h xs0 xs1).1),
   VS0.read (Elt F) (VS0.writes (Elt F) VS0.junk (runC V c t h xs0 xs1).2.1),
   VS1.read (Elt F) (VS1.writes (Elt F) VS1.junk (runC V c t h xs0 xs1).2.2.1))

/-- THE ACCUMULATION: what the output block and the two accumulators hold after the body at position `n`: the case
    of the point, run over what the point before left in the accumulators. -/
def accAt (c : Dev nD) : (n : ℕ) → n < cfg3.N → Vec F S1x1 .f32 × Vec F S1x1 .f32 × Vec F S1x1 .f32
  | 0, hn => resA V c ⟨0, hn⟩ rfl
  | n + 1, hn =>
    if h1 : n + 1 = 79 then
      resC V c ⟨n + 1, hn⟩ h1 (accAt c n (Nat.lt_of_succ_lt hn)).2.1 (accAt c n (Nat.lt_of_succ_lt hn)).2.2
    else
      resB V c ⟨n + 1, hn⟩ (Nat.succ_ne_zero n) h1 (accAt c n (Nat.lt_of_succ_lt hn)).2.1 (accAt c n (Nat.lt_of_succ_lt hn)).2.2

theorem accAt_A (c : Dev nD) (t : Fin cfg3.N) (h : t.val = 0) : accAt V c t.val t.isLt = resA V c t h := by
  obtain ⟨n, hn⟩ := t
  cases n with
  | zero => rfl
  | succ n => exact absurd h (Nat.succ_ne_zero n)

theorem accAt_B (c : Dev nD) (t : Fin cfg3.N) (h0 : t.val ≠ 0) (h1 : t.val ≠ 79) :
    accAt V c t.val t.isLt = resB V c t h0 h1 (accAt V c (t.val - 1) (Nat.lt_of_le_of_lt (Nat.sub_le _ _) t.isLt)).2.1
      (accAt V c (t.val - 1) (Nat.lt_of_le_of_lt (Nat.sub_le _ _) t.isLt)).2.2 := by
  obtain ⟨n, hn⟩ := t
  cases n with
  | zero => exact absurd rfl h0
  | succ n => exact (dif_neg h1).trans rfl

theorem accAt_C (c : Dev nD) (t : Fin cfg3.N) (h : t.val = 79) :
    accAt V c t.val t.isLt = resC V c t h (accAt V c (t.val - 1) (Nat.lt_of_le_of_lt (Nat.sub_le _ _) t.isLt)).2.1
      (accAt V c (t.val - 1) (Nat.lt_of_le_of_lt (Nat.sub_le _ _) t.isLt)).2.2 := by
  obtain ⟨n, hn⟩ := t
  cases n with
  | zero => exact absurd h (by show ¬ (0 : ℕ) = 79; omega)
  | succ n => exact (dif_pos h).trans rfl

/-- The region's invariant before position `n`: before the first point what the launch hands over (the accumulators
    at anything); afterwards the same with each accumulator at what the point before left in it. -/
def PhiS (c : Dev nD) : (n : ℕ) → n ≤ cfg3.N → sProp 𝕄
  | 0, _ => Pipeline.ΦA spec3 c
  | n + 1, hn => iprop(iprop(iprop(owns (c : Thread nD τ) scM0 fullShare (accAt V c n hn).2.1 ∗ owns (c : Thread nD τ) scM1 fullShare (accAt V c n hn).2.2) ∗ restBut (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(iprop(owns (c : Thread nD τ) scM0 fullShare (accAt V c n hn).2.1 ∗ owns (c : Thread nD τ) scM1 fullShare (accAt V c n hn).2.2) ∗ restBut (F := F) c) ∗ (∃ r, prngReg c r)) := rfl

theorem PhiS_pos (c : Dev nD) (n : ℕ) (h : n ≤ cfg3.N) (hz : n ≠ 0) :
    PhiS V c n h = iprop(iprop(iprop(owns (c : Thread nD τ) scM0 fullShare (accAt V c (n - 1) (by omega)).2.1 ∗ owns (c : Thread nD τ) scM1 fullShare (accAt V c (n - 1) (by omega)).2.2) ∗ restBut (F := F) c) ∗ (∃ r, prngReg c r)) := by
  cases n with
  | zero => exact absurd rfl hz
  | succ n => rfl

/-! ## The pipeline's proof data -/

/-- The proof data of this pipeline on core `c`: the arrays as the region finds them; after the body at point `t` each
    input's buffer at its block and the output's at the accumulation's first component; the invariant `PhiS`;
    nothing owed; full shares. -/
def dat3 (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => (accAt V c t.val t.isLt).1
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS_castSucc (c : Dev nD) (t : Fin cfg3.N) :
    (dat3 V c).Φ t.castSucc = PhiS V c t.val (Nat.le_of_lt t.isLt) := by
  dsimp only [dat3]; simp only [Fin.coe_castSucc]

theorem after0 (c : Dev nD) (t : Fin cfg3.N) : (dat3 V c).after 0 t = iblk V c 0 t := by dsimp only [dat3]
theorem after1 (c : Dev nD) (t : Fin cfg3.N) : (dat3 V c).after 1 t = iblk V c 1 t := by dsimp only [dat3]
theorem after2 (c : Dev nD) (t : Fin cfg3.N) : (dat3 V c).after 2 t = iblk V c 2 t := by dsimp only [dat3]
theorem after3 (c : Dev nD) (t : Fin cfg3.N) : (dat3 V c).after 3 t = iblk V c 3 t := by dsimp only [dat3]
theorem after4 (c : Dev nD) (t : Fin cfg3.N) : (dat3 V c).after 4 t = (accAt V c t.val t.isLt).1 := by dsimp only [dat3]

theorem before0 (c : Dev nD) (t : Fin cfg3.N) (d) : (dat3 V c).before 0 t d = iblk V c 0 t :=
  before_of0 V (dat3 V c) (A_eq3 V c 0) (after0 V c) t d
theorem before1 (c : Dev nD) (t : Fin cfg3.N) (d) : (dat3 V c).before 1 t d = iblk V c 1 t :=
  before_of1 V (dat3 V c) (A_eq3 V c 1) (after1 V c) t d
theorem before2 (c : Dev nD) (t : Fin cfg3.N) (d) : (dat3 V c).before 2 t d = iblk V c 2 t :=
  before_of2 V (dat3 V c) (A_eq3 V c 2) (after2 V c) t d
theorem before3 (c : Dev nD) (t : Fin cfg3.N) (d) : (dat3 V c).before 3 t d = iblk V c 3 t :=
  before_of3 V (dat3 V c) (A_eq3 V c 3) (after3 V c) t d

theorem leaves0 (c : Dev nD) (t : Fin cfg3.N) : (dat3 V c).leavesExact 0 t = owns (c : Thread nD τ) (ms0 t) fullShare (iblk V c 0 t) := by
  unfold Dat.leavesExact; rw [live3_0 t, after0]
theorem leaves1 (c : Dev nD) (t : Fin cfg3.N) : (dat3 V c).leavesExact 1 t = owns (c : Thread nD τ) (ms1 t) fullShare (iblk V c 1 t) := by
  unfold Dat.leavesExact; rw [live3_1 t, after1]
theorem leaves2 (c : Dev nD) (t : Fin cfg3.N) : (dat3 V c).leavesExact 2 t = owns (c : Thread nD τ) (ms2 t) fullShare (iblk V c 2 t) := by
  unfold Dat.leavesExact; rw [live3_2 t, after2]
theorem leaves3 (c : Dev nD) (t : Fin cfg3.N) : (dat3 V c).leavesExact 3 t = owns (c : Thread nD τ) (ms3 t) fullShare (iblk V c 3 t) := by
  unfold Dat.leavesExact; rw [live3_3 t, after3]

theorem leaves4_C (c : Dev nD) (t : Fin cfg3.N) (h1 : t.val = 79) :
    (dat3 V c).leavesExact 4 t = owns (c : Thread nD τ) (ms4 t) fullShare (accAt V c t.val t.isLt).1 := by
  unfold Dat.leavesExact; rw [live3_4 t (hC1 t h1), after4]

/-! ## The body obligation, at a generic point -/

def bodyPre (c : Dev nD) (t : Fin cfg3.N) : sProp 𝕄 :=
  iprop((dat3 V c).Φ t.castSucc ∗ (dat3 V c).owesAt () t.castSucc
    ∗ (∃ d, owns (c : Thread nD τ) (ms0 t) fullShare ((dat3 V c).before 0 t d))
    ∗ (∃ d, owns (c : Thread nD τ) (ms1 t) fullShare ((dat3 V c).before 1 t d))
    ∗ (∃ d, owns (c : Thread nD τ) (ms2 t) fullShare ((dat3 V c).before 2 t d))
    ∗ (∃ d, owns (c : Thread nD τ) (ms3 t) fullShare ((dat3 V c).before 3 t d))
    ∗ (∃ d, owns (c : Thread nD τ) (ms4 t) fullShare ((dat3 V c).before 4 t d)))

def bodyPost (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' buffers hold their blocks; the point's coordinate says which case runs; the
    invariant hands the body the accumulators at what the point before left (at anything at the first point) and
    takes them back at this point's contents; before the last point the output's buffer passes through untouched,
    at the last point it is stored whole; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3]
  rw [show (dat3 V c).owesAt () t.succ = (dat3 V c).owesAt () t.castSucc from rfl]
  rw [show (dat3 V c).Φ t.succ = PhiS V c (t.val + 1) t.isLt from rfl, PhiS_succ]
  rw [leaves0, leaves1, leaves2, leaves3]
  have hN : t.val < 80 := lt_of_lt_of_eq t.isLt (show cfg3.N = 80 from N_3)
  by_cases h0 : t.val = 0
  ·
    rw [Dat.leavesExact_idle (dat3 V c) 4 t (idle3_4 t (hA1 t h0)) (noFlush3_4 t (hA1 t h0))]
    rw [accAt_A V c t h0]
    unfold resA; (try dsimp only)
    rw [PhiS_castSucc V c t, PhiS_zero V c _ _ h0, PhiA_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply ((runA V c t h0).2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scoverA0 c _ _ _ _ _ _ _ _ _ _ _ _ _ _ _ _ _ _ _ _ _)
          · unfold owns; iexists _; isplitr
            swap; · iexact HS1
            ipureintro; exact View.read_writes_of_cover _ _ _ _ _ (scoverA1 c _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 79
    ·
      rw [leaves4_C V c t h1]
      rw [accAt_C V c t h1]
      unfold resC; (try dsimp only)
      rw [PhiS_castSucc V c t, PhiS_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply ((runC V c t h1 _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scoverC0 c _ _ _ _ _ _ _ _ _ _ _ _ _ _ _ _ _ _ _ _ _ _ _)
            · unfold owns; iexists _; isplitr
              swap; · iexact HS1
              ipureintro; exact View.read_writes_of_cover _ _ _ _ _ (scoverC1 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC4 c _ _ _ _ _ _ _ _ _ _ _ _ _ _ _ _ _ _ _ _ _ _ _)
    ·
      rw [Dat.leavesExact_idle (dat3 V c) 4 t (idle3_4 t (hB1 t h1)) (noFlush3_4 t (hB1 t h1))]
      rw [accAt_B V c t h0 h1]
      unfold resB; (try dsimp only)
      rw [PhiS_castSucc V c t, PhiS_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply ((runB V c t h0 h1 _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scoverB0 c _ _ _ _ _ _ _ _ _ _ _ _ _ _ _ _ _ _ _ _ _ _ _)
            · unfold owns; iexists _; isplitr
              swap; · iexact HS1
              ipureintro; exact View.read_writes_of_cover _ _ _ _ _ (scoverB1 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The pipeline library's body obligation, at every point. -/
theorem body_obligation3 (c : Dev nD) : BodyObligation (dat3 (F := F) V c) (defs₀ (F := F)) Variants.none () Set.univ := fun t => by
  rw [bigSep_W3, bigSep_W3]
  exact sound_body V c t

/-- What the launch hands the region is the invariant before the first point. -/
theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After any point the invariant gives the launch's back: the accumulators' named contents are forgotten. -/
theorem Phi_out (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

theorem hout3 (c : Dev nD) : (dat3 V c).Φ (Fin.last cfg3.N) ⊢ Pipeline.ΦA spec3 c :=
  Phi_out V c _ (by rw [Fin.val_last]; have : cfg3.N = 80 := N_3; omega)

end Cert.Kernel.Reg3

end
-- ==== Proof.K.Reg4.lean ====
/-
  Region 4 of the kernel program as printed: the last Chebyshev layer `x₂ · W₀ + T₁x₂ · W₁ + b` (no rectifier) on a
  block of 2000 rows. The pipeline walks the 50000 rows in 25 blocks; at each block the body reads the block of `x₂`
  and of `T₁x₂` (2000×100 each), the two whole weight matrices (100×2) and the bias row (1×2), and stores the 2000×2
  result block whole. Stated here, at any contents `V` of the buffers when the region is entered: what each window's
  staging buffer holds at a grid point, the body's Hoare triple (run symbolically), the proof data of the pipeline and
  the body obligation at a generic grid point.
-/
import proofs.«176792_j62921270886524_2_alg».proof.Proof.Gen.Kernel.Launch
import proofs.«176792_j62921270886524_2_alg».proof.Proof.Gen.Kernel.Skeleton
import proofs.«176792_j62921270886524_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's staging buffer holds its block at every point, fetched there or not: the two row blocks move
    with the point, the weights and the bias are fetched once and their block index never moves. -/
theorem before_of0 {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of4 {c : Dev nD} (dat : Dat τ (Elt F) Unit ℕ (UR sig nD τ) ℕ cfg4 c) (hA : dat.A 4 = V c (Pipeline.arrRef spec4 4))
    (hafter : ∀ t, dat.after 4 t = iblk V c 4 t) (t : Fin cfg4.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! The rectangles the body reads and writes: every buffer whole. -/
abbrev rRow : Rect S2000x100 := Rect.unit (s := S2000x100) ![0, 0] S2000x100.size inb_S2000x100_S2000x100_0_0
abbrev rW : Rect S100x2 := Rect.unit (s := S100x2) ![0, 0] S100x2.size inb_S100x2_S100x2_0_0
abbrev rB : Rect S1x2 := Rect.unit (s := S1x2) ![0, 0] S1x2.size inb_S1x2_S1x2_0_0
abbrev rOut : Rect S2000x2 := Rect.unit (s := S2000x2) ![0, 0] S2000x2.size inb_S2000x2_S2000x2_0_0

/-- The result block after the body, from the five input blocks: its one store. -/
def out5 (x0 x1 : Vec F S2000x100 .f32) (x2 x3 : Vec F S100x2 .f32) (x4 : Vec F S1x2 .f32) : Vec F S2000x2 .f32 :=
  View.canon [⟨rOut, k4_pay1 (View.ld x0 rRow) (View.ld x1 rRow) (View.ld x2 rW) (View.ld x3 rW) (View.ld x4 rB)⟩]

/-- The one store covers the result block. -/
theorem cover5 (p0 : Vec F S2000x2 .f32) (y : S2000x2.Idx) :
    ∃ pc ∈ ([⟨rOut, p0⟩] : List (View.Piece (Elt F) S2000x2 .f32)), y ∈ pc.1.set :=
  View.cover_of_tiled [⟨rOut, p0⟩] S2000x2.size (by rfl) y

set_option maxHeartbeats 4000000 in
/-- The body on whole staging buffers, the inputs' at given contents and the output's at anything, runs to its return
    with the inputs as they were and the output at `out5` of the inputs. -/
theorem sound_kernel (c : Dev nD) (E : Set ℕ)
    (a0 : Memref sig .tc .vmem S2000x100 .f32) (h0 : a0.IsWhole) (a1 : Memref sig .tc .vmem S2000x100 .f32) (h1 : a1.IsWhole)
    (a2 : Memref sig .tc .vmem S100x2 .f32) (h2 : a2.IsWhole) (a3 : Memref sig .tc .vmem S100x2 .f32) (h3 : a3.IsWhole)
    (a4 : Memref sig .tc .vmem S1x2 .f32) (h4 : a4.IsWhole) (a5 : Memref sig .tc .vmem S2000x2 .f32) (h5 : a5.IsWhole)
    (i : grid4.Coords)
    (x0 x1 : Vec F S2000x100 .f32) (x2 x3 : Vec F S100x2 .f32) (x4 : Vec F S1x2 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out5 x0 x1 x2 x3 x4)) -∗ K ⟨⟩))
      ⊢ wp frame (wpE (defs₀ (F := F)) Variants.none c none) E (cc4_kernel i a0 h0 a1 h1 a2 h2 a3 h3 a4 h4 a5 h5) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of this pipeline on core `c`: the arrays as the region finds them; after the body at point `t` each
    input's buffer at its block and the output's at `out5` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after0 (c : Dev nD) (t : Fin cfg4.N) : (dat4 V c).after 0 t = iblk V c 0 t := by dsimp only [dat4]
theorem after1 (c : Dev nD) (t : Fin cfg4.N) : (dat4 V c).after 1 t = iblk V c 1 t := by dsimp only [dat4]
theorem after2 (c : Dev nD) (t : Fin cfg4.N) : (dat4 V c).after 2 t = iblk V c 2 t := by dsimp only [dat4]
theorem after3 (c : Dev nD) (t : Fin cfg4.N) : (dat4 V c).after 3 t = iblk V c 3 t := by dsimp only [dat4]
theorem after4 (c : Dev nD) (t : Fin cfg4.N) : (dat4 V c).after 4 t = iblk V c 4 t := by dsimp only [dat4]
theorem after5 (c : Dev nD) (t : Fin cfg4.N) :
    (dat4 V c).after 5 t = out5 (iblk V c 0 t) (iblk V c 1 t) (iblk V c 2 t) (iblk V c 3 t) (iblk V c 4 t) := by dsimp only [dat4]

theorem before0 (c : Dev nD) (t : Fin cfg4.N) (d) : (dat4 V c).before 0 t d = iblk V c 0 t :=
  before_of0 V (dat4 V c) (A_eq4 V c 0) (after0 V c) t d
theorem before1 (c : Dev nD) (t : Fin cfg4.N) (d) : (dat4 V c).before 1 t d = iblk V c 1 t :=
  before_of1 V (dat4 V c) (A_eq4 V c 1) (after1 V c) t d
theorem before2 (c : Dev nD) (t : Fin cfg4.N) (d) : (dat4 V c).before 2 t d = iblk V c 2 t :=
  before_of2 V (dat4 V c) (A_eq4 V c 2) (after2 V c) t d
theorem before3 (c : Dev nD) (t : Fin cfg4.N) (d) : (dat4 V c).before 3 t d = iblk V c 3 t :=
  before_of3 V (dat4 V c) (A_eq4 V c 3) (after3 V c) t d
theorem before4 (c : Dev nD) (t : Fin cfg4.N) (d) : (dat4 V c).before 4 t d = iblk V c 4 t :=
  before_of4 V (dat4 V c) (A_eq4 V c 4) (after4 V c) t d

/-! ## The body obligation, at a generic point -/

def bodyPre (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so `sound_kernel` applies; the invariant and the
    core's dues pass through unread. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before0, before1, before2, before3, before4]
  rw [show (dat4 V c).Φ t.succ = (dat4 V c).Φ t.castSucc from rfl,
    show (dat4 V c).owesAt () t.succ = (dat4 V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation4 (c : Dev nD) : BodyObligation (dat4 (F := F) V c) (defs₀ (F := F)) Variants.none () Set.univ := fun t => by
  rw [bigSep_W4, bigSep_W4]
  exact sound_body V c t

end Cert.Kernel.Reg4

end
-- ==== Proof.K.Run.lean ====
/-
  The whole run of the kernel program as printed: its entry point is three stretches of host operations, then five
  kernel regions with a stretch of host operations before each. The buffer contents at every boundary are a fold
  from the launch memory: a host stretch applies its operations, a region leaves each of its arrays at what its
  write-backs make of it and every other buffer as it found it. Each region is entered from "every unscoped buffer
  at the boundary's contents, the generator register at some state, nothing owed" and left in the same form at the
  next boundary's contents; the library's launch theorem chains the twelve segments. Every weakly fair execution then terminates
  with every unscoped buffer at the last boundary's contents; no host operation and no region writes an argument, so
  the arguments end as launched.
-/
import proofs.«176792_j62921270886524_2_alg».proof.Proof.K.Reg0
import proofs.«176792_j62921270886524_2_alg».proof.Proof.K.Reg1
import proofs.«176792_j62921270886524_2_alg».proof.Proof.K.Reg2
import proofs.«176792_j62921270886524_2_alg».proof.Proof.K.Reg3
import proofs.«176792_j62921270886524_2_alg».proof.Proof.K.Reg4
import proofs.«176792_j62921270886524_2_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first three host stretches (region 0 is entered from the third). -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves (the inputs as entered, each output's write-backs
    folded), every other buffer as entered. -/
def W4 (c : Dev nD) : Valuation τ sig (Elt F) :=
  Pipeline.withArrays spec0 c (W3 m ρ c) fun w => (Reg0.dat0 (V3 m ρ) c).arrAt w cfg0.N
theorem W4_arr (c : Dev nD) (w : Fin cfg0.W) :
    W4 m ρ c (Proc.devRef .tc (Pipeline.arrRef spec0 w)) = (Reg0.dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (Reg0.dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch that follows (region 1 is entered from it). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its arrays at what the pipeline leaves (the inputs as entered, each output's write-backs
    folded), every other buffer as entered. -/
def W6 (c : Dev nD) : Valuation τ sig (Elt F) :=
  Pipeline.withArrays spec1 c (W5 m ρ c) fun w => (Reg1.dat1 (V5 m ρ) c).arrAt w cfg1.N
theorem W6_arr (c : Dev nD) (w : Fin cfg1.W) :
    W6 m ρ c (Proc.devRef .tc (Pipeline.arrRef spec1 w)) = (Reg1.dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (Reg1.dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the host stretch that follows (region 2 is entered from it). -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At region 2's exit: its arrays at what the pipeline leaves (the inputs as entered, each output's write-backs
    folded), every other buffer as entered. -/
def W8 (c : Dev nD) : Valuation τ sig (Elt F) :=
  Pipeline.withArrays spec2 c (W7 m ρ c) fun w => (Reg2.dat2 (V7 m ρ) c).arrAt w cfg2.N
theorem W8_arr (c : Dev nD) (w : Fin cfg2.W) :
    W8 m ρ c (Proc.devRef .tc (Pipeline.arrRef spec2 w)) = (Reg2.dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (Reg2.dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After the host stretch that follows (region 3 is entered from it). -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b

/-- At region 3's exit: its arrays at what the pipeline leaves (the inputs as entered, each output's write-backs
    folded), every other buffer as entered. -/
def W10 (c : Dev nD) : Valuation τ sig (Elt F) :=
  Pipeline.withArrays spec3 c (W9 m ρ c) fun w => (Reg3.dat3 (V9 m ρ) c).arrAt w cfg3.N
theorem W10_arr (c : Dev nD) (w : Fin cfg3.W) :
    W10 m ρ c (Proc.devRef .tc (Pipeline.arrRef spec3 w)) = (Reg3.dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (Reg3.dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- After the host stretch that follows (region 4 is entered from it). -/
abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b

/-- At region 4's exit: its arrays at what the pipeline leaves (the inputs as entered, each output's write-backs
    folded), every other buffer as entered. -/
def W12 (c : Dev nD) : Valuation τ sig (Elt F) :=
  Pipeline.withArrays spec4 c (W11 m ρ c) fun w => (Reg4.dat4 (V11 m ρ) c).arrAt w cfg4.N
theorem W12_arr (c : Dev nD) (w : Fin cfg4.W) :
    W12 m ρ c (Proc.devRef .tc (Pipeline.arrRef spec4 w)) = (Reg4.dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev V12 : (c : Dev nD) → (b : Ref sig .tc) → Buf (Elt F) ((c : Thread nD τ).loc b) := fun c b => W12 m ρ c b
theorem hF4 (c : Dev nD) (w : Fin cfg4.W) : (Reg4.dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)

/-! ## The arguments end as launched

No host operation and no region writes an argument (a region reads `main_arg0` through an input window; the others it
bypasses), so the fold at an argument's buffer walks back to the launch memory. -/
theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of_ne m ρ c main_arg0 (by decide)
    _ = W10 m ρ c (Proc.devRef .tc main_arg0) := StableHlo.after_of_writes_sub hostOps4 _ hostOps4_writes (by decide)
    _ = W9 m ρ c (Proc.devRef .tc main_arg0) := W10_of_ne m ρ c main_arg0 (by decide)
    _ = W8 m ρ c (Proc.devRef .tc main_arg0) := StableHlo.after_of_writes_sub hostOps3 _ hostOps3_writes (by decide)
    _ = W7 m ρ c (Proc.devRef .tc main_arg0) := (W8_arr m ρ c 0).trans (((Reg2.dat2 (V7 m ρ) c).arrAt_in 0 rfl _).trans (Reg2.A_eq2 (V7 m ρ) c 0))
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := (W4_arr m ρ c 0).trans (((Reg0.dat0 (V3 m ρ) c).arrAt_in 0 rfl _).trans (Reg0.A_eq0 (V3 m ρ) c 0))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := StableHlo.after_of_writes_sub hostOps4 _ hostOps4_writes (by decide)
    _ = W9 m ρ c (Proc.devRef .tc main_arg1) := W10_of_ne m ρ c main_arg1 (by decide)
    _ = W8 m ρ c (Proc.devRef .tc main_arg1) := StableHlo.after_of_writes_sub hostOps3 _ hostOps3_writes (by decide)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_writes_sub hostOps4 _ hostOps4_writes (by decide)
    _ = W9 m ρ c (Proc.devRef .tc main_arg2) := W10_of_ne m ρ c main_arg2 (by decide)
    _ = W8 m ρ c (Proc.devRef .tc main_arg2) := StableHlo.after_of_writes_sub hostOps3 _ hostOps3_writes (by decide)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := StableHlo.after_of_writes_sub hostOps4 _ hostOps4_writes (by decide)
    _ = W9 m ρ c (Proc.devRef .tc main_arg3) := W10_of_ne m ρ c main_arg3 (by decide)
    _ = W8 m ρ c (Proc.devRef .tc main_arg3) := StableHlo.after_of_writes_sub hostOps3 _ hostOps3_writes (by decide)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := StableHlo.after_of_writes_sub hostOps4 _ hostOps4_writes (by decide)
    _ = W9 m ρ c (Proc.devRef .tc main_arg4) := W10_of_ne m ρ c main_arg4 (by decide)
    _ = W8 m ρ c (Proc.devRef .tc main_arg4) := StableHlo.after_of_writes_sub hostOps3 _ hostOps3_writes (by decide)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := StableHlo.after_of_writes_sub hostOps4 _ hostOps4_writes (by decide)
    _ = W9 m ρ c (Proc.devRef .tc main_arg5) := W10_of_ne m ρ c main_arg5 (by decide)
    _ = W8 m ρ c (Proc.devRef .tc main_arg5) := StableHlo.after_of_writes_sub hostOps3 _ hostOps3_writes (by decide)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
theorem W12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := StableHlo.after_of_writes_sub hostOps4 _ hostOps4_writes (by decide)
    _ = W9 m ρ c (Proc.devRef .tc main_arg6) := W10_of_ne m ρ c main_arg6 (by decide)
    _ = W8 m ρ c (Proc.devRef .tc main_arg6) := StableHlo.after_of_writes_sub hostOps3 _ hostOps3_writes (by decide)
    _ = W7 m ρ c (Proc.devRef .tc main_arg6) := W8_of_ne m ρ c main_arg6 (by decide)
    _ = W6 m ρ c (Proc.devRef .tc main_arg6) := StableHlo.after_of_writes_sub hostOps2 _ hostOps2_writes (by decide)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := StableHlo.after_of_writes_sub hostOps4 _ hostOps4_writes (by decide)
    _ = W9 m ρ c (Proc.devRef .tc main_arg7) := W10_of_ne m ρ c main_arg7 (by decide)
    _ = W8 m ρ c (Proc.devRef .tc main_arg7) := StableHlo.after_of_writes_sub hostOps3 _ hostOps3_writes (by decide)
    _ = W7 m ρ c (Proc.devRef .tc main_arg7) := W8_of_ne m ρ c main_arg7 (by decide)
    _ = W6 m ρ c (Proc.devRef .tc main_arg7) := StableHlo.after_of_writes_sub hostOps2 _ hostOps2_writes (by decide)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl
theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := StableHlo.after_of_writes_sub hostOps4 _ hostOps4_writes (by decide)
    _ = W9 m ρ c (Proc.devRef .tc main_arg8) := W10_of_ne m ρ c main_arg8 (by decide)
    _ = W8 m ρ c (Proc.devRef .tc main_arg8) := StableHlo.after_of_writes_sub hostOps3 _ hostOps3_writes (by decide)
    _ = W7 m ρ c (Proc.devRef .tc main_arg8) := W8_of_ne m ρ c main_arg8 (by decide)
    _ = W6 m ρ c (Proc.devRef .tc main_arg8) := StableHlo.after_of_writes_sub hostOps2 _ hostOps2_writes (by decide)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl
theorem W12_main_arg9 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := StableHlo.after_of_writes_sub hostOps4 _ hostOps4_writes (by decide)
    _ = W9 m ρ c (Proc.devRef .tc main_arg9) := W10_of_ne m ρ c main_arg9 (by decide)
    _ = W8 m ρ c (Proc.devRef .tc main_arg9) := StableHlo.after_of_writes_sub hostOps3 _ hostOps3_writes (by decide)
    _ = W7 m ρ c (Proc.devRef .tc main_arg9) := W8_of_ne m ρ c main_arg9 (by decide)
    _ = W6 m ρ c (Proc.devRef .tc main_arg9) := StableHlo.after_of_writes_sub hostOps2 _ hostOps2_writes (by decide)
    _ = W5 m ρ c (Proc.devRef .tc main_arg9) := W6_of_ne m ρ c main_arg9 (by decide)
    _ = W4 m ρ c (Proc.devRef .tc main_arg9) := StableHlo.after_of_writes_sub hostOps1 _ hostOps1_writes (by decide)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl
theorem W12_main_arg10 (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := StableHlo.after_of_writes_sub hostOps4 _ hostOps4_writes (by decide)
    _ = W9 m ρ c (Proc.devRef .tc main_arg10) := W10_of_ne m ρ c main_arg10 (by decide)
    _ = W8 m ρ c (Proc.devRef .tc main_arg10) := StableHlo.after_of_writes_sub hostOps3 _ hostOps3_writes (by decide)
    _ = W7 m ρ c (Proc.devRef .tc main_arg10) := W8_of_ne m ρ c main_arg10 (by decide)
    _ = W6 m ρ c (Proc.devRef .tc main_arg10) := StableHlo.after_of_writes_sub hostOps2 _ hostOps2_writes (by decide)
    _ = W5 m ρ c (Proc.devRef .tc main_arg10) := W6_of_ne m ρ c main_arg10 (by decide)
    _ = W4 m ρ c (Proc.devRef .tc main_arg10) := StableHlo.after_of_writes_sub hostOps1 _ hostOps1_writes (by decide)
    _ = W3 m ρ c (Proc.devRef .tc main_arg10) := W4_of_ne m ρ c main_arg10 (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl
theorem W12_main_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := StableHlo.after_of_writes_sub hostOps4 _ hostOps4_writes (by decide)
    _ = W9 m ρ c (Proc.devRef .tc main_arg11) := W10_of_ne m ρ c main_arg11 (by decide)
    _ = W8 m ρ c (Proc.devRef .tc main_arg11) := StableHlo.after_of_writes_sub hostOps3 _ hostOps3_writes (by decide)
    _ = W7 m ρ c (Proc.devRef .tc main_arg11) := W8_of_ne m ρ c main_arg11 (by decide)
    _ = W6 m ρ c (Proc.devRef .tc main_arg11) := StableHlo.after_of_writes_sub hostOps2 _ hostOps2_writes (by decide)
    _ = W5 m ρ c (Proc.devRef .tc main_arg11) := W6_of_ne m ρ c main_arg11 (by decide)
    _ = W4 m ρ c (Proc.devRef .tc main_arg11) := StableHlo.after_of_writes_sub hostOps1 _ hostOps1_writes (by decide)
    _ = W3 m ρ c (Proc.devRef .tc main_arg11) := W4_of_ne m ρ c main_arg11 (by decide)
    _ = W2 m ρ c (Proc.devRef .tc main_arg11) := StableHlo.after_of_writes_sub hostOps0_2 _ hostOps0_2_writes (by decide)
    _ = W1 m ρ c (Proc.devRef .tc main_arg11) := StableHlo.after_of_writes_sub hostOps0_1 _ hostOps0_1_writes (by decide)
    _ = W0 m ρ c (Proc.devRef .tc main_arg11) := StableHlo.after_of_writes_sub hostOps0 _ hostOps0_writes (by decide)
    _ = m ((c : Thread nD τ).loc main_arg11) := rfl
theorem W12_main_arg12 (c : Dev nD) : W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = W10 m ρ c (Proc.devRef .tc main_arg12) := StableHlo.after_of_writes_sub hostOps4 _ hostOps4_writes (by decide)
    _ = W9 m ρ c (Proc.devRef .tc main_arg12) := W10_of_ne m ρ c main_arg12 (by decide)
    _ = W8 m ρ c (Proc.devRef .tc main_arg12) := StableHlo.after_of_writes_sub hostOps3 _ hostOps3_writes (by decide)
    _ = W7 m ρ c (Proc.devRef .tc main_arg12) := W8_of_ne m ρ c main_arg12 (by decide)
    _ = W6 m ρ c (Proc.devRef .tc main_arg12) := StableHlo.after_of_writes_sub hostOps2 _ hostOps2_writes (by decide)
    _ = W5 m ρ c (Proc.devRef .tc main_arg12) := W6_of_ne m ρ c main_arg12 (by decide)
    _ = W4 m ρ c (Proc.devRef .tc main_arg12) := StableHlo.after_of_writes_sub hostOps1 _ hostOps1_writes (by decide)
    _ = W3 m ρ c (Proc.devRef .tc main_arg12) := W4_of_ne m ρ c main_arg12 (by decide)
    _ = W2 m ρ c (Proc.devRef .tc main_arg12) := StableHlo.after_of_writes_sub hostOps0_2 _ hostOps0_2_writes (by decide)
    _ = W1 m ρ c (Proc.devRef .tc main_arg12) := StableHlo.after_of_writes_sub hostOps0_1 _ hostOps0_1_writes (by decide)
    _ = W0 m ρ c (Proc.devRef .tc main_arg12) := StableHlo.after_of_writes_sub hostOps0 _ hostOps0_writes (by decide)
    _ = m ((c : Thread nD τ).loc main_arg12) := rfl
theorem W12_main_arg13 (c : Dev nD) : W12 m ρ c (Proc.devRef .tc main_arg13) = m ((c : Thread nD τ).loc main_arg13) :=
  calc W12 m ρ c (Proc.devRef .tc main_arg13)
    _ = W11 m ρ c (Proc.devRef .tc main_arg13) := W12_of_ne m ρ c main_arg13 (by decide)
    _ = W10 m ρ c (Proc.devRef .tc main_arg13) := StableHlo.after_of_writes_sub hostOps4 _ hostOps4_writes (by decide)
    _ = W9 m ρ c (Proc.devRef .tc main_arg13) := W10_of_ne m ρ c main_arg13 (by decide)
    _ = W8 m ρ c (Proc.devRef .tc main_arg13) := StableHlo.after_of_writes_sub hostOps3 _ hostOps3_writes (by decide)
    _ = W7 m ρ c (Proc.devRef .tc main_arg13) := W8_of_ne m ρ c main_arg13 (by decide)
    _ = W6 m ρ c (Proc.devRef .tc main_arg13) := StableHlo.after_of_writes_sub hostOps2 _ hostOps2_writes (by decide)
    _ = W5 m ρ c (Proc.devRef .tc main_arg13) := W6_of_ne m ρ c main_arg13 (by decide)
    _ = W4 m ρ c (Proc.devRef .tc main_arg13) := StableHlo.after_of_writes_sub hostOps1 _ hostOps1_writes (by decide)
    _ = W3 m ρ c (Proc.devRef .tc main_arg13) := W4_of_ne m ρ c main_arg13 (by decide)
    _ = W2 m ρ c (Proc.devRef .tc main_arg13) := StableHlo.after_of_writes_sub hostOps0_2 _ hostOps0_2_writes (by decide)
    _ = W1 m ρ c (Proc.devRef .tc main_arg13) := StableHlo.after_of_writes_sub hostOps0_1 _ hostOps0_1_writes (by decide)
    _ = W0 m ρ c (Proc.devRef .tc main_arg13) := StableHlo.after_of_writes_sub hostOps0 _ hostOps0_writes (by decide)
    _ = m ((c : Thread nD τ).loc main_arg13) := rfl
theorem W12_main_arg14 (c : Dev nD) : W12 m ρ c (Proc.devRef .tc main_arg14) = m ((c : Thread nD τ).loc main_arg14) :=
  calc W12 m ρ c (Proc.devRef .tc main_arg14)
    _ = W11 m ρ c (Proc.devRef .tc main_arg14) := W12_of_ne m ρ c main_arg14 (by decide)
    _ = W10 m ρ c (Proc.devRef .tc main_arg14) := StableHlo.after_of_writes_sub hostOps4 _ hostOps4_writes (by decide)
    _ = W9 m ρ c (Proc.devRef .tc main_arg14) := W10_of_ne m ρ c main_arg14 (by decide)
    _ = W8 m ρ c (Proc.devRef .tc main_arg14) := StableHlo.after_of_writes_sub hostOps3 _ hostOps3_writes (by decide)
    _ = W7 m ρ c (Proc.devRef .tc main_arg14) := W8_of_ne m ρ c main_arg14 (by decide)
    _ = W6 m ρ c (Proc.devRef .tc main_arg14) := StableHlo.after_of_writes_sub hostOps2 _ hostOps2_writes (by decide)
    _ = W5 m ρ c (Proc.devRef .tc main_arg14) := W6_of_ne m ρ c main_arg14 (by decide)
    _ = W4 m ρ c (Proc.devRef .tc main_arg14) := StableHlo.after_of_writes_sub hostOps1 _ hostOps1_writes (by decide)
    _ = W3 m ρ c (Proc.devRef .tc main_arg14) := W4_of_ne m ρ c main_arg14 (by decide)
    _ = W2 m ρ c (Proc.devRef .tc main_arg14) := StableHlo.after_of_writes_sub hostOps0_2 _ hostOps0_2_writes (by decide)
    _ = W1 m ρ c (Proc.devRef .tc main_arg14) := StableHlo.after_of_writes_sub hostOps0_1 _ hostOps0_1_writes (by decide)
    _ = W0 m ρ c (Proc.devRef .tc main_arg14) := StableHlo.after_of_writes_sub hostOps0 _ hostOps0_writes (by decide)
    _ = m ((c : Thread nD τ).loc main_arg14) := rfl
theorem W12_main_arg15 (c : Dev nD) : W12 m ρ c (Proc.devRef .tc main_arg15) = m ((c : Thread nD τ).loc main_arg15) :=
  calc W12 m ρ c (Proc.devRef .tc main_arg15)
    _ = W11 m ρ c (Proc.devRef .tc main_arg15) := W12_of_ne m ρ c main_arg15 (by decide)
    _ = W10 m ρ c (Proc.devRef .tc main_arg15) := StableHlo.after_of_writes_sub hostOps4 _ hostOps4_writes (by decide)
    _ = W9 m ρ c (Proc.devRef .tc main_arg15) := W10_of_ne m ρ c main_arg15 (by decide)
    _ = W8 m ρ c (Proc.devRef .tc main_arg15) := StableHlo.after_of_writes_sub hostOps3 _ hostOps3_writes (by decide)
    _ = W7 m ρ c (Proc.devRef .tc main_arg15) := W8_of_ne m ρ c main_arg15 (by decide)
    _ = W6 m ρ c (Proc.devRef .tc main_arg15) := StableHlo.after_of_writes_sub hostOps2 _ hostOps2_writes (by decide)
    _ = W5 m ρ c (Proc.devRef .tc main_arg15) := W6_of_ne m ρ c main_arg15 (by decide)
    _ = W4 m ρ c (Proc.devRef .tc main_arg15) := StableHlo.after_of_writes_sub hostOps1 _ hostOps1_writes (by decide)
    _ = W3 m ρ c (Proc.devRef .tc main_arg15) := W4_of_ne m ρ c main_arg15 (by decide)
    _ = W2 m ρ c (Proc.devRef .tc main_arg15) := StableHlo.after_of_writes_sub hostOps0_2 _ hostOps0_2_writes (by decide)
    _ = W1 m ρ c (Proc.devRef .tc main_arg15) := StableHlo.after_of_writes_sub hostOps0_1 _ hostOps0_1_writes (by decide)
    _ = W0 m ρ c (Proc.devRef .tc main_arg15) := StableHlo.after_of_writes_sub hostOps0 _ hostOps0_writes (by decide)
    _ = m ((c : Thread nD τ).loc main_arg15) := rfl

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => Reg0.dat0 (V3 m ρ) c
  | ⟨1, _⟩ => fun c => Reg1.dat1 (V5 m ρ) c
  | ⟨2, _⟩ => fun c => Reg2.dat2 (V7 m ρ) c
  | ⟨3, _⟩ => fun c => Reg3.dat3 (V9 m ρ) c
  | ⟨4, _⟩ => fun c => Reg4.dat4 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0 over the thread state: entered from every unscoped buffer at its entry contents, left at its exit
    contents. Its arrays are split out of the unscoped buffers and put back at the exit contents; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit
    contents. Its arrays are split out of the unscoped buffers and put back at the exit contents; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit
    contents. Its arrays are split out of the unscoped buffers and put back at the exit contents; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at its entry contents, left at its exit
    contents. Its arrays are split out of the unscoped buffers and put back at the exit contents; the generator
    register goes into the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Reg3.body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (Reg3.dat3 (V9 m ρ) c).Φ 0 from rfl]
    iintro ⟨Hp, -, Hr⟩
    iapply (Reg3.hin3 (V9 m ρ) c)
    unfold Pipeline.ΦA
    isplitl [Hr]; · iexact Hr
    iexact Hp
  hout c := by
    rw [Pipeline.ownSems0_none]
    have ho : (pdats m ρ 3 c).Φ (Fin.last _) ⊢ (iprop(Pipeline.scopedRest spec3 c ∗ ∃ r, prngReg c r) : sProp 𝕄) :=
      Reg3.hout3 (V9 m ρ) c
    iintro H1
    ihave H := ho $$ H1
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at its entry contents, left at its exit
    contents. Its arrays are split out of the unscoped buffers and put back at the exit contents; the generator
    register goes into the region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Reg4.body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry point as segments, and the launch -/

/-- The entry point's twelve segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ) ]

/-- The entry point is the run of the segments. -/
theorem main_run (c : Dev nD) : main (F := F) c = Pipeline.Seg.run (segs m ρ) := (main_chain c).trans (by chain_rfl)

set_option backward.isDefEq.respectTransparency.types false in
/-- THE RUN: from any memory with zero counters every weakly fair execution of the entry point terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c),
    (h c _ (mem_uc main_arg11 (by decide))).trans (W12_main_arg11 m ρ c),
    (h c _ (mem_uc main_arg12 (by decide))).trans (W12_main_arg12 m ρ c),
    (h c _ (mem_uc main_arg13 (by decide))).trans (W12_main_arg13 m ρ c),
    (h c _ (mem_uc main_arg14 (by decide))).trans (W12_main_arg14 m ρ c),
    (h c _ (mem_uc main_arg15 (by decide))).trans (W12_main_arg15 m ρ c)⟩) (run_all m ρ)

end Cert.Kernel.Run

end
-- ==== Proof.KI.Reg0.lean ====
/-
  Region 0 of the idealized kernel program: one Chebyshev layer `relu (x · W₀ + T₁x · W₁ + b)` on a block of 2000 rows.
  The pipeline walks the 50000 rows in 25 blocks; at each block the body reads the block of `x` and of `T₁x`
  (2000×128 each), the two whole weight matrices (128×300) and the bias row (1×300), and stores the 2000×300 result
  block whole. Stated here, at any contents `V` of the buffers when the region is entered: what each window's staging
  buffer holds at a grid point, the body's Hoare triple (run symbolically), the proof data of the pipeline and the
  body obligation at a generic grid point.
-/
import proofs.«176792_j62921270886524_2_alg».proof.Proof.Gen.KernelIdeal.Launch
import proofs.«176792_j62921270886524_2_alg».proof.Proof.Gen.KernelIdeal.Skeleton
import proofs.«176792_j62921270886524_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: the two row blocks move
    with the point, the weights and the bias are fetched once and their block index never moves. -/
theorem before_of0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of4 {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! The rectangles the body reads and writes: every buffer whole. -/
abbrev rRow : Rect S2000x128 := Rect.unit (s := S2000x128) ![0, 0] S2000x128.size inb_S2000x128_S2000x128_0_0
abbrev rW : Rect S128x300 := Rect.unit (s := S128x300) ![0, 0] S128x300.size inb_S128x300_S128x300_0_0
abbrev rB : Rect S1x300 := Rect.unit (s := S1x300) ![0, 0] S1x300.size inb_S1x300_S1x300_0_0
abbrev rOut : Rect S2000x300 := Rect.unit (s := S2000x300) ![0, 0] S2000x300.size inb_S2000x300_S2000x300_0_0

/-- The result block after the body, from the five input blocks: its one store. -/
def out5 (x0 x1 : Vec F S2000x128 .f32) (x2 x3 : Vec F S128x300 .f32) (x4 : Vec F S1x300 .f32) : Vec F S2000x300 .f32 :=
  View.canon [⟨rOut, k0_pay1 (View.ld x0 rRow) (View.ld x1 rRow) (View.ld x2 rW) (View.ld x3 rW) (View.ld x4 rB)⟩]

/-- The one store covers the result block. -/
theorem cover5 (p0 : Vec F S2000x300 .f32) (y : S2000x300.Idx) :
    ∃ pc ∈ ([⟨rOut, p0⟩] : List (View.Piece (Elt F) S2000x300 .f32)), y ∈ pc.1.set :=
  View.cover_of_tiled [⟨rOut, p0⟩] S2000x300.size (by rfl) y

set_option maxHeartbeats 4000000 in
/-- The body on whole staging buffers, the inputs' at given contents and the output's at anything, runs to its return
    with the inputs as they were and the output at `out5` of the inputs. -/
theorem sound_kernel (c : Dev nD) (E : Set ℕ)
    (a0 : Memref sig .tc .vmem S2000x128 .f32) (h0 : a0.IsWhole) (a1 : Memref sig .tc .vmem S2000x128 .f32) (h1 : a1.IsWhole)
    (a2 : Memref sig .tc .vmem S128x300 .f32) (h2 : a2.IsWhole) (a3 : Memref sig .tc .vmem S128x300 .f32) (h3 : a3.IsWhole)
    (a4 : Memref sig .tc .vmem S1x300 .f32) (h4 : a4.IsWhole) (a5 : Memref sig .tc .vmem S2000x300 .f32) (h5 : a5.IsWhole)
    (i : grid0.Coords)
    (x0 x1 : Vec F S2000x128 .f32) (x2 x3 : Vec F S128x300 .f32) (x4 : Vec F S1x300 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out5 x0 x1 x2 x3 x4)) -∗ K ⟨⟩))
      ⊢ wp frame (wpE (defs₀ (F := F)) Variants.none c none) E (cc0_kernel i a0 h0 a1 h1 a2 h2 a3 h3 a4 h4 a5 h5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of this pipeline on core `c`: the arrays as the region finds them; after the body at point `t` each
    input's buffer at its block and the output's at `out5` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = iblk V c 3 t := by dsimp only [dat0]
theorem after4 (c : Dev nD) (t : Fin cfg0.N) : (dat0 V c).after 4 t = iblk V c 4 t := by dsimp only [dat0]
theorem after5 (c : Dev nD) (t : Fin cfg0.N) :
    (dat0 V c).after 5 t = out5 (iblk V c 0 t) (iblk V c 1 t) (iblk V c 2 t) (iblk V c 3 t) (iblk V c 4 t) := by dsimp only [dat0]

theorem before0 (c : Dev nD) (t : Fin cfg0.N) (d) : (dat0 V c).before 0 t d = iblk V c 0 t :=
  before_of0 V (dat0 V c) (A_eq0 V c 0) (after0 V c) t d
theorem before1 (c : Dev nD) (t : Fin cfg0.N) (d) : (dat0 V c).before 1 t d = iblk V c 1 t :=
  before_of1 V (dat0 V c) (A_eq0 V c 1) (after1 V c) t d
theorem before2 (c : Dev nD) (t : Fin cfg0.N) (d) : (dat0 V c).before 2 t d = iblk V c 2 t :=
  before_of2 V (dat0 V c) (A_eq0 V c 2) (after2 V c) t d
theorem before3 (c : Dev nD) (t : Fin cfg0.N) (d) : (dat0 V c).before 3 t d = iblk V c 3 t :=
  before_of3 V (dat0 V c) (A_eq0 V c 3) (after3 V c) t d
theorem before4 (c : Dev nD) (t : Fin cfg0.N) (d) : (dat0 V c).before 4 t d = iblk V c 4 t :=
  before_of4 V (dat0 V c) (A_eq0 V c 4) (after4 V c) t d

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4]
  rw [show (dat0 V c).Φ t.succ = (dat0 V c).Φ t.castSucc from rfl,
    show (dat0 V c).owesAt () t.succ = (dat0 V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation0 (c : Dev nD) : BodyObligation (dat0 (F := F) V c) (defs₀ (F := F)) Variants.none () Set.univ := fun t => by
  rw [bigSep_W0, bigSep_W0]
  exact sound_body V c t

end Cert.KernelIdeal.Reg0

end
-- ==== Proof.KI.Reg1.lean ====
/-
  Region 1 of the idealized kernel program: the second Chebyshev layer `relu (h · W₀ + T₁h · W₁ + b)` on a block of
  2000 rows. The pipeline walks the 50000 rows in 25 blocks; at each block the body reads the block of `h` and of
  `T₁h` (2000×300 each), the two whole weight matrices (300×100) and the bias row (1×100), and stores the 2000×100
  result block whole. Stated here, at any contents `V` of the buffers when the region is entered: what each window's
  staging buffer holds at a grid point, the body's Hoare triple (run symbolically), the proof data of the pipeline and
  the body obligation at a generic grid point.
-/
import proofs.«176792_j62921270886524_2_alg».proof.Proof.Gen.KernelIdeal.Launch
import proofs.«176792_j62921270886524_2_alg».proof.Proof.Gen.KernelIdeal.Skeleton
import proofs.«176792_j62921270886524_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not: the two row blocks move
    with the point, the weights and the bias are fetched once and their block index never moves. -/
theorem before_of0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! The rectangles the body reads and writes: every buffer whole. -/
abbrev rRow : Rect S2000x300 := Rect.unit (s := S2000x300) ![0, 0] S2000x300.size inb_S2000x300_S2000x300_0_0
abbrev rW : Rect S300x100 := Rect.unit (s := S300x100) ![0, 0] S300x100.size inb_S300x100_S300x100_0_0
abbrev rB : Rect S1x100 := Rect.unit (s := S1x100) ![0, 0] S1x100.size inb_S1x100_S1x100_0_0
abbrev rOut : Rect S2000x100 := Rect.unit (s := S2000x100) ![0, 0] S2000x100.size inb_S2000x100_S2000x100_0_0

/-- The result block after the body, from the five input blocks: its one store. -/
def out5 (x0 x1 : Vec F S2000x300 .f32) (x2 x3 : Vec F S300x100 .f32) (x4 : Vec F S1x100 .f32) : Vec F S2000x100 .f32 :=
  View.canon [⟨rOut, k1_pay1 (View.ld x0 rRow) (View.ld x1 rRow) (View.ld x2 rW) (View.ld x3 rW) (View.ld x4 rB)⟩]

/-- The one store covers the result block. -/
theorem cover5 (p0 : Vec F S2000x100 .f32) (y : S2000x100.Idx) :
    ∃ pc ∈ ([⟨rOut, p0⟩] : List (View.Piece (Elt F) S2000x100 .f32)), y ∈ pc.1.set :=
  View.cover_of_tiled [⟨rOut, p0⟩] S2000x100.size (by rfl) y

set_option maxHeartbeats 4000000 in
/-- The body on whole staging buffers, the inputs' at given contents and the output's at anything, runs to its return
    with the inputs as they were and the output at `out5` of the inputs. -/
theorem sound_kernel (c : Dev nD) (E : Set ℕ)
    (a0 : Memref sig .tc .vmem S2000x300 .f32) (h0 : a0.IsWhole) (a1 : Memref sig .tc .vmem S2000x300 .f32) (h1 : a1.IsWhole)
    (a2 : Memref sig .tc .vmem S300x100 .f32) (h2 : a2.IsWhole) (a3 : Memref sig .tc .vmem S300x100 .f32) (h3 : a3.IsWhole)
    (a4 : Memref sig .tc .vmem S1x100 .f32) (h4 : a4.IsWhole) (a5 : Memref sig .tc .vmem S2000x100 .f32) (h5 : a5.IsWhole)
    (i : grid1.Coords)
    (x0 x1 : Vec F S2000x300 .f32) (x2 x3 : Vec F S300x100 .f32) (x4 : Vec F S1x100 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out5 x0 x1 x2 x3 x4)) -∗ K ⟨⟩))
      ⊢ wp frame (wpE (defs₀ (F := F)) Variants.none c none) E (cc1_kernel i a0 h0 a1 h1 a2 h2 a3 h3 a4 h4 a5 h5) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of this pipeline on core `c`: the arrays as the region finds them; after the body at point `t` each
    input's buffer at its block and the output's at `out5` of the input blocks; the invariant the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after0 (c : Dev nD) (t : Fin cfg1.N) : (dat1 V c).after 0 t = iblk V c 0 t := by dsimp only [dat1]
theorem after1 (c : Dev nD) (t : Fin cfg1.N) : (dat1 V c).after 1 t = iblk V c 1 t := by dsimp only [dat1]
theorem after2 (c : Dev nD) (t : Fin cfg1.N) : (dat1 V c).after 2 t = iblk V c 2 t := by dsimp only [dat1]
theorem after3 (c : Dev nD) (t : Fin cfg1.N) : (dat1 V c).after 3 t = iblk V c 3 t := by dsimp only [dat1]
theorem after4 (c : Dev nD) (t : Fin cfg1.N) : (dat1 V c).after 4 t = iblk V c 4 t := by dsimp only [dat1]
theorem after5 (c : Dev nD) (t : Fin cfg1.N) :
    (dat1 V c).after 5 t = out5 (iblk V c 0 t) (iblk V c 1 t) (iblk V c 2 t) (iblk V c 3 t) (iblk V c 4 t) := by dsimp only [dat1]

theorem before0 (c : Dev nD) (t : Fin cfg1.N) (d) : (dat1 V c).before 0 t d = iblk V c 0 t :=
  before_of0 V (dat1 V c) (A_eq1 V c 0) (after0 V c) t d
theorem before1 (c : Dev nD) (t : Fin cfg1.N) (d) : (dat1 V c).before 1 t d = iblk V c 1 t :=
  before_of1 V (dat1 V c) (A_eq1 V c 1) (after1 V c) t d
theorem before2 (c : Dev nD) (t : Fin cfg1.N) (d) : (dat1 V c).before 2 t d = iblk V c 2 t :=
  before_of2 V (dat1 V c) (A_eq1 V c 2) (after2 V c) t d
theorem before3 (c : Dev nD) (t : Fin cfg1.N) (d) : (dat1 V c).before 3 t d = iblk V c 3 t :=
  before_of3 V (dat1 V c) (A_eq1 V c 3) (after3 V c) t d
theorem before4 (c : Dev nD) (t : Fin cfg1.N) (d) : (dat1 V c).before 4 t d = iblk V c 4 t :=
  before_of4 V (dat1 V c) (A_eq1 V c 4) (after4 V c) t d

/-! ## The body obligation, at a generic point -/

def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4]
  rw [show (dat1 V c).Φ t.succ = (dat1 V c).Φ t.castSucc from rfl,
    show (dat1 V c).owesAt () t.succ = (dat1 V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation1 (c : Dev nD) : BodyObligation (dat1 (F := F) V c) (defs₀ (F := F)) Variants.none () Set.univ := fun t => by
  rw [bigSep_W1, bigSep_W1]
  exact sound_body V c t

end Cert.KernelIdeal.Reg1

end
-- ==== Proof.KI.Reg2.lean ====
/-
  Region 2 of the idealized kernel program: the two linear heads on a block of 2000 rows,
  `x₂ = x₁ + relu (x₀ · A₁ + b₁)` and `z = x₁ + relu (x₀ · A₂ + b₂)` (`A₁`, `A₂` the transposed weights, 128×100).
  The pipeline walks the 50000 rows in 25 blocks; at each block the body reads the block of `x₀` (2000×128) and of
  `x₁` (2000×100), the two weight matrices and the two bias rows (1×100), and stores the two 2000×100 result blocks
  whole. Stated here, at any contents `V` of the buffers when the region is entered: what each window's staging buffer
  holds at a grid point, the body's Hoare triple (run symbolically), the proof data of the pipeline and the body
  obligation at a generic grid point.
-/
import proofs.«176792_j62921270886524_2_alg».proof.Proof.Gen.KernelIdeal.Launch
import proofs.«176792_j62921270886524_2_alg».proof.Proof.Gen.KernelIdeal.Skeleton
import proofs.«176792_j62921270886524_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds its block at every point, fetched there or not: the two row blocks move
    with the point, the weights and the biases are fetched once and their block index never moves. -/
theorem before_of0 {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of4 {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_of5 {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! The rectangles the body reads and writes: every buffer whole. -/
abbrev rX : Rect S2000x128 := Rect.unit (s := S2000x128) ![0, 0] S2000x128.size inb_S2000x128_S2000x128_0_0
abbrev rH : Rect S2000x100 := Rect.unit (s := S2000x100) ![0, 0] S2000x100.size inb_S2000x100_S2000x100_0_0
abbrev rW : Rect S128x100 := Rect.unit (s := S128x100) ![0, 0] S128x100.size inb_S128x100_S128x100_0_0
abbrev rB : Rect S1x100 := Rect.unit (s := S1x100) ![0, 0] S1x100.size inb_S1x100_S1x100_0_0

/-- The first result block after the body, from the input blocks: its one store. -/
def out6 (x0 : Vec F S2000x128 .f32) (x1 : Vec F S2000x100 .f32) (x2 : Vec F S128x100 .f32) (x3 : Vec F S1x100 .f32) : Vec F S2000x100 .f32 :=
  View.canon [⟨rH, k2_pay2 (View.ld x0 rX) (View.ld x2 rW) (View.ld x3 rB) (View.ld x1 rH)⟩]
/-- The second result block after the body, from the input blocks: its one store. -/
def out7 (x0 : Vec F S2000x128 .f32) (x1 : Vec F S2000x100 .f32) (x4 : Vec F S128x100 .f32) (x5 : Vec F S1x100 .f32) : Vec F S2000x100 .f32 :=
  View.canon [⟨rH, k2_pay3 (View.ld x0 rX) (View.ld x4 rW) (View.ld x5 rB) (View.ld x1 rH)⟩]

/-- One whole store covers a result block. -/
theorem coverH (p0 : Vec F S2000x100 .f32) (y : S2000x100.Idx) :
    ∃ pc ∈ ([⟨rH, p0⟩] : List (View.Piece (Elt F) S2000x100 .f32)), y ∈ pc.1.set :=
  View.cover_of_tiled [⟨rH, p0⟩] S2000x100.size (by rfl) y

set_option maxHeartbeats 4000000 in
/-- The body on whole staging buffers, the inputs' at given contents and the outputs' at anything, runs to its return
    with the inputs as they were and the outputs at `out6`, `out7` of the inputs. -/
theorem sound_kernel (c : Dev nD) (E : Set ℕ)
    (a0 : Memref sig .tc .vmem S2000x128 .f32) (h0 : a0.IsWhole) (a1 : Memref sig .tc .vmem S2000x100 .f32) (h1 : a1.IsWhole)
    (a2 : Memref sig .tc .vmem S128x100 .f32) (h2 : a2.IsWhole) (a3 : Memref sig .tc .vmem S1x100 .f32) (h3 : a3.IsWhole)
    (a4 : Memref sig .tc .vmem S128x100 .f32) (h4 : a4.IsWhole) (a5 : Memref sig .tc .vmem S1x100 .f32) (h5 : a5.IsWhole)
    (a6 : Memref sig .tc .vmem S2000x100 .f32) (h6 : a6.IsWhole) (a7 : Memref sig .tc .vmem S2000x100 .f32) (h7 : a7.IsWhole)
    (i : grid2.Coords)
    (x0 : Vec F S2000x128 .f32) (x1 : Vec F S2000x100 .f32) (x2 : Vec F S128x100 .f32) (x3 : Vec F S1x100 .f32)
    (x4 : Vec F S128x100 .f32) (x5 : Vec F S1x100 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare (out6 x0 x1 x2 x3) ∗ owns (c : Thread nD τ) a7 fullShare (out7 x0 x1 x4 x5)) -∗ K ⟨⟩))
      ⊢ wp frame (wpE (defs₀ (F := F)) Variants.none c none) E (cc2__lin_heads_kernel i a0 h0 a1 h1 a2 h2 a3 h3 a4 h4 a5 h5 a6 h6 a7 h7) K := by
  simp only [cc2__lin_heads_kernel_eq_skeleton]; unfold cc2__lin_heads_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverH _)
  iexists _; isplitr
  swap; · iexact H7
  ipureintro
  exact View.read_writes_eq_canon _ _ _ (coverH _)

/-! ## The pipeline's proof data -/

/-- The proof data of this pipeline on core `c`: the arrays as the region finds them; after the body at point `t` each
    input's buffer at its block and the outputs' at `out6`, `out7` of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => out6 (iblk V c 0 t) (iblk V c 1 t) (iblk V c 2 t) (iblk V c 3 t)
    | ⟨7, _⟩ => out7 (iblk V c 0 t) (iblk V c 1 t) (iblk V c 4 t) (iblk V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after0 (c : Dev nD) (t : Fin cfg2.N) : (dat2 V c).after 0 t = iblk V c 0 t := by dsimp only [dat2]
theorem after1 (c : Dev nD) (t : Fin cfg2.N) : (dat2 V c).after 1 t = iblk V c 1 t := by dsimp only [dat2]
theorem after2 (c : Dev nD) (t : Fin cfg2.N) : (dat2 V c).after 2 t = iblk V c 2 t := by dsimp only [dat2]
theorem after3 (c : Dev nD) (t : Fin cfg2.N) : (dat2 V c).after 3 t = iblk V c 3 t := by dsimp only [dat2]
theorem after4 (c : Dev nD) (t : Fin cfg2.N) : (dat2 V c).after 4 t = iblk V c 4 t := by dsimp only [dat2]
theorem after5 (c : Dev nD) (t : Fin cfg2.N) : (dat2 V c).after 5 t = iblk V c 5 t := by dsimp only [dat2]
theorem after6 (c : Dev nD) (t : Fin cfg2.N) :
    (dat2 V c).after 6 t = out6 (iblk V c 0 t) (iblk V c 1 t) (iblk V c 2 t) (iblk V c 3 t) := by dsimp only [dat2]
theorem after7 (c : Dev nD) (t : Fin cfg2.N) :
    (dat2 V c).after 7 t = out7 (iblk V c 0 t) (iblk V c 1 t) (iblk V c 4 t) (iblk V c 5 t) := by dsimp only [dat2]

theorem before0 (c : Dev nD) (t : Fin cfg2.N) (d) : (dat2 V c).before 0 t d = iblk V c 0 t :=
  before_of0 V (dat2 V c) (A_eq2 V c 0) (after0 V c) t d
theorem before1 (c : Dev nD) (t : Fin cfg2.N) (d) : (dat2 V c).before 1 t d = iblk V c 1 t :=
  before_of1 V (dat2 V c) (A_eq2 V c 1) (after1 V c) t d
theorem before2 (c : Dev nD) (t : Fin cfg2.N) (d) : (dat2 V c).before 2 t d = iblk V c 2 t :=
  before_of2 V (dat2 V c) (A_eq2 V c 2) (after2 V c) t d
theorem before3 (c : Dev nD) (t : Fin cfg2.N) (d) : (dat2 V c).before 3 t d = iblk V c 3 t :=
  before_of3 V (dat2 V c) (A_eq2 V c 3) (after3 V c) t d
theorem before4 (c : Dev nD) (t : Fin cfg2.N) (d) : (dat2 V c).before 4 t d = iblk V c 4 t :=
  before_of4 V (dat2 V c) (A_eq2 V c 4) (after4 V c) t d
theorem before5 (c : Dev nD) (t : Fin cfg2.N) (d) : (dat2 V c).before 5 t d = iblk V c 5 t :=
  before_of5 V (dat2 V c) (A_eq2 V c 5) (after5 V c) t d

/-! ## The body obligation, at a generic point -/

def bodyPre (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def bodyPost (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so `sound_kernel` applies; the invariant and the
    core's dues pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4, before5]
  rw [show (dat2 V c).Φ t.succ = (dat2 V c).Φ t.castSucc from rfl,
    show (dat2 V c).owesAt () t.succ = (dat2 V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation2 (c : Dev nD) : BodyObligation (dat2 (F := F) V c) (defs₀ (F := F)) Variants.none () Set.univ := fun t => by
  rw [bigSep_W2, bigSep_W2]
  exact sound_body V c t

end Cert.KernelIdeal.Reg2

end
-- ==== Proof.KI.Reg3.lean ====
/-
  Region 3 of the kernel program: the loss reduction. The pipeline walks 80 blocks of 5000 rows; at each block the
  body reads four 5000×100 blocks, adds the block's two partial sums into two 1×1 accumulators the kernel keeps
  between points (zeroed at the first point), and at the last point stores the combined, scaled sum into the 1×1
  output block, which is written back there and only there. Stated here, at any contents `V` of the buffers when the
  region is entered: the body's two conditions in closed form over the grid, where the output window is idle, the
  body run whole in each of its three cases (first, middle, last point), what the output block and the two
  accumulators hold after each point (`accAt`, by recursion on the point), the proof data of the pipeline with an
  invariant that carries the accumulators' contents from point to point, the body obligation, and the passages
  between that invariant and the one the launch hands over.
-/
import proofs.«176792_j62921270886524_2_alg».proof.Proof.Gen.KernelIdeal.Launch
import proofs.«176792_j62921270886524_2_alg».proof.Proof.Gen.KernelIdeal.Skeleton
import proofs.«176792_j62921270886524_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds its block at every point: each of the four is fetched at every point. -/
theorem before_of0 {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the grid -/

/-- The first conditional's condition: the point's coordinate is 0. -/
abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 :=
  (by decide +kernel : ∀ t : Fin grid3.N, cond3_0 (grid3.coords t) ↔ t.val = 0)

/-- The second conditional's condition: the point's coordinate is 79. -/
abbrev cond3_1 (i : grid3.Coords) : Prop := k3_cond2 i = 1#1
theorem hcond3_1 : ∀ t : Fin cfg3.N, cond3_1 (grid3.coords t) ↔ t.val = 79 :=
  (by decide +kernel : ∀ t : Fin grid3.N, cond3_1 (grid3.coords t) ↔ t.val = 79)

/-! ## Where the windows are idle -/

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
/-- Before the last point the output window is idle and not written back. -/
theorem idle3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- At the last point it is live. -/
theorem live3_4 : ∀ t : Fin cfg3.N, cond3_1 (grid3.coords t) → cfg3.idle 4 (grid3.coords t) = false := by decide +kernel

/-! ## The memrefs the body is called with -/

abbrev ms0 (t : Fin cfg3.N) : Memref sig .tc .vmem S5000x100 .f32 := win3_0.stage (cfg3.slots t 0)
abbrev hs0 (t : Fin cfg3.N) : (ms0 t).IsWhole := hstage3_0 ((cfg3.slots t 0).cast nbuf3_0)
abbrev ms1 (t : Fin cfg3.N) : Memref sig .tc .vmem S5000x100 .f32 := win3_1.stage (cfg3.slots t 1)
abbrev hs1 (t : Fin cfg3.N) : (ms1 t).IsWhole := hstage3_1 ((cfg3.slots t 1).cast nbuf3_1)
abbrev ms2 (t : Fin cfg3.N) : Memref sig .tc .vmem S5000x100 .f32 := win3_2.stage (cfg3.slots t 2)
abbrev hs2 (t : Fin cfg3.N) : (ms2 t).IsWhole := hstage3_2 ((cfg3.slots t 2).cast nbuf3_2)
abbrev ms3 (t : Fin cfg3.N) : Memref sig .tc .vmem S5000x100 .f32 := win3_3.stage (cfg3.slots t 3)
abbrev hs3 (t : Fin cfg3.N) : (ms3 t).IsWhole := hstage3_3 ((cfg3.slots t 3).cast nbuf3_3)
abbrev ms4 (t : Fin cfg3.N) : Memref sig .tc .vmem S1x1 .f32 := win3_4.stage (cfg3.slots t 4)
abbrev hs4 (t : Fin cfg3.N) : (ms4 t).IsWhole := hstage3_4 ((cfg3.slots t 4).cast nbuf3_4)
/-- The two accumulators: whole scoped buffers of the kernel's own. -/
abbrev scM0 : Memref sig .tc .vmem S1x1 .f32 := Memref.whole cc3_scratch0
abbrev scM1 : Memref sig .tc .vmem S1x1 .f32 := Memref.whole cc3_scratch1
/-- The views through which the accumulators' and the output block's contents are stated. -/
abbrev VS0 : View sig .tc .vmem S1x1 .f32 := scM0.view
abbrev VS1 : View sig .tc .vmem S1x1 .f32 := scM1.view
abbrev VO : View sig .tc .vmem S1x1 .f32 := scM0.view

/-- Every scoped buffer but the two accumulators and the staging buffers, each at some contents. -/
abbrev restBut (c : Dev nD) : sProp 𝕄 :=
  Pipeline.scopedRestBut (Ix := Unit) (Name := ℕ) (U := UR sig nD τ) (Lvl := ℕ) (Val := Elt F) spec3 c [cc3_scratch0, cc3_scratch1]

/-- The region's invariant with the two accumulators as memrefs owned at some contents. -/
theorem PhiA_eq (c : Dev nD) :
    (Pipeline.ΦA spec3 c : sProp 𝕄)
      = iprop(iprop(iprop((∃ d, owns (c : Thread nD τ) scM0 fullShare d) ∗ (∃ d, owns (c : Thread nD τ) scM1 fullShare d)) ∗ restBut (F := F) c) ∗ (∃ r, prngReg c r)) := by
  unfold Pipeline.ΦA; rw [scopedRest3_split]; simp only [scM0, scM1, owns_whole]; try rfl

/-! ## The body run whole, in each of its three cases

In each case the pieces the body's stores leave in the output block and in the two accumulators (last store first)
come with the proof that on whole memrefs — the inputs' at given contents — the body runs to its continuation with
the inputs as they were and those pieces written. -/

set_option maxHeartbeats 4000000 in
/-- The first point: both accumulators at anything; the output block handed back untouched. -/
noncomputable def kernelRun_A (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond3_0 i) (hc1 : ¬cond3_1 i)
    (x0 x1 x2 x3 : Vec F S5000x100 .f32) :
    Σ' (L4 : List (View.Piece (Elt F) S1x1 .f32)) (LS0 : List (View.Piece (Elt F) S1x1 .f32)), { LS1 : List (View.Piece (Elt F) S1x1 .f32) //
      ∀ (xi4 : Vec F S1x1 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare xi4 ∗ (∃ d, owns (c : Thread nD τ) a5 fullShare d) ∗ (∃ d, owns (c : Thread nD τ) a6 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare xi4 ∗ (∃ f, a5.view.loc (c : Thread nD τ) ↦[a5.view.set]{fullShare} a5.view.writes (Elt F) f LS0) ∗ (∃ f, a6.view.loc (c : Thread nD τ) ↦[a6.view.set]{fullShare} a6.view.writes (Elt F) f LS1)) -∗ K ⟨⟩))
          ⊢ wp frame (wpE (defs₀ (F := F)) Variants.none c none) E (cc3_kernel i a0 h0 a1 h1 a2 h2 a3 h3 a4 h4 a5 h5 a6 h6) K } := by
  refine ⟨[], ?_, ?_, fun xi4 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := h0.eq_unread hf0; obtain rfl := h1.eq_unread hf1; obtain rfl := h2.eq_unread hf2; obtain rfl := h3.eq_unread hf3; obtain rfl := h4.eq_unread hf4
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [HS0]; · iexists _; iexact HS0
    iexists _; iexact HS1

set_option maxHeartbeats 4000000 in
/-- A middle point: the accumulators at what the point before left; the output block handed back untouched. -/
noncomputable def kernelRun_B (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : ¬cond3_1 i)
    (x0 x1 x2 x3 : Vec F S5000x100 .f32) (xs0 xs1 : Vec F S1x1 .f32) :
    Σ' (L4 : List (View.Piece (Elt F) S1x1 .f32)) (LS0 : List (View.Piece (Elt F) S1x1 .f32)), { LS1 : List (View.Piece (Elt F) S1x1 .f32) //
      ∀ (xi4 : Vec F S1x1 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare xi4 ∗ owns (c : Thread nD τ) a5 fullShare xs0 ∗ owns (c : Thread nD τ) a6 fullShare xs1
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare xi4 ∗ (∃ f, a5.view.loc (c : Thread nD τ) ↦[a5.view.set]{fullShare} a5.view.writes (Elt F) f LS0) ∗ (∃ f, a6.view.loc (c : Thread nD τ) ↦[a6.view.set]{fullShare} a6.view.writes (Elt F) f LS1)) -∗ K ⟨⟩))
          ⊢ wp frame (wpE (defs₀ (F := F)) Variants.none c none) E (cc3_kernel i a0 h0 a1 h1 a2 h2 a3 h3 a4 h4 a5 h5 a6 h6) K } := by
  refine ⟨[], ?_, ?_, fun xi4 E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := h0.eq_unread hf0; obtain rfl := h1.eq_unread hf1; obtain rfl := h2.eq_unread hf2; obtain rfl := h3.eq_unread hf3; obtain rfl := h4.eq_unread hf4
    obtain rfl := h5.eq_unread hfs0; obtain rfl := h6.eq_unread hfs1
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [HS0]; · iexists _; iexact HS0
    iexists _; iexact HS1

set_option maxHeartbeats 4000000 in
/-- The last point: the accumulators at what the point before left; the output block at anything, stored whole. -/
noncomputable def kernelRun_C (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : cond3_1 i)
    (x0 x1 x2 x3 : Vec F S5000x100 .f32) (xs0 xs1 : Vec F S1x1 .f32) :
    Σ' (L4 : List (View.Piece (Elt F) S1x1 .f32)) (LS0 : List (View.Piece (Elt F) S1x1 .f32)), { LS1 : List (View.Piece (Elt F) S1x1 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d) ∗ owns (c : Thread nD τ) a5 fullShare xs0 ∗ owns (c : Thread nD τ) a6 fullShare xs1
            ∗ (iprop(owns (c : Thread nD τ) a0 fullShare x0 ∗ owns (c : Thread nD τ) a1 fullShare x1 ∗ owns (c : Thread nD τ) a2 fullShare x2 ∗ owns (c : Thread nD τ) a3 fullShare x3 ∗ (∃ f, a4.view.loc (c : Thread nD τ) ↦[a4.view.set]{fullShare} a4.view.writes (Elt F) f L4) ∗ (∃ f, a5.view.loc (c : Thread nD τ) ↦[a5.view.set]{fullShare} a5.view.writes (Elt F) f LS0) ∗ (∃ f, a6.view.loc (c : Thread nD τ) ↦[a6.view.set]{fullShare} a6.view.writes (Elt F) f LS1)) -∗ K ⟨⟩))
          ⊢ wp frame (wpE (defs₀ (F := F)) Variants.none c none) E (cc3_kernel i a0 h0 a1 h1 a2 h2 a3 h3 a4 h4 a5 h5 a6 h6) K } := by
  refine ⟨?_, ?_, ?_, fun E K => ?run⟩
  case run =>
    simp only [cc3_kernel_eq_skeleton]; unfold cc3_kernel_skel
    simp only [k3_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := h0.eq_unread hf0; obtain rfl := h1.eq_unread hf1; obtain rfl := h2.eq_unread hf2; obtain rfl := h3.eq_unread hf3
    obtain rfl := h5.eq_unread hfs0; obtain rfl := h6.eq_unread hfs1
    sl_exec (disch := first | exact hc0 | exact hc1)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    isplitl [HS0]; · iexists _; iexact HS0
    iexists _; iexact HS1

/-! ## The pieces cover: every store is of the whole 1×1 block -/

theorem scoverA0 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond3_0 i) (hc1 : ¬cond3_1 i) (x0 x1 x2 x3 : Vec F S5000x100 .f32) (y : S1x1.Idx) :
    ∃ pc ∈ (kernelRun_A c i a0 h0 a1 h1 a2 h2 a3 h3 a4 h4 a5 h5 a6 h6 hc0 hc1 x0 x1 x2 x3).2.1, y ∈ pc.1.set :=
  View.cover_of_tiledL (kernelRun_A c i a0 h0 a1 h1 a2 h2 a3 h3 a4 h4 a5 h5 a6 h6 hc0 hc1 x0 x1 x2 x3).2.1 S1x1.size (by sl_kernel_rfl) y
theorem scoverA1 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond3_0 i) (hc1 : ¬cond3_1 i) (x0 x1 x2 x3 : Vec F S5000x100 .f32) (y : S1x1.Idx) :
    ∃ pc ∈ (kernelRun_A c i a0 h0 a1 h1 a2 h2 a3 h3 a4 h4 a5 h5 a6 h6 hc0 hc1 x0 x1 x2 x3).2.2.1, y ∈ pc.1.set :=
  View.cover_of_tiledL (kernelRun_A c i a0 h0 a1 h1 a2 h2 a3 h3 a4 h4 a5 h5 a6 h6 hc0 hc1 x0 x1 x2 x3).2.2.1 S1x1.size (by sl_kernel_rfl) y
theorem scoverB0 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : ¬cond3_1 i) (x0 x1 x2 x3 : Vec F S5000x100 .f32) (xs0 xs1 : Vec F S1x1 .f32) (y : S1x1.Idx) :
    ∃ pc ∈ (kernelRun_B c i a0 h0 a1 h1 a2 h2 a3 h3 a4 h4 a5 h5 a6 h6 hc0 hc1 x0 x1 x2 x3 xs0 xs1).2.1, y ∈ pc.1.set :=
  View.cover_of_tiledL (kernelRun_B c i a0 h0 a1 h1 a2 h2 a3 h3 a4 h4 a5 h5 a6 h6 hc0 hc1 x0 x1 x2 x3 xs0 xs1).2.1 S1x1.size (by sl_kernel_rfl) y
theorem scoverB1 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : ¬cond3_1 i) (x0 x1 x2 x3 : Vec F S5000x100 .f32) (xs0 xs1 : Vec F S1x1 .f32) (y : S1x1.Idx) :
    ∃ pc ∈ (kernelRun_B c i a0 h0 a1 h1 a2 h2 a3 h3 a4 h4 a5 h5 a6 h6 hc0 hc1 x0 x1 x2 x3 xs0 xs1).2.2.1, y ∈ pc.1.set :=
  View.cover_of_tiledL (kernelRun_B c i a0 h0 a1 h1 a2 h2 a3 h3 a4 h4 a5 h5 a6 h6 hc0 hc1 x0 x1 x2 x3 xs0 xs1).2.2.1 S1x1.size (by sl_kernel_rfl) y
theorem coverC4 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : cond3_1 i) (x0 x1 x2 x3 : Vec F S5000x100 .f32) (xs0 xs1 : Vec F S1x1 .f32) (y : S1x1.Idx) :
    ∃ pc ∈ (kernelRun_C c i a0 h0 a1 h1 a2 h2 a3 h3 a4 h4 a5 h5 a6 h6 hc0 hc1 x0 x1 x2 x3 xs0 xs1).1, y ∈ pc.1.set :=
  View.cover_of_tiledL (kernelRun_C c i a0 h0 a1 h1 a2 h2 a3 h3 a4 h4 a5 h5 a6 h6 hc0 hc1 x0 x1 x2 x3 xs0 xs1).1 S1x1.size (by sl_kernel_rfl) y
theorem scoverC0 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : cond3_1 i) (x0 x1 x2 x3 : Vec F S5000x100 .f32) (xs0 xs1 : Vec F S1x1 .f32) (y : S1x1.Idx) :
    ∃ pc ∈ (kernelRun_C c i a0 h0 a1 h1 a2 h2 a3 h3 a4 h4 a5 h5 a6 h6 hc0 hc1 x0 x1 x2 x3 xs0 xs1).2.1, y ∈ pc.1.set :=
  View.cover_of_tiledL (kernelRun_C c i a0 h0 a1 h1 a2 h2 a3 h3 a4 h4 a5 h5 a6 h6 hc0 hc1 x0 x1 x2 x3 xs0 xs1).2.1 S1x1.size (by sl_kernel_rfl) y
theorem scoverC1 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : cond3_1 i) (x0 x1 x2 x3 : Vec F S5000x100 .f32) (xs0 xs1 : Vec F S1x1 .f32) (y : S1x1.Idx) :
    ∃ pc ∈ (kernelRun_C c i a0 h0 a1 h1 a2 h2 a3 h3 a4 h4 a5 h5 a6 h6 hc0 hc1 x0 x1 x2 x3 xs0 xs1).2.2.1, y ∈ pc.1.set :=
  View.cover_of_tiledL (kernelRun_C c i a0 h0 a1 h1 a2 h2 a3 h3 a4 h4 a5 h5 a6 h6 hc0 hc1 x0 x1 x2 x3 xs0 xs1).2.2.1 S1x1.size (by sl_kernel_rfl) y

/-! ## What the output block and the accumulators hold after each point -/

theorem hA0 (t : Fin cfg3.N) (h : t.val = 0) : cond3_0 (grid3.coords t) := (hcond3_0 t).mpr h
theorem hA1 (t : Fin cfg3.N) (h : t.val = 0) : ¬cond3_1 (grid3.coords t) := fun h' => by have := (hcond3_1 t).mp h'; omega
theorem hB0 (t : Fin cfg3.N) (h : t.val ≠ 0) : ¬cond3_0 (grid3.coords t) := fun h' => h ((hcond3_0 t).mp h')
theorem hB1 (t : Fin cfg3.N) (h : t.val ≠ 79) : ¬cond3_1 (grid3.coords t) := fun h' => h ((hcond3_1 t).mp h')
theorem hC0 (t : Fin cfg3.N) (h : t.val = 79) : ¬cond3_0 (grid3.coords t) := fun h' => by have := (hcond3_0 t).mp h'; omega
theorem hC1 (t : Fin cfg3.N) (h : t.val = 79) : cond3_1 (grid3.coords t) := (hcond3_1 t).mpr h

/-- The first point's run at its memrefs and input blocks. -/
abbrev runA (c : Dev nD) (t : Fin cfg3.N) (h : t.val = 0) :=
  kernelRun_A (F := F) c (grid3.coords t) (ms0 t) (hs0 t) (ms1 t) (hs1 t) (ms2 t) (hs2 t) (ms3 t) (hs3 t) (ms4 t) (hs4 t) scM0 (Memref.isWhole_whole _) scM1 (Memref.isWhole_whole _) (hA0 t h) (hA1 t h) (iblk V c 0 t) (iblk V c 1 t) (iblk V c 2 t) (iblk V c 3 t)
/-- A middle point's, over what the point before left in the accumulators. -/
abbrev runB (c : Dev nD) (t : Fin cfg3.N) (h0 : t.val ≠ 0) (h1 : t.val ≠ 79) (xs0 xs1 : Vec F S1x1 .f32) :=
  kernelRun_B (F := F) c (grid3.coords t) (ms0 t) (hs0 t) (ms1 t) (hs1 t) (ms2 t) (hs2 t) (ms3 t) (hs3 t) (ms4 t) (hs4 t) scM0 (Memref.isWhole_whole _) scM1 (Memref.isWhole_whole _) (hB0 t h0) (hB1 t h1) (iblk V c 0 t) (iblk V c 1 t) (iblk V c 2 t) (iblk V c 3 t) xs0 xs1
/-- The last point's. -/
abbrev runC (c : Dev nD) (t : Fin cfg3.N) (h : t.val = 79) (xs0 xs1 : Vec F S1x1 .f32) :=
  kernelRun_C (F := F) c (grid3.coords t) (ms0 t) (hs0 t) (ms1 t) (hs1 t) (ms2 t) (hs2 t) (ms3 t) (hs3 t) (ms4 t) (hs4 t) scM0 (Memref.isWhole_whole _) scM1 (Memref.isWhole_whole _) (hC0 t h) (hC1 t h) (iblk V c 0 t) (iblk V c 1 t) (iblk V c 2 t) (iblk V c 3 t) xs0 xs1

/-- The pieces read back: (output block, first accumulator, second accumulator). Where the case stores nothing into
    the output block the first component is a placeholder nothing consults. -/
def resA (c : Dev nD) (t : Fin cfg3.N) (h : t.val = 0) : Vec F S1x1 .f32 × Vec F S1x1 .f32 × Vec F S1x1 .f32 :=
  (VO.read (Elt F) (VO.writes (Elt F) VO.junk (runA V c t h).1),
   VS0.read (Elt F) (VS0.writes (Elt F) VS0.junk (runA V c t h).2.1),
   VS1.read (Elt F) (VS1.writes (Elt F) VS1.junk (runA V c t h).2.2.1))
def resB (c : Dev nD) (t : Fin cfg3.N) (h0 : t.val ≠ 0) (h1 : t.val ≠ 79) (xs0 xs1 : Vec F S1x1 .f32) : Vec F S1x1 .f32 × Vec F S1x1 .f32 × Vec F S1x1 .f32 :=
  (VO.read (Elt F) (VO.writes (Elt F) VO.junk (runB V c t h0 h1 xs0 xs1).1),
   VS0.read (Elt F) (VS0.writes (Elt F) VS0.junk (runB V c t h0 h1 xs0 xs1).2.1),
   VS1.read (Elt F) (VS1.writes (Elt F) VS1.junk (runB V c t h0 h1 xs0 xs1).2.2.1))
def resC (c : Dev nD) (t : Fin cfg3.N) (h : t.val = 79) (xs0 xs1 : Vec F S1x1 .f32) : Vec F S1x1 .f32 × Vec F S1x1 .f32 × Vec F S1x1 .f32 :=
  (VO.read (Elt F) (VO.writes (Elt F) VO.junk (runC V c t h xs0 xs1).1),
   VS0.read (Elt F) (VS0.writes (Elt F) VS0.junk (runC V c t h xs0 xs1).2.1),
   VS1.read (Elt F) (VS1.writes (Elt F) VS1.junk (runC V c t h xs0 xs1).2.2.1))

/-- THE ACCUMULATION: what the output block and the two accumulators hold after the body at position `n`: the case
    of the point, run over what the point before left in the accumulators. -/
def accAt (c : Dev nD) : (n : ℕ) → n < cfg3.N → Vec F S1x1 .f32 × Vec F S1x1 .f32 × Vec F S1x1 .f32
  | 0, hn => resA V c ⟨0, hn⟩ rfl
  | n + 1, hn =>
    if h1 : n + 1 = 79 then
      resC V c ⟨n + 1, hn⟩ h1 (accAt c n (Nat.lt_of_succ_lt hn)).2.1 (accAt c n (Nat.lt_of_succ_lt hn)).2.2
    else
      resB V c ⟨n + 1, hn⟩ (Nat.succ_ne_zero n) h1 (accAt c n (Nat.lt_of_succ_lt hn)).2.1 (accAt c n (Nat.lt_of_succ_lt hn)).2.2

theorem accAt_A (c : Dev nD) (t : Fin cfg3.N) (h : t.val = 0) : accAt V c t.val t.isLt = resA V c t h := by
  obtain ⟨n, hn⟩ := t
  cases n with
  | zero => rfl
  | succ n => exact absurd h (Nat.succ_ne_zero n)

theorem accAt_B (c : Dev nD) (t : Fin cfg3.N) (h0 : t.val ≠ 0) (h1 : t.val ≠ 79) :
    accAt V c t.val t.isLt = resB V c t h0 h1 (accAt V c (t.val - 1) (Nat.lt_of_le_of_lt (Nat.sub_le _ _) t.isLt)).2.1
      (accAt V c (t.val - 1) (Nat.lt_of_le_of_lt (Nat.sub_le _ _) t.isLt)).2.2 := by
  obtain ⟨n, hn⟩ := t
  cases n with
  | zero => exact absurd rfl h0
  | succ n => exact (dif_neg h1).trans rfl

theorem accAt_C (c : Dev nD) (t : Fin cfg3.N) (h : t.val = 79) :
    accAt V c t.val t.isLt = resC V c t h (accAt V c (t.val - 1) (Nat.lt_of_le_of_lt (Nat.sub_le _ _) t.isLt)).2.1
      (accAt V c (t.val - 1) (Nat.lt_of_le_of_lt (Nat.sub_le _ _) t.isLt)).2.2 := by
  obtain ⟨n, hn⟩ := t
  cases n with
  | zero => exact absurd h (by show ¬ (0 : ℕ) = 79; omega)
  | succ n => exact (dif_pos h).trans rfl

/-- The region's invariant before position `n`: before the first point what the launch hands over (the accumulators
    at anything); afterwards the same with each accumulator at what the point before left in it. -/
def PhiS (c : Dev nD) : (n : ℕ) → n ≤ cfg3.N → sProp 𝕄
  | 0, _ => Pipeline.ΦA spec3 c
  | n + 1, hn => iprop(iprop(iprop(owns (c : Thread nD τ) scM0 fullShare (accAt V c n hn).2.1 ∗ owns (c : Thread nD τ) scM1 fullShare (accAt V c n hn).2.2) ∗ restBut (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(iprop(owns (c : Thread nD τ) scM0 fullShare (accAt V c n hn).2.1 ∗ owns (c : Thread nD τ) scM1 fullShare (accAt V c n hn).2.2) ∗ restBut (F := F) c) ∗ (∃ r, prngReg c r)) := rfl

theorem PhiS_pos (c : Dev nD) (n : ℕ) (h : n ≤ cfg3.N) (hz : n ≠ 0) :
    PhiS V c n h = iprop(iprop(iprop(owns (c : Thread nD τ) scM0 fullShare (accAt V c (n - 1) (by omega)).2.1 ∗ owns (c : Thread nD τ) scM1 fullShare (accAt V c (n - 1) (by omega)).2.2) ∗ restBut (F := F) c) ∗ (∃ r, prngReg c r)) := by
  cases n with
  | zero => exact absurd rfl hz
  | succ n => rfl

/-! ## The pipeline's proof data -/

/-- The proof data of this pipeline on core `c`: the arrays as the region finds them; after the body at point `t` each
    input's buffer at its block and the output's at the accumulation's first component; the invariant `PhiS`;
    nothing owed; full shares. -/
def dat3 (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => (accAt V c t.val t.isLt).1
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS_castSucc (c : Dev nD) (t : Fin cfg3.N) :
    (dat3 V c).Φ t.castSucc = PhiS V c t.val (Nat.le_of_lt t.isLt) := by
  dsimp only [dat3]; simp only [Fin.coe_castSucc]

theorem after0 (c : Dev nD) (t : Fin cfg3.N) : (dat3 V c).after 0 t = iblk V c 0 t := by dsimp only [dat3]
theorem after1 (c : Dev nD) (t : Fin cfg3.N) : (dat3 V c).after 1 t = iblk V c 1 t := by dsimp only [dat3]
theorem after2 (c : Dev nD) (t : Fin cfg3.N) : (dat3 V c).after 2 t = iblk V c 2 t := by dsimp only [dat3]
theorem after3 (c : Dev nD) (t : Fin cfg3.N) : (dat3 V c).after 3 t = iblk V c 3 t := by dsimp only [dat3]
theorem after4 (c : Dev nD) (t : Fin cfg3.N) : (dat3 V c).after 4 t = (accAt V c t.val t.isLt).1 := by dsimp only [dat3]

theorem before0 (c : Dev nD) (t : Fin cfg3.N) (d) : (dat3 V c).before 0 t d = iblk V c 0 t :=
  before_of0 V (dat3 V c) (A_eq3 V c 0) (after0 V c) t d
theorem before1 (c : Dev nD) (t : Fin cfg3.N) (d) : (dat3 V c).before 1 t d = iblk V c 1 t :=
  before_of1 V (dat3 V c) (A_eq3 V c 1) (after1 V c) t d
theorem before2 (c : Dev nD) (t : Fin cfg3.N) (d) : (dat3 V c).before 2 t d = iblk V c 2 t :=
  before_of2 V (dat3 V c) (A_eq3 V c 2) (after2 V c) t d
theorem before3 (c : Dev nD) (t : Fin cfg3.N) (d) : (dat3 V c).before 3 t d = iblk V c 3 t :=
  before_of3 V (dat3 V c) (A_eq3 V c 3) (after3 V c) t d

theorem leaves0 (c : Dev nD) (t : Fin cfg3.N) : (dat3 V c).leavesExact 0 t = owns (c : Thread nD τ) (ms0 t) fullShare (iblk V c 0 t) := by
  unfold Dat.leavesExact; rw [live3_0 t, after0]
theorem leaves1 (c : Dev nD) (t : Fin cfg3.N) : (dat3 V c).leavesExact 1 t = owns (c : Thread nD τ) (ms1 t) fullShare (iblk V c 1 t) := by
  unfold Dat.leavesExact; rw [live3_1 t, after1]
theorem leaves2 (c : Dev nD) (t : Fin cfg3.N) : (dat3 V c).leavesExact 2 t = owns (c : Thread nD τ) (ms2 t) fullShare (iblk V c 2 t) := by
  unfold Dat.leavesExact; rw [live3_2 t, after2]
theorem leaves3 (c : Dev nD) (t : Fin cfg3.N) : (dat3 V c).leavesExact 3 t = owns (c : Thread nD τ) (ms3 t) fullShare (iblk V c 3 t) := by
  unfold Dat.leavesExact; rw [live3_3 t, after3]

theorem leaves4_C (c : Dev nD) (t : Fin cfg3.N) (h1 : t.val = 79) :
    (dat3 V c).leavesExact 4 t = owns (c : Thread nD τ) (ms4 t) fullShare (accAt V c t.val t.isLt).1 := by
  unfold Dat.leavesExact; rw [live3_4 t (hC1 t h1), after4]

/-! ## The body obligation, at a generic point -/

def bodyPre (c : Dev nD) (t : Fin cfg3.N) : sProp 𝕄 :=
  iprop((dat3 V c).Φ t.castSucc ∗ (dat3 V c).owesAt () t.castSucc
    ∗ (∃ d, owns (c : Thread nD τ) (ms0 t) fullShare ((dat3 V c).before 0 t d))
    ∗ (∃ d, owns (c : Thread nD τ) (ms1 t) fullShare ((dat3 V c).before 1 t d))
    ∗ (∃ d, owns (c : Thread nD τ) (ms2 t) fullShare ((dat3 V c).before 2 t d))
    ∗ (∃ d, owns (c : Thread nD τ) (ms3 t) fullShare ((dat3 V c).before 3 t d))
    ∗ (∃ d, owns (c : Thread nD τ) (ms4 t) fullShare ((dat3 V c).before 4 t d)))

def bodyPost (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' buffers hold their blocks; the point's coordinate says which case runs; the
    invariant hands the body the accumulators at what the point before left (at anything at the first point) and
    takes them back at this point's contents; before the last point the output's buffer passes through untouched,
    at the last point it is stored whole; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before0, before1, before2, before3]
  rw [show (dat3 V c).owesAt () t.succ = (dat3 V c).owesAt () t.castSucc from rfl]
  rw [show (dat3 V c).Φ t.succ = PhiS V c (t.val + 1) t.isLt from rfl, PhiS_succ]
  rw [leaves0, leaves1, leaves2, leaves3]
  have hN : t.val < 80 := lt_of_lt_of_eq t.isLt (show cfg3.N = 80 from N_3)
  by_cases h0 : t.val = 0
  ·
    rw [Dat.leavesExact_idle (dat3 V c) 4 t (idle3_4 t (hA1 t h0)) (noFlush3_4 t (hA1 t h0))]
    rw [accAt_A V c t h0]
    unfold resA; (try dsimp only)
    rw [PhiS_castSucc V c t, PhiS_zero V c _ _ h0, PhiA_eq]
    iintro ⟨⟨⟨⟨HS0, HS1⟩, Hr⟩, Hg⟩, Ho, ⟨%d0, H0⟩, ⟨%d1, H1⟩, ⟨%d2, H2⟩, ⟨%d3, H3⟩, ⟨%d4, H4⟩⟩
    iapply ((runA V c t h0).2.2.2 _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scoverA0 c _ _ _ _ _ _ _ _ _ _ _ _ _ _ _ _ _ _ _ _ _)
          · unfold owns; iexists _; isplitr
            swap; · iexact HS1
            ipureintro; exact View.read_writes_of_cover _ _ _ _ _ (scoverA1 c _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    iexists _; iexact H4
  · by_cases h1 : t.val = 79
    ·
      rw [leaves4_C V c t h1]
      rw [accAt_C V c t h1]
      unfold resC; (try dsimp only)
      rw [PhiS_castSucc V c t, PhiS_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply ((runC V c t h1 _ _).2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, ⟨%e4, H4⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scoverC0 c _ _ _ _ _ _ _ _ _ _ _ _ _ _ _ _ _ _ _ _ _ _ _)
            · unfold owns; iexists _; isplitr
              swap; · iexact HS1
              ipureintro; exact View.read_writes_of_cover _ _ _ _ _ (scoverC1 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC4 c _ _ _ _ _ _ _ _ _ _ _ _ _ _ _ _ _ _ _ _ _ _ _)
    ·
      rw [Dat.leavesExact_idle (dat3 V c) 4 t (idle3_4 t (hB1 t h1)) (noFlush3_4 t (hB1 t h1))]
      rw [accAt_B V c t h0 h1]
      unfold resB; (try dsimp only)
      rw [PhiS_castSucc V c t, PhiS_pos V c _ _ h0]
      iintro ⟨⟨⟨⟨HS0, HS1⟩, Hr⟩, Hg⟩, Ho, ⟨%d0, H0⟩, ⟨%d1, H1⟩, ⟨%d2, H2⟩, ⟨%d3, H3⟩, ⟨%d4, H4⟩⟩
      iapply ((runB V c t h0 h1 _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scoverB0 c _ _ _ _ _ _ _ _ _ _ _ _ _ _ _ _ _ _ _ _ _ _ _)
            · unfold owns; iexists _; isplitr
              swap; · iexact HS1
              ipureintro; exact View.read_writes_of_cover _ _ _ _ _ (scoverB1 c _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      iexists _; iexact H4

/-- The pipeline library's body obligation, at every point. -/
theorem body_obligation3 (c : Dev nD) : BodyObligation (dat3 (F := F) V c) (defs₀ (F := F)) Variants.none () Set.univ := fun t => by
  rw [bigSep_W3, bigSep_W3]
  exact sound_body V c t

/-- What the launch hands the region is the invariant before the first point. -/
theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After any point the invariant gives the launch's back: the accumulators' named contents are forgotten. -/
theorem Phi_out (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

theorem hout3 (c : Dev nD) : (dat3 V c).Φ (Fin.last cfg3.N) ⊢ Pipeline.ΦA spec3 c :=
  Phi_out V c _ (by rw [Fin.val_last]; have : cfg3.N = 80 := N_3; omega)

end Cert.KernelIdeal.Reg3

end
-- ==== Proof.KI.Reg4.lean ====
/-
  Region 4 of the idealized kernel program: the last Chebyshev layer `x₂ · W₀ + T₁x₂ · W₁ + b` (no rectifier) on a
  block of 2000 rows. The pipeline walks the 50000 rows in 25 blocks; at each block the body reads the block of `x₂`
  and of `T₁x₂` (2000×100 each), the two whole weight matrices (100×2) and the bias row (1×2), and stores the 2000×2
  result block whole. Stated here, at any contents `V` of the buffers when the region is entered: what each window's
  staging buffer holds at a grid point, the body's Hoare triple (run symbolically), the proof data of the pipeline and
  the body obligation at a generic grid point.
-/
import proofs.«176792_j62921270886524_2_alg».proof.Proof.Gen.KernelIdeal.Launch
import proofs.«176792_j62921270886524_2_alg».proof.Proof.Gen.KernelIdeal.Skeleton
import proofs.«176792_j62921270886524_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's staging buffer holds its block at every point, fetched there or not: the two row blocks move
    with the point, the weights and the bias are fetched once and their block index never moves. -/
theorem before_of0 {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of1 {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of2 {c : Dev nD} (dat : Dat τ (Elt F) Unit ℕ (UR sig nD τ) ℕ cfg4 c) (hA : dat.A 2 = V c (Pipeline.arrRef spec4 2))
    (hafter : ∀ t, dat.after 2 t = iblk V c 2 t) (t : Fin cfg4.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of3 {c : Dev nD} (dat : Dat τ (Elt F) Unit ℕ (UR sig nD τ) ℕ cfg4 c) (hA : dat.A 3 = V c (Pipeline.arrRef spec4 3))
    (hafter : ∀ t, dat.after 3 t = iblk V c 3 t) (t : Fin cfg4.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of4 {c : Dev nD} (dat : Dat τ (Elt F) Unit ℕ (UR sig nD τ) ℕ cfg4 c) (hA : dat.A 4 = V c (Pipeline.arrRef spec4 4))
    (hafter : ∀ t, dat.after 4 t = iblk V c 4 t) (t : Fin cfg4.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! The rectangles the body reads and writes: every buffer whole. -/
abbrev rRow : Rect S2000x100 := Rect.unit (s := S2000x100) ![0, 0] S2000x100.size inb_S2000x100_S2000x100_0_0
abbrev rW : Rect S100x2 := Rect.unit (s := S100x2) ![0, 0] S100x2.size inb_S100x2_S100x2_0_0
abbrev rB : Rect S1x2 := Rect.unit (s := S1x2) ![0, 0] S1x2.size inb_S1x2_S1x2_0_0
abbrev rOut : Rect S2000x2 := Rect.unit (s := S2000x2) ![0, 0] S2000x2.size inb_S2000x2_S2000x2_0_0

/-- The result block after the body, from the five input blocks: its one store. -/
def out5 (x0 x1 : Vec F S2000x100 .f32) (x2 x3 : Vec F S100x2 .f32) (x4 : Vec F S1x2 .f32) : Vec F S2000x2 .f32 :=
  View.canon [⟨rOut, k4_pay1 (View.ld x0 rRow) (View.ld x1 rRow) (View.ld x2 rW) (View.ld x3 rW) (View.ld x4 rB)⟩]

/-- The one store covers the result block. -/
theorem cover5 (p0 : Vec F S2000x2 .f32) (y : S2000x2.Idx) :
    ∃ pc ∈ ([⟨rOut, p0⟩] : List (View.Piece (Elt F) S2000x2 .f32)), y ∈ pc.1.set :=
  View.cover_of_tiled [⟨rOut, p0⟩] S2000x2.size (by rfl) y

set_option maxHeartbeats 4000000 in
/-- The body on whole staging buffers, the inputs' at given contents and the output's at anything, runs to its return
    with the inputs as they were and the output at `out5` of the inputs. -/
theorem sound_kernel (c : Dev nD) (E : Set ℕ)
    (a0 : Memref sig .tc .vmem S2000x100 .f32) (h0 : a0.IsWhole) (a1 : Memref sig .tc .vmem S2000x100 .f32) (h1 : a1.IsWhole)
    (a2 : Memref sig .tc .vmem S100x2 .f32) (h2 : a2.IsWhole) (a3 : Memref sig .tc .vmem S100x2 .f32) (h3 : a3.IsWhole)
    (a4 : Memref sig .tc .vmem S1x2 .f32) (h4 : a4.IsWhole) (a5 : Memref sig .tc .vmem S2000x2 .f32) (h5 : a5.IsWhole)
    (i : grid4.Coords)
    (x0 x1 : Vec F S2000x100 .f32) (x2 x3 : Vec F S100x2 .f32) (x4 : Vec F S1x2 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out5 x0 x1 x2 x3 x4)) -∗ K ⟨⟩))
      ⊢ wp frame (wpE (defs₀ (F := F)) Variants.none c none) E (cc4_kernel i a0 h0 a1 h1 a2 h2 a3 h3 a4 h4 a5 h5) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5 _)

/-! ## The pipeline's proof data -/

/-- The proof data of this pipeline on core `c`: the arrays as the region finds them; after the body at point `t` each
    input's buffer at its block and the output's at `out5` of the input blocks; the invariant the scoped rest and the
    generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out5 (iblk V c 0 t) (iblk V c 1 t) (iblk V c 2 t) (iblk V c 3 t) (iblk V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after0 (c : Dev nD) (t : Fin cfg4.N) : (dat4 V c).after 0 t = iblk V c 0 t := by dsimp only [dat4]
theorem after1 (c : Dev nD) (t : Fin cfg4.N) : (dat4 V c).after 1 t = iblk V c 1 t := by dsimp only [dat4]
theorem after2 (c : Dev nD) (t : Fin cfg4.N) : (dat4 V c).after 2 t = iblk V c 2 t := by dsimp only [dat4]
theorem after3 (c : Dev nD) (t : Fin cfg4.N) : (dat4 V c).after 3 t = iblk V c 3 t := by dsimp only [dat4]
theorem after4 (c : Dev nD) (t : Fin cfg4.N) : (dat4 V c).after 4 t = iblk V c 4 t := by dsimp only [dat4]
theorem after5 (c : Dev nD) (t : Fin cfg4.N) :
    (dat4 V c).after 5 t = out5 (iblk V c 0 t) (iblk V c 1 t) (iblk V c 2 t) (iblk V c 3 t) (iblk V c 4 t) := by dsimp only [dat4]

theorem before0 (c : Dev nD) (t : Fin cfg4.N) (d) : (dat4 V c).before 0 t d = iblk V c 0 t :=
  before_of0 V (dat4 V c) (A_eq4 V c 0) (after0 V c) t d
theorem before1 (c : Dev nD) (t : Fin cfg4.N) (d) : (dat4 V c).before 1 t d = iblk V c 1 t :=
  before_of1 V (dat4 V c) (A_eq4 V c 1) (after1 V c) t d
theorem before2 (c : Dev nD) (t : Fin cfg4.N) (d) : (dat4 V c).before 2 t d = iblk V c 2 t :=
  before_of2 V (dat4 V c) (A_eq4 V c 2) (after2 V c) t d
theorem before3 (c : Dev nD) (t : Fin cfg4.N) (d) : (dat4 V c).before 3 t d = iblk V c 3 t :=
  before_of3 V (dat4 V c) (A_eq4 V c 3) (after3 V c) t d
theorem before4 (c : Dev nD) (t : Fin cfg4.N) (d) : (dat4 V c).before 4 t d = iblk V c 4 t :=
  before_of4 V (dat4 V c) (A_eq4 V c 4) (after4 V c) t d

/-! ## The body obligation, at a generic point -/

def bodyPre (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so `sound_kernel` applies; the invariant and the
    core's dues pass through unread. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before0, before1, before2, before3, before4]
  rw [show (dat4 V c).Φ t.succ = (dat4 V c).Φ t.castSucc from rfl,
    show (dat4 V c).owesAt () t.succ = (dat4 V c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's body obligation, at every point. -/
theorem body_obligation4 (c : Dev nD) : BodyObligation (dat4 (F := F) V c) (defs₀ (F := F)) Variants.none () Set.univ := fun t => by
  rw [bigSep_W4, bigSep_W4]
  exact sound_body V c t

end Cert.KernelIdeal.Reg4

end
-- ==== Proof.KI.Run.lean ====
/-
  The whole run of the idealized kernel program: its entry point is three stretches of host operations, then five
  kernel regions with a stretch of host operations before each. The buffer contents at every boundary are a fold
  from the launch memory: a host stretch applies its operations, a region leaves each of its arrays at what its
  write-backs make of it and every other buffer as it found it. Each region is entered from "every unscoped buffer
  at the boundary's contents, the generator register at some state, nothing owed" and left in the same form at the
  next boundary's contents; the library's launch theorem chains the twelve segments. Every weakly fair execution then terminates
  with every unscoped buffer at the last boundary's contents; no host operation and no region writes an argument, so
  the arguments end as launched.
-/
import proofs.«176792_j62921270886524_2_alg».proof.Proof.KI.Reg0
import proofs.«176792_j62921270886524_2_alg».proof.Proof.KI.Reg1
import proofs.«176792_j62921270886524_2_alg».proof.Proof.KI.Reg2
import proofs.«176792_j62921270886524_2_alg».proof.Proof.KI.Reg3
import proofs.«176792_j62921270886524_2_alg».proof.Proof.KI.Reg4
import proofs.«176792_j62921270886524_2_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first three host stretches (region 0 is entered from the third). -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At region 0's exit: its arrays at what the pipeline leaves (the inputs as entered, each output's write-backs
    folded), every other buffer as entered. -/
def W4 (c : Dev nD) : Valuation τ sig (Elt F) :=
  Pipeline.withArrays spec0 c (W3 m ρ c) fun w => (Reg0.dat0 (V3 m ρ) c).arrAt w cfg0.N
theorem W4_arr (c : Dev nD) (w : Fin cfg0.W) :
    W4 m ρ c (Proc.devRef .tc (Pipeline.arrRef spec0 w)) = (Reg0.dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (Reg0.dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)
/-- After the host stretch that follows (region 1 is entered from it). -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At region 1's exit: its arrays at what the pipeline leaves (the inputs as entered, each output's write-backs
    folded), every other buffer as entered. -/
def W6 (c : Dev nD) : Valuation τ sig (Elt F) :=
  Pipeline.withArrays spec1 c (W5 m ρ c) fun w => (Reg1.dat1 (V5 m ρ) c).arrAt w cfg1.N
theorem W6_arr (c : Dev nD) (w : Fin cfg1.W) :
    W6 m ρ c (Proc.devRef .tc (Pipeline.arrRef spec1 w)) = (Reg1.dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (Reg1.dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the host stretch that follows (region 2 is entered from it). -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At region 2's exit: its arrays at what the pipeline leaves (the inputs as entered, each output's write-backs
    folded), every other buffer as entered. -/
def W8 (c : Dev nD) : Valuation τ sig (Elt F) :=
  Pipeline.withArrays spec2 c (W7 m ρ c) fun w => (Reg2.dat2 (V7 m ρ) c).arrAt w cfg2.N
theorem W8_arr (c : Dev nD) (w : Fin cfg2.W) :
    W8 m ρ c (Proc.devRef .tc (Pipeline.arrRef spec2 w)) = (Reg2.dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (Reg2.dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)
/-- After the host stretch that follows (region 3 is entered from it). -/
abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b

/-- At region 3's exit: its arrays at what the pipeline leaves (the inputs as entered, each output's write-backs
    folded), every other buffer as entered. -/
def W10 (c : Dev nD) : Valuation τ sig (Elt F) :=
  Pipeline.withArrays spec3 c (W9 m ρ c) fun w => (Reg3.dat3 (V9 m ρ) c).arrAt w cfg3.N
theorem W10_arr (c : Dev nD) (w : Fin cfg3.W) :
    W10 m ρ c (Proc.devRef .tc (Pipeline.arrRef spec3 w)) = (Reg3.dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (Reg3.dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)
/-- After the host stretch that follows (region 4 is entered from it). -/
abbrev W11 : Dev nD → Valuation τ sig (Elt F) := fun c => StableHlo.after hostOps4 (W10 m ρ c)
abbrev V11 : (c : Dev nD) → (b : Ref sig .tc) → Buf (Elt F) ((c : Thread nD τ).loc b) := fun c b => W11 m ρ c b

/-- At region 4's exit: its arrays at what the pipeline leaves (the inputs as entered, each output's write-backs
    folded), every other buffer as entered. -/
def W12 (c : Dev nD) : Valuation τ sig (Elt F) :=
  Pipeline.withArrays spec4 c (W11 m ρ c) fun w => (Reg4.dat4 (V11 m ρ) c).arrAt w cfg4.N
theorem W12_arr (c : Dev nD) (w : Fin cfg4.W) :
    W12 m ρ c (Proc.devRef .tc (Pipeline.arrRef spec4 w)) = (Reg4.dat4 (V11 m ρ) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m ρ c (Proc.devRef .tc b) = W11 m ρ c (Proc.devRef .tc b) := by
  unfold W12; exact Pipeline.withArrays_of_ne spec4 c _ _ b hb
abbrev V12 : (c : Dev nD) → (b : Ref sig .tc) → Buf (Elt F) ((c : Thread nD τ).loc b) := fun c b => W12 m ρ c b
theorem hF4 (c : Dev nD) (w : Fin cfg4.W) : (Reg4.dat4 (V11 m ρ) c).arrAt w cfg4.N = V12 m ρ c (Pipeline.arrRef spec4 w) :=
  (W12_arr m ρ c w).symm
theorem hrest4 (c : Dev nD) : ∀ b, b ∉ Finset.univ.image (Pipeline.arrRef spec4) → V12 m ρ c b = V11 m ρ c b :=
  fun b hb => W12_of_ne m ρ c b fun w e => hb (Finset.mem_image.mpr ⟨w, Finset.mem_univ _, e⟩)

/-! ## The arguments end as launched

No host operation and no region writes an argument (a region reads `main_arg0` through an input window; the others it
bypasses), so the fold at an argument's buffer walks back to the launch memory. -/
theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := W12_of_ne m ρ c main_arg0 (by decide)
    _ = W10 m ρ c (Proc.devRef .tc main_arg0) := StableHlo.after_of_writes_sub hostOps4 _ hostOps4_writes (by decide)
    _ = W9 m ρ c (Proc.devRef .tc main_arg0) := W10_of_ne m ρ c main_arg0 (by decide)
    _ = W8 m ρ c (Proc.devRef .tc main_arg0) := StableHlo.after_of_writes_sub hostOps3 _ hostOps3_writes (by decide)
    _ = W7 m ρ c (Proc.devRef .tc main_arg0) := (W8_arr m ρ c 0).trans (((Reg2.dat2 (V7 m ρ) c).arrAt_in 0 rfl _).trans (Reg2.A_eq2 (V7 m ρ) c 0))
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := (W4_arr m ρ c 0).trans (((Reg0.dat0 (V3 m ρ) c).arrAt_in 0 rfl _).trans (Reg0.A_eq0 (V3 m ρ) c 0))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl
theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := StableHlo.after_of_writes_sub hostOps4 _ hostOps4_writes (by decide)
    _ = W9 m ρ c (Proc.devRef .tc main_arg1) := W10_of_ne m ρ c main_arg1 (by decide)
    _ = W8 m ρ c (Proc.devRef .tc main_arg1) := StableHlo.after_of_writes_sub hostOps3 _ hostOps3_writes (by decide)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl
theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_writes_sub hostOps4 _ hostOps4_writes (by decide)
    _ = W9 m ρ c (Proc.devRef .tc main_arg2) := W10_of_ne m ρ c main_arg2 (by decide)
    _ = W8 m ρ c (Proc.devRef .tc main_arg2) := StableHlo.after_of_writes_sub hostOps3 _ hostOps3_writes (by decide)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl
theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := W12_of_ne m ρ c main_arg3 (by decide)
    _ = W10 m ρ c (Proc.devRef .tc main_arg3) := StableHlo.after_of_writes_sub hostOps4 _ hostOps4_writes (by decide)
    _ = W9 m ρ c (Proc.devRef .tc main_arg3) := W10_of_ne m ρ c main_arg3 (by decide)
    _ = W8 m ρ c (Proc.devRef .tc main_arg3) := StableHlo.after_of_writes_sub hostOps3 _ hostOps3_writes (by decide)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl
theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := W12_of_ne m ρ c main_arg4 (by decide)
    _ = W10 m ρ c (Proc.devRef .tc main_arg4) := StableHlo.after_of_writes_sub hostOps4 _ hostOps4_writes (by decide)
    _ = W9 m ρ c (Proc.devRef .tc main_arg4) := W10_of_ne m ρ c main_arg4 (by decide)
    _ = W8 m ρ c (Proc.devRef .tc main_arg4) := StableHlo.after_of_writes_sub hostOps3 _ hostOps3_writes (by decide)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := W12_of_ne m ρ c main_arg5 (by decide)
    _ = W10 m ρ c (Proc.devRef .tc main_arg5) := StableHlo.after_of_writes_sub hostOps4 _ hostOps4_writes (by decide)
    _ = W9 m ρ c (Proc.devRef .tc main_arg5) := W10_of_ne m ρ c main_arg5 (by decide)
    _ = W8 m ρ c (Proc.devRef .tc main_arg5) := StableHlo.after_of_writes_sub hostOps3 _ hostOps3_writes (by decide)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
theorem W12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := W12_of_ne m ρ c main_arg6 (by decide)
    _ = W10 m ρ c (Proc.devRef .tc main_arg6) := StableHlo.after_of_writes_sub hostOps4 _ hostOps4_writes (by decide)
    _ = W9 m ρ c (Proc.devRef .tc main_arg6) := W10_of_ne m ρ c main_arg6 (by decide)
    _ = W8 m ρ c (Proc.devRef .tc main_arg6) := StableHlo.after_of_writes_sub hostOps3 _ hostOps3_writes (by decide)
    _ = W7 m ρ c (Proc.devRef .tc main_arg6) := W8_of_ne m ρ c main_arg6 (by decide)
    _ = W6 m ρ c (Proc.devRef .tc main_arg6) := StableHlo.after_of_writes_sub hostOps2 _ hostOps2_writes (by decide)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := W12_of_ne m ρ c main_arg7 (by decide)
    _ = W10 m ρ c (Proc.devRef .tc main_arg7) := StableHlo.after_of_writes_sub hostOps4 _ hostOps4_writes (by decide)
    _ = W9 m ρ c (Proc.devRef .tc main_arg7) := W10_of_ne m ρ c main_arg7 (by decide)
    _ = W8 m ρ c (Proc.devRef .tc main_arg7) := StableHlo.after_of_writes_sub hostOps3 _ hostOps3_writes (by decide)
    _ = W7 m ρ c (Proc.devRef .tc main_arg7) := W8_of_ne m ρ c main_arg7 (by decide)
    _ = W6 m ρ c (Proc.devRef .tc main_arg7) := StableHlo.after_of_writes_sub hostOps2 _ hostOps2_writes (by decide)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl
theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := W12_of_ne m ρ c main_arg8 (by decide)
    _ = W10 m ρ c (Proc.devRef .tc main_arg8) := StableHlo.after_of_writes_sub hostOps4 _ hostOps4_writes (by decide)
    _ = W9 m ρ c (Proc.devRef .tc main_arg8) := W10_of_ne m ρ c main_arg8 (by decide)
    _ = W8 m ρ c (Proc.devRef .tc main_arg8) := StableHlo.after_of_writes_sub hostOps3 _ hostOps3_writes (by decide)
    _ = W7 m ρ c (Proc.devRef .tc main_arg8) := W8_of_ne m ρ c main_arg8 (by decide)
    _ = W6 m ρ c (Proc.devRef .tc main_arg8) := StableHlo.after_of_writes_sub hostOps2 _ hostOps2_writes (by decide)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl
theorem W12_main_arg9 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := StableHlo.after_of_writes_sub hostOps4 _ hostOps4_writes (by decide)
    _ = W9 m ρ c (Proc.devRef .tc main_arg9) := W10_of_ne m ρ c main_arg9 (by decide)
    _ = W8 m ρ c (Proc.devRef .tc main_arg9) := StableHlo.after_of_writes_sub hostOps3 _ hostOps3_writes (by decide)
    _ = W7 m ρ c (Proc.devRef .tc main_arg9) := W8_of_ne m ρ c main_arg9 (by decide)
    _ = W6 m ρ c (Proc.devRef .tc main_arg9) := StableHlo.after_of_writes_sub hostOps2 _ hostOps2_writes (by decide)
    _ = W5 m ρ c (Proc.devRef .tc main_arg9) := W6_of_ne m ρ c main_arg9 (by decide)
    _ = W4 m ρ c (Proc.devRef .tc main_arg9) := StableHlo.after_of_writes_sub hostOps1 _ hostOps1_writes (by decide)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl
theorem W12_main_arg10 (c : Dev nD) : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := StableHlo.after_of_writes_sub hostOps4 _ hostOps4_writes (by decide)
    _ = W9 m ρ c (Proc.devRef .tc main_arg10) := W10_of_ne m ρ c main_arg10 (by decide)
    _ = W8 m ρ c (Proc.devRef .tc main_arg10) := StableHlo.after_of_writes_sub hostOps3 _ hostOps3_writes (by decide)
    _ = W7 m ρ c (Proc.devRef .tc main_arg10) := W8_of_ne m ρ c main_arg10 (by decide)
    _ = W6 m ρ c (Proc.devRef .tc main_arg10) := StableHlo.after_of_writes_sub hostOps2 _ hostOps2_writes (by decide)
    _ = W5 m ρ c (Proc.devRef .tc main_arg10) := W6_of_ne m ρ c main_arg10 (by decide)
    _ = W4 m ρ c (Proc.devRef .tc main_arg10) := StableHlo.after_of_writes_sub hostOps1 _ hostOps1_writes (by decide)
    _ = W3 m ρ c (Proc.devRef .tc main_arg10) := W4_of_ne m ρ c main_arg10 (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)
    _ = m ((c : Thread nD τ).loc main_arg10) := rfl
theorem W12_main_arg11 (c : Dev nD) : W12 m ρ c (Proc.devRef .tc main_arg11) = m ((c : Thread nD τ).loc main_arg11) :=
  calc W12 m ρ c (Proc.devRef .tc main_arg11)
    _ = W11 m ρ c (Proc.devRef .tc main_arg11) := W12_of_ne m ρ c main_arg11 (by decide)
    _ = W10 m ρ c (Proc.devRef .tc main_arg11) := StableHlo.after_of_writes_sub hostOps4 _ hostOps4_writes (by decide)
    _ = W9 m ρ c (Proc.devRef .tc main_arg11) := W10_of_ne m ρ c main_arg11 (by decide)
    _ = W8 m ρ c (Proc.devRef .tc main_arg11) := StableHlo.after_of_writes_sub hostOps3 _ hostOps3_writes (by decide)
    _ = W7 m ρ c (Proc.devRef .tc main_arg11) := W8_of_ne m ρ c main_arg11 (by decide)
    _ = W6 m ρ c (Proc.devRef .tc main_arg11) := StableHlo.after_of_writes_sub hostOps2 _ hostOps2_writes (by decide)
    _ = W5 m ρ c (Proc.devRef .tc main_arg11) := W6_of_ne m ρ c main_arg11 (by decide)
    _ = W4 m ρ c (Proc.devRef .tc main_arg11) := StableHlo.after_of_writes_sub hostOps1 _ hostOps1_writes (by decide)
    _ = W3 m ρ c (Proc.devRef .tc main_arg11) := W4_of_ne m ρ c main_arg11 (by decide)
    _ = W2 m ρ c (Proc.devRef .tc main_arg11) := StableHlo.after_of_writes_sub hostOps0_2 _ hostOps0_2_writes (by decide)
    _ = W1 m ρ c (Proc.devRef .tc main_arg11) := StableHlo.after_of_writes_sub hostOps0_1 _ hostOps0_1_writes (by decide)
    _ = W0 m ρ c (Proc.devRef .tc main_arg11) := StableHlo.after_of_writes_sub hostOps0 _ hostOps0_writes (by decide)
    _ = m ((c : Thread nD τ).loc main_arg11) := rfl
theorem W12_main_arg12 (c : Dev nD) : W12 m ρ c (Proc.devRef .tc main_arg12) = m ((c : Thread nD τ).loc main_arg12) :=
  calc W12 m ρ c (Proc.devRef .tc main_arg12)
    _ = W11 m ρ c (Proc.devRef .tc main_arg12) := W12_of_ne m ρ c main_arg12 (by decide)
    _ = W10 m ρ c (Proc.devRef .tc main_arg12) := StableHlo.after_of_writes_sub hostOps4 _ hostOps4_writes (by decide)
    _ = W9 m ρ c (Proc.devRef .tc main_arg12) := W10_of_ne m ρ c main_arg12 (by decide)
    _ = W8 m ρ c (Proc.devRef .tc main_arg12) := StableHlo.after_of_writes_sub hostOps3 _ hostOps3_writes (by decide)
    _ = W7 m ρ c (Proc.devRef .tc main_arg12) := W8_of_ne m ρ c main_arg12 (by decide)
    _ = W6 m ρ c (Proc.devRef .tc main_arg12) := StableHlo.after_of_writes_sub hostOps2 _ hostOps2_writes (by decide)
    _ = W5 m ρ c (Proc.devRef .tc main_arg12) := W6_of_ne m ρ c main_arg12 (by decide)
    _ = W4 m ρ c (Proc.devRef .tc main_arg12) := StableHlo.after_of_writes_sub hostOps1 _ hostOps1_writes (by decide)
    _ = W3 m ρ c (Proc.devRef .tc main_arg12) := W4_of_ne m ρ c main_arg12 (by decide)
    _ = W2 m ρ c (Proc.devRef .tc main_arg12) := StableHlo.after_of_writes_sub hostOps0_2 _ hostOps0_2_writes (by decide)
    _ = W1 m ρ c (Proc.devRef .tc main_arg12) := StableHlo.after_of_writes_sub hostOps0_1 _ hostOps0_1_writes (by decide)
    _ = W0 m ρ c (Proc.devRef .tc main_arg12) := StableHlo.after_of_writes_sub hostOps0 _ hostOps0_writes (by decide)
    _ = m ((c : Thread nD τ).loc main_arg12) := rfl
theorem W12_main_arg13 (c : Dev nD) : W12 m ρ c (Proc.devRef .tc main_arg13) = m ((c : Thread nD τ).loc main_arg13) :=
  calc W12 m ρ c (Proc.devRef .tc main_arg13)
    _ = W11 m ρ c (Proc.devRef .tc main_arg13) := W12_of_ne m ρ c main_arg13 (by decide)
    _ = W10 m ρ c (Proc.devRef .tc main_arg13) := StableHlo.after_of_writes_sub hostOps4 _ hostOps4_writes (by decide)
    _ = W9 m ρ c (Proc.devRef .tc main_arg13) := W10_of_ne m ρ c main_arg13 (by decide)
    _ = W8 m ρ c (Proc.devRef .tc main_arg13) := StableHlo.after_of_writes_sub hostOps3 _ hostOps3_writes (by decide)
    _ = W7 m ρ c (Proc.devRef .tc main_arg13) := W8_of_ne m ρ c main_arg13 (by decide)
    _ = W6 m ρ c (Proc.devRef .tc main_arg13) := StableHlo.after_of_writes_sub hostOps2 _ hostOps2_writes (by decide)
    _ = W5 m ρ c (Proc.devRef .tc main_arg13) := W6_of_ne m ρ c main_arg13 (by decide)
    _ = W4 m ρ c (Proc.devRef .tc main_arg13) := StableHlo.after_of_writes_sub hostOps1 _ hostOps1_writes (by decide)
    _ = W3 m ρ c (Proc.devRef .tc main_arg13) := W4_of_ne m ρ c main_arg13 (by decide)
    _ = W2 m ρ c (Proc.devRef .tc main_arg13) := StableHlo.after_of_writes_sub hostOps0_2 _ hostOps0_2_writes (by decide)
    _ = W1 m ρ c (Proc.devRef .tc main_arg13) := StableHlo.after_of_writes_sub hostOps0_1 _ hostOps0_1_writes (by decide)
    _ = W0 m ρ c (Proc.devRef .tc main_arg13) := StableHlo.after_of_writes_sub hostOps0 _ hostOps0_writes (by decide)
    _ = m ((c : Thread nD τ).loc main_arg13) := rfl
theorem W12_main_arg14 (c : Dev nD) : W12 m ρ c (Proc.devRef .tc main_arg14) = m ((c : Thread nD τ).loc main_arg14) :=
  calc W12 m ρ c (Proc.devRef .tc main_arg14)
    _ = W11 m ρ c (Proc.devRef .tc main_arg14) := W12_of_ne m ρ c main_arg14 (by decide)
    _ = W10 m ρ c (Proc.devRef .tc main_arg14) := StableHlo.after_of_writes_sub hostOps4 _ hostOps4_writes (by decide)
    _ = W9 m ρ c (Proc.devRef .tc main_arg14) := W10_of_ne m ρ c main_arg14 (by decide)
    _ = W8 m ρ c (Proc.devRef .tc main_arg14) := StableHlo.after_of_writes_sub hostOps3 _ hostOps3_writes (by decide)
    _ = W7 m ρ c (Proc.devRef .tc main_arg14) := W8_of_ne m ρ c main_arg14 (by decide)
    _ = W6 m ρ c (Proc.devRef .tc main_arg14) := StableHlo.after_of_writes_sub hostOps2 _ hostOps2_writes (by decide)
    _ = W5 m ρ c (Proc.devRef .tc main_arg14) := W6_of_ne m ρ c main_arg14 (by decide)
    _ = W4 m ρ c (Proc.devRef .tc main_arg14) := StableHlo.after_of_writes_sub hostOps1 _ hostOps1_writes (by decide)
    _ = W3 m ρ c (Proc.devRef .tc main_arg14) := W4_of_ne m ρ c main_arg14 (by decide)
    _ = W2 m ρ c (Proc.devRef .tc main_arg14) := StableHlo.after_of_writes_sub hostOps0_2 _ hostOps0_2_writes (by decide)
    _ = W1 m ρ c (Proc.devRef .tc main_arg14) := StableHlo.after_of_writes_sub hostOps0_1 _ hostOps0_1_writes (by decide)
    _ = W0 m ρ c (Proc.devRef .tc main_arg14) := StableHlo.after_of_writes_sub hostOps0 _ hostOps0_writes (by decide)
    _ = m ((c : Thread nD τ).loc main_arg14) := rfl
theorem W12_main_arg15 (c : Dev nD) : W12 m ρ c (Proc.devRef .tc main_arg15) = m ((c : Thread nD τ).loc main_arg15) :=
  calc W12 m ρ c (Proc.devRef .tc main_arg15)
    _ = W11 m ρ c (Proc.devRef .tc main_arg15) := W12_of_ne m ρ c main_arg15 (by decide)
    _ = W10 m ρ c (Proc.devRef .tc main_arg15) := StableHlo.after_of_writes_sub hostOps4 _ hostOps4_writes (by decide)
    _ = W9 m ρ c (Proc.devRef .tc main_arg15) := W10_of_ne m ρ c main_arg15 (by decide)
    _ = W8 m ρ c (Proc.devRef .tc main_arg15) := StableHlo.after_of_writes_sub hostOps3 _ hostOps3_writes (by decide)
    _ = W7 m ρ c (Proc.devRef .tc main_arg15) := W8_of_ne m ρ c main_arg15 (by decide)
    _ = W6 m ρ c (Proc.devRef .tc main_arg15) := StableHlo.after_of_writes_sub hostOps2 _ hostOps2_writes (by decide)
    _ = W5 m ρ c (Proc.devRef .tc main_arg15) := W6_of_ne m ρ c main_arg15 (by decide)
    _ = W4 m ρ c (Proc.devRef .tc main_arg15) := StableHlo.after_of_writes_sub hostOps1 _ hostOps1_writes (by decide)
    _ = W3 m ρ c (Proc.devRef .tc main_arg15) := W4_of_ne m ρ c main_arg15 (by decide)
    _ = W2 m ρ c (Proc.devRef .tc main_arg15) := StableHlo.after_of_writes_sub hostOps0_2 _ hostOps0_2_writes (by decide)
    _ = W1 m ρ c (Proc.devRef .tc main_arg15) := StableHlo.after_of_writes_sub hostOps0_1 _ hostOps0_1_writes (by decide)
    _ = W0 m ρ c (Proc.devRef .tc main_arg15) := StableHlo.after_of_writes_sub hostOps0 _ hostOps0_writes (by decide)
    _ = m ((c : Thread nD τ).loc main_arg15) := rfl

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => Reg0.dat0 (V3 m ρ) c
  | ⟨1, _⟩ => fun c => Reg1.dat1 (V5 m ρ) c
  | ⟨2, _⟩ => fun c => Reg2.dat2 (V7 m ρ) c
  | ⟨3, _⟩ => fun c => Reg3.dat3 (V9 m ρ) c
  | ⟨4, _⟩ => fun c => Reg4.dat4 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- Region 0 over the thread state: entered from every unscoped buffer at its entry contents, left at its exit
    contents. Its arrays are split out of the unscoped buffers and put back at the exit contents; the generator
    register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit
    contents. Its arrays are split out of the unscoped buffers and put back at the exit contents; the generator
    register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at its entry contents, left at its exit
    contents. Its arrays are split out of the unscoped buffers and put back at the exit contents; the generator
    register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at its entry contents, left at its exit
    contents. Its arrays are split out of the unscoped buffers and put back at the exit contents; the generator
    register goes into the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Reg3.body_obligation3 (V9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (Reg3.dat3 (V9 m ρ) c).Φ 0 from rfl]
    iintro ⟨Hp, -, Hr⟩
    iapply (Reg3.hin3 (V9 m ρ) c)
    unfold Pipeline.ΦA
    isplitl [Hr]; · iexact Hr
    iexact Hp
  hout c := by
    rw [Pipeline.ownSems0_none]
    have ho : (pdats m ρ 3 c).Φ (Fin.last _) ⊢ (iprop(Pipeline.scopedRest spec3 c ∗ ∃ r, prngReg c r) : sProp 𝕄) :=
      Reg3.hout3 (V9 m ρ) c
    iintro H1
    ihave H := ho $$ H1
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at its entry contents, left at its exit
    contents. Its arrays are split out of the unscoped buffers and put back at the exit contents; the generator
    register goes into the region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (Reg4.body_obligation4 (V11 m ρ) c).loose
  hwaits := Pipeline.hwaits_of_owed_zero _ _ _ _ L lv 4 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V11 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V11 m ρ c) (V12 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry point as segments, and the launch -/

/-- The entry point's twelve segments in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)),
    .region (reg4 m ρ) ]

/-- The entry point is the run of the segments. -/
theorem main_run (c : Dev nD) : main (F := F) c = Pipeline.Seg.run (segs m ρ) := (main_chain c).trans (by chain_rfl)

set_option backward.isDefEq.respectTransparency.types false in
/-- THE RUN: from any memory with zero counters every weakly fair execution of the entry point terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c),
    (h c _ (mem_uc main_arg11 (by decide))).trans (W12_main_arg11 m ρ c),
    (h c _ (mem_uc main_arg12 (by decide))).trans (W12_main_arg12 m ρ c),
    (h c _ (mem_uc main_arg13 (by decide))).trans (W12_main_arg13 m ρ c),
    (h c _ (mem_uc main_arg14 (by decide))).trans (W12_main_arg14 m ρ c),
    (h c _ (mem_uc main_arg15 (by decide))).trans (W12_main_arg15 m ρ c)⟩) (run_all m ρ)

end Cert.KernelIdeal.Run

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«176792_j62921270886524_2_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.KI.SpecCheb.lean ====
/-
  THE FUNCTIONS THE LAYERS COMPUTE, INDEX BY INDEX, ON EXTENDED REALS.

  A Chebyshev layer of order one takes a feature matrix x [M, K], its propagated copy T₁x [M, K], two weight matrices
  W₀, W₁ [K, N] and a bias row b [1, N]; before the activation its value at (r, q) is

      Σ_k x(r, k) · W₀(k, q)  +  Σ_k T₁x(r, k) · W₁(k, q)  +  b(0, q),

  and a rectified layer takes the larger of that and zero. A residual head takes a matrix x [M, K], a weight A [K, N],
  a bias row b [1, N] and a matrix y [M, N]; its value at (r, q) is  y(r, q) + max(Σ_k x(r, k) · A(k, q) + b(0, q), 0).
  Everything is generic in the sizes and says nothing about any program: both programs are read against these.
-/
import Idealize.ShloMosaic.PureOps.Ideal.Laws
import Idealize.ShloMosaic.Lib.ValueIdx

noncomputable section

open scoped BigOperators

namespace Cert.KernelIdeal.SpecCheb

open Idealize.ShloMosaic Idealize.ShloMosaic.ValueIdx

/-- Row r of `x` against column q of `w`. -/
def rowCol {M K N : Nat} (x : (⟨2, ![M, K]⟩ : Shape).Idx → EReal) (w : (⟨2, ![K, N]⟩ : Shape).Idx → EReal)
    (r : Fin M) (q : Fin N) : EReal :=
  ∑ k : Fin K, x (ix2 r k) * w (ix2 k q)

/-- A Chebyshev layer before its activation. -/
def chebLin {M K N : Nat} (x tx : (⟨2, ![M, K]⟩ : Shape).Idx → EReal) (w0 w1 : (⟨2, ![K, N]⟩ : Shape).Idx → EReal)
    (b : (⟨2, ![1, N]⟩ : Shape).Idx → EReal) : (⟨2, ![M, N]⟩ : Shape).Idx → EReal :=
  fun i => rowCol x w0 (i 0) (i 1) + rowCol tx w1 (i 0) (i 1) + b (ix2 (0 : Fin 1) (i 1))

/-- A rectified Chebyshev layer. -/
def chebRelu {M K N : Nat} (x tx : (⟨2, ![M, K]⟩ : Shape).Idx → EReal) (w0 w1 : (⟨2, ![K, N]⟩ : Shape).Idx → EReal)
    (b : (⟨2, ![1, N]⟩ : Shape).Idx → EReal) : (⟨2, ![M, N]⟩ : Shape).Idx → EReal :=
  fun i => max (chebLin x tx w0 w1 b i) 0

theorem chebLin_apply {M K N : Nat} (x tx : (⟨2, ![M, K]⟩ : Shape).Idx → EReal) (w0 w1 : (⟨2, ![K, N]⟩ : Shape).Idx → EReal)
    (b : (⟨2, ![1, N]⟩ : Shape).Idx → EReal) (r : Fin M) (q : Fin N) :
    chebLin x tx w0 w1 b (ix2 r q)
      = (∑ k : Fin K, x (ix2 r k) * w0 (ix2 k q)) + (∑ k : Fin K, tx (ix2 r k) * w1 (ix2 k q)) + b (ix2 (0 : Fin 1) q) := rfl

theorem chebRelu_apply {M K N : Nat} (x tx : (⟨2, ![M, K]⟩ : Shape).Idx → EReal) (w0 w1 : (⟨2, ![K, N]⟩ : Shape).Idx → EReal)
    (b : (⟨2, ![1, N]⟩ : Shape).Idx → EReal) (r : Fin M) (q : Fin N) :
    chebRelu x tx w0 w1 b (ix2 r q)
      = max ((∑ k : Fin K, x (ix2 r k) * w0 (ix2 k q)) + (∑ k : Fin K, tx (ix2 r k) * w1 (ix2 k q)) + b (ix2 (0 : Fin 1) q)) 0 := rfl

/-- A residual head: `y` plus the rectified affine image of `x`. -/
def headRes {M K N : Nat} (x : (⟨2, ![M, K]⟩ : Shape).Idx → EReal) (a : (⟨2, ![K, N]⟩ : Shape).Idx → EReal)
    (b : (⟨2, ![1, N]⟩ : Shape).Idx → EReal) (y : (⟨2, ![M, N]⟩ : Shape).Idx → EReal) : (⟨2, ![M, N]⟩ : Shape).Idx → EReal :=
  fun i => y i + max (rowCol x a (i 0) (i 1) + b (ix2 (0 : Fin 1) (i 1))) 0

theorem headRes_apply {M K N : Nat} (x : (⟨2, ![M, K]⟩ : Shape).Idx → EReal) (a : (⟨2, ![K, N]⟩ : Shape).Idx → EReal)
    (b : (⟨2, ![1, N]⟩ : Shape).Idx → EReal) (y : (⟨2, ![M, N]⟩ : Shape).Idx → EReal) (r : Fin M) (q : Fin N) :
    headRes x a b y (ix2 r q)
      = y (ix2 r q) + max ((∑ k : Fin K, x (ix2 r k) * a (ix2 k q)) + b (ix2 (0 : Fin 1) q)) 0 := rfl

/-- The three layers and the heads of the network at their sizes. -/
abbrev cheb0 := @chebRelu 50000 128 300
abbrev cheb1 := @chebRelu 50000 300 100
abbrev cheb4 := @chebLin 50000 100 2
abbrev heads := @headRes 50000 128 100

end Cert.KernelIdeal.SpecCheb

end
-- ==== Proof.KI.Val0.lean ====
/-
  REGION 0, READ: THE RESULT ARRAY IS THE RECTIFIED CHEBYSHEV LAYER OF THE FIVE ARRAYS.

  The region walks the 50000 rows in 25 blocks of 2000. At point t the body stores, whole, the block whose element
  (p, q) is max(Σ_k x(p, k)·W₀(k, q) + Σ_k T₁x(p, k)·W₁(k, q) + b(0, q), 0) of its loaded blocks (rounding is the
  identity on extended reals and a product into a zero accumulator is the plain sum over k < 128). The two row blocks
  are rows 2000·t … 2000·t + 1999 of their arrays, the weights and the bias are read whole at every point, and the
  stored block goes back to rows 2000·t … of the result array. Row r of the result is covered by point r / 2000 and
  every point writes its block back, so after the region the result array is the layer's function of the arrays as
  the region found them, index by index.
-/
import proofs.«176792_j62921270886524_2_alg».proof.Proof.KI.Reg0
import proofs.«176792_j62921270886524_2_alg».proof.Proof.LibPlainDot
import proofs.«176792_j62921270886524_2_alg».proof.Proof.LibRowReads
import proofs.«176792_j62921270886524_2_alg».proof.Proof.KI.SpecCheb
import Idealize.ShloMosaic.Lib.Pipeline.Value

set_option maxRecDepth 16384

noncomputable section

open scoped BigOperators

namespace Cert.KernelIdeal.Val0

open Cert.KernelIdeal Cert.KernelIdeal.Gen Cert.KernelIdeal.SpecCheb
open Idealize.ShloMosaic Idealize.ShloMosaic.TcCoe Idealize.ShloMosaic.ValueIdx
open Idealize.ShloMosaic.Pipeline (Dat)

/-- The whole-buffer rectangles sit at offset zero on both axes. -/
theorem hz : (![0, 0] : Fin 2 → Nat) = fun _ => 0 := funext fun a => by fin_cases a <;> rfl

/-- THE BODY'S PAYLOAD AT AN ELEMENT. With rounding the identity, a product into a zero accumulator the plain sum and
    the bias row repeated down the rows, element (p, q) of the stored block is the rectified sum of row p of the first
    block against column q of the first weight, row p of the second block against column q of the second weight, and
    the bias entry q. -/
theorem pay_at (x0 x1 : Vec Ideal S2000x128 .f32) (x2 x3 : Vec Ideal S128x300 .f32) (x4 : Vec Ideal S1x300 .f32)
    (p : Fin 2000) (q : Fin 300) :
    k0_pay1 x0 x1 x2 x3 x4 (ix2 p q)
      = max ((∑ k : Fin 128, x0 (ix2 p k) * x2 (ix2 k q)) + (∑ k : Fin 128, x1 (ix2 p k) * x3 (ix2 k q))
          + x4 (ix2 (0 : Fin 1) q)) 0 := by
  unfold k0_pay1
  simp only [shapeCast_self]
  rw [maximumf_apply, addf_apply, addf_apply, broadcast_apply,
    Cert.Lib.matmul_zero_at _ rfl rfl rfl rfl rfl rfl, Cert.Lib.matmul_zero_at _ rfl rfl rfl rfl rfl rfl,
    broadcastTo_1b_ab_apply]
  simp only [truncf_apply]
  rw [show Scalar.ofBits (F := Ideal) .f32 0x00000000#32 = 0 from Ideal.ofBits_zero_f32]

/-- The stored block at element (p, q) is the layer's function at array index (r, q), when the two row blocks hold
    row r of the two feature arrays in their row p and the weight and bias blocks are the whole arrays. -/
theorem block_at (x0 x1 : Vec Ideal S2000x128 .f32) (x2 x3 : Vec Ideal S128x300 .f32) (x4 : Vec Ideal S1x300 .f32)
    (X TX : S50000x128.Idx → EReal) (W0 W1 : S128x300.Idx → EReal) (B : S1x300.Idx → EReal)
    (p : Fin 2000) (q : Fin 300) (r : Fin 50000)
    (h0 : ∀ k : Fin 128, x0 (ix2 p k) = X (ix2 r k)) (h1 : ∀ k : Fin 128, x1 (ix2 p k) = TX (ix2 r k))
    (h2 : x2 = W0) (h3 : x3 = W1) (h4 : x4 = B) :
    k0_pay1 x0 x1 x2 x3 x4 (ix2 p q) = cheb0 X TX W0 W1 B (ix2 r q) := by
  refine (pay_at x0 x1 x2 x3 x4 p q).trans (Eq.trans ?_ (chebRelu_apply X TX W0 W1 B r q).symm)
  rw [h2, h3, h4]
  simp only [h0, h1]

/-- The printed index maps, decided over the grid: the two row blocks and the result block are block `t` of their
    arrays at point `t`; the weights and the bias have one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of the layer's function of the five arrays as the region finds them. -/
theorem flushed_eq (c : Dev nD) (t : Fin cfg0.N) :
    (Reg0.dat0 (F := Ideal) V c).flushed 5 t = ((cfg0.win 5).blk t).view.read (Elt Ideal)
      (cheb0 (V c main_arg0) (V c main_v42) (V c main_v45) (V c main_v47) (V c main_v43)) := by
  show (cfg0.win 5).cut (grid0.coords t) ((Reg0.dat0 (F := Ideal) V c).after 5 t) = _
  rw [Reg0.after5]
  unfold Reg0.out5
  rw [View.canon_unit_zero hz]
  simp only [View.ld_unit_zero (S := S2000x128) hz, View.ld_unit_zero (S := S128x300) hz, View.ld_unit_zero (S := S1x300) hz]
  obtain ⟨e00, e01, e10, e11, e20, e21, e30, e31, e40, e41, e50, e51⟩ := idx_facts t
  funext j
  obtain ⟨p, q, rfl⟩ : ∃ (p : Fin 2000) (q : Fin 300), j = ix2 p q := ⟨j 0, j 1, eq_ix2 j⟩
  show k0_pay1 (Reg0.iblk V c 0 t) (Reg0.iblk V c 1 t) (Reg0.iblk V c 2 t) (Reg0.iblk V c 3 t) (Reg0.iblk V c 4 t) (ix2 p q)
    = cheb0 (V c main_arg0) (V c main_v42) (V c main_v45) (V c main_v47) (V c main_v43) (((cfg0.win 5).blk t).view.emb (ix2 p q))
  obtain ⟨r, s, hi⟩ : ∃ (r : Fin 50000) (s : Fin 300), ((cfg0.win 5).blk t).view.emb (ix2 p q) = ix2 r s :=
    ⟨_, _, eq_ix2 _⟩
  have hr : win0_5.index t (0 : Fin 2) * 2000 + 1 * p.val = r.val := congrArg (fun f => (f (0 : Fin 2)).val) hi
  have hs : win0_5.index t (1 : Fin 2) * 300 + 1 * q.val = s.val := congrArg (fun f => (f (1 : Fin 2)).val) hi
  have hsq : s = q := Fin.ext (by omega)
  rw [hi, hsq]
  refine block_at _ _ _ _ _ _ _ _ _ _ p q r (fun k => ?_) (fun k => ?_) ?_ ?_ ?_
  · show V c main_arg0 (((cfg0.win 0).blk t).view.emb (ix2 p k)) = V c main_arg0 (ix2 r k)
    refine congrArg _ (funext fun a => Fin.ext ?_)
    match a with
    | ⟨0, _⟩ => show win0_0.index t (0 : Fin 2) * 2000 + 1 * p.val = r.val; omega
    | ⟨1, _⟩ => show win0_0.index t (1 : Fin 2) * 128 + 1 * k.val = k.val; omega
  · show V c main_v42 (((cfg0.win 1).blk t).view.emb (ix2 p k)) = V c main_v42 (ix2 r k)
    refine congrArg _ (funext fun a => Fin.ext ?_)
    match a with
    | ⟨0, _⟩ => show win0_1.index t (0 : Fin 2) * 2000 + 1 * p.val = r.val; omega
    | ⟨1, _⟩ => show win0_1.index t (1 : Fin 2) * 128 + 1 * k.val = k.val; omega
  · funext y
    show V c main_v45 (((cfg0.win 2).blk t).view.emb y) = V c main_v45 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 300 + 1 * (y 1).val = (y 1).val; omega
  · funext y
    show V c main_v47 (((cfg0.win 3).blk t).view.emb y) = V c main_v47 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 300 + 1 * (y 1).val = (y 1).val; omega
  · funext y
    show V c main_v43 (((cfg0.win 4).blk t).view.emb y) = V c main_v43 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 300 + 1 * (y 1).val = (y 1).val; omega

/-- An index of the result array is in point `t`'s block iff each coordinate is in the block's range on its axis. -/
theorem mem_blk (t : Fin cfg0.N) (i : S50000x300.Idx) :
    i ∈ ((cfg0.win 5).blk t).view.set ↔ ∀ a : Fin 2, win0_5.index t a * S2000x300.size a ≤ (i a).val
      ∧ (i a).val < win0_5.index t a * S2000x300.size a + S2000x300.size a := by
  show i ∈ ((View.whole main_v48).slice (win0_5.rect t)).set ↔ _
  rw [View.set_slice_whole, Rect.mem_set_unit]
  exact Iff.rfl

/-- Row r of the result is in the block of point r / 2000, and every point writes its block back. -/
theorem cover (i : S50000x300.Idx) :
    ∃ t : Fin cfg0.N, (cfg0.win 5).flush t = true ∧ i ∈ ((cfg0.win 5).blk t).view.set := by
  have hi0 : (i 0).val < 50000 := (i 0).isLt
  have hi1 : (i 1).val < 300 := (i 1).isLt
  have hN : (i 0).val / 2000 < cfg0.N := by show _ < grid0.N; rw [N_0]; omega
  obtain ⟨e00, e01, e10, e11, e20, e21, e30, e31, e40, e41, e50, e51⟩ := idx_facts ⟨(i 0).val / 2000, hN⟩
  refine ⟨⟨(i 0).val / 2000, hN⟩, flush0_5 _, ?_⟩
  rw [mem_blk]
  intro a
  match a with
  | ⟨0, _⟩ =>
    show win0_5.index ⟨(i 0).val / 2000, hN⟩ (0 : Fin 2) * 2000 ≤ (i 0).val
      ∧ (i 0).val < win0_5.index ⟨(i 0).val / 2000, hN⟩ (0 : Fin 2) * 2000 + 2000
    simp only [] at e50
    omega
  | ⟨1, _⟩ =>
    show win0_5.index ⟨(i 0).val / 2000, hN⟩ (1 : Fin 2) * 300 ≤ (i 1).val
      ∧ (i 1).val < win0_5.index ⟨(i 0).val / 2000, hN⟩ (1 : Fin 2) * 300 + 300
    omega

/-- THE RESULT ARRAY after the region: the rectified layer of the five arrays as the region finds them. -/
theorem final0 (c : Dev nD) :
    (Reg0.dat0 (F := Ideal) V c).arrAt 5 cfg0.N
      = cheb0 (V c main_arg0) (V c main_v42) (V c main_v45) (V c main_v47) (V c main_v43) :=
  (Reg0.dat0 (F := Ideal) V c).arrAt_eq_of_cover 5 _ (fun t _ => flushed_eq V c t) cover

end Cert.KernelIdeal.Val0

end
-- ==== Proof.KI.Val1.lean ====
/-
  REGION 1, READ: THE RESULT ARRAY IS THE RECTIFIED CHEBYSHEV LAYER OF THE FIVE ARRAYS.

  The region walks the 50000 rows in 25 blocks of 2000. At point t the body stores, whole, the block whose element
  (p, q) is max(Σ_k x(p, k)·W₀(k, q) + Σ_k T₁x(p, k)·W₁(k, q) + b(0, q), 0) of its loaded blocks (rounding is the
  identity on extended reals and a product into a zero accumulator is the plain sum over k < 300). The two row blocks
  are rows 2000·t … 2000·t + 1999 of their arrays, the weights and the bias are read whole at every point, and the
  stored block goes back to rows 2000·t … of the result array. Row r of the result is covered by point r / 2000 and
  every point writes its block back, so after the region the result array is the layer's function of the arrays as
  the region found them, index by index.
-/
import proofs.«176792_j62921270886524_2_alg».proof.Proof.KI.Reg1
import proofs.«176792_j62921270886524_2_alg».proof.Proof.LibPlainDot
import proofs.«176792_j62921270886524_2_alg».proof.Proof.LibRowReads
import proofs.«176792_j62921270886524_2_alg».proof.Proof.KI.SpecCheb
import Idealize.ShloMosaic.Lib.Pipeline.Value

set_option maxRecDepth 16384

noncomputable section

open scoped BigOperators

namespace Cert.KernelIdeal.Val1

open Cert.KernelIdeal Cert.KernelIdeal.Gen Cert.KernelIdeal.SpecCheb
open Idealize.ShloMosaic Idealize.ShloMosaic.TcCoe Idealize.ShloMosaic.ValueIdx
open Idealize.ShloMosaic.Pipeline (Dat)

/-- The whole-buffer rectangles sit at offset zero on both axes. -/
theorem hz : (![0, 0] : Fin 2 → Nat) = fun _ => 0 := funext fun a => by fin_cases a <;> rfl

/-- THE BODY'S PAYLOAD AT AN ELEMENT. With rounding the identity, a product into a zero accumulator the plain sum and
    the bias row repeated down the rows, element (p, q) of the stored block is the rectified sum of row p of the first
    block against column q of the first weight, row p of the second block against column q of the second weight, and
    the bias entry q. -/
theorem pay_at (x0 x1 : Vec Ideal S2000x300 .f32) (x2 x3 : Vec Ideal S300x100 .f32) (x4 : Vec Ideal S1x100 .f32)
    (p : Fin 2000) (q : Fin 100) :
    k1_pay1 x0 x1 x2 x3 x4 (ix2 p q)
      = max ((∑ k : Fin 300, x0 (ix2 p k) * x2 (ix2 k q)) + (∑ k : Fin 300, x1 (ix2 p k) * x3 (ix2 k q))
          + x4 (ix2 (0 : Fin 1) q)) 0 := by
  unfold k1_pay1
  simp only [shapeCast_self]
  rw [maximumf_apply, addf_apply, addf_apply, broadcast_apply,
    Cert.Lib.matmul_zero_at _ rfl rfl rfl rfl rfl rfl, Cert.Lib.matmul_zero_at _ rfl rfl rfl rfl rfl rfl,
    broadcastTo_1b_ab_apply]
  simp only [truncf_apply]
  rw [show Scalar.ofBits (F := Ideal) .f32 0x00000000#32 = 0 from Ideal.ofBits_zero_f32]

/-- The stored block at element (p, q) is the layer's function at array index (r, q), when the two row blocks hold
    row r of the two feature arrays in their row p and the weight and bias blocks are the whole arrays. -/
theorem block_at (x0 x1 : Vec Ideal S2000x300 .f32) (x2 x3 : Vec Ideal S300x100 .f32) (x4 : Vec Ideal S1x100 .f32)
    (X TX : S50000x300.Idx → EReal) (W0 W1 : S300x100.Idx → EReal) (B : S1x100.Idx → EReal)
    (p : Fin 2000) (q : Fin 100) (r : Fin 50000)
    (h0 : ∀ k : Fin 300, x0 (ix2 p k) = X (ix2 r k)) (h1 : ∀ k : Fin 300, x1 (ix2 p k) = TX (ix2 r k))
    (h2 : x2 = W0) (h3 : x3 = W1) (h4 : x4 = B) :
    k1_pay1 x0 x1 x2 x3 x4 (ix2 p q) = cheb1 X TX W0 W1 B (ix2 r q) := by
  refine (pay_at x0 x1 x2 x3 x4 p q).trans (Eq.trans ?_ (chebRelu_apply X TX W0 W1 B r q).symm)
  rw [h2, h3, h4]
  simp only [h0, h1]

/-- The printed index maps, decided over the grid: the two row blocks and the result block are block `t` of their
    arrays at point `t`; the weights and the bias have one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of the layer's function of the five arrays as the region finds them. -/
theorem flushed_eq (c : Dev nD) (t : Fin cfg1.N) :
    (Reg1.dat1 (F := Ideal) V c).flushed 5 t = ((cfg1.win 5).blk t).view.read (Elt Ideal)
      (cheb1 (V c main_v48) (V c main_v61) (V c main_v64) (V c main_v66) (V c main_v62)) := by
  show (cfg1.win 5).cut (grid1.coords t) ((Reg1.dat1 (F := Ideal) V c).after 5 t) = _
  rw [Reg1.after5]
  unfold Reg1.out5
  rw [View.canon_unit_zero hz]
  simp only [View.ld_unit_zero (S := S2000x300) hz, View.ld_unit_zero (S := S300x100) hz, View.ld_unit_zero (S := S1x100) hz]
  obtain ⟨e00, e01, e10, e11, e20, e21, e30, e31, e40, e41, e50, e51⟩ := idx_facts t
  funext j
  obtain ⟨p, q, rfl⟩ : ∃ (p : Fin 2000) (q : Fin 100), j = ix2 p q := ⟨j 0, j 1, eq_ix2 j⟩
  show k1_pay1 (Reg1.iblk V c 0 t) (Reg1.iblk V c 1 t) (Reg1.iblk V c 2 t) (Reg1.iblk V c 3 t) (Reg1.iblk V c 4 t) (ix2 p q)
    = cheb1 (V c main_v48) (V c main_v61) (V c main_v64) (V c main_v66) (V c main_v62) (((cfg1.win 5).blk t).view.emb (ix2 p q))
  obtain ⟨r, s, hi⟩ : ∃ (r : Fin 50000) (s : Fin 100), ((cfg1.win 5).blk t).view.emb (ix2 p q) = ix2 r s :=
    ⟨_, _, eq_ix2 _⟩
  have hr : win1_5.index t (0 : Fin 2) * 2000 + 1 * p.val = r.val := congrArg (fun f => (f (0 : Fin 2)).val) hi
  have hs : win1_5.index t (1 : Fin 2) * 100 + 1 * q.val = s.val := congrArg (fun f => (f (1 : Fin 2)).val) hi
  have hsq : s = q := Fin.ext (by omega)
  rw [hi, hsq]
  refine block_at _ _ _ _ _ _ _ _ _ _ p q r (fun k => ?_) (fun k => ?_) ?_ ?_ ?_
  · show V c main_v48 (((cfg1.win 0).blk t).view.emb (ix2 p k)) = V c main_v48 (ix2 r k)
    refine congrArg _ (funext fun a => Fin.ext ?_)
    match a with
    | ⟨0, _⟩ => show win1_0.index t (0 : Fin 2) * 2000 + 1 * p.val = r.val; omega
    | ⟨1, _⟩ => show win1_0.index t (1 : Fin 2) * 300 + 1 * k.val = k.val; omega
  · show V c main_v61 (((cfg1.win 1).blk t).view.emb (ix2 p k)) = V c main_v61 (ix2 r k)
    refine congrArg _ (funext fun a => Fin.ext ?_)
    match a with
    | ⟨0, _⟩ => show win1_1.index t (0 : Fin 2) * 2000 + 1 * p.val = r.val; omega
    | ⟨1, _⟩ => show win1_1.index t (1 : Fin 2) * 300 + 1 * k.val = k.val; omega
  · funext y
    show V c main_v64 (((cfg1.win 2).blk t).view.emb y) = V c main_v64 y
    refine congrArg _ (funext fun a => Fin.ext ?_)
    match a with
    | ⟨0, _⟩ => show win1_2.index t (0 : Fin 2) * 300 + 1 * (y 0).val = (y 0).val; omega
    | ⟨1, _⟩ => show win1_2.index t (1 : Fin 2) * 100 + 1 * (y 1).val = (y 1).val; omega
  · funext y
    show V c main_v66 (((cfg1.win 3).blk t).view.emb y) = V c main_v66 y
    refine congrArg _ (funext fun a => Fin.ext ?_)
    match a with
    | ⟨0, _⟩ => show win1_3.index t (0 : Fin 2) * 300 + 1 * (y 0).val = (y 0).val; omega
    | ⟨1, _⟩ => show win1_3.index t (1 : Fin 2) * 100 + 1 * (y 1).val = (y 1).val; omega
  · funext y
    show V c main_v62 (((cfg1.win 4).blk t).view.emb y) = V c main_v62 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 100 + 1 * (y 1).val = (y 1).val; omega

/-- An index of the result array is in point `t`'s block iff each coordinate is in the block's range on its axis. -/
theorem mem_blk (t : Fin cfg1.N) (i : S50000x100.Idx) :
    i ∈ ((cfg1.win 5).blk t).view.set ↔ ∀ a : Fin 2, win1_5.index t a * S2000x100.size a ≤ (i a).val
      ∧ (i a).val < win1_5.index t a * S2000x100.size a + S2000x100.size a := by
  show i ∈ ((View.whole main_v67).slice (win1_5.rect t)).set ↔ _
  rw [View.set_slice_whole, Rect.mem_set_unit]
  exact Iff.rfl

/-- Row r of the result is in the block of point r / 2000, and every point writes its block back. -/
theorem cover (i : S50000x100.Idx) :
    ∃ t : Fin cfg1.N, (cfg1.win 5).flush t = true ∧ i ∈ ((cfg1.win 5).blk t).view.set := by
  have hi0 : (i 0).val < 50000 := (i 0).isLt
  have hi1 : (i 1).val < 100 := (i 1).isLt
  have hN : (i 0).val / 2000 < cfg1.N := by show _ < grid1.N; rw [N_1]; omega
  obtain ⟨e00, e01, e10, e11, e20, e21, e30, e31, e40, e41, e50, e51⟩ := idx_facts ⟨(i 0).val / 2000, hN⟩
  refine ⟨⟨(i 0).val / 2000, hN⟩, flush1_5 _, ?_⟩
  rw [mem_blk]
  intro a
  match a with
  | ⟨0, _⟩ =>
    show win1_5.index ⟨(i 0).val / 2000, hN⟩ (0 : Fin 2) * 2000 ≤ (i 0).val
      ∧ (i 0).val < win1_5.index ⟨(i 0).val / 2000, hN⟩ (0 : Fin 2) * 2000 + 2000
    simp only [] at e50
    omega
  | ⟨1, _⟩ =>
    show win1_5.index ⟨(i 0).val / 2000, hN⟩ (1 : Fin 2) * 100 ≤ (i 1).val
      ∧ (i 1).val < win1_5.index ⟨(i 0).val / 2000, hN⟩ (1 : Fin 2) * 100 + 100
    omega

/-- THE RESULT ARRAY after the region: the rectified layer of the five arrays as the region finds them. -/
theorem final1 (c : Dev nD) :
    (Reg1.dat1 (F := Ideal) V c).arrAt 5 cfg1.N
      = cheb1 (V c main_v48) (V c main_v61) (V c main_v64) (V c main_v66) (V c main_v62) :=
  (Reg1.dat1 (F := Ideal) V c).arrAt_eq_of_cover 5 _ (fun t _ => flushed_eq V c t) cover

end Cert.KernelIdeal.Val1

end
-- ==== Proof.KI.Val2.lean ====
/-
  REGION 2, READ: THE TWO RESULT ARRAYS ARE THE TWO RESIDUAL HEADS OF THE ARRAYS THE REGION FINDS.

  The region walks the 50000 rows in 25 blocks of 2000. At point t the body stores, whole, two blocks whose element
  (p, q) is y(p, q) + max(Σ_k x(p, k)·A(k, q) + b(0, q), 0) of its loaded blocks, once with the first weight and bias
  and once with the second (rounding is the identity on extended reals and a product into a zero accumulator is the
  plain sum over k < 128). The blocks of x and of y are rows 2000·t … 2000·t + 1999 of their arrays, the weights and
  the biases are read whole at every point, and each stored block goes back to rows 2000·t … of its result array. Row
  r of a result is covered by point r / 2000 and every point writes both blocks back, so after the region each result
  array is its head's function of the arrays as the region found them, index by index.
-/
import proofs.«176792_j62921270886524_2_alg».proof.Proof.KI.Reg2
import proofs.«176792_j62921270886524_2_alg».proof.Proof.LibPlainDot
import proofs.«176792_j62921270886524_2_alg».proof.Proof.LibRowReads
import proofs.«176792_j62921270886524_2_alg».proof.Proof.KI.SpecCheb
import Idealize.ShloMosaic.Lib.Pipeline.Value

set_option maxRecDepth 16384

noncomputable section

open scoped BigOperators

namespace Cert.KernelIdeal.Val2

open Cert.KernelIdeal Cert.KernelIdeal.Gen Cert.KernelIdeal.SpecCheb
open Idealize.ShloMosaic Idealize.ShloMosaic.TcCoe Idealize.ShloMosaic.ValueIdx
open Idealize.ShloMosaic.Pipeline (Dat)

/-- The whole-buffer rectangles sit at offset zero on both axes. -/
theorem hz : (![0, 0] : Fin 2 → Nat) = fun _ => 0 := funext fun a => by fin_cases a <;> rfl

/-- The printed index maps, decided over the grid: the feature block, the residual block and the two result blocks
    are block `t` of their arrays at point `t`; the weights and the biases have one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

variable (V : (c : Dev nD) → (b : Ref sig .tc) → Buf (Elt Ideal) ((c : Thread nD τ).loc b))

/-- THE FIRST STORE'S PAYLOAD AT AN ELEMENT: element (p, q) of the residual block plus the rectified sum of row p
    of the feature block against column q of the weight and the bias entry q. -/
theorem pay_ata (x0 : Vec Ideal S2000x128 .f32) (x2 : Vec Ideal S128x100 .f32) (x3 : Vec Ideal S1x100 .f32)
    (x1 : Vec Ideal S2000x100 .f32) (p : Fin 2000) (q : Fin 100) :
    k2_pay2 x0 x2 x3 x1 (ix2 p q)
      = x1 (ix2 p q) + max ((∑ k : Fin 128, x0 (ix2 p k) * x2 (ix2 k q)) + x3 (ix2 (0 : Fin 1) q)) 0 := by
  unfold k2_pay2 k2_pay1
  simp only [shapeCast_self]
  rw [addf_apply, maximumf_apply, addf_apply, broadcast_apply,
    Cert.Lib.matmul_zero_at _ rfl rfl rfl rfl rfl rfl, broadcastTo_1b_ab_apply]
  simp only [truncf_apply]
  rw [show Scalar.ofBits (F := Ideal) .f32 0x00000000#32 = 0 from Ideal.ofBits_zero_f32]

/-- The first stored block at element (p, q) is the head's function at array index (r, q), when the feature block
    holds row r of the feature array in its row p, the residual block holds element (r, q) of the residual array at
    (p, q), and the weight and bias blocks are the whole arrays. -/
theorem block_ata (x0 : Vec Ideal S2000x128 .f32) (x2 : Vec Ideal S128x100 .f32) (x3 : Vec Ideal S1x100 .f32)
    (x1 : Vec Ideal S2000x100 .f32)
    (X : S50000x128.Idx → EReal) (A : S128x100.Idx → EReal) (B : S1x100.Idx → EReal) (Y : S50000x100.Idx → EReal)
    (p : Fin 2000) (q : Fin 100) (r : Fin 50000)
    (h0 : ∀ k : Fin 128, x0 (ix2 p k) = X (ix2 r k)) (h1 : x1 (ix2 p q) = Y (ix2 r q))
    (h2 : x2 = A) (h3 : x3 = B) :
    k2_pay2 x0 x2 x3 x1 (ix2 p q) = heads X A B Y (ix2 r q) := by
  refine (pay_ata x0 x2 x3 x1 p q).trans (Eq.trans ?_ (headRes_apply X A B Y r q).symm)
  rw [h2, h3, h1]
  simp only [h0]

/-- WHAT POINT `t` WRITES BACK to the first result is block `t` of the head's function of the arrays as the region finds
    them. -/
theorem flushed_eqa (c : Dev nD) (t : Fin cfg2.N) :
    (Reg2.dat2 (F := Ideal) V c).flushed 6 t = ((cfg2.win 6).blk t).view.read (Elt Ideal)
      (heads (V c main_arg0) (V c main_v68) (V c main_v70) (V c main_v67)) := by
  show (cfg2.win 6).cut (grid2.coords t) ((Reg2.dat2 (F := Ideal) V c).after 6 t) = _
  rw [Reg2.after6]
  unfold Reg2.out6
  rw [View.canon_unit_zero hz]
  simp only [View.ld_unit_zero (S := S2000x128) hz, View.ld_unit_zero (S := S128x100) hz,
    View.ld_unit_zero (S := S1x100) hz, View.ld_unit_zero (S := S2000x100) hz]
  obtain ⟨e00, e01, e10, e11, e20, e21, e30, e31, e40, e41, e50, e51, e60, e61, e70, e71⟩ := idx_facts t
  funext j
  obtain ⟨p, q, rfl⟩ : ∃ (p : Fin 2000) (q : Fin 100), j = ix2 p q := ⟨j 0, j 1, eq_ix2 j⟩
  show k2_pay2 (Reg2.iblk V c 0 t) (Reg2.iblk V c 2 t) (Reg2.iblk V c 3 t) (Reg2.iblk V c 1 t) (ix2 p q)
    = heads (V c main_arg0) (V c main_v68) (V c main_v70) (V c main_v67) (((cfg2.win 6).blk t).view.emb (ix2 p q))
  obtain ⟨r, s, hi⟩ : ∃ (r : Fin 50000) (s : Fin 100), ((cfg2.win 6).blk t).view.emb (ix2 p q) = ix2 r s :=
    ⟨_, _, eq_ix2 _⟩
  have hr : win2_6.index t (0 : Fin 2) * 2000 + 1 * p.val = r.val := congrArg (fun f => (f (0 : Fin 2)).val) hi
  have hs : win2_6.index t (1 : Fin 2) * 100 + 1 * q.val = s.val := congrArg (fun f => (f (1 : Fin 2)).val) hi
  have hsq : s = q := Fin.ext (by omega)
  rw [hi, hsq]
  refine block_ata _ _ _ _ _ _ _ _ p q r (fun k => ?_) ?_ ?_ ?_
  · show V c main_arg0 (((cfg2.win 0).blk t).view.emb (ix2 p k)) = V c main_arg0 (ix2 r k)
    refine congrArg _ (funext fun a => Fin.ext ?_)
    match a with
    | ⟨0, _⟩ => show win2_0.index t (0 : Fin 2) * 2000 + 1 * p.val = r.val; omega
    | ⟨1, _⟩ => show win2_0.index t (1 : Fin 2) * 128 + 1 * k.val = k.val; omega
  · show V c main_v67 (((cfg2.win 1).blk t).view.emb (ix2 p q)) = V c main_v67 (ix2 r q)
    refine congrArg _ (funext fun a => Fin.ext ?_)
    match a with
    | ⟨0, _⟩ => show win2_1.index t (0 : Fin 2) * 2000 + 1 * p.val = r.val; omega
    | ⟨1, _⟩ => show win2_1.index t (1 : Fin 2) * 100 + 1 * q.val = q.val; omega
  · funext y
    show V c main_v68 (((cfg2.win 2).blk t).view.emb y) = V c main_v68 y
    refine congrArg _ (funext fun a => Fin.ext ?_)
    match a with
    | ⟨0, _⟩ => show win2_2.index t (0 : Fin 2) * 128 + 1 * (y 0).val = (y 0).val; omega
    | ⟨1, _⟩ => show win2_2.index t (1 : Fin 2) * 100 + 1 * (y 1).val = (y 1).val; omega
  · funext y
    show V c main_v70 (((cfg2.win 3).blk t).view.emb y) = V c main_v70 y
    refine congrArg _ (funext fun a => Fin.ext ?_)
    match a with
    | ⟨0, _⟩ => show win2_3.index t (0 : Fin 2) * 1 + 1 * (y 0).val = (y 0).val; omega
    | ⟨1, _⟩ => show win2_3.index t (1 : Fin 2) * 100 + 1 * (y 1).val = (y 1).val; omega

/-- An index of the first result array is in point `t`'s block iff each coordinate is in the block's range on its axis. -/
theorem mem_blka (t : Fin cfg2.N) (i : S50000x100.Idx) :
    i ∈ ((cfg2.win 6).blk t).view.set ↔ ∀ a : Fin 2, win2_6.index t a * S2000x100.size a ≤ (i a).val
      ∧ (i a).val < win2_6.index t a * S2000x100.size a + S2000x100.size a := by
  show i ∈ ((View.whole main_v72_0).slice (win2_6.rect t)).set ↔ _
  rw [View.set_slice_whole, Rect.mem_set_unit]
  exact Iff.rfl

/-- Row r of the first result is in the block of point r / 2000, and every point writes that block back. -/
theorem covera (i : S50000x100.Idx) :
    ∃ t : Fin cfg2.N, (cfg2.win 6).flush t = true ∧ i ∈ ((cfg2.win 6).blk t).view.set := by
  have hi0 : (i 0).val < 50000 := (i 0).isLt
  have hi1 : (i 1).val < 100 := (i 1).isLt
  have hN : (i 0).val / 2000 < cfg2.N := by show _ < grid2.N; rw [N_2]; omega
  obtain ⟨e00, e01, e10, e11, e20, e21, e30, e31, e40, e41, e50, e51, e60, e61, e70, e71⟩ :=
    idx_facts ⟨(i 0).val / 2000, hN⟩
  refine ⟨⟨(i 0).val / 2000, hN⟩, flush2_6 _, ?_⟩
  rw [mem_blka]
  intro a
  match a with
  | ⟨0, _⟩ =>
    show win2_6.index ⟨(i 0).val / 2000, hN⟩ (0 : Fin 2) * 2000 ≤ (i 0).val
      ∧ (i 0).val < win2_6.index ⟨(i 0).val / 2000, hN⟩ (0 : Fin 2) * 2000 + 2000
    simp only [] at e60
    omega
  | ⟨1, _⟩ =>
    show win2_6.index ⟨(i 0).val / 2000, hN⟩ (1 : Fin 2) * 100 ≤ (i 1).val
      ∧ (i 1).val < win2_6.index ⟨(i 0).val / 2000, hN⟩ (1 : Fin 2) * 100 + 100
    omega

/-- THE FIRST RESULT ARRAY after the region: its residual head of the arrays as the region finds them. -/
theorem final2a (c : Dev nD) :
    (Reg2.dat2 (F := Ideal) V c).arrAt 6 cfg2.N
      = heads (V c main_arg0) (V c main_v68) (V c main_v70) (V c main_v67) :=
  (Reg2.dat2 (F := Ideal) V c).arrAt_eq_of_cover 6 _ (fun t _ => flushed_eqa V c t) covera

/-- THE SECOND STORE'S PAYLOAD AT AN ELEMENT: element (p, q) of the residual block plus the rectified sum of row p
    of the feature block against column q of the weight and the bias entry q. -/
theorem pay_atb (x0 : Vec Ideal S2000x128 .f32) (x2 : Vec Ideal S128x100 .f32) (x3 : Vec Ideal S1x100 .f32)
    (x1 : Vec Ideal S2000x100 .f32) (p : Fin 2000) (q : Fin 100) :
    k2_pay3 x0 x2 x3 x1 (ix2 p q)
      = x1 (ix2 p q) + max ((∑ k : Fin 128, x0 (ix2 p k) * x2 (ix2 k q)) + x3 (ix2 (0 : Fin 1) q)) 0 := by
  unfold k2_pay3 k2_pay1
  simp only [shapeCast_self]
  rw [addf_apply, maximumf_apply, addf_apply, broadcast_apply,
    Cert.Lib.matmul_zero_at _ rfl rfl rfl rfl rfl rfl, broadcastTo_1b_ab_apply]
  simp only [truncf_apply]
  rw [show Scalar.ofBits (F := Ideal) .f32 0x00000000#32 = 0 from Ideal.ofBits_zero_f32]

/-- The second stored block at element (p, q) is the head's function at array index (r, q), when the feature block
    holds row r of the feature array in its row p, the residual block holds element (r, q) of the residual array at
    (p, q), and the weight and bias blocks are the whole arrays. -/
theorem block_atb (x0 : Vec Ideal S2000x128 .f32) (x2 : Vec Ideal S128x100 .f32) (x3 : Vec Ideal S1x100 .f32)
    (x1 : Vec Ideal S2000x100 .f32)
    (X : S50000x128.Idx → EReal) (A : S128x100.Idx → EReal) (B : S1x100.Idx → EReal) (Y : S50000x100.Idx → EReal)
    (p : Fin 2000) (q : Fin 100) (r : Fin 50000)
    (h0 : ∀ k : Fin 128, x0 (ix2 p k) = X (ix2 r k)) (h1 : x1 (ix2 p q) = Y (ix2 r q))
    (h2 : x2 = A) (h3 : x3 = B) :
    k2_pay3 x0 x2 x3 x1 (ix2 p q) = heads X A B Y (ix2 r q) := by
  refine (pay_atb x0 x2 x3 x1 p q).trans (Eq.trans ?_ (headRes_apply X A B Y r q).symm)
  rw [h2, h3, h1]
  simp only [h0]

/-- WHAT POINT `t` WRITES BACK to the second result is block `t` of the head's function of the arrays as the region finds
    them. -/
theorem flushed_eqb (c : Dev nD) (t : Fin cfg2.N) :
    (Reg2.dat2 (F := Ideal) V c).flushed 7 t = ((cfg2.win 7).blk t).view.read (Elt Ideal)
      (heads (V c main_arg0) (V c main_v69) (V c main_v71) (V c main_v67)) := by
  show (cfg2.win 7).cut (grid2.coords t) ((Reg2.dat2 (F := Ideal) V c).after 7 t) = _
  rw [Reg2.after7]
  unfold Reg2.out7
  rw [View.canon_unit_zero hz]
  simp only [View.ld_unit_zero (S := S2000x128) hz, View.ld_unit_zero (S := S128x100) hz,
    View.ld_unit_zero (S := S1x100) hz, View.ld_unit_zero (S := S2000x100) hz]
  obtain ⟨e00, e01, e10, e11, e20, e21, e30, e31, e40, e41, e50, e51, e60, e61, e70, e71⟩ := idx_facts t
  funext j
  obtain ⟨p, q, rfl⟩ : ∃ (p : Fin 2000) (q : Fin 100), j = ix2 p q := ⟨j 0, j 1, eq_ix2 j⟩
  show k2_pay3 (Reg2.iblk V c 0 t) (Reg2.iblk V c 4 t) (Reg2.iblk V c 5 t) (Reg2.iblk V c 1 t) (ix2 p q)
    = heads (V c main_arg0) (V c main_v69) (V c main_v71) (V c main_v67) (((cfg2.win 7).blk t).view.emb (ix2 p q))
  obtain ⟨r, s, hi⟩ : ∃ (r : Fin 50000) (s : Fin 100), ((cfg2.win 7).blk t).view.emb (ix2 p q) = ix2 r s :=
    ⟨_, _, eq_ix2 _⟩
  have hr : win2_7.index t (0 : Fin 2) * 2000 + 1 * p.val = r.val := congrArg (fun f => (f (0 : Fin 2)).val) hi
  have hs : win2_7.index t (1 : Fin 2) * 100 + 1 * q.val = s.val := congrArg (fun f => (f (1 : Fin 2)).val) hi
  have hsq : s = q := Fin.ext (by omega)
  rw [hi, hsq]
  refine block_atb _ _ _ _ _ _ _ _ p q r (fun k => ?_) ?_ ?_ ?_
  · show V c main_arg0 (((cfg2.win 0).blk t).view.emb (ix2 p k)) = V c main_arg0 (ix2 r k)
    refine congrArg _ (funext fun a => Fin.ext ?_)
    match a with
    | ⟨0, _⟩ => show win2_0.index t (0 : Fin 2) * 2000 + 1 * p.val = r.val; omega
    | ⟨1, _⟩ => show win2_0.index t (1 : Fin 2) * 128 + 1 * k.val = k.val; omega
  · show V c main_v67 (((cfg2.win 1).blk t).view.emb (ix2 p q)) = V c main_v67 (ix2 r q)
    refine congrArg _ (funext fun a => Fin.ext ?_)
    match a with
    | ⟨0, _⟩ => show win2_1.index t (0 : Fin 2) * 2000 + 1 * p.val = r.val; omega
    | ⟨1, _⟩ => show win2_1.index t (1 : Fin 2) * 100 + 1 * q.val = q.val; omega
  · funext y
    show V c main_v69 (((cfg2.win 4).blk t).view.emb y) = V c main_v69 y
    refine congrArg _ (funext fun a => Fin.ext ?_)
    match a with
    | ⟨0, _⟩ => show win2_4.index t (0 : Fin 2) * 128 + 1 * (y 0).val = (y 0).val; omega
    | ⟨1, _⟩ => show win2_4.index t (1 : Fin 2) * 100 + 1 * (y 1).val = (y 1).val; omega
  · funext y
    show V c main_v71 (((cfg2.win 5).blk t).view.emb y) = V c main_v71 y
    refine congrArg _ (funext fun a => Fin.ext ?_)
    match a with
    | ⟨0, _⟩ => show win2_5.index t (0 : Fin 2) * 1 + 1 * (y 0).val = (y 0).val; omega
    | ⟨1, _⟩ => show win2_5.index t (1 : Fin 2) * 100 + 1 * (y 1).val = (y 1).val; omega

/-- An index of the second result array is in point `t`'s block iff each coordinate is in the block's range on its axis. -/
theorem mem_blkb (t : Fin cfg2.N) (i : S50000x100.Idx) :
    i ∈ ((cfg2.win 7).blk t).view.set ↔ ∀ a : Fin 2, win2_7.index t a * S2000x100.size a ≤ (i a).val
      ∧ (i a).val < win2_7.index t a * S2000x100.size a + S2000x100.size a := by
  show i ∈ ((View.whole main_v72_1).slice (win2_7.rect t)).set ↔ _
  rw [View.set_slice_whole, Rect.mem_set_unit]
  exact Iff.rfl

/-- Row r of the second result is in the block of point r / 2000, and every point writes that block back. -/
theorem coverb (i : S50000x100.Idx) :
    ∃ t : Fin cfg2.N, (cfg2.win 7).flush t = true ∧ i ∈ ((cfg2.win 7).blk t).view.set := by
  have hi0 : (i 0).val < 50000 := (i 0).isLt
  have hi1 : (i 1).val < 100 := (i 1).isLt
  have hN : (i 0).val / 2000 < cfg2.N := by show _ < grid2.N; rw [N_2]; omega
  obtain ⟨e00, e01, e10, e11, e20, e21, e30, e31, e40, e41, e50, e51, e60, e61, e70, e71⟩ :=
    idx_facts ⟨(i 0).val / 2000, hN⟩
  refine ⟨⟨(i 0).val / 2000, hN⟩, flush2_7 _, ?_⟩
  rw [mem_blkb]
  intro a
  match a with
  | ⟨0, _⟩ =>
    show win2_7.index ⟨(i 0).val / 2000, hN⟩ (0 : Fin 2) * 2000 ≤ (i 0).val
      ∧ (i 0).val < win2_7.index ⟨(i 0).val / 2000, hN⟩ (0 : Fin 2) * 2000 + 2000
    simp only [] at e70
    omega
  | ⟨1, _⟩ =>
    show win2_7.index ⟨(i 0).val / 2000, hN⟩ (1 : Fin 2) * 100 ≤ (i 1).val
      ∧ (i 1).val < win2_7.index ⟨(i 0).val / 2000, hN⟩ (1 : Fin 2) * 100 + 100
    omega

/-- THE SECOND RESULT ARRAY after the region: its residual head of the arrays as the region finds them. -/
theorem final2b (c : Dev nD) :
    (Reg2.dat2 (F := Ideal) V c).arrAt 7 cfg2.N
      = heads (V c main_arg0) (V c main_v69) (V c main_v71) (V c main_v67) :=
  (Reg2.dat2 (F := Ideal) V c).arrAt_eq_of_cover 7 _ (fun t _ => flushed_eqb V c t) coverb

end Cert.KernelIdeal.Val2

end
-- ==== Proof.KI.Val4.lean ====
/-
  REGION 4, READ: THE RESULT ARRAY IS THE CHEBYSHEV LAYER (NO ACTIVATION) OF THE FIVE ARRAYS.

  The region walks the 50000 rows in 25 blocks of 2000. At point t the body stores, whole, the block whose element
  (p, q) is Σ_k x(p, k)·W₀(k, q) + Σ_k T₁x(p, k)·W₁(k, q) + b(0, q) of its loaded blocks (rounding is the
  identity on extended reals and a product into a zero accumulator is the plain sum over k < 100). The two row blocks
  are rows 2000·t … 2000·t + 1999 of their arrays, the weights and the bias are read whole at every point, and the
  stored block goes back to rows 2000·t … of the result array. Row r of the result is covered by point r / 2000 and
  every point writes its block back, so after the region the result array is the layer's function of the arrays as
  the region found them, index by index.
-/
import proofs.«176792_j62921270886524_2_alg».proof.Proof.KI.Reg4
import proofs.«176792_j62921270886524_2_alg».proof.Proof.LibPlainDot
import proofs.«176792_j62921270886524_2_alg».proof.Proof.LibRowReads
import proofs.«176792_j62921270886524_2_alg».proof.Proof.KI.SpecCheb
import Idealize.ShloMosaic.Lib.Pipeline.Value

set_option maxRecDepth 16384

noncomputable section

open scoped BigOperators

namespace Cert.KernelIdeal.Val4

open Cert.KernelIdeal Cert.KernelIdeal.Gen Cert.KernelIdeal.SpecCheb
open Idealize.ShloMosaic Idealize.ShloMosaic.TcCoe Idealize.ShloMosaic.ValueIdx
open Idealize.ShloMosaic.Pipeline (Dat)

/-- The whole-buffer rectangles sit at offset zero on both axes. -/
theorem hz : (![0, 0] : Fin 2 → Nat) = fun _ => 0 := funext fun a => by fin_cases a <;> rfl

/-- THE BODY'S PAYLOAD AT AN ELEMENT. With rounding the identity, a product into a zero accumulator the plain sum and
    the bias row repeated down the rows, element (p, q) of the stored block is the sum of row p of the first
    block against column q of the first weight, row p of the second block against column q of the second weight, and
    the bias entry q. -/
theorem pay_at (x0 x1 : Vec Ideal S2000x100 .f32) (x2 x3 : Vec Ideal S100x2 .f32) (x4 : Vec Ideal S1x2 .f32)
    (p : Fin 2000) (q : Fin 2) :
    k4_pay1 x0 x1 x2 x3 x4 (ix2 p q)
      = (∑ k : Fin 100, x0 (ix2 p k) * x2 (ix2 k q)) + (∑ k : Fin 100, x1 (ix2 p k) * x3 (ix2 k q))
          + x4 (ix2 (0 : Fin 1) q) := by
  unfold k4_pay1
  simp only [shapeCast_self]
  rw [addf_apply, addf_apply,
    Cert.Lib.matmul_zero_at _ rfl rfl rfl rfl rfl rfl, Cert.Lib.matmul_zero_at _ rfl rfl rfl rfl rfl rfl,
    broadcastTo_1b_ab_apply]
  simp only [truncf_apply]

/-- The stored block at element (p, q) is the layer's function at array index (r, q), when the two row blocks hold
    row r of the two feature arrays in their row p and the weight and bias blocks are the whole arrays. -/
theorem block_at (x0 x1 : Vec Ideal S2000x100 .f32) (x2 x3 : Vec Ideal S100x2 .f32) (x4 : Vec Ideal S1x2 .f32)
    (X TX : S50000x100.Idx → EReal) (W0 W1 : S100x2.Idx → EReal) (B : S1x2.Idx → EReal)
    (p : Fin 2000) (q : Fin 2) (r : Fin 50000)
    (h0 : ∀ k : Fin 100, x0 (ix2 p k) = X (ix2 r k)) (h1 : ∀ k : Fin 100, x1 (ix2 p k) = TX (ix2 r k))
    (h2 : x2 = W0) (h3 : x3 = W1) (h4 : x4 = B) :
    k4_pay1 x0 x1 x2 x3 x4 (ix2 p q) = cheb4 X TX W0 W1 B (ix2 r q) := by
  refine (pay_at x0 x1 x2 x3 x4 p q).trans (Eq.trans ?_ (chebLin_apply X TX W0 W1 B r q).symm)
  rw [h2, h3, h4]
  simp only [h0, h1]

/-- The printed index maps, decided over the grid: the two row blocks and the result block are block `t` of their
    arrays at point `t`; the weights and the bias have one block. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b))

/-- WHAT POINT `t` WRITES BACK is block `t` of the layer's function of the five arrays as the region finds them. -/
theorem flushed_eq (c : Dev nD) (t : Fin cfg4.N) :
    (Reg4.dat4 (F := Ideal) V c).flushed 5 t = ((cfg4.win 5).blk t).view.read (Elt Ideal)
      (cheb4 (V c main_v72_0) (V c main_v123) (V c main_v126) (V c main_v128) (V c main_v124)) := by
  show (cfg4.win 5).cut (grid4.coords t) ((Reg4.dat4 (F := Ideal) V c).after 5 t) = _
  rw [Reg4.after5]
  unfold Reg4.out5
  rw [View.canon_unit_zero hz]
  simp only [View.ld_unit_zero (S := S2000x100) hz, View.ld_unit_zero (S := S100x2) hz, View.ld_unit_zero (S := S1x2) hz]
  obtain ⟨e00, e01, e10, e11, e20, e21, e30, e31, e40, e41, e50, e51⟩ := idx_facts t
  funext j
  obtain ⟨p, q, rfl⟩ : ∃ (p : Fin 2000) (q : Fin 2), j = ix2 p q := ⟨j 0, j 1, eq_ix2 j⟩
  show k4_pay1 (Reg4.iblk V c 0 t) (Reg4.iblk V c 1 t) (Reg4.iblk V c 2 t) (Reg4.iblk V c 3 t) (Reg4.iblk V c 4 t) (ix2 p q)
    = cheb4 (V c main_v72_0) (V c main_v123) (V c main_v126) (V c main_v128) (V c main_v124) (((cfg4.win 5).blk t).view.emb (ix2 p q))
  obtain ⟨r, s, hi⟩ : ∃ (r : Fin 50000) (s : Fin 2), ((cfg4.win 5).blk t).view.emb (ix2 p q) = ix2 r s :=
    ⟨_, _, eq_ix2 _⟩
  have hr : win4_5.index t (0 : Fin 2) * 2000 + 1 * p.val = r.val := congrArg (fun f => (f (0 : Fin 2)).val) hi
  have hs : win4_5.index t (1 : Fin 2) * 2 + 1 * q.val = s.val := congrArg (fun f => (f (1 : Fin 2)).val) hi
  have hsq : s = q := Fin.ext (by omega)
  rw [hi, hsq]
  refine block_at _ _ _ _ _ _ _ _ _ _ p q r (fun k => ?_) (fun k => ?_) ?_ ?_ ?_
  · show V c main_v72_0 (((cfg4.win 0).blk t).view.emb (ix2 p k)) = V c main_v72_0 (ix2 r k)
    refine congrArg _ (funext fun a => Fin.ext ?_)
    match a with
    | ⟨0, _⟩ => show win4_0.index t (0 : Fin 2) * 2000 + 1 * p.val = r.val; omega
    | ⟨1, _⟩ => show win4_0.index t (1 : Fin 2) * 100 + 1 * k.val = k.val; omega
  · show V c main_v123 (((cfg4.win 1).blk t).view.emb (ix2 p k)) = V c main_v123 (ix2 r k)
    refine congrArg _ (funext fun a => Fin.ext ?_)
    match a with
    | ⟨0, _⟩ => show win4_1.index t (0 : Fin 2) * 2000 + 1 * p.val = r.val; omega
    | ⟨1, _⟩ => show win4_1.index t (1 : Fin 2) * 100 + 1 * k.val = k.val; omega
  · funext y
    show V c main_v126 (((cfg4.win 2).blk t).view.emb y) = V c main_v126 y
    refine congrArg _ (funext fun a => Fin.ext ?_)
    match a with
    | ⟨0, _⟩ => show win4_2.index t (0 : Fin 2) * 100 + 1 * (y 0).val = (y 0).val; omega
    | ⟨1, _⟩ => show win4_2.index t (1 : Fin 2) * 2 + 1 * (y 1).val = (y 1).val; omega
  · funext y
    show V c main_v128 (((cfg4.win 3).blk t).view.emb y) = V c main_v128 y
    refine congrArg _ (funext fun a => Fin.ext ?_)
    match a with
    | ⟨0, _⟩ => show win4_3.index t (0 : Fin 2) * 100 + 1 * (y 0).val = (y 0).val; omega
    | ⟨1, _⟩ => show win4_3.index t (1 : Fin 2) * 2 + 1 * (y 1).val = (y 1).val; omega
  · funext y
    show V c main_v124 (((cfg4.win 4).blk t).view.emb y) = V c main_v124 y
    refine congrArg _ (funext fun a => Fin.ext ?_)
    match a with
    | ⟨0, _⟩ => show win4_4.index t (0 : Fin 2) * 1 + 1 * (y 0).val = (y 0).val; omega
    | ⟨1, _⟩ => show win4_4.index t (1 : Fin 2) * 2 + 1 * (y 1).val = (y 1).val; omega

/-- An index of the result array is in point `t`'s block iff each coordinate is in the block's range on its axis. -/
theorem mem_blk (t : Fin cfg4.N) (i : S50000x2.Idx) :
    i ∈ ((cfg4.win 5).blk t).view.set ↔ ∀ a : Fin 2, win4_5.index t a * S2000x2.size a ≤ (i a).val
      ∧ (i a).val < win4_5.index t a * S2000x2.size a + S2000x2.size a := by
  show i ∈ ((View.whole main_v129).slice (win4_5.rect t)).set ↔ _
  rw [View.set_slice_whole, Rect.mem_set_unit]
  exact Iff.rfl

/-- Row r of the result is in the block of point r / 2000, and every point writes its block back. -/
theorem cover (i : S50000x2.Idx) :
    ∃ t : Fin cfg4.N, (cfg4.win 5).flush t = true ∧ i ∈ ((cfg4.win 5).blk t).view.set := by
  have hi0 : (i 0).val < 50000 := (i 0).isLt
  have hi1 : (i 1).val < 2 := (i 1).isLt
  have hN : (i 0).val / 2000 < cfg4.N := by show _ < grid4.N; rw [N_4]; omega
  obtain ⟨e00, e01, e10, e11, e20, e21, e30, e31, e40, e41, e50, e51⟩ := idx_facts ⟨(i 0).val / 2000, hN⟩
  refine ⟨⟨(i 0).val / 2000, hN⟩, flush4_5 _, ?_⟩
  rw [mem_blk]
  intro a
  match a with
  | ⟨0, _⟩ =>
    show win4_5.index ⟨(i 0).val / 2000, hN⟩ (0 : Fin 2) * 2000 ≤ (i 0).val
      ∧ (i 0).val < win4_5.index ⟨(i 0).val / 2000, hN⟩ (0 : Fin 2) * 2000 + 2000
    simp only [] at e50
    omega
  | ⟨1, _⟩ =>
    show win4_5.index ⟨(i 0).val / 2000, hN⟩ (1 : Fin 2) * 2 ≤ (i 1).val
      ∧ (i 1).val < win4_5.index ⟨(i 0).val / 2000, hN⟩ (1 : Fin 2) * 2 + 2
    omega

/-- THE RESULT ARRAY after the region: the layer before any activation of the five arrays as the region finds them. -/
theorem final4 (c : Dev nD) :
    (Reg4.dat4 (F := Ideal) V c).arrAt 5 cfg4.N
      = cheb4 (V c main_v72_0) (V c main_v123) (V c main_v126) (V c main_v128) (V c main_v124) :=
  (Reg4.dat4 (F := Ideal) V c).arrAt_eq_of_cover 5 _ (fun t _ => flushed_eq V c t) cover

end Cert.KernelIdeal.Val4

end
-- ==== Proof.RefSpec.lean ====
/-
  The reference program's result, named piece by piece. Its entry point is one straight line of host operations; its
  two float results are the terms below composed: the edge table's two rows; node numbers as gather indices; the
  out-degrees (ones added at the sources), their inverse square roots where positive, the edge weights
  `-d⁻¹ᐟ²[src] · d⁻¹ᐟ²[dst]`; the scaled Laplacian applied to a feature table (rows gathered at the sources, weighted,
  added at the targets); the three Chebyshev layers `x W₀ + (L̂ x) W₁ + b` (the first two rectified); the two linear
  heads `x₁ + relu (x₀ wᵀ + b)`; the rows of `z` at the link pairs, and the two mean log-sigmoid losses. Every piece is
  a function of the arrays it reads, so the kernel program's buffers can be stated as the same functions.
-/
import proofs.«176792_j62921270886524_2_alg».proof.Proof.Gen.ReferenceIdeal

noncomputable section

namespace Cert.ReferenceIdeal.Spec

open Cert.ReferenceIdeal Cert.ReferenceIdeal.Gen Idealize.ShloMosaic Idealize.ShloMosaic.TcCoe

variable {F : FTy → Type} [FloatOps F]

/-- The sources of the edges: row 0 of the edge table. -/
def src (a1 : (⟨S2x800000, .i32⟩ : BufTy).Contents (Elt F)) :=
  shapeCast _ (extractStridedSlice S1x800000 ![0, 0] a1 slices_S2x800000_S1x800000_0_0) shapeCasts_S1x800000_S800000

/-- The targets of the edges: row 1 of the edge table. -/
def dst (a1 : (⟨S2x800000, .i32⟩ : BufTy).Contents (Elt F)) :=
  shapeCast _ (extractStridedSlice S1x800000 ![1, 0] a1 slices_S2x800000_S1x800000_1_0) shapeCasts_S1x800000_S800000

/-- Node numbers as a column of gather indices, a negative number counted from the end. -/
def idx8 (v : (⟨S800000, .i32⟩ : BufTy).Contents (Elt F)) :=
  broadcastInDim S800000x1 ![0] bcast_S800000_S800000x1_0 (select (cmpi .slt v (broadcastInDim S800000 ![] bcast_S_S800000 (constantI S_ 32 0#32))) (addi v (broadcastInDim S800000 ![] bcast_S_S800000 (constantI S_ 32 50000#32))) v)

/-- The out-degree of every node: ones added at the sources s. -/
def degS (s : (⟨S800000, .i32⟩ : BufTy).Contents (Elt F)) :=
  Host.scatterAdd scatter_S50000_S800000x1_S800000_n_0_0_1 (broadcastInDim S50000 ![] bcast_S_S50000 (constant (F := F) S_ .f32 0x00000000#32)) (broadcastInDim S800000x1 ![0] bcast_S800000_S800000x1_0 s) (broadcastInDim S800000 ![] bcast_S_S800000 (constant (F := F) S_ .f32 0x3F800000#32))

/-- G^(-1/2) where g is positive, 0 elsewhere. -/
def dinvS (g : (⟨S50000, .f32⟩ : BufTy).Contents (Elt F)) :=
  select (cmpf .ogt g (broadcastInDim S50000 ![] bcast_S_S50000 (constant (F := F) S_ .f32 0x00000000#32))) (Host.divf (broadcastInDim S50000 ![] bcast_S_S50000 (constant (F := F) S_ .f32 0x3F800000#32)) (Host.sqrt g)) (broadcastInDim S50000 ![] bcast_S_S50000 (id (constant (F := F) S_ .f32 0x00000000#32)))

/-- The edge weights -dv[s] * dv[d]. -/
def normS (dv : (⟨S50000, .f32⟩ : BufTy).Contents (Elt F)) (s d : (⟨S800000, .i32⟩ : BufTy).Contents (Elt F)) :=
  mulf (Host.negf (Host.gather gather_S50000_S800000x1_S800000_n_0_n_n_0_1_1 dv (idx8 s))) (Host.gather gather_S50000_S800000x1_S800000_n_0_n_n_0_1_1 dv (idx8 d))

/-- The weighted adjacency applied to 128 feature columns: rows gathered at s, weighted by n, added at d. -/
def txS128 (x : (⟨S50000x128, .f32⟩ : BufTy).Contents (Elt F)) (s d : (⟨S800000, .i32⟩ : BufTy).Contents (Elt F)) (n : (⟨S800000, .f32⟩ : BufTy).Contents (Elt F)) :=
  Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 d) (mulf (Host.gather gather_S50000x128_S800000x1_S800000x128_1_0_n_n_0_1_1128 x (idx8 s)) (broadcastInDim S800000x128 ![0, 1] bcast_S800000x1_S800000x128_0_1 (broadcastInDim S800000x1 ![0] bcast_S800000_S800000x1_0 n)))

/-- The same for 300 feature columns. -/
def txS300 (x : (⟨S50000x300, .f32⟩ : BufTy).Contents (Elt F)) (s d : (⟨S800000, .i32⟩ : BufTy).Contents (Elt F)) (n : (⟨S800000, .f32⟩ : BufTy).Contents (Elt F)) :=
  Host.scatterAdd scatter_S50000x300_S800000x1_S800000x300_1_0_0_1 (broadcastInDim S50000x300 ![] bcast_S_S50000x300 (constant (F := F) S_ .f32 0x00000000#32)) (broadcastInDim S800000x1 ![0] bcast_S800000_S800000x1_0 d) (mulf (Host.gather gather_S50000x300_S800000x1_S800000x300_1_0_n_n_0_1_1300 x (idx8 s)) (broadcastInDim S800000x300 ![0, 1] bcast_S800000x1_S800000x300_0_1 (broadcastInDim S800000x1 ![0] bcast_S800000_S800000x1_0 n)))

/-- The same for 100 feature columns. -/
def txS100 (x : (⟨S50000x100, .f32⟩ : BufTy).Contents (Elt F)) (s d : (⟨S800000, .i32⟩ : BufTy).Contents (Elt F)) (n : (⟨S800000, .f32⟩ : BufTy).Contents (Elt F)) :=
  Host.scatterAdd scatter_S50000x100_S800000x1_S800000x100_1_0_0_1 (broadcastInDim S50000x100 ![] bcast_S_S50000x100 (constant (F := F) S_ .f32 0x00000000#32)) (broadcastInDim S800000x1 ![0] bcast_S800000_S800000x1_0 d) (mulf (Host.gather gather_S50000x100_S800000x1_S800000x100_1_0_n_n_0_1_1100 x (idx8 s)) (broadcastInDim S800000x100 ![0, 1] bcast_S800000x1_S800000x100_0_1 (broadcastInDim S800000x1 ![0] bcast_S800000_S800000x1_0 n)))

/-- Row 0 of a pair table. -/
def prow0 (a : (⟨S2x400000, .i32⟩ : BufTy).Contents (Elt F)) :=
  shapeCast _ (extractStridedSlice S1x400000 ![0, 0] a slices_S2x400000_S1x400000_0_0) shapeCasts_S1x400000_S400000

/-- Row 1 of a pair table. -/
def prow1 (a : (⟨S2x400000, .i32⟩ : BufTy).Contents (Elt F)) :=
  shapeCast _ (extractStridedSlice S1x400000 ![1, 0] a slices_S2x400000_S1x400000_1_0) shapeCasts_S1x400000_S400000

/-- The rows of z at node numbers v, a negative number counted from the end. -/
def gz (z : (⟨S50000x100, .f32⟩ : BufTy).Contents (Elt F)) (v : (⟨S400000, .i32⟩ : BufTy).Contents (Elt F)) :=
  Host.gather gather_S50000x100_S400000x1_S400000x100_1_0_n_n_0_1_1100 z (broadcastInDim S400000x1 ![0] bcast_S400000_S400000x1_0 (select (cmpi .slt v (broadcastInDim S400000 ![] bcast_S_S400000 (constantI S_ 32 0#32))) (addi v (broadcastInDim S400000 ![] bcast_S_S400000 (constantI S_ 32 50000#32))) v))

/-- The first layer: relu (x W₀ + tx W₁ + b). -/
def cheb0 (x tx : (⟨S50000x128, .f32⟩ : BufTy).Contents (Elt F)) (a4 : (⟨S2x128x300, .f32⟩ : BufTy).Contents (Elt F)) (a5 : (⟨S300, .f32⟩ : BufTy).Contents (Elt F)) :=
  maximumf (addf (addf (Host.dotGeneral dot_S50000x128_S128x300_S50000x300_1_0_0_1_n_n none x (shapeCast _ (extractStridedSlice S1x128x300 ![0, 0, 0] a4 slices_S2x128x300_S1x128x300_0_0_0) shapeCasts_S1x128x300_S128x300)) (Host.dotGeneral dot_S50000x128_S128x300_S50000x300_1_0_0_1_n_n none tx (shapeCast _ (extractStridedSlice S1x128x300 ![1, 0, 0] a4 slices_S2x128x300_S1x128x300_1_0_0) shapeCasts_S1x128x300_S128x300))) (broadcastInDim S50000x300 ![0, 1] bcast_S1x300_S50000x300_0_1 (broadcastInDim S1x300 ![1] bcast_S300_S1x300_1 a5))) (broadcastInDim S50000x300 ![] bcast_S_S50000x300 (constant (F := F) S_ .f32 0x00000000#32))

/-- The second layer: relu (x W₀ + tx W₁ + b). -/
def cheb1 (x tx : (⟨S50000x300, .f32⟩ : BufTy).Contents (Elt F)) (a6 : (⟨S2x300x100, .f32⟩ : BufTy).Contents (Elt F)) (a7 : (⟨S100, .f32⟩ : BufTy).Contents (Elt F)) :=
  maximumf (addf (addf (Host.dotGeneral dot_S50000x300_S300x100_S50000x100_1_0_0_1_n_n none x (shapeCast _ (extractStridedSlice S1x300x100 ![0, 0, 0] a6 slices_S2x300x100_S1x300x100_0_0_0) shapeCasts_S1x300x100_S300x100)) (Host.dotGeneral dot_S50000x300_S300x100_S50000x100_1_0_0_1_n_n none tx (shapeCast _ (extractStridedSlice S1x300x100 ![1, 0, 0] a6 slices_S2x300x100_S1x300x100_1_0_0) shapeCasts_S1x300x100_S300x100))) (broadcastInDim S50000x100 ![0, 1] bcast_S1x100_S50000x100_0_1 (broadcastInDim S1x100 ![1] bcast_S100_S1x100_1 a7))) (broadcastInDim S50000x100 ![] bcast_S_S50000x100 (constant (F := F) S_ .f32 0x00000000#32))

/-- A linear head: x₁ + relu (x₀ wᵀ + b). -/
def head (x1 : (⟨S50000x100, .f32⟩ : BufTy).Contents (Elt F)) (x0 : (⟨S50000x128, .f32⟩ : BufTy).Contents (Elt F)) (w : (⟨S100x128, .f32⟩ : BufTy).Contents (Elt F)) (b : (⟨S100, .f32⟩ : BufTy).Contents (Elt F)) :=
  addf x1 (maximumf (addf (Host.dotGeneral dot_S50000x128_S128x100_S50000x100_1_0_0_1_n_n none x0 (transpose S128x100 [1, 0] w transposes_S100x128_S128x100_1_0)) (broadcastInDim S50000x100 ![0, 1] bcast_S1x100_S50000x100_0_1 (broadcastInDim S1x100 ![1] bcast_S100_S1x100_1 b))) (broadcastInDim S50000x100 ![] bcast_S_S50000x100 (constant (F := F) S_ .f32 0x00000000#32)))

/-- The last layer: x W₀ + tx W₁ + b. -/
def cheb2 (x tx : (⟨S50000x100, .f32⟩ : BufTy).Contents (Elt F)) (a8 : (⟨S2x100x2, .f32⟩ : BufTy).Contents (Elt F)) (a9 : (⟨S2, .f32⟩ : BufTy).Contents (Elt F)) :=
  addf (addf (Host.dotGeneral dot_S50000x100_S100x2_S50000x2_1_0_0_1_n_n none x (shapeCast _ (extractStridedSlice S1x100x2 ![0, 0, 0] a8 slices_S2x100x2_S1x100x2_0_0_0) shapeCasts_S1x100x2_S100x2)) (Host.dotGeneral dot_S50000x100_S100x2_S50000x2_1_0_0_1_n_n none tx (shapeCast _ (extractStridedSlice S1x100x2 ![1, 0, 0] a8 slices_S2x100x2_S1x100x2_1_0_0) shapeCasts_S1x100x2_S100x2))) (broadcastInDim S50000x2 ![0, 1] bcast_S1x2_S50000x2_0_1 (broadcastInDim S1x2 ![1] bcast_S2_S1x2_1 a9))

/-- Minus the mean of log (σ(⟨u, v⟩) + ε) over the pairs, σ written out as 1 / (1 + exp (-s)). -/
def lossPos (u v : (⟨S400000x100, .f32⟩ : BufTy).Contents (Elt F)) :=
  Host.negf (Host.divf (Host.reduceAdd (Host.log (addf (Host.divf (broadcastInDim S400000 ![] bcast_S_S400000 (constant (F := F) S_ .f32 0x3F800000#32)) (addf (broadcastInDim S400000 ![] bcast_S_S400000 (constant (F := F) S_ .f32 0x3F800000#32)) (Host.exp (Host.negf (Host.reduceAdd (mulf u v) (constant (F := F) S_ .f32 0x00000000#32) reducesTo_S400000x100_S400000_d1 h_S_))))) (broadcastInDim S400000 ![] bcast_S_S400000 (constant (F := F) S_ .f32 0x26901D7D#32)))) (constant (F := F) S_ .f32 0x00000000#32) reducesTo_S400000_S_d0 h_S_) (constant (F := F) S_ .f32 0x48C35000#32))

/-- Minus the mean of log (1 - σ(⟨u, v⟩) + ε) over the pairs. -/
def lossNeg (u v : (⟨S400000x100, .f32⟩ : BufTy).Contents (Elt F)) :=
  Host.negf (Host.divf (Host.reduceAdd (Host.log (addf (subf (broadcastInDim S400000 ![] bcast_S_S400000 (constant (F := F) S_ .f32 0x3F800000#32)) (Host.divf (broadcastInDim S400000 ![] bcast_S_S400000 (constant (F := F) S_ .f32 0x3F800000#32)) (addf (broadcastInDim S400000 ![] bcast_S_S400000 (constant (F := F) S_ .f32 0x3F800000#32)) (Host.exp (Host.negf (Host.reduceAdd (mulf u v) (constant (F := F) S_ .f32 0x00000000#32) reducesTo_S400000x100_S400000_d1 h_S_)))))) (broadcastInDim S400000 ![] bcast_S_S400000 (constant (F := F) S_ .f32 0x26901D7D#32)))) (constant (F := F) S_ .f32 0x00000000#32) reducesTo_S400000_S_d0 h_S_) (constant (F := F) S_ .f32 0x48C35000#32))

/-- The edge weights from the edge table. -/
def norm (a1 : (⟨S2x800000, .i32⟩ : BufTy).Contents (Elt F)) := normS (dinvS (degS (src a1))) (src a1) (dst a1)
/-- The scaled Laplacian applied to a feature table, from the edge table. -/
def tx128 (x : (⟨S50000x128, .f32⟩ : BufTy).Contents (Elt F)) (a1 : (⟨S2x800000, .i32⟩ : BufTy).Contents (Elt F)) := txS128 x (src a1) (dst a1) (norm a1)
def tx300 (x : (⟨S50000x300, .f32⟩ : BufTy).Contents (Elt F)) (a1 : (⟨S2x800000, .i32⟩ : BufTy).Contents (Elt F)) := txS300 x (src a1) (dst a1) (norm a1)
def tx100 (x : (⟨S50000x100, .f32⟩ : BufTy).Contents (Elt F)) (a1 : (⟨S2x800000, .i32⟩ : BufTy).Contents (Elt F)) := txS100 x (src a1) (dst a1) (norm a1)
/-- The link-prediction loss of `z` over the positive pairs `a2` and the negative pairs `a3`. -/
def loss (z : (⟨S50000x100, .f32⟩ : BufTy).Contents (Elt F)) (a2 a3 : (⟨S2x400000, .i32⟩ : BufTy).Contents (Elt F)) :=
  addf (lossPos (gz z (prow0 a2)) (gz z (prow1 a2))) (lossNeg (gz z (prow0 a3)) (gz z (prow1 a3)))

variable (a0 : (⟨S50000x128, .f32⟩ : BufTy).Contents (Elt F)) (a1 : (⟨S2x800000, .i32⟩ : BufTy).Contents (Elt F)) (a2 a3 : (⟨S2x400000, .i32⟩ : BufTy).Contents (Elt F))
  (a4 : (⟨S2x128x300, .f32⟩ : BufTy).Contents (Elt F)) (a5 : (⟨S300, .f32⟩ : BufTy).Contents (Elt F)) (a6 : (⟨S2x300x100, .f32⟩ : BufTy).Contents (Elt F)) (a7 : (⟨S100, .f32⟩ : BufTy).Contents (Elt F))
  (a8 : (⟨S2x100x2, .f32⟩ : BufTy).Contents (Elt F)) (a9 : (⟨S2, .f32⟩ : BufTy).Contents (Elt F)) (a10 : (⟨S100x128, .f32⟩ : BufTy).Contents (Elt F)) (a11 : (⟨S100, .f32⟩ : BufTy).Contents (Elt F))
  (a12 : (⟨S100x128, .f32⟩ : BufTy).Contents (Elt F)) (a13 : (⟨S100, .f32⟩ : BufTy).Contents (Elt F))

/-- The hidden layers from the arguments. -/
def hid := cheb0 a0 (tx128 a0 a1) a4 a5
def x1 := cheb1 (hid a0 a1 a4 a5) (tx300 (hid a0 a1 a4 a5) a1) a6 a7
def x2 := head (x1 a0 a1 a4 a5 a6 a7) a0 a10 a11
def zz := head (x1 a0 a1 a4 a5 a6 a7) a0 a12 a13
/-- The first result: the last layer on `x₂`. -/
def out := cheb2 (x2 a0 a1 a4 a5 a6 a7 a10 a11) (tx100 (x2 a0 a1 a4 a5 a6 a7 a10 a11) a1) a8 a9
/-- The second result: the loss on `z`. -/
def lossAll := loss (zz a0 a1 a4 a5 a6 a7 a12 a13) a2 a3

end Cert.ReferenceIdeal.Spec

end
-- ==== Proof.KI.RefCheb.lean ====
/-
  THE HOST PROGRAM'S LAYERS, READ: each is the same function of its operands as the kernel's.

  A host layer is written with a dot per weight (a plain [M, K] × [K, N] product, whatever record says so), an
  elementwise sum, the bias vector [N] made a [1, N] row and repeated down the M rows, and — for a rectified layer —
  the elementwise maximum with a zero scalar repeated over the whole shape. On extended reals a dot's element (r, q)
  is the sum over k < K of left(r, k) · right(k, q), the repeated bias reads the vector's entry q at (r, q), and the
  repeated zero reads 0; so, element by element, the host's term is the layer's function. First generic in the sizes,
  in the record and in the proofs carried by the broadcasts; then at the host program's own three layers and its head,
  as that program names them; and last, a [N] vector re-laid as a [1, N] row is the row the layer's function takes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«176792_j62921270886524_2_alg».proof.Proof.LibPlainDot
import proofs.«176792_j62921270886524_2_alg».proof.Proof.LibRowReads
import proofs.«176792_j62921270886524_2_alg».proof.Proof.KI.SpecCheb
import proofs.«176792_j62921270886524_2_alg».proof.Proof.RefSpec

noncomputable section

open scoped BigOperators

namespace Cert.KernelIdeal.RefCheb

open Cert.KernelIdeal.SpecCheb
open Idealize.ShloMosaic Idealize.ShloMosaic.ValueIdx

variable {M K N : Nat} (d : DotDims ⟨2, ![M, K]⟩ ⟨2, ![K, N]⟩ ⟨2, ![M, N]⟩)

/-- The bias vector as the [1, N] row the layer's function takes. -/
abbrev rowOf {N : Nat} (b : (⟨1, ![N]⟩ : Shape).Idx → EReal) : (⟨2, ![1, N]⟩ : Shape).Idx → EReal :=
  fun i => b (ix1 (i 1))

/-- A HOST CHEBYSHEV LAYER BEFORE ITS ACTIVATION is `chebLin` of its operands. -/
theorem ref_chebLin (hl : d.lhsContracting = [1]) (hr : d.rhsContracting = [0])
    (hln : d.lhsNonContracting = [0]) (hrn : d.rhsNonContracting = [1]) (hlb : d.lhsBatch = []) (hrb : d.rhsBatch = [])
    (prec : Option ContractPrecision)
    (h1 : (⟨1, ![N]⟩ : Shape).BroadcastsInDim ⟨2, ![1, N]⟩ ![1])
    (h2 : (⟨2, ![1, N]⟩ : Shape).BroadcastsInDim ⟨2, ![M, N]⟩ ![0, 1])
    (x tx : FVec Ideal ⟨2, ![M, K]⟩ .f32) (w0 w1 : FVec Ideal ⟨2, ![K, N]⟩ .f32) (b : FVec Ideal ⟨1, ![N]⟩ .f32) :
    addf (addf (Host.dotGeneral d prec x w0) (Host.dotGeneral d prec tx w1))
        (broadcastInDim ⟨2, ![M, N]⟩ ![0, 1] h2 (broadcastInDim ⟨2, ![1, N]⟩ ![1] h1 b))
      = chebLin x tx w0 w1 (rowOf b) := by
  funext i
  obtain ⟨r, q, rfl⟩ : ∃ (r : Fin M) (q : Fin N), i = ix2 r q := ⟨i 0, i 1, eq_ix2 i⟩
  rw [addf_apply, addf_apply, Cert.Lib.dotGeneral_at d hl hr hln hrn hlb hrb,
    Cert.Lib.dotGeneral_at d hl hr hln hrn hlb hrb, Cert.Lib.bcastInDim_vecRows_apply, chebLin_apply]
  rfl

/-- A HOST RECTIFIED CHEBYSHEV LAYER is `chebRelu` of its operands. -/
theorem ref_chebRelu (hl : d.lhsContracting = [1]) (hr : d.rhsContracting = [0])
    (hln : d.lhsNonContracting = [0]) (hrn : d.rhsNonContracting = [1]) (hlb : d.lhsBatch = []) (hrb : d.rhsBatch = [])
    (prec : Option ContractPrecision)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (x tx : FVec Ideal ⟨2, ![M, K]⟩ .f32) (w0 w1 : FVec Ideal ⟨2, ![K, N]⟩ .f32) (b : FVec Ideal ⟨1, ![N]⟩ .f32) :
    maximumf
        (addf (addf (Host.dotGeneral d prec x w0) (Host.dotGeneral d prec tx w1))
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = chebRelu x tx w0 w1 (rowOf b) := by
  funext i
  rw [maximumf_apply, ref_chebLin d hl hr hln hrn hlb hrb prec h1 h2, Cert.Lib.bcast_const_apply,
    Ideal.ofBits_zero_f32]
  rfl

/-- A HOST RESIDUAL HEAD is `headRes` of its operands: the residual plus the rectified affine image. -/
theorem ref_headRes (hl : d.lhsContracting = [1]) (hr : d.rhsContracting = [0])
    (hln : d.lhsNonContracting = [0]) (hrn : d.rhsNonContracting = [1]) (hlb : d.lhsBatch = []) (hrb : d.rhsBatch = [])
    (prec : Option ContractPrecision)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (x : FVec Ideal ⟨2, ![M, K]⟩ .f32) (a : FVec Ideal ⟨2, ![K, N]⟩ .f32) (b : FVec Ideal ⟨1, ![N]⟩ .f32)
    (y : FVec Ideal ⟨2, ![M, N]⟩ .f32) :
    addf y
        (maximumf
          (addf (Host.dotGeneral d prec x a)
            (broadcastInDim ⟨2, ![M, N]⟩ ![0, 1] h2 (broadcastInDim ⟨2, ![1, N]⟩ ![1] h1 b)))
          (broadcastInDim ⟨2, ![M, N]⟩ ![] h0 (constant (F := Ideal) ⟨0, ![]⟩ .f32 0x00000000#32)))
      = headRes x a (rowOf b) y := by
  funext i
  obtain ⟨r, q, rfl⟩ : ∃ (r : Fin M) (q : Fin N), i = ix2 r q := ⟨i 0, i 1, eq_ix2 i⟩
  rw [addf_apply, maximumf_apply, addf_apply, Cert.Lib.dotGeneral_at d hl hr hln hrn hlb hrb,
    Cert.Lib.bcastInDim_vecRows_apply, Cert.Lib.bcast_const_apply, Ideal.ofBits_zero_f32, headRes_apply]
  rfl

/-- A [N] VECTOR RE-LAID AS A [1, N] ROW reads, at (u, q), the vector's entry q. -/
theorem rowOf_shapeCast {N : Nat} (b : (⟨1, ![N]⟩ : Shape).Idx → EReal)
    (h : (⟨1, ![N]⟩ : Shape).ShapeCasts ⟨2, ![1, N]⟩) : shapeCast ⟨2, ![1, N]⟩ b h = rowOf b := by
  funext i
  obtain ⟨u, q, rfl⟩ : ∃ (u : Fin 1) (q : Fin N), i = ix2 u q := ⟨i 0, i 1, eq_ix2 i⟩
  exact shapeCast_a_1a_apply b h u q

theorem row300 (b : (⟨1, ![300]⟩ : Shape).Idx → EReal) (h : (⟨1, ![300]⟩ : Shape).ShapeCasts ⟨2, ![1, 300]⟩) :
    shapeCast ⟨2, ![1, 300]⟩ b h = rowOf b := rowOf_shapeCast b h
theorem row100 (b : (⟨1, ![100]⟩ : Shape).Idx → EReal) (h : (⟨1, ![100]⟩ : Shape).ShapeCasts ⟨2, ![1, 100]⟩) :
    shapeCast ⟨2, ![1, 100]⟩ b h = rowOf b := rowOf_shapeCast b h
theorem row2 (b : (⟨1, ![2]⟩ : Shape).Idx → EReal) (h : (⟨1, ![2]⟩ : Shape).ShapeCasts ⟨2, ![1, 2]⟩) :
    shapeCast ⟨2, ![1, 2]⟩ b h = rowOf b := rowOf_shapeCast b h

/-! ## The host program's own layers -/

section Host

open Cert.ReferenceIdeal Cert.ReferenceIdeal.Gen

/-- The host's first layer is the rectified layer of the features, their propagated copy, the two slabs of the
    stacked weights as the host slices and re-lays them, and the bias vector as a row. -/
theorem ref_cheb0 (x tx : (⟨S50000x128, .f32⟩ : BufTy).Contents (Elt Ideal))
    (a4 : (⟨S2x128x300, .f32⟩ : BufTy).Contents (Elt Ideal)) (a5 : (⟨S300, .f32⟩ : BufTy).Contents (Elt Ideal)) :
    Spec.cheb0 (F := Ideal) x tx a4 a5
      = SpecCheb.cheb0 x tx
          (shapeCast S128x300 (extractStridedSlice S1x128x300 ![0, 0, 0] a4 slices_S2x128x300_S1x128x300_0_0_0)
            shapeCasts_S1x128x300_S128x300)
          (shapeCast S128x300 (extractStridedSlice S1x128x300 ![1, 0, 0] a4 slices_S2x128x300_S1x128x300_1_0_0)
            shapeCasts_S1x128x300_S128x300)
          (rowOf a5) := by
  unfold Spec.cheb0
  exact ref_chebRelu _ rfl rfl rfl rfl rfl rfl none _ _ _ x tx _ _ a5

/-- The host's second layer, likewise. -/
theorem ref_cheb1 (x tx : (⟨S50000x300, .f32⟩ : BufTy).Contents (Elt Ideal))
    (a6 : (⟨S2x300x100, .f32⟩ : BufTy).Contents (Elt Ideal)) (a7 : (⟨S100, .f32⟩ : BufTy).Contents (Elt Ideal)) :
    Spec.cheb1 (F := Ideal) x tx a6 a7
      = SpecCheb.cheb1 x tx
          (shapeCast S300x100 (extractStridedSlice S1x300x100 ![0, 0, 0] a6 slices_S2x300x100_S1x300x100_0_0_0)
            shapeCasts_S1x300x100_S300x100)
          (shapeCast S300x100 (extractStridedSlice S1x300x100 ![1, 0, 0] a6 slices_S2x300x100_S1x300x100_1_0_0)
            shapeCasts_S1x300x100_S300x100)
          (rowOf a7) := by
  unfold Spec.cheb1
  exact ref_chebRelu _ rfl rfl rfl rfl rfl rfl none _ _ _ x tx _ _ a7

/-- The host's last layer, which has no activation. -/
theorem ref_cheb2 (x tx : (⟨S50000x100, .f32⟩ : BufTy).Contents (Elt Ideal))
    (a8 : (⟨S2x100x2, .f32⟩ : BufTy).Contents (Elt Ideal)) (a9 : (⟨S2, .f32⟩ : BufTy).Contents (Elt Ideal)) :
    Spec.cheb2 (F := Ideal) x tx a8 a9
      = SpecCheb.cheb4 x tx
          (shapeCast S100x2 (extractStridedSlice S1x100x2 ![0, 0, 0] a8 slices_S2x100x2_S1x100x2_0_0_0)
            shapeCasts_S1x100x2_S100x2)
          (shapeCast S100x2 (extractStridedSlice S1x100x2 ![1, 0, 0] a8 slices_S2x100x2_S1x100x2_1_0_0)
            shapeCasts_S1x100x2_S100x2)
          (rowOf a9) := by
  unfold Spec.cheb2
  exact ref_chebLin _ rfl rfl rfl rfl rfl rfl none _ _ x tx _ _ a9

/-- A host head is the residual head of the features, the transposed weight, the bias vector as a row and the
    residual. -/
theorem ref_head (x1 : (⟨S50000x100, .f32⟩ : BufTy).Contents (Elt Ideal))
    (x0 : (⟨S50000x128, .f32⟩ : BufTy).Contents (Elt Ideal)) (w : (⟨S100x128, .f32⟩ : BufTy).Contents (Elt Ideal))
    (b : (⟨S100, .f32⟩ : BufTy).Contents (Elt Ideal)) :
    Spec.head (F := Ideal) x1 x0 w b
      = SpecCheb.heads x0 (transpose S128x100 [1, 0] w transposes_S100x128_S128x100_1_0) (rowOf b) x1 := by
  unfold Spec.head
  exact ref_headRes _ rfl rfl rfl rfl rfl rfl none _ _ _ x0 _ b x1

end Host

end Cert.KernelIdeal.RefCheb

end
-- ==== Proof.KI.Spec.lean ====
/-
  The host operations the kernel program applies between its regions, named piece by piece as functions of the arrays
  they read: the edge table's two rows; node numbers as gather indices; the out-degrees (ones added at the sources),
  their inverse square roots where positive, the edge weights `-d⁻¹ᐟ²[s] · d⁻¹ᐟ²[d]`; the weighted adjacency applied to a
  feature table (rows gathered at the sources, weighted, added at the targets); the rows of a table at the link pairs.
-/
import proofs.«176792_j62921270886524_2_alg».proof.Proof.Gen.KernelIdeal

noncomputable section

namespace Cert.KernelIdeal.Spec

open Cert.KernelIdeal Cert.KernelIdeal.Gen Idealize.ShloMosaic Idealize.ShloMosaic.TcCoe

variable {F : FTy → Type} [FloatOps F]

/-- The sources of the edges: row 0 of the edge table. -/
def src (a1 : (⟨S2x800000, .i32⟩ : BufTy).Contents (Elt F)) :=
  shapeCast _ (extractStridedSlice S1x800000 ![0, 0] a1 slices_S2x800000_S1x800000_0_0) shapeCasts_S1x800000_S800000

/-- The targets of the edges: row 1 of the edge table. -/
def dst (a1 : (⟨S2x800000, .i32⟩ : BufTy).Contents (Elt F)) :=
  shapeCast _ (extractStridedSlice S1x800000 ![1, 0] a1 slices_S2x800000_S1x800000_1_0) shapeCasts_S1x800000_S800000

/-- Node numbers as a column of gather indices, a negative number counted from the end. -/
def idx8 (v : (⟨S800000, .i32⟩ : BufTy).Contents (Elt F)) :=
  broadcastInDim S800000x1 ![0] bcast_S800000_S800000x1_0 (select (cmpi .slt v (broadcastInDim S800000 ![] bcast_S_S800000 (constantI S_ 32 0#32))) (addi v (broadcastInDim S800000 ![] bcast_S_S800000 (constantI S_ 32 50000#32))) v)

/-- The out-degree of every node: ones added at the sources s. -/
def degS (s : (⟨S800000, .i32⟩ : BufTy).Contents (Elt F)) :=
  Host.scatterAdd scatter_S50000_S800000x1_S800000_n_0_0_1 (broadcastInDim S50000 ![] bcast_S_S50000 (constant (F := F) S_ .f32 0x00000000#32)) (broadcastInDim S800000x1 ![0] bcast_S800000_S800000x1_0 s) (broadcastInDim S800000 ![] bcast_S_S800000 (constant (F := F) S_ .f32 0x3F800000#32))

/-- G^(-1/2) where g is positive, 0 elsewhere. -/
def dinvS (g : (⟨S50000, .f32⟩ : BufTy).Contents (Elt F)) :=
  select (cmpf .ogt g (broadcastInDim S50000 ![] bcast_S_S50000 (constant (F := F) S_ .f32 0x00000000#32))) (Host.divf (broadcastInDim S50000 ![] bcast_S_S50000 (constant (F := F) S_ .f32 0x3F800000#32)) (Host.sqrt g)) (broadcastInDim S50000 ![] bcast_S_S50000 (id (constant (F := F) S_ .f32 0x00000000#32)))

/-- The edge weights -dv[s] * dv[d]. -/
def normS (dv : (⟨S50000, .f32⟩ : BufTy).Contents (Elt F)) (s d : (⟨S800000, .i32⟩ : BufTy).Contents (Elt F)) :=
  mulf (Host.negf (Host.gather gather_S50000_S800000x1_S800000_n_0_n_n_0_1_1 dv (idx8 s))) (Host.gather gather_S50000_S800000x1_S800000_n_0_n_n_0_1_1 dv (idx8 d))

/-- The weighted adjacency applied to 128 feature columns: rows gathered at s, weighted by n, added at d. -/
def txS128 (x : (⟨S50000x128, .f32⟩ : BufTy).Contents (Elt F)) (s d : (⟨S800000, .i32⟩ : BufTy).Contents (Elt F)) (n : (⟨S800000, .f32⟩ : BufTy).Contents (Elt F)) :=
  Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 d) (mulf (Host.gather gather_S50000x128_S800000x1_S800000x128_1_0_n_n_0_1_1128 x (idx8 s)) (broadcastInDim S800000x128 ![0, 1] bcast_S800000x1_S800000x128_0_1 (broadcastInDim S800000x1 ![0] bcast_S800000_S800000x1_0 n)))

/-- The same for 300 feature columns. -/
def txS300 (x : (⟨S50000x300, .f32⟩ : BufTy).Contents (Elt F)) (s d : (⟨S800000, .i32⟩ : BufTy).Contents (Elt F)) (n : (⟨S800000, .f32⟩ : BufTy).Contents (Elt F)) :=
  Host.scatterAdd scatter_S50000x300_S800000x1_S800000x300_1_0_0_1 (broadcastInDim S50000x300 ![] bcast_S_S50000x300 (constant (F := F) S_ .f32 0x00000000#32)) (broadcastInDim S800000x1 ![0] bcast_S800000_S800000x1_0 d) (mulf (Host.gather gather_S50000x300_S800000x1_S800000x300_1_0_n_n_0_1_1300 x (idx8 s)) (broadcastInDim S800000x300 ![0, 1] bcast_S800000x1_S800000x300_0_1 (broadcastInDim S800000x1 ![0] bcast_S800000_S800000x1_0 n)))

/-- The same for 100 feature columns. -/
def txS100 (x : (⟨S50000x100, .f32⟩ : BufTy).Contents (Elt F)) (s d : (⟨S800000, .i32⟩ : BufTy).Contents (Elt F)) (n : (⟨S800000, .f32⟩ : BufTy).Contents (Elt F)) :=
  Host.scatterAdd scatter_S50000x100_S800000x1_S800000x100_1_0_0_1 (broadcastInDim S50000x100 ![] bcast_S_S50000x100 (constant (F := F) S_ .f32 0x00000000#32)) (broadcastInDim S800000x1 ![0] bcast_S800000_S800000x1_0 d) (mulf (Host.gather gather_S50000x100_S800000x1_S800000x100_1_0_n_n_0_1_1100 x (idx8 s)) (broadcastInDim S800000x100 ![0, 1] bcast_S800000x1_S800000x100_0_1 (broadcastInDim S800000x1 ![0] bcast_S800000_S800000x1_0 n)))

/-- Row 0 of a pair table. -/
def prow0 (a : (⟨S2x400000, .i32⟩ : BufTy).Contents (Elt F)) :=
  shapeCast _ (extractStridedSlice S1x400000 ![0, 0] a slices_S2x400000_S1x400000_0_0) shapeCasts_S1x400000_S400000

/-- Row 1 of a pair table. -/
def prow1 (a : (⟨S2x400000, .i32⟩ : BufTy).Contents (Elt F)) :=
  shapeCast _ (extractStridedSlice S1x400000 ![1, 0] a slices_S2x400000_S1x400000_1_0) shapeCasts_S1x400000_S400000

/-- The rows of z at node numbers v, a negative number counted from the end. -/
def gz (z : (⟨S50000x100, .f32⟩ : BufTy).Contents (Elt F)) (v : (⟨S400000, .i32⟩ : BufTy).Contents (Elt F)) :=
  Host.gather gather_S50000x100_S400000x1_S400000x100_1_0_n_n_0_1_1100 z (broadcastInDim S400000x1 ![0] bcast_S400000_S400000x1_0 (select (cmpi .slt v (broadcastInDim S400000 ![] bcast_S_S400000 (constantI S_ 32 0#32))) (addi v (broadcastInDim S400000 ![] bcast_S_S400000 (constantI S_ 32 50000#32))) v))

end Cert.KernelIdeal.Spec

end
-- ==== Proof.KI.BridgeSteps.lean ====
/-
  THE HOST STRETCHES OF THE KERNEL PROGRAM, READ ONE BUFFER AT A TIME.

  Between its regions the kernel program applies straight lines of host operations. Each lemma here says what one
  buffer holds after one stretch, as a named function (the edge rows, the degrees' inverse square roots, the edge
  weights, the propagated features, a layer's two weight slabs and its bias row, a head's transposed weight) of what
  the buffers it reads held when the stretch began — for ANY contents at the stretch's start, so that nothing about
  the earlier stretches or regions is unfolded here.
-/
import proofs.«176792_j62921270886524_2_alg».proof.Proof.KI.Run
import proofs.«176792_j62921270886524_2_alg».proof.Proof.KI.Spec
set_option maxRecDepth 16384

noncomputable section

namespace Cert.KernelIdeal.BridgeSteps

open Cert.KernelIdeal Cert.KernelIdeal.Gen
open Idealize.ShloMosaic Idealize.ShloMosaic.TcCoe Idealize.ShloMosaic.StableHlo

variable {F : FTy → Type} [FloatOps F] (V : Valuation τ sig (Elt F))

/-! ## The first stretch: the edge rows, the degrees, and the pieces of their inverse square roots -/

theorem step0_v1 : StableHlo.after (hostOps0 (F := F)) V (Proc.devRef .tc main_v1)
    = Spec.src (V (Proc.devRef .tc main_arg1)) := by
  after_results <;> rfl

theorem step0_v3 : StableHlo.after (hostOps0 (F := F)) V (Proc.devRef .tc main_v3)
    = Spec.dst (V (Proc.devRef .tc main_arg1)) := by
  after_results <;> rfl

theorem step0_v9 : StableHlo.after (hostOps0 (F := F)) V (Proc.devRef .tc main_v9)
    = cmpf .ogt (Spec.degS (Spec.src (V (Proc.devRef .tc main_arg1)))) (broadcastInDim S50000 ![] bcast_S_S50000 (constant (F := F) S_ .f32 0x00000000#32)) := by
  after_results <;> rfl

theorem step0_v12 : StableHlo.after (hostOps0 (F := F)) V (Proc.devRef .tc main_v12)
    = Host.divf (broadcastInDim S50000 ![] bcast_S_S50000 (constant (F := F) S_ .f32 0x3F800000#32)) (Host.sqrt (Spec.degS (Spec.src (V (Proc.devRef .tc main_arg1))))) := by
  after_results <;> rfl

theorem step0_cst3 : StableHlo.after (hostOps0 (F := F)) V (Proc.devRef .tc main_cst_3)
    = constant (F := F) S_ .f32 0x00000000#32 := by
  after_results <;> rfl

/-! ## The second stretch: the selection that makes the inverse square roots -/

theorem step01_v13 : StableHlo.after (hostOps0_1 (F := F)) V (Proc.devRef .tc main_v13)
    = select (V (Proc.devRef .tc main_v9)) (V (Proc.devRef .tc main_v12)) (broadcastInDim S50000 ![] bcast_S_S50000 (id (V (Proc.devRef .tc main_cst_3)))) := by
  after_results <;> rfl

/-! ## The third stretch: the edge weights, the propagated features, the first layer's weights and bias row -/

set_option maxHeartbeats 8000000 in
theorem step02_v29 : StableHlo.after (hostOps0_2 (F := F)) V (Proc.devRef .tc main_v29)
    = Spec.normS (V (Proc.devRef .tc main_v13)) (V (Proc.devRef .tc main_v1)) (V (Proc.devRef .tc main_v3)) := by
  after_results_simp <;> rfl

set_option maxHeartbeats 8000000 in
theorem step02_v42 : StableHlo.after (hostOps0_2 (F := F)) V (Proc.devRef .tc main_v42)
    = Spec.txS128 (V (Proc.devRef .tc main_arg0)) (V (Proc.devRef .tc main_v1)) (V (Proc.devRef .tc main_v3)) (Spec.normS (V (Proc.devRef .tc main_v13)) (V (Proc.devRef .tc main_v1)) (V (Proc.devRef .tc main_v3))) := by
  after_results_simp <;> rfl

set_option maxHeartbeats 8000000 in
theorem step02_v43 : StableHlo.after (hostOps0_2 (F := F)) V (Proc.devRef .tc main_v43)
    = shapeCast S1x300 (V (Proc.devRef .tc main_arg5)) shapeCasts_S300_S1x300 := by
  after_results_simp <;> rfl

set_option maxHeartbeats 8000000 in
theorem step02_v45 : StableHlo.after (hostOps0_2 (F := F)) V (Proc.devRef .tc main_v45)
    = shapeCast S128x300 (extractStridedSlice S1x128x300 ![0, 0, 0] (V (Proc.devRef .tc main_arg4)) slices_S2x128x300_S1x128x300_0_0_0) shapeCasts_S1x128x300_S128x300 := by
  after_results_simp <;> rfl

set_option maxHeartbeats 8000000 in
theorem step02_v47 : StableHlo.after (hostOps0_2 (F := F)) V (Proc.devRef .tc main_v47)
    = shapeCast S128x300 (extractStridedSlice S1x128x300 ![1, 0, 0] (V (Proc.devRef .tc main_arg4)) slices_S2x128x300_S1x128x300_1_0_0) shapeCasts_S1x128x300_S128x300 := by
  after_results_simp <;> rfl

/-! ## Before the second layer -/

set_option maxHeartbeats 8000000 in
theorem step1_v61 : StableHlo.after (hostOps1 (F := F)) V (Proc.devRef .tc main_v61)
    = Spec.txS300 (V (Proc.devRef .tc main_v48)) (V (Proc.devRef .tc main_v1)) (V (Proc.devRef .tc main_v3)) (V (Proc.devRef .tc main_v29)) := by
  after_results_simp <;> rfl

theorem step1_v62 : StableHlo.after (hostOps1 (F := F)) V (Proc.devRef .tc main_v62)
    = shapeCast S1x100 (V (Proc.devRef .tc main_arg7)) shapeCasts_S100_S1x100 := by
  after_results <;> rfl

theorem step1_v64 : StableHlo.after (hostOps1 (F := F)) V (Proc.devRef .tc main_v64)
    = shapeCast S300x100 (extractStridedSlice S1x300x100 ![0, 0, 0] (V (Proc.devRef .tc main_arg6)) slices_S2x300x100_S1x300x100_0_0_0) shapeCasts_S1x300x100_S300x100 := by
  after_results <;> rfl

theorem step1_v66 : StableHlo.after (hostOps1 (F := F)) V (Proc.devRef .tc main_v66)
    = shapeCast S300x100 (extractStridedSlice S1x300x100 ![1, 0, 0] (V (Proc.devRef .tc main_arg6)) slices_S2x300x100_S1x300x100_1_0_0) shapeCasts_S1x300x100_S300x100 := by
  after_results <;> rfl

/-! ## Before the heads -/

theorem step2_v68 : StableHlo.after (hostOps2 (F := F)) V (Proc.devRef .tc main_v68)
    = transpose S128x100 [1, 0] (V (Proc.devRef .tc main_arg10)) transposes_S100x128_S128x100_1_0 := by
  after_results <;> rfl

theorem step2_v69 : StableHlo.after (hostOps2 (F := F)) V (Proc.devRef .tc main_v69)
    = transpose S128x100 [1, 0] (V (Proc.devRef .tc main_arg12)) transposes_S100x128_S128x100_1_0 := by
  after_results <;> rfl

theorem step2_v70 : StableHlo.after (hostOps2 (F := F)) V (Proc.devRef .tc main_v70)
    = shapeCast S1x100 (V (Proc.devRef .tc main_arg11)) shapeCasts_S100_S1x100 := by
  after_results <;> rfl

theorem step2_v71 : StableHlo.after (hostOps2 (F := F)) V (Proc.devRef .tc main_v71)
    = shapeCast S1x100 (V (Proc.devRef .tc main_arg13)) shapeCasts_S100_S1x100 := by
  after_results <;> rfl

/-! ## Before the last layer -/

set_option maxHeartbeats 8000000 in
theorem step4_v123 : StableHlo.after (hostOps4 (F := F)) V (Proc.devRef .tc main_v123)
    = Spec.txS100 (V (Proc.devRef .tc main_v72_0)) (V (Proc.devRef .tc main_v1)) (V (Proc.devRef .tc main_v3)) (V (Proc.devRef .tc main_v29)) := by
  after_results_simp <;> rfl

theorem step4_v124 : StableHlo.after (hostOps4 (F := F)) V (Proc.devRef .tc main_v124)
    = shapeCast S1x2 (V (Proc.devRef .tc main_arg9)) shapeCasts_S2_S1x2 := by
  after_results <;> rfl

theorem step4_v126 : StableHlo.after (hostOps4 (F := F)) V (Proc.devRef .tc main_v126)
    = shapeCast S100x2 (extractStridedSlice S1x100x2 ![0, 0, 0] (V (Proc.devRef .tc main_arg8)) slices_S2x100x2_S1x100x2_0_0_0) shapeCasts_S1x100x2_S100x2 := by
  after_results <;> rfl

theorem step4_v128 : StableHlo.after (hostOps4 (F := F)) V (Proc.devRef .tc main_v128)
    = shapeCast S100x2 (extractStridedSlice S1x100x2 ![1, 0, 0] (V (Proc.devRef .tc main_arg8)) slices_S2x100x2_S1x100x2_1_0_0) shapeCasts_S1x100x2_S100x2 := by
  after_results <;> rfl

end Cert.KernelIdeal.BridgeSteps

end
-- ==== Proof.KI.BridgeOut.lean ====
/-
  THE KERNEL PROGRAM'S FIRST RESULT AND ITS `z` ARE THE REFERENCE'S, AS FUNCTIONS OF THE ARGUMENTS.

  The buffer contents at the boundaries of the kernel program's run are a fold from the launch memory: a host stretch
  applies its operations, a region leaves its output array at the layer's (the heads') function of its input arrays as
  it found them. Walking that fold: the edge rows, the degrees' inverse square roots and the edge weights are the
  reference's (the same host operations over records that carry the same lists); the propagated features, the weight
  slabs and the bias rows entering region 0 are the reference's operands, so its result is the reference's hidden
  layer; the same at region 1, at the two heads, and at the last layer. Buffers pass through the stretches that do not
  write them and the regions that do not own them.
-/
import proofs.«176792_j62921270886524_2_alg».proof.Proof.KI.Run
import proofs.«176792_j62921270886524_2_alg».proof.Proof.KI.Val0
import proofs.«176792_j62921270886524_2_alg».proof.Proof.KI.Val1
import proofs.«176792_j62921270886524_2_alg».proof.Proof.KI.Val2
import proofs.«176792_j62921270886524_2_alg».proof.Proof.KI.Val4
import proofs.«176792_j62921270886524_2_alg».proof.Proof.KI.RefCheb
import proofs.«176792_j62921270886524_2_alg».proof.Proof.KI.Spec
import proofs.«176792_j62921270886524_2_alg».proof.Proof.KI.BridgeSteps

set_option maxRecDepth 16384

noncomputable section

namespace Cert.KernelIdeal.BridgeOut

open Cert.KernelIdeal Cert.KernelIdeal.Gen Cert.KernelIdeal.Run
open Idealize.ShloMosaic Idealize.ShloMosaic.TcCoe
open Idealize.ShloMosaic.Pipeline (Dat)

/-! ## The two programs' host pieces are the same functions

Each piece is one host operation tree over shape records that the two programs print separately; the records carry
the same lists and the side conditions are proofs, so each pair is equal by unfolding one definition. -/

theorem src_eq (a : (⟨S2x800000, .i32⟩ : BufTy).Contents (Elt Ideal)) : Spec.src (F := Ideal) a = Cert.ReferenceIdeal.Spec.src a := rfl
theorem dst_eq (a : (⟨S2x800000, .i32⟩ : BufTy).Contents (Elt Ideal)) : Spec.dst (F := Ideal) a = Cert.ReferenceIdeal.Spec.dst a := rfl
theorem degS_eq (s : (⟨S800000, .i32⟩ : BufTy).Contents (Elt Ideal)) : Spec.degS (F := Ideal) s = Cert.ReferenceIdeal.Spec.degS s := rfl
theorem dinvS_eq (g : (⟨S50000, .f32⟩ : BufTy).Contents (Elt Ideal)) : Spec.dinvS (F := Ideal) g = Cert.ReferenceIdeal.Spec.dinvS g := rfl
theorem normS_eq (dv : (⟨S50000, .f32⟩ : BufTy).Contents (Elt Ideal)) (s d : (⟨S800000, .i32⟩ : BufTy).Contents (Elt Ideal)) :
    Spec.normS (F := Ideal) dv s d = Cert.ReferenceIdeal.Spec.normS dv s d := rfl
theorem txS128_eq (x : (⟨S50000x128, .f32⟩ : BufTy).Contents (Elt Ideal)) (s d : (⟨S800000, .i32⟩ : BufTy).Contents (Elt Ideal))
    (n : (⟨S800000, .f32⟩ : BufTy).Contents (Elt Ideal)) : Spec.txS128 (F := Ideal) x s d n = Cert.ReferenceIdeal.Spec.txS128 x s d n := rfl
theorem txS300_eq (x : (⟨S50000x300, .f32⟩ : BufTy).Contents (Elt Ideal)) (s d : (⟨S800000, .i32⟩ : BufTy).Contents (Elt Ideal))
    (n : (⟨S800000, .f32⟩ : BufTy).Contents (Elt Ideal)) : Spec.txS300 (F := Ideal) x s d n = Cert.ReferenceIdeal.Spec.txS300 x s d n := rfl
theorem txS100_eq (x : (⟨S50000x100, .f32⟩ : BufTy).Contents (Elt Ideal)) (s d : (⟨S800000, .i32⟩ : BufTy).Contents (Elt Ideal))
    (n : (⟨S800000, .f32⟩ : BufTy).Contents (Elt Ideal)) : Spec.txS100 (F := Ideal) x s d n = Cert.ReferenceIdeal.Spec.txS100 x s d n := rfl

variable (m : (ℓ : Loc nD τ sig) → Buf (Elt Ideal) ℓ) (ρ : Dev nD → PrngReg)

/-! ## Buffers that pass through

A host stretch leaves every buffer it does not write; a region leaves every buffer that is none of its arrays, and its
input arrays too. -/

theorem pass_arg0_0_3 (c : Dev nD) :
    W3 m ρ c (Proc.devRef .tc main_arg0) = W0 m ρ c (Proc.devRef .tc main_arg0) :=
  calc W3 m ρ c (Proc.devRef .tc main_arg0)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)

theorem pass_arg0_0_7 (c : Dev nD) :
    W7 m ρ c (Proc.devRef .tc main_arg0) = W0 m ρ c (Proc.devRef .tc main_arg0) :=
  calc W7 m ρ c (Proc.devRef .tc main_arg0)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := (W4_arr m ρ c 0).trans (((Reg0.dat0 (V3 m ρ) c).arrAt_in 0 rfl _).trans (Reg0.A_eq0 (V3 m ρ) c 0))
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)

theorem pass_arg0_0_2 (c : Dev nD) :
    W2 m ρ c (Proc.devRef .tc main_arg0) = W0 m ρ c (Proc.devRef .tc main_arg0) :=
  calc W2 m ρ c (Proc.devRef .tc main_arg0)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)

theorem pass_arg4_0_2 (c : Dev nD) :
    W2 m ρ c (Proc.devRef .tc main_arg4) = W0 m ρ c (Proc.devRef .tc main_arg4) :=
  calc W2 m ρ c (Proc.devRef .tc main_arg4)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)

theorem pass_arg5_0_2 (c : Dev nD) :
    W2 m ρ c (Proc.devRef .tc main_arg5) = W0 m ρ c (Proc.devRef .tc main_arg5) :=
  calc W2 m ρ c (Proc.devRef .tc main_arg5)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)

theorem pass_arg6_0_4 (c : Dev nD) :
    W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)

theorem pass_arg7_0_4 (c : Dev nD) :
    W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)

theorem pass_arg10_0_6 (c : Dev nD) :
    W6 m ρ c (Proc.devRef .tc main_arg10) = W0 m ρ c (Proc.devRef .tc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_writes_sub hostOps1 _ hostOps1_writes (by decide)
    _ = W3 m ρ c (Proc.devRef .tc main_arg10) := W4_of_ne m ρ c main_arg10 (by decide)
    _ = W2 m ρ c (Proc.devRef .tc main_arg10) := StableHlo.after_of_writes_sub hostOps0_2 _ hostOps0_2_writes (by decide)
    _ = W1 m ρ c (Proc.devRef .tc main_arg10) := StableHlo.after_of_writes_sub hostOps0_1 _ hostOps0_1_writes (by decide)
    _ = W0 m ρ c (Proc.devRef .tc main_arg10) := StableHlo.after_of_writes_sub hostOps0 _ hostOps0_writes (by decide)

theorem pass_arg11_0_6 (c : Dev nD) :
    W6 m ρ c (Proc.devRef .tc main_arg11) = W0 m ρ c (Proc.devRef .tc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_writes_sub hostOps1 _ hostOps1_writes (by decide)
    _ = W3 m ρ c (Proc.devRef .tc main_arg11) := W4_of_ne m ρ c main_arg11 (by decide)
    _ = W2 m ρ c (Proc.devRef .tc main_arg11) := StableHlo.after_of_writes_sub hostOps0_2 _ hostOps0_2_writes (by decide)
    _ = W1 m ρ c (Proc.devRef .tc main_arg11) := StableHlo.after_of_writes_sub hostOps0_1 _ hostOps0_1_writes (by decide)
    _ = W0 m ρ c (Proc.devRef .tc main_arg11) := StableHlo.after_of_writes_sub hostOps0 _ hostOps0_writes (by decide)

theorem pass_arg12_0_6 (c : Dev nD) :
    W6 m ρ c (Proc.devRef .tc main_arg12) = W0 m ρ c (Proc.devRef .tc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_writes_sub hostOps1 _ hostOps1_writes (by decide)
    _ = W3 m ρ c (Proc.devRef .tc main_arg12) := W4_of_ne m ρ c main_arg12 (by decide)
    _ = W2 m ρ c (Proc.devRef .tc main_arg12) := StableHlo.after_of_writes_sub hostOps0_2 _ hostOps0_2_writes (by decide)
    _ = W1 m ρ c (Proc.devRef .tc main_arg12) := StableHlo.after_of_writes_sub hostOps0_1 _ hostOps0_1_writes (by decide)
    _ = W0 m ρ c (Proc.devRef .tc main_arg12) := StableHlo.after_of_writes_sub hostOps0 _ hostOps0_writes (by decide)

theorem pass_arg13_0_6 (c : Dev nD) :
    W6 m ρ c (Proc.devRef .tc main_arg13) = W0 m ρ c (Proc.devRef .tc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_writes_sub hostOps1 _ hostOps1_writes (by decide)
    _ = W3 m ρ c (Proc.devRef .tc main_arg13) := W4_of_ne m ρ c main_arg13 (by decide)
    _ = W2 m ρ c (Proc.devRef .tc main_arg13) := StableHlo.after_of_writes_sub hostOps0_2 _ hostOps0_2_writes (by decide)
    _ = W1 m ρ c (Proc.devRef .tc main_arg13) := StableHlo.after_of_writes_sub hostOps0_1 _ hostOps0_1_writes (by decide)
    _ = W0 m ρ c (Proc.devRef .tc main_arg13) := StableHlo.after_of_writes_sub hostOps0 _ hostOps0_writes (by decide)

theorem pass_arg8_0_10 (c : Dev nD) :
    W10 m ρ c (Proc.devRef .tc main_arg8) = W0 m ρ c (Proc.devRef .tc main_arg8) :=
  calc W10 m ρ c (Proc.devRef .tc main_arg8)
    _ = W9 m ρ c (Proc.devRef .tc main_arg8) := W10_of_ne m ρ c main_arg8 (by decide)
    _ = W8 m ρ c (Proc.devRef .tc main_arg8) := StableHlo.after_of_writes_sub hostOps3 _ hostOps3_writes (by decide)
    _ = W7 m ρ c (Proc.devRef .tc main_arg8) := W8_of_ne m ρ c main_arg8 (by decide)
    _ = W6 m ρ c (Proc.devRef .tc main_arg8) := StableHlo.after_of_writes_sub hostOps2 _ hostOps2_writes (by decide)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)

theorem pass_arg9_0_10 (c : Dev nD) :
    W10 m ρ c (Proc.devRef .tc main_arg9) = W0 m ρ c (Proc.devRef .tc main_arg9) :=
  calc W10 m ρ c (Proc.devRef .tc main_arg9)
    _ = W9 m ρ c (Proc.devRef .tc main_arg9) := W10_of_ne m ρ c main_arg9 (by decide)
    _ = W8 m ρ c (Proc.devRef .tc main_arg9) := StableHlo.after_of_writes_sub hostOps3 _ hostOps3_writes (by decide)
    _ = W7 m ρ c (Proc.devRef .tc main_arg9) := W8_of_ne m ρ c main_arg9 (by decide)
    _ = W6 m ρ c (Proc.devRef .tc main_arg9) := StableHlo.after_of_writes_sub hostOps2 _ hostOps2_writes (by decide)
    _ = W5 m ρ c (Proc.devRef .tc main_arg9) := W6_of_ne m ρ c main_arg9 (by decide)
    _ = W4 m ρ c (Proc.devRef .tc main_arg9) := StableHlo.after_of_writes_sub hostOps1 _ hostOps1_writes (by decide)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)

theorem pass_v1_1_2 (c : Dev nD) :
    W2 m ρ c (Proc.devRef .tc main_v1) = W1 m ρ c (Proc.devRef .tc main_v1) :=
  calc W2 m ρ c (Proc.devRef .tc main_v1)
    _ = W1 m ρ c (Proc.devRef .tc main_v1) := StableHlo.after_of_writes_sub hostOps0_1 _ hostOps0_1_writes (by decide)

theorem pass_v3_1_2 (c : Dev nD) :
    W2 m ρ c (Proc.devRef .tc main_v3) = W1 m ρ c (Proc.devRef .tc main_v3) :=
  calc W2 m ρ c (Proc.devRef .tc main_v3)
    _ = W1 m ρ c (Proc.devRef .tc main_v3) := StableHlo.after_of_writes_sub hostOps0_1 _ hostOps0_1_writes (by decide)

theorem pass_v1_1_4 (c : Dev nD) :
    W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_writes_sub hostOps0_2 _ hostOps0_2_writes (by decide)
    _ = W1 m ρ c (Proc.devRef .tc main_v1) := StableHlo.after_of_writes_sub hostOps0_1 _ hostOps0_1_writes (by decide)

theorem pass_v3_1_4 (c : Dev nD) :
    W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_writes_sub hostOps0_2 _ hostOps0_2_writes (by decide)
    _ = W1 m ρ c (Proc.devRef .tc main_v3) := StableHlo.after_of_writes_sub hostOps0_1 _ hostOps0_1_writes (by decide)

theorem pass_v1_1_10 (c : Dev nD) :
    W10 m ρ c (Proc.devRef .tc main_v1) = W1 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := StableHlo.after_of_writes_sub hostOps3 _ hostOps3_writes (by decide)
    _ = W7 m ρ c (Proc.devRef .tc main_v1) := W8_of_ne m ρ c main_v1 (by decide)
    _ = W6 m ρ c (Proc.devRef .tc main_v1) := StableHlo.after_of_writes_sub hostOps2 _ hostOps2_writes (by decide)
    _ = W5 m ρ c (Proc.devRef .tc main_v1) := W6_of_ne m ρ c main_v1 (by decide)
    _ = W4 m ρ c (Proc.devRef .tc main_v1) := StableHlo.after_of_writes_sub hostOps1 _ hostOps1_writes (by decide)
    _ = W3 m ρ c (Proc.devRef .tc main_v1) := W4_of_ne m ρ c main_v1 (by decide)
    _ = W2 m ρ c (Proc.devRef .tc main_v1) := StableHlo.after_of_writes_sub hostOps0_2 _ hostOps0_2_writes (by decide)
    _ = W1 m ρ c (Proc.devRef .tc main_v1) := StableHlo.after_of_writes_sub hostOps0_1 _ hostOps0_1_writes (by decide)

theorem pass_v3_1_10 (c : Dev nD) :
    W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := StableHlo.after_of_writes_sub hostOps3 _ hostOps3_writes (by decide)
    _ = W7 m ρ c (Proc.devRef .tc main_v3) := W8_of_ne m ρ c main_v3 (by decide)
    _ = W6 m ρ c (Proc.devRef .tc main_v3) := StableHlo.after_of_writes_sub hostOps2 _ hostOps2_writes (by decide)
    _ = W5 m ρ c (Proc.devRef .tc main_v3) := W6_of_ne m ρ c main_v3 (by decide)
    _ = W4 m ρ c (Proc.devRef .tc main_v3) := StableHlo.after_of_writes_sub hostOps1 _ hostOps1_writes (by decide)
    _ = W3 m ρ c (Proc.devRef .tc main_v3) := W4_of_ne m ρ c main_v3 (by decide)
    _ = W2 m ρ c (Proc.devRef .tc main_v3) := StableHlo.after_of_writes_sub hostOps0_2 _ hostOps0_2_writes (by decide)
    _ = W1 m ρ c (Proc.devRef .tc main_v3) := StableHlo.after_of_writes_sub hostOps0_1 _ hostOps0_1_writes (by decide)

theorem pass_v29_3_4 (c : Dev nD) :
    W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem pass_v29_3_10 (c : Dev nD) :
    W10 m ρ c (Proc.devRef .tc main_v29) = W3 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := StableHlo.after_of_writes_sub hostOps3 _ hostOps3_writes (by decide)
    _ = W7 m ρ c (Proc.devRef .tc main_v29) := W8_of_ne m ρ c main_v29 (by decide)
    _ = W6 m ρ c (Proc.devRef .tc main_v29) := StableHlo.after_of_writes_sub hostOps2 _ hostOps2_writes (by decide)
    _ = W5 m ρ c (Proc.devRef .tc main_v29) := W6_of_ne m ρ c main_v29 (by decide)
    _ = W4 m ρ c (Proc.devRef .tc main_v29) := StableHlo.after_of_writes_sub hostOps1 _ hostOps1_writes (by decide)
    _ = W3 m ρ c (Proc.devRef .tc main_v29) := W4_of_ne m ρ c main_v29 (by decide)

theorem pass_v48_4_5 (c : Dev nD) :
    W5 m ρ c (Proc.devRef .tc main_v48) = W4 m ρ c (Proc.devRef .tc main_v48) :=
  calc W5 m ρ c (Proc.devRef .tc main_v48)
    _ = W4 m ρ c (Proc.devRef .tc main_v48) := StableHlo.after_of_writes_sub hostOps1 _ hostOps1_writes (by decide)

theorem pass_v67_6_7 (c : Dev nD) :
    W7 m ρ c (Proc.devRef .tc main_v67) = W6 m ρ c (Proc.devRef .tc main_v67) :=
  calc W7 m ρ c (Proc.devRef .tc main_v67)
    _ = W6 m ρ c (Proc.devRef .tc main_v67) := StableHlo.after_of_writes_sub hostOps2 _ hostOps2_writes (by decide)

theorem pass_v72_0_8_10 (c : Dev nD) :
    W10 m ρ c (Proc.devRef .tc main_v72_0) = W8 m ρ c (Proc.devRef .tc main_v72_0) :=
  calc W10 m ρ c (Proc.devRef .tc main_v72_0)
    _ = W9 m ρ c (Proc.devRef .tc main_v72_0) := W10_of_ne m ρ c main_v72_0 (by decide)
    _ = W8 m ρ c (Proc.devRef .tc main_v72_0) := StableHlo.after_of_writes_sub hostOps3 _ hostOps3_writes (by decide)

theorem pass_v72_0_8_11 (c : Dev nD) :
    W11 m ρ c (Proc.devRef .tc main_v72_0) = W8 m ρ c (Proc.devRef .tc main_v72_0) :=
  calc W11 m ρ c (Proc.devRef .tc main_v72_0)
    _ = W10 m ρ c (Proc.devRef .tc main_v72_0) := StableHlo.after_of_writes_sub hostOps4 _ hostOps4_writes (by decide)
    _ = W9 m ρ c (Proc.devRef .tc main_v72_0) := W10_of_ne m ρ c main_v72_0 (by decide)
    _ = W8 m ρ c (Proc.devRef .tc main_v72_0) := StableHlo.after_of_writes_sub hostOps3 _ hostOps3_writes (by decide)

theorem pass_v72_1_8_9 (c : Dev nD) :
    W9 m ρ c (Proc.devRef .tc main_v72_1) = W8 m ρ c (Proc.devRef .tc main_v72_1) :=
  calc W9 m ρ c (Proc.devRef .tc main_v72_1)
    _ = W8 m ρ c (Proc.devRef .tc main_v72_1) := StableHlo.after_of_writes_sub hostOps3 _ hostOps3_writes (by decide)

theorem W3_arg0 (c : Dev nD) : W3 m ρ c (Proc.devRef .tc main_arg0) = (m ((c : Thread nD τ).loc main_arg0)) := (pass_arg0_0_3 m ρ c).trans rfl
theorem W7_arg0 (c : Dev nD) : W7 m ρ c (Proc.devRef .tc main_arg0) = (m ((c : Thread nD τ).loc main_arg0)) := (pass_arg0_0_7 m ρ c).trans rfl
theorem W2_arg0 (c : Dev nD) : W2 m ρ c (Proc.devRef .tc main_arg0) = (m ((c : Thread nD τ).loc main_arg0)) := (pass_arg0_0_2 m ρ c).trans rfl
theorem W2_arg4 (c : Dev nD) : W2 m ρ c (Proc.devRef .tc main_arg4) = (m ((c : Thread nD τ).loc main_arg4)) := (pass_arg4_0_2 m ρ c).trans rfl
theorem W2_arg5 (c : Dev nD) : W2 m ρ c (Proc.devRef .tc main_arg5) = (m ((c : Thread nD τ).loc main_arg5)) := (pass_arg5_0_2 m ρ c).trans rfl
theorem W4_arg6 (c : Dev nD) : W4 m ρ c (Proc.devRef .tc main_arg6) = (m ((c : Thread nD τ).loc main_arg6)) := (pass_arg6_0_4 m ρ c).trans rfl
theorem W4_arg7 (c : Dev nD) : W4 m ρ c (Proc.devRef .tc main_arg7) = (m ((c : Thread nD τ).loc main_arg7)) := (pass_arg7_0_4 m ρ c).trans rfl
theorem W6_arg10 (c : Dev nD) : W6 m ρ c (Proc.devRef .tc main_arg10) = (m ((c : Thread nD τ).loc main_arg10)) := (pass_arg10_0_6 m ρ c).trans rfl
theorem W6_arg11 (c : Dev nD) : W6 m ρ c (Proc.devRef .tc main_arg11) = (m ((c : Thread nD τ).loc main_arg11)) := (pass_arg11_0_6 m ρ c).trans rfl
theorem W6_arg12 (c : Dev nD) : W6 m ρ c (Proc.devRef .tc main_arg12) = (m ((c : Thread nD τ).loc main_arg12)) := (pass_arg12_0_6 m ρ c).trans rfl
theorem W6_arg13 (c : Dev nD) : W6 m ρ c (Proc.devRef .tc main_arg13) = (m ((c : Thread nD τ).loc main_arg13)) := (pass_arg13_0_6 m ρ c).trans rfl
theorem W10_arg8 (c : Dev nD) : W10 m ρ c (Proc.devRef .tc main_arg8) = (m ((c : Thread nD τ).loc main_arg8)) := (pass_arg8_0_10 m ρ c).trans rfl
theorem W10_arg9 (c : Dev nD) : W10 m ρ c (Proc.devRef .tc main_arg9) = (m ((c : Thread nD τ).loc main_arg9)) := (pass_arg9_0_10 m ρ c).trans rfl

/-! ## The edge rows, the inverse square roots of the degrees, the edge weights -/

theorem W1_v1 (c : Dev nD) : W1 m ρ c (Proc.devRef .tc main_v1) = Cert.ReferenceIdeal.Spec.src (m ((c : Thread nD τ).loc main_arg1)) :=
  (BridgeSteps.step0_v1 (W0 m ρ c)).trans (src_eq _)
theorem W1_v3 (c : Dev nD) : W1 m ρ c (Proc.devRef .tc main_v3) = Cert.ReferenceIdeal.Spec.dst (m ((c : Thread nD τ).loc main_arg1)) :=
  (BridgeSteps.step0_v3 (W0 m ρ c)).trans (dst_eq _)
theorem W2_v1 (c : Dev nD) : W2 m ρ c (Proc.devRef .tc main_v1) = Cert.ReferenceIdeal.Spec.src (m ((c : Thread nD τ).loc main_arg1)) := (pass_v1_1_2 m ρ c).trans (W1_v1 m ρ c)
theorem W2_v3 (c : Dev nD) : W2 m ρ c (Proc.devRef .tc main_v3) = Cert.ReferenceIdeal.Spec.dst (m ((c : Thread nD τ).loc main_arg1)) := (pass_v3_1_2 m ρ c).trans (W1_v3 m ρ c)
theorem W4_v1 (c : Dev nD) : W4 m ρ c (Proc.devRef .tc main_v1) = Cert.ReferenceIdeal.Spec.src (m ((c : Thread nD τ).loc main_arg1)) := (pass_v1_1_4 m ρ c).trans (W1_v1 m ρ c)
theorem W4_v3 (c : Dev nD) : W4 m ρ c (Proc.devRef .tc main_v3) = Cert.ReferenceIdeal.Spec.dst (m ((c : Thread nD τ).loc main_arg1)) := (pass_v3_1_4 m ρ c).trans (W1_v3 m ρ c)
theorem W10_v1 (c : Dev nD) : W10 m ρ c (Proc.devRef .tc main_v1) = Cert.ReferenceIdeal.Spec.src (m ((c : Thread nD τ).loc main_arg1)) := (pass_v1_1_10 m ρ c).trans (W1_v1 m ρ c)
theorem W10_v3 (c : Dev nD) : W10 m ρ c (Proc.devRef .tc main_v3) = Cert.ReferenceIdeal.Spec.dst (m ((c : Thread nD τ).loc main_arg1)) := (pass_v3_1_10 m ρ c).trans (W1_v3 m ρ c)

theorem W2_v13 (c : Dev nD) : W2 m ρ c (Proc.devRef .tc main_v13) = Cert.ReferenceIdeal.Spec.dinvS (Cert.ReferenceIdeal.Spec.degS (Cert.ReferenceIdeal.Spec.src (m ((c : Thread nD τ).loc main_arg1)))) := by
  have h : W2 m ρ c (Proc.devRef .tc main_v13) = _ := BridgeSteps.step01_v13 (W1 m ρ c)
  have h9 : W1 m ρ c (Proc.devRef .tc main_v9) = _ := BridgeSteps.step0_v9 (W0 m ρ c)
  have h12 : W1 m ρ c (Proc.devRef .tc main_v12) = _ := BridgeSteps.step0_v12 (W0 m ρ c)
  have h3 : W1 m ρ c (Proc.devRef .tc main_cst_3) = _ := BridgeSteps.step0_cst3 (W0 m ρ c)
  rw [h, h9, h12, h3, ← dinvS_eq, ← degS_eq, ← src_eq]
  rfl

theorem W3_v29 (c : Dev nD) : W3 m ρ c (Proc.devRef .tc main_v29) = Cert.ReferenceIdeal.Spec.norm (m ((c : Thread nD τ).loc main_arg1)) := by
  have h : W3 m ρ c (Proc.devRef .tc main_v29) = _ := BridgeSteps.step02_v29 (W2 m ρ c)
  rw [h, W2_v13, W2_v1, W2_v3, normS_eq]
  rfl
theorem W4_v29 (c : Dev nD) : W4 m ρ c (Proc.devRef .tc main_v29) = Cert.ReferenceIdeal.Spec.norm (m ((c : Thread nD τ).loc main_arg1)) := (pass_v29_3_4 m ρ c).trans (W3_v29 m ρ c)
theorem W10_v29 (c : Dev nD) : W10 m ρ c (Proc.devRef .tc main_v29) = Cert.ReferenceIdeal.Spec.norm (m ((c : Thread nD τ).loc main_arg1)) := (pass_v29_3_10 m ρ c).trans (W3_v29 m ρ c)

/-! ## The first layer -/

theorem W3_v42 (c : Dev nD) : W3 m ρ c (Proc.devRef .tc main_v42) = Cert.ReferenceIdeal.Spec.tx128 (m ((c : Thread nD τ).loc main_arg0)) (m ((c : Thread nD τ).loc main_arg1)) := by
  have h : W3 m ρ c (Proc.devRef .tc main_v42) = _ := BridgeSteps.step02_v42 (W2 m ρ c)
  rw [h, W2_arg0, W2_v13, W2_v1, W2_v3, normS_eq, txS128_eq]
  rfl
theorem W3_v43 (c : Dev nD) : W3 m ρ c (Proc.devRef .tc main_v43) = RefCheb.rowOf (m ((c : Thread nD τ).loc main_arg5)) := by
  have h : W3 m ρ c (Proc.devRef .tc main_v43) = _ := BridgeSteps.step02_v43 (W2 m ρ c)
  rw [h, W2_arg5]
  exact RefCheb.row300 _ _
theorem W3_v45 (c : Dev nD) : W3 m ρ c (Proc.devRef .tc main_v45) = (shapeCast S128x300 (extractStridedSlice S1x128x300 ![0, 0, 0] (m ((c : Thread nD τ).loc main_arg4)) slices_S2x128x300_S1x128x300_0_0_0) shapeCasts_S1x128x300_S128x300) := by
  have h : W3 m ρ c (Proc.devRef .tc main_v45) = _ := BridgeSteps.step02_v45 (W2 m ρ c)
  rw [h, W2_arg4]
theorem W3_v47 (c : Dev nD) : W3 m ρ c (Proc.devRef .tc main_v47) = (shapeCast S128x300 (extractStridedSlice S1x128x300 ![1, 0, 0] (m ((c : Thread nD τ).loc main_arg4)) slices_S2x128x300_S1x128x300_1_0_0) shapeCasts_S1x128x300_S128x300) := by
  have h : W3 m ρ c (Proc.devRef .tc main_v47) = _ := BridgeSteps.step02_v47 (W2 m ρ c)
  rw [h, W2_arg4]

/-- THE FIRST LAYER'S RESULT is the reference's hidden layer of the arguments. -/
theorem hid_eq (c : Dev nD) : W4 m ρ c (Proc.devRef .tc main_v48) = (Cert.ReferenceIdeal.Spec.hid (m ((c : Thread nD τ).loc main_arg0)) (m ((c : Thread nD τ).loc main_arg1)) (m ((c : Thread nD τ).loc main_arg4)) (m ((c : Thread nD τ).loc main_arg5))) := by
  refine (W4_arr m ρ c 5).trans ((Val0.final0 (V3 m ρ) c).trans ?_)
  unfold Cert.ReferenceIdeal.Spec.hid
  rw [RefCheb.ref_cheb0,
    show V3 m ρ c main_arg0 = _ from W3_arg0 m ρ c, show V3 m ρ c main_v42 = _ from W3_v42 m ρ c,
    show V3 m ρ c main_v45 = _ from W3_v45 m ρ c, show V3 m ρ c main_v47 = _ from W3_v47 m ρ c,
    show V3 m ρ c main_v43 = _ from W3_v43 m ρ c]

/-! ## The second layer -/

theorem W5_v48 (c : Dev nD) : W5 m ρ c (Proc.devRef .tc main_v48) = (Cert.ReferenceIdeal.Spec.hid (m ((c : Thread nD τ).loc main_arg0)) (m ((c : Thread nD τ).loc main_arg1)) (m ((c : Thread nD τ).loc main_arg4)) (m ((c : Thread nD τ).loc main_arg5))) := (pass_v48_4_5 m ρ c).trans (hid_eq m ρ c)
theorem W5_v61 (c : Dev nD) : W5 m ρ c (Proc.devRef .tc main_v61) = Cert.ReferenceIdeal.Spec.tx300 (Cert.ReferenceIdeal.Spec.hid (m ((c : Thread nD τ).loc main_arg0)) (m ((c : Thread nD τ).loc main_arg1)) (m ((c : Thread nD τ).loc main_arg4)) (m ((c : Thread nD τ).loc main_arg5))) (m ((c : Thread nD τ).loc main_arg1)) := by
  have h : W5 m ρ c (Proc.devRef .tc main_v61) = _ := BridgeSteps.step1_v61 (W4 m ρ c)
  rw [h, hid_eq, W4_v1, W4_v3, W4_v29, txS300_eq]
  rfl
theorem W5_v62 (c : Dev nD) : W5 m ρ c (Proc.devRef .tc main_v62) = RefCheb.rowOf (m ((c : Thread nD τ).loc main_arg7)) := by
  have h : W5 m ρ c (Proc.devRef .tc main_v62) = _ := BridgeSteps.step1_v62 (W4 m ρ c)
  rw [h, W4_arg7]
  exact RefCheb.row100 _ _
theorem W5_v64 (c : Dev nD) : W5 m ρ c (Proc.devRef .tc main_v64) = (shapeCast S300x100 (extractStridedSlice S1x300x100 ![0, 0, 0] (m ((c : Thread nD τ).loc main_arg6)) slices_S2x300x100_S1x300x100_0_0_0) shapeCasts_S1x300x100_S300x100) := by
  have h : W5 m ρ c (Proc.devRef .tc main_v64) = _ := BridgeSteps.step1_v64 (W4 m ρ c)
  rw [h, W4_arg6]
theorem W5_v66 (c : Dev nD) : W5 m ρ c (Proc.devRef .tc main_v66) = (shapeCast S300x100 (extractStridedSlice S1x300x100 ![1, 0, 0] (m ((c : Thread nD τ).loc main_arg6)) slices_S2x300x100_S1x300x100_1_0_0) shapeCasts_S1x300x100_S300x100) := by
  have h : W5 m ρ c (Proc.devRef .tc main_v66) = _ := BridgeSteps.step1_v66 (W4 m ρ c)
  rw [h, W4_arg6]

/-- THE SECOND LAYER'S RESULT is the reference's second layer of the arguments. -/
theorem x1_eq (c : Dev nD) : W6 m ρ c (Proc.devRef .tc main_v67) = (Cert.ReferenceIdeal.Spec.x1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := by
  refine (W6_arr m ρ c 5).trans ((Val1.final1 (V5 m ρ) c).trans ?_)
  unfold Cert.ReferenceIdeal.Spec.x1
  rw [RefCheb.ref_cheb1,
    show V5 m ρ c main_v48 = _ from W5_v48 m ρ c, show V5 m ρ c main_v61 = _ from W5_v61 m ρ c,
    show V5 m ρ c main_v64 = _ from W5_v64 m ρ c, show V5 m ρ c main_v66 = _ from W5_v66 m ρ c,
    show V5 m ρ c main_v62 = _ from W5_v62 m ρ c]

/-! ## The two heads -/

theorem W7_v67 (c : Dev nD) : W7 m ρ c (Proc.devRef .tc main_v67) = (Cert.ReferenceIdeal.Spec.x1 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7))) := (pass_v67_6_7 m ρ c).trans (x1_eq m ρ c)
theorem W7_v68 (c : Dev nD) : W7 m ρ c (Proc.devRef .tc main_v68) = transpose S128x100 [1, 0] (m ((c : Thread nD τ).loc main_arg10)) transposes_S100x128_S128x100_1_0 := by
  have h : W7 m ρ c (Proc.devRef .tc main_v68) = _ := BridgeSteps.step2_v68 (W6 m ρ c)
  rw [h, W6_arg10]
theorem W7_v69 (c : Dev nD) : W7 m ρ c (Proc.devRef .tc main_v69) = transpose S128x100 [1, 0] (m ((c : Thread nD τ).loc main_arg12)) transposes_S100x128_S128x100_1_0 := by
  have h : W7 m ρ c (Proc.devRef .tc main_v69) = _ := BridgeSteps.step2_v69 (W6 m ρ c)
  rw [h, W6_arg12]
theorem W7_v70 (c : Dev nD) : W7 m ρ c (Proc.devRef .tc main_v70) = RefCheb.rowOf (m ((c : Thread nD τ).loc main_arg11)) := by
  have h : W7 m ρ c (Proc.devRef .tc main_v70) = _ := BridgeSteps.step2_v70 (W6 m ρ c)
  rw [h, W6_arg11]
  exact RefCheb.row100 _ _
theorem W7_v71 (c : Dev nD) : W7 m ρ c (Proc.devRef .tc main_v71) = RefCheb.rowOf (m ((c : Thread nD τ).loc main_arg13)) := by
  have h : W7 m ρ c (Proc.devRef .tc main_v71) = _ := BridgeSteps.step2_v71 (W6 m ρ c)
  rw [h, W6_arg13]
  exact RefCheb.row100 _ _

/-- THE FIRST HEAD'S RESULT is the reference's `x₂`. -/
theorem x2_eq (c : Dev nD) : W8 m ρ c (Proc.devRef .tc main_v72_0) = (Cert.ReferenceIdeal.Spec.x2 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11))) := by
  refine (W8_arr m ρ c 6).trans ((Val2.final2a (V7 m ρ) c).trans ?_)
  unfold Cert.ReferenceIdeal.Spec.x2
  rw [RefCheb.ref_head,
    show V7 m ρ c main_arg0 = _ from W7_arg0 m ρ c, show V7 m ρ c main_v68 = _ from W7_v68 m ρ c,
    show V7 m ρ c main_v70 = _ from W7_v70 m ρ c, show V7 m ρ c main_v67 = _ from W7_v67 m ρ c]

/-- THE SECOND HEAD'S RESULT is the reference's `z`. -/
theorem keyZ (c : Dev nD) : W8 m ρ c (Proc.devRef .tc main_v72_1) = (Cert.ReferenceIdeal.Spec.zz (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13))) := by
  refine (W8_arr m ρ c 7).trans ((Val2.final2b (V7 m ρ) c).trans ?_)
  unfold Cert.ReferenceIdeal.Spec.zz
  rw [RefCheb.ref_head,
    show V7 m ρ c main_arg0 = _ from W7_arg0 m ρ c, show V7 m ρ c main_v69 = _ from W7_v69 m ρ c,
    show V7 m ρ c main_v71 = _ from W7_v71 m ρ c, show V7 m ρ c main_v67 = _ from W7_v67 m ρ c]

/-- The stretch before the loss region does not write `z`. -/
theorem W9_v72_1 (c : Dev nD) : W9 m ρ c (Proc.devRef .tc main_v72_1) = W8 m ρ c (Proc.devRef .tc main_v72_1) := pass_v72_1_8_9 m ρ c

/-! ## The last layer -/

theorem W10_v72_0 (c : Dev nD) : W10 m ρ c (Proc.devRef .tc main_v72_0) = (Cert.ReferenceIdeal.Spec.x2 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11))) := (pass_v72_0_8_10 m ρ c).trans (x2_eq m ρ c)
theorem W11_v72_0 (c : Dev nD) : W11 m ρ c (Proc.devRef .tc main_v72_0) = (Cert.ReferenceIdeal.Spec.x2 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11))) := (pass_v72_0_8_11 m ρ c).trans (x2_eq m ρ c)
theorem W11_v123 (c : Dev nD) : W11 m ρ c (Proc.devRef .tc main_v123) = Cert.ReferenceIdeal.Spec.tx100 (Cert.ReferenceIdeal.Spec.x2 (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11))) (m ((c : Thread nD τ).loc main_arg1)) := by
  have h : W11 m ρ c (Proc.devRef .tc main_v123) = _ := BridgeSteps.step4_v123 (W10 m ρ c)
  rw [h, W10_v72_0, W10_v1, W10_v3, W10_v29, txS100_eq]
  rfl
theorem W11_v124 (c : Dev nD) : W11 m ρ c (Proc.devRef .tc main_v124) = RefCheb.rowOf (m ((c : Thread nD τ).loc main_arg9)) := by
  have h : W11 m ρ c (Proc.devRef .tc main_v124) = _ := BridgeSteps.step4_v124 (W10 m ρ c)
  rw [h, W10_arg9]
  exact RefCheb.row2 _ _
theorem W11_v126 (c : Dev nD) : W11 m ρ c (Proc.devRef .tc main_v126) = (shapeCast S100x2 (extractStridedSlice S1x100x2 ![0, 0, 0] (m ((c : Thread nD τ).loc main_arg8)) slices_S2x100x2_S1x100x2_0_0_0) shapeCasts_S1x100x2_S100x2) := by
  have h : W11 m ρ c (Proc.devRef .tc main_v126) = _ := BridgeSteps.step4_v126 (W10 m ρ c)
  rw [h, W10_arg8]
theorem W11_v128 (c : Dev nD) : W11 m ρ c (Proc.devRef .tc main_v128) = (shapeCast S100x2 (extractStridedSlice S1x100x2 ![1, 0, 0] (m ((c : Thread nD τ).loc main_arg8)) slices_S2x100x2_S1x100x2_1_0_0) shapeCasts_S1x100x2_S100x2) := by
  have h : W11 m ρ c (Proc.devRef .tc main_v128) = _ := BridgeSteps.step4_v128 (W10 m ρ c)
  rw [h, W10_arg8]

/-- THE FIRST RESULT of the kernel program is the reference's first result of the arguments. -/
theorem key0 (c : Dev nD) : W12 m ρ c (Proc.devRef .tc main_v129) = (Cert.ReferenceIdeal.Spec.out (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  refine (W12_arr m ρ c 5).trans ((Val4.final4 (V11 m ρ) c).trans ?_)
  unfold Cert.ReferenceIdeal.Spec.out
  rw [RefCheb.ref_cheb2,
    show V11 m ρ c main_v72_0 = _ from W11_v72_0 m ρ c, show V11 m ρ c main_v123 = _ from W11_v123 m ρ c,
    show V11 m ρ c main_v126 = _ from W11_v126 m ρ c, show V11 m ρ c main_v128 = _ from W11_v128 m ρ c,
    show V11 m ρ c main_v124 = _ from W11_v124 m ρ c]

end Cert.KernelIdeal.BridgeOut

end
-- ==== Proof.KI.Reg3Value.lean ====
/-
  The value of region 3 at the ideal (extended real) values: what each of the body's three cases leaves in the two
  accumulators and in the output block, as the payloads at the point's blocks; the accumulators after point `n` as the
  sums of the points' partial sums; and what the last point stores into the output block — zero minus the total of
  both sums, divided by 400000 —, which is what the output array holds after the region.
-/
import proofs.«176792_j62921270886524_2_alg».proof.Proof.KI.Reg3
import Idealize.ShloMosaic.Lib.Pipeline.Value
import Idealize.ShloMosaic.Lib.ValueIdx
import Idealize.ShloMosaic.PureOps.Ideal.Laws

set_option maxRecDepth 16384

noncomputable section

namespace Cert.KernelIdeal.Reg3Value

open Cert.KernelIdeal Cert.KernelIdeal.Gen Cert.KernelIdeal.Reg3
open Idealize.ShloMosaic Idealize.ShloMosaic.TcCoe Idealize.ShloMosaic.Tactic
open Idealize.SL.Sem
open Idealize.ShloMosaic.ValueIdx
open Idealize.ShloMosaic.Pipeline (Dat)

/-! ## What each case's pieces are: the payloads at the blocks -/

section Pieces

variable {F : FTy → Type} [FloatOps F]

theorem hz : (![0, 0] : Fin 2 → Nat) = fun _ => 0 := funext fun a => by fin_cases a <;> rfl

/-- The first point leaves in the first accumulator the block's first partial sum added onto the zeros just stored. -/
theorem pieceA0 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond3_0 i) (hc1 : ¬cond3_1 i) (x0 x1 x2 x3 : Vec F S5000x100 .f32) :
    VS0.read (Elt F) (VS0.writes (Elt F) VS0.junk (kernelRun_A c i a0 h0 a1 h1 a2 h2 a3 h3 a4 h4 a5 h5 a6 h6 hc0 hc1 x0 x1 x2 x3).2.1) = k3_pay6 x0 x1 k3_pay3 := by
  rw [View.read_writes_eq_canon _ _ _ (scoverA0 c i a0 h0 a1 h1 a2 h2 a3 h3 a4 h4 a5 h5 a6 h6 hc0 hc1 x0 x1 x2 x3)]
  unfold kernelRun_A
  dsimp only
  try sl_unfold_words
  rw [View.canon_cons_unit_zero hz, View.readCov_unit_zero (S := S1x1) _ hz]
  simp only [View.readAt_eq_ld, h0.read_unread, h1.read_unread, h2.read_unread, h3.read_unread, h5.read_unread, h6.read_unread, View.ld_unit_zero (S := S5000x100) hz, View.ld_unit_zero (S := S1x1) hz]

theorem pieceA1 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : cond3_0 i) (hc1 : ¬cond3_1 i) (x0 x1 x2 x3 : Vec F S5000x100 .f32) :
    VS1.read (Elt F) (VS1.writes (Elt F) VS1.junk (kernelRun_A c i a0 h0 a1 h1 a2 h2 a3 h3 a4 h4 a5 h5 a6 h6 hc0 hc1 x0 x1 x2 x3).2.2.1) = k3_pay1 (k3_pay5 x2 x3) k3_pay4 := by
  rw [View.read_writes_eq_canon _ _ _ (scoverA1 c i a0 h0 a1 h1 a2 h2 a3 h3 a4 h4 a5 h5 a6 h6 hc0 hc1 x0 x1 x2 x3)]
  unfold kernelRun_A
  dsimp only
  try sl_unfold_words
  rw [View.canon_cons_unit_zero hz, View.readCov_unit_zero (S := S1x1) _ hz]
  simp only [View.readAt_eq_ld, h0.read_unread, h1.read_unread, h2.read_unread, h3.read_unread, h5.read_unread, h6.read_unread, View.ld_unit_zero (S := S5000x100) hz, View.ld_unit_zero (S := S1x1) hz]

/-- A middle point adds the block's partial sums onto what the accumulators held. -/
theorem pieceB0 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : ¬cond3_1 i) (x0 x1 x2 x3 : Vec F S5000x100 .f32) (xs0 xs1 : Vec F S1x1 .f32) :
    VS0.read (Elt F) (VS0.writes (Elt F) VS0.junk (kernelRun_B c i a0 h0 a1 h1 a2 h2 a3 h3 a4 h4 a5 h5 a6 h6 hc0 hc1 x0 x1 x2 x3 xs0 xs1).2.1) = k3_pay6 x0 x1 xs0 := by
  rw [View.read_writes_eq_canon _ _ _ (scoverB0 c i a0 h0 a1 h1 a2 h2 a3 h3 a4 h4 a5 h5 a6 h6 hc0 hc1 x0 x1 x2 x3 xs0 xs1)]
  unfold kernelRun_B
  dsimp only
  try sl_unfold_words
  rw [View.canon_unit_zero hz]
  simp only [View.readAt_eq_ld, h0.read_unread, h1.read_unread, h2.read_unread, h3.read_unread, h5.read_unread, h6.read_unread, View.ld_unit_zero (S := S5000x100) hz, View.ld_unit_zero (S := S1x1) hz]

theorem pieceB1 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : ¬cond3_1 i) (x0 x1 x2 x3 : Vec F S5000x100 .f32) (xs0 xs1 : Vec F S1x1 .f32) :
    VS1.read (Elt F) (VS1.writes (Elt F) VS1.junk (kernelRun_B c i a0 h0 a1 h1 a2 h2 a3 h3 a4 h4 a5 h5 a6 h6 hc0 hc1 x0 x1 x2 x3 xs0 xs1).2.2.1) = k3_pay1 (k3_pay5 x2 x3) xs1 := by
  rw [View.read_writes_eq_canon _ _ _ (scoverB1 c i a0 h0 a1 h1 a2 h2 a3 h3 a4 h4 a5 h5 a6 h6 hc0 hc1 x0 x1 x2 x3 xs0 xs1)]
  unfold kernelRun_B
  dsimp only
  try sl_unfold_words
  rw [View.canon_unit_zero hz]
  simp only [View.readAt_eq_ld, h0.read_unread, h1.read_unread, h2.read_unread, h3.read_unread, h5.read_unread, h6.read_unread, View.ld_unit_zero (S := S5000x100) hz, View.ld_unit_zero (S := S1x1) hz]

/-- So does the last point, -/
theorem pieceC0 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : cond3_1 i) (x0 x1 x2 x3 : Vec F S5000x100 .f32) (xs0 xs1 : Vec F S1x1 .f32) :
    VS0.read (Elt F) (VS0.writes (Elt F) VS0.junk (kernelRun_C c i a0 h0 a1 h1 a2 h2 a3 h3 a4 h4 a5 h5 a6 h6 hc0 hc1 x0 x1 x2 x3 xs0 xs1).2.1) = k3_pay6 x0 x1 xs0 := by
  rw [View.read_writes_eq_canon _ _ _ (scoverC0 c i a0 h0 a1 h1 a2 h2 a3 h3 a4 h4 a5 h5 a6 h6 hc0 hc1 x0 x1 x2 x3 xs0 xs1)]
  unfold kernelRun_C
  dsimp only
  try sl_unfold_words
  rw [View.canon_unit_zero hz]
  simp only [View.readAt_eq_ld, h0.read_unread, h1.read_unread, h2.read_unread, h3.read_unread, h5.read_unread, h6.read_unread, View.ld_unit_zero (S := S5000x100) hz, View.ld_unit_zero (S := S1x1) hz]

theorem pieceC1 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : cond3_1 i) (x0 x1 x2 x3 : Vec F S5000x100 .f32) (xs0 xs1 : Vec F S1x1 .f32) :
    VS1.read (Elt F) (VS1.writes (Elt F) VS1.junk (kernelRun_C c i a0 h0 a1 h1 a2 h2 a3 h3 a4 h4 a5 h5 a6 h6 hc0 hc1 x0 x1 x2 x3 xs0 xs1).2.2.1) = k3_pay1 (k3_pay5 x2 x3) xs1 := by
  rw [View.read_writes_eq_canon _ _ _ (scoverC1 c i a0 h0 a1 h1 a2 h2 a3 h3 a4 h4 a5 h5 a6 h6 hc0 hc1 x0 x1 x2 x3 xs0 xs1)]
  unfold kernelRun_C
  dsimp only
  try sl_unfold_words
  rw [View.canon_unit_zero hz]
  simp only [View.readAt_eq_ld, h0.read_unread, h1.read_unread, h2.read_unread, h3.read_unread, h5.read_unread, h6.read_unread, View.ld_unit_zero (S := S5000x100) hz, View.ld_unit_zero (S := S1x1) hz]

/-- and then stores into the output block the combination of the two accumulators as they now stand. -/
theorem pieceC4 (c : Dev nD) (i : grid3.Coords) (a0 : Memref sig .tc .vmem S5000x100 .f32) (h0 : a0.IsWhole) (a1 : Memref sig .tc .vmem S5000x100 .f32) (h1 : a1.IsWhole) (a2 : Memref sig .tc .vmem S5000x100 .f32) (h2 : a2.IsWhole) (a3 : Memref sig .tc .vmem S5000x100 .f32) (h3 : a3.IsWhole) (a4 : Memref sig .tc .vmem S1x1 .f32) (h4 : a4.IsWhole) (a5 : Memref sig .tc .vmem S1x1 .f32) (h5 : a5.IsWhole) (a6 : Memref sig .tc .vmem S1x1 .f32) (h6 : a6.IsWhole) (hc0 : ¬cond3_0 i) (hc1 : cond3_1 i) (x0 x1 x2 x3 : Vec F S5000x100 .f32) (xs0 xs1 : Vec F S1x1 .f32) :
    VO.read (Elt F) (VO.writes (Elt F) VO.junk (kernelRun_C c i a0 h0 a1 h1 a2 h2 a3 h3 a4 h4 a5 h5 a6 h6 hc0 hc1 x0 x1 x2 x3 xs0 xs1).1) = k3_pay2 (k3_pay6 x0 x1 xs0) (k3_pay1 (k3_pay5 x2 x3) xs1) := by
  rw [View.read_writes_eq_canon _ _ _ (coverC4 c i a0 h0 a1 h1 a2 h2 a3 h3 a4 h4 a5 h5 a6 h6 hc0 hc1 x0 x1 x2 x3 xs0 xs1)]
  unfold kernelRun_C
  dsimp only
  try sl_unfold_words
  rw [View.canon_unit_zero hz, View.readCov_unit_zero (S := S1x1) _ hz, View.readCov_unit_zero (S := S1x1) _ hz]
  simp only [View.readAt_eq_ld, h0.read_unread, h1.read_unread, h2.read_unread, h3.read_unread, h5.read_unread, h6.read_unread, View.ld_unit_zero (S := S5000x100) hz, View.ld_unit_zero (S := S1x1) hz]

end Pieces

/-! ## The payloads' arithmetic: each accumulator store adds the block's partial sum onto the accumulator -/

section Arith

variable {F : FTy → Type} [FloatOps F]

/-- The first partial sum of a block pair: over the 5000 rows, the sum of the logarithms of (the logistic of the row's
    inner product, plus 1e-15), as the body computes it before adding it onto the first accumulator. -/
noncomputable def posVec (v3 v5 : Vec F S5000x100 .f32) : FVec F S1x1 .f32 :=
  have v4 : FVec F S5000x100 .f32 := shapeCast S5000x100 v3 shapeCasts_S5000x100_S5000x100
  have v6 : FVec F S5000x100 .f32 := shapeCast S5000x100 v5 shapeCasts_S5000x100_S5000x100
  have v7 : FVec F S5000x100 .f32 := mulf v4 v6
  have v8 : FVec F S5000 .f32 := multiReduction .add [1] S5000 v7 0x00000000#32 reduces_S5000x100_S5000 (.inl rfl) rfl
  have v9 : FVec F S5000x1 .f32 := shapeCast S5000x1 v8 shapeCasts_S5000_S5000x1
  have v17 : FVec F S5000x1 .f32 := logistic v9
  have cst_9 : F .f32 := Scalar.ofBits .f32 0x26901D7D#32
  have v18 : FVec F S5000x1 .f32 := broadcast S5000x1 cst_9
  have v19 : FVec F S5000x1 .f32 := addf v17 v18
  have v20 : FVec F S5000x1 .f32 := log v19
  have v27 : FVec F S1 .f32 := multiReduction .add [0] S1 v20 0x00000000#32 reduces_S5000x1_S1 (.inl rfl) rfl
  have v28 : FVec F S1x1 .f32 := shapeCast S1x1 v27 shapeCasts_S1_S1x1
  v28

/-- The second partial sum of a block pair is the second payload as it stands. -/
abbrev negVec (v10 v12 : Vec F S5000x100 .f32) : FVec F S1x1 .f32 := k3_pay5 v10 v12

theorem pay6_eq (x0 x1 : Vec F S5000x100 .f32) (acc : Vec F S1x1 .f32) : k3_pay6 x0 x1 acc = addf acc (posVec x0 x1) := by
  unfold k3_pay6 posVec; exact shapeCast_self _ _
theorem pay1_eq (v : FVec F S1x1 .f32) (acc : Vec F S1x1 .f32) : k3_pay1 v acc = addf acc v := by
  unfold k3_pay1; exact shapeCast_self _ _
theorem pay3_eq : (k3_pay3 : FVec F S1x1 .f32) = broadcast S1x1 (Scalar.ofBits .f32 0x00000000#32) := by
  unfold k3_pay3; exact shapeCast_self _ _
theorem pay4_eq : (k3_pay4 : FVec F S1x1 .f32) = broadcast S1x1 (Scalar.ofBits .f32 0x00000000#32) := by
  unfold k3_pay4; exact shapeCast_self _ _

variable (V : (c : Dev nD) → (b : Ref sig .tc) → Buf (Elt F) ((c : Thread nD τ).loc b))

/-! The three cases' results at a point, component by component. -/
theorem resA_s0 (c : Dev nD) (t : Fin cfg3.N) (h : t.val = 0) :
    (resA V c t h).2.1 = k3_pay6 (iblk V c 0 t) (iblk V c 1 t) k3_pay3 :=
  pieceA0 c (grid3.coords t) (ms0 t) (hs0 t) (ms1 t) (hs1 t) (ms2 t) (hs2 t) (ms3 t) (hs3 t) (ms4 t) (hs4 t) scM0 (Memref.isWhole_whole _) scM1 (Memref.isWhole_whole _) (hA0 t h) (hA1 t h) (iblk V c 0 t) (iblk V c 1 t) (iblk V c 2 t) (iblk V c 3 t)
theorem resA_s1 (c : Dev nD) (t : Fin cfg3.N) (h : t.val = 0) :
    (resA V c t h).2.2 = k3_pay1 (k3_pay5 (iblk V c 2 t) (iblk V c 3 t)) k3_pay4 :=
  pieceA1 c (grid3.coords t) (ms0 t) (hs0 t) (ms1 t) (hs1 t) (ms2 t) (hs2 t) (ms3 t) (hs3 t) (ms4 t) (hs4 t) scM0 (Memref.isWhole_whole _) scM1 (Memref.isWhole_whole _) (hA0 t h) (hA1 t h) (iblk V c 0 t) (iblk V c 1 t) (iblk V c 2 t) (iblk V c 3 t)
theorem resB_s0 (c : Dev nD) (t : Fin cfg3.N) (h0 : t.val ≠ 0) (h1 : t.val ≠ 79) (xs0 xs1 : Vec F S1x1 .f32) :
    (resB V c t h0 h1 xs0 xs1).2.1 = k3_pay6 (iblk V c 0 t) (iblk V c 1 t) xs0 :=
  pieceB0 c (grid3.coords t) (ms0 t) (hs0 t) (ms1 t) (hs1 t) (ms2 t) (hs2 t) (ms3 t) (hs3 t) (ms4 t) (hs4 t) scM0 (Memref.isWhole_whole _) scM1 (Memref.isWhole_whole _) (hB0 t h0) (hB1 t h1) (iblk V c 0 t) (iblk V c 1 t) (iblk V c 2 t) (iblk V c 3 t) xs0 xs1
theorem resB_s1 (c : Dev nD) (t : Fin cfg3.N) (h0 : t.val ≠ 0) (h1 : t.val ≠ 79) (xs0 xs1 : Vec F S1x1 .f32) :
    (resB V c t h0 h1 xs0 xs1).2.2 = k3_pay1 (k3_pay5 (iblk V c 2 t) (iblk V c 3 t)) xs1 :=
  pieceB1 c (grid3.coords t) (ms0 t) (hs0 t) (ms1 t) (hs1 t) (ms2 t) (hs2 t) (ms3 t) (hs3 t) (ms4 t) (hs4 t) scM0 (Memref.isWhole_whole _) scM1 (Memref.isWhole_whole _) (hB0 t h0) (hB1 t h1) (iblk V c 0 t) (iblk V c 1 t) (iblk V c 2 t) (iblk V c 3 t) xs0 xs1
theorem resC_s0 (c : Dev nD) (t : Fin cfg3.N) (h : t.val = 79) (xs0 xs1 : Vec F S1x1 .f32) :
    (resC V c t h xs0 xs1).2.1 = k3_pay6 (iblk V c 0 t) (iblk V c 1 t) xs0 :=
  pieceC0 c (grid3.coords t) (ms0 t) (hs0 t) (ms1 t) (hs1 t) (ms2 t) (hs2 t) (ms3 t) (hs3 t) (ms4 t) (hs4 t) scM0 (Memref.isWhole_whole _) scM1 (Memref.isWhole_whole _) (hC0 t h) (hC1 t h) (iblk V c 0 t) (iblk V c 1 t) (iblk V c 2 t) (iblk V c 3 t) xs0 xs1
theorem resC_s1 (c : Dev nD) (t : Fin cfg3.N) (h : t.val = 79) (xs0 xs1 : Vec F S1x1 .f32) :
    (resC V c t h xs0 xs1).2.2 = k3_pay1 (k3_pay5 (iblk V c 2 t) (iblk V c 3 t)) xs1 :=
  pieceC1 c (grid3.coords t) (ms0 t) (hs0 t) (ms1 t) (hs1 t) (ms2 t) (hs2 t) (ms3 t) (hs3 t) (ms4 t) (hs4 t) scM0 (Memref.isWhole_whole _) scM1 (Memref.isWhole_whole _) (hC0 t h) (hC1 t h) (iblk V c 0 t) (iblk V c 1 t) (iblk V c 2 t) (iblk V c 3 t) xs0 xs1
theorem resC_out (c : Dev nD) (t : Fin cfg3.N) (h : t.val = 79) (xs0 xs1 : Vec F S1x1 .f32) :
    (resC V c t h xs0 xs1).1 = k3_pay2 (k3_pay6 (iblk V c 0 t) (iblk V c 1 t) xs0) (k3_pay1 (k3_pay5 (iblk V c 2 t) (iblk V c 3 t)) xs1) :=
  pieceC4 c (grid3.coords t) (ms0 t) (hs0 t) (ms1 t) (hs1 t) (ms2 t) (hs2 t) (ms3 t) (hs3 t) (ms4 t) (hs4 t) scM0 (Memref.isWhole_whole _) scM1 (Memref.isWhole_whole _) (hC0 t h) (hC1 t h) (iblk V c 0 t) (iblk V c 1 t) (iblk V c 2 t) (iblk V c 3 t) xs0 xs1

end Arith

/-! ## The accumulation at the ideal values: after point `n` each accumulator holds the sum of the partial sums of points `0 … n` -/

section AtIdeal

variable (V : (c : Dev nD) → (b : Ref sig .tc) → Buf (Elt Ideal) ((c : Thread nD τ).loc b))

/-- The first partial sum of point `k` (zero past the grid), as a 1×1 vector. -/
def posAt (c : Dev nD) (k : ℕ) : FVec Ideal S1x1 .f32 :=
  if h : k < cfg3.N then posVec (iblk V c 0 ⟨k, h⟩) (iblk V c 1 ⟨k, h⟩) else fun _ => 0
/-- The second partial sum of point `k`. -/
def negAt (c : Dev nD) (k : ℕ) : FVec Ideal S1x1 .f32 :=
  if h : k < cfg3.N then negVec (iblk V c 2 ⟨k, h⟩) (iblk V c 3 ⟨k, h⟩) else fun _ => 0

theorem posAt_lt (c : Dev nD) (k : ℕ) (h : k < cfg3.N) : posAt V c k = posVec (iblk V c 0 ⟨k, h⟩) (iblk V c 1 ⟨k, h⟩) := dif_pos h
theorem negAt_lt (c : Dev nD) (k : ℕ) (h : k < cfg3.N) : negAt V c k = negVec (iblk V c 2 ⟨k, h⟩) (iblk V c 3 ⟨k, h⟩) := dif_pos h

theorem pay6_apply (x0 x1 : Vec Ideal S5000x100 .f32) (acc : Vec Ideal S1x1 .f32) (j : S1x1.Idx) :
    k3_pay6 x0 x1 acc j = acc j + posVec x0 x1 j := congrFun (pay6_eq x0 x1 acc) j
theorem pay1_apply (v : FVec Ideal S1x1 .f32) (acc : Vec Ideal S1x1 .f32) (j : S1x1.Idx) :
    k3_pay1 v acc j = acc j + v j := congrFun (pay1_eq v acc) j
theorem pay3_apply (j : S1x1.Idx) : (k3_pay3 (F := Ideal)) j = 0 :=
  (congrFun (pay3_eq (F := Ideal)) j).trans Ideal.ofBits_zero_f32
theorem pay4_apply (j : S1x1.Idx) : (k3_pay4 (F := Ideal)) j = 0 :=
  (congrFun (pay4_eq (F := Ideal)) j).trans Ideal.ofBits_zero_f32

/-- After point `n` the accumulators hold the sums of the partial sums of points `0 … n`: by induction on the point
    (addition of extended reals from the left, in the grid's order; no finiteness is used). -/
theorem acc_eq (c : Dev nD) : ∀ (n : ℕ) (hn : n < cfg3.N),
    (accAt V c n hn).2.1 = (fun j => ∑ k ∈ Finset.range (n + 1), posAt V c k j)
      ∧ (accAt V c n hn).2.2 = (fun j => ∑ k ∈ Finset.range (n + 1), negAt V c k j)
  | 0, hn => by
    have e : accAt V c 0 hn = resA V c ⟨0, hn⟩ rfl := rfl
    rw [e, resA_s0, resA_s1]
    refine ⟨funext fun j => ?_, funext fun j => ?_⟩
    · rw [Finset.sum_range_one, pay6_apply, pay3_apply, zero_add, posAt_lt V c 0 hn]
    · rw [Finset.sum_range_one, pay1_apply, pay4_apply, zero_add, negAt_lt V c 0 hn]
  | n + 1, hn => by
    obtain ⟨ih0, ih1⟩ := acc_eq c n (Nat.lt_of_succ_lt hn)
    by_cases h1 : n + 1 = 79
    · have e : accAt V c (n + 1) hn = resC V c ⟨n + 1, hn⟩ h1 (accAt V c n (Nat.lt_of_succ_lt hn)).2.1 (accAt V c n (Nat.lt_of_succ_lt hn)).2.2 :=
        accAt_C V c ⟨n + 1, hn⟩ h1
      rw [e, resC_s0, resC_s1, ih0, ih1]
      refine ⟨funext fun j => ?_, funext fun j => ?_⟩
      · rw [Finset.sum_range_succ _ (n + 1), pay6_apply, posAt_lt V c (n + 1) hn]
      · rw [Finset.sum_range_succ _ (n + 1), pay1_apply, negAt_lt V c (n + 1) hn]
    · have e : accAt V c (n + 1) hn = resB V c ⟨n + 1, hn⟩ (Nat.succ_ne_zero n) h1 (accAt V c n (Nat.lt_of_succ_lt hn)).2.1 (accAt V c n (Nat.lt_of_succ_lt hn)).2.2 :=
        accAt_B V c ⟨n + 1, hn⟩ (Nat.succ_ne_zero n) h1
      rw [e, resB_s0, resB_s1, ih0, ih1]
      refine ⟨funext fun j => ?_, funext fun j => ?_⟩
      · rw [Finset.sum_range_succ _ (n + 1), pay6_apply, posAt_lt V c (n + 1) hn]
      · rw [Finset.sum_range_succ _ (n + 1), pay1_apply, negAt_lt V c (n + 1) hn]

theorem lt79 : 79 < cfg3.N := lt_of_lt_of_eq (by decide : 79 < 80) (show cfg3.N = 80 from N_3).symm

/-- The one index of a 1×1 block. -/
abbrev j00 : S1x1.Idx := ix2 (0 : Fin 1) (0 : Fin 1)
theorem idx_eq (j : S1x1.Idx) : j = j00 := by
  rw [eq_ix2 j]; congr 1 <;> exact Subsingleton.elim (α := Fin 1) _ _

/-- Point `t`'s two partial sums, as extended reals. -/
def posSum (c : Dev nD) (t : Fin 80) : EReal := posAt V c t.val j00
def negSum (c : Dev nD) (t : Fin 80) : EReal := negAt V c t.val j00

/-- The last point combines the two accumulators, as it leaves them, into the output block. -/
theorem out_eq_of (c : Dev nD) (t : Fin cfg3.N) (h : t.val = 79) :
    (accAt V c t.val t.isLt).1 = k3_pay2 (accAt V c t.val t.isLt).2.1 (accAt V c t.val t.isLt).2.2 := by
  rw [accAt_C V c t h]
  exact (resC_out V c t h _ _).trans (congr (congrArg k3_pay2 (resC_s0 V c t h _ _).symm) (resC_s1 V c t h _ _).symm)

/-- THE LOSS VALUE: zero minus the total of all the points' partial sums, divided by 400000. -/
def lossVal (c : Dev nD) : EReal :=
  Ideal.div (0 - ((∑ t : Fin 80, posSum V c t) + (∑ t : Fin 80, negSum V c t))) (Ideal.ofBits .f32 0x48C35000#32)

/-- WHAT THE LAST POINT LEAVES IN THE OUTPUT BLOCK: the loss value. (Stated at a position `n` known to be 79, not at
    the numeral: the accumulation is a recursion on the position.) -/
theorem out_last (c : Dev nD) (n : ℕ) (hn : n < cfg3.N) (h : n = 79) :
    (accAt V c n hn).1 = fun _ => lossVal V c := by
  refine (out_eq_of V c ⟨n, hn⟩ h).trans ?_
  show k3_pay2 (accAt V c n hn).2.1 (accAt V c n hn).2.2 = _
  rw [(acc_eq V c n hn).1, (acc_eq V c n hn).2]
  subst h
  funext j
  show Ideal.div (Ideal.ofBits .f32 0x00000000#32 - ((∑ k ∈ Finset.range 80, posAt V c k j) + (∑ k ∈ Finset.range 80, negAt V c k j))) (Ideal.ofBits .f32 0x48C35000#32) = _
  rw [Ideal.ofBits_zero_f32, idx_eq j]
  unfold lossVal posSum negSum
  rw [Fin.sum_univ_eq_sum_range (fun k => posAt V c k j00) 80, Fin.sum_univ_eq_sum_range (fun k => negAt V c k j00) 80]

theorem out_last_of (c : Dev nD) (t : Fin cfg3.N) (h : t.val = 79) :
    (accAt V c t.val t.isLt).1 = fun _ => lossVal V c := out_last V c t.val t.isLt h

/-! ## The output array after the region -/

/-- The output array after the region: its one element at the loss value. -/
abbrev result (c : Dev nD) : Buf (Elt Ideal) ((c : Thread nD τ).loc main_v109) := fun _ => lossVal V c

/-- The last point. -/
abbrev t79 : Fin cfg3.N := ⟨79, lt79⟩

/-- The one write-back, at the last point, writes the loss value. -/
theorem flushed_eq (c : Dev nD) (t : Fin cfg3.N) (hf : (cfg3.win 4).flush t = true) :
    (dat3 V c).flushed 4 t = ((cfg3.win 4).blk t).view.read (Elt Ideal) (result V c) := by
  have hN : cfg3.N = 80 := N_3
  have h79 : t.val = 79 := by have := (flush3_4 t).mp hf; have := t.isLt; omega
  show (cfg3.win 4).cut (grid3.coords t) ((dat3 V c).after 4 t) = _
  rw [after4, out_last_of V c t h79]
  funext x
  rw [View.read_apply]
  exact (cast_eq _ _).symm

/-- So the output array ends holding the loss value: the last point's block is the whole 1×1 array. -/
theorem arr_last (c : Dev nD) : (dat3 V c).arrAt 4 cfg3.N = result V c :=
  (dat3 V c).arrAt_eq_of_cover 4 (result V c) (flushed_eq V c) fun i =>
    ⟨t79, (flush3_4 t79).mpr rfl, by
      show i ∈ ((View.whole main_v109).slice (win3_4.rect t79)).set
      rw [View.set_slice_whole, Rect.mem_set_unit]
      intro a
      have h0 : (i 0 : Nat) < 1 := (i 0).isLt
      have h1 : (i 1 : Nat) < 1 := (i 1).isLt
      match a with
      | ⟨0, _⟩ =>
        show win3_4.index t79 0 * win3_4.size 0 ≤ (i 0 : Nat) ∧ (i 0 : Nat) < win3_4.index t79 0 * win3_4.size 0 + win3_4.xsize (grid3.coords t79) 0
        rw [show win3_4.index t79 0 * win3_4.size 0 = 0 from by decide +kernel, show win3_4.xsize (grid3.coords t79) 0 = 1 from by decide +kernel]; omega
      | ⟨1, _⟩ =>
        show win3_4.index t79 1 * win3_4.size 1 ≤ (i 1 : Nat) ∧ (i 1 : Nat) < win3_4.index t79 1 * win3_4.size 1 + win3_4.xsize (grid3.coords t79) 1
        rw [show win3_4.index t79 1 * win3_4.size 1 = 0 from by decide +kernel, show win3_4.xsize (grid3.coords t79) 1 = 1 from by decide +kernel]; omega⟩

end AtIdeal

end Cert.KernelIdeal.Reg3Value

end
-- ==== Proof.KI.BridgeLoss.lean ====
/-
  The second result of the idealized kernel program, read back: the host stretch before region 3 gathers the rows of
  `z` at the two rows of the positive and of the negative pair tables; region 3 leaves the loss of those four arrays
  in its 1×1 output; the last host stretch re-lays it as a scalar.
-/
import proofs.«176792_j62921270886524_2_alg».proof.Proof.KI.Run
import proofs.«176792_j62921270886524_2_alg».proof.Proof.KI.Spec
import proofs.«176792_j62921270886524_2_alg».proof.Proof.KI.Reg3Value
import proofs.«176792_j62921270886524_2_alg».proof.Proof.KI.BridgeOut
import Idealize.ShloMosaic.Lib.StableHlo.Run
import Idealize.ShloMosaic.PureOps.Ideal

set_option maxRecDepth 16384

noncomputable section

namespace Cert.KernelIdeal.BridgeLoss

open Cert.KernelIdeal Cert.KernelIdeal.Gen Cert.KernelIdeal.Run
open Idealize.ShloMosaic Idealize.ShloMosaic.TcCoe Idealize.ShloMosaic.Tactic Idealize.ShloMosaic.StableHlo
open Idealize.SL.Sem

/-! ## The host stretch before region 3, at any entry contents -/

section Steps
variable (V : Valuation τ sig (Elt Ideal))

set_option maxHeartbeats 8000000 in
theorem step3_v81 : StableHlo.after (hostOps3 (F := Ideal)) V (Proc.devRef .tc main_v81)
    = Spec.gz (V (Proc.devRef .tc main_v72_1)) (Spec.prow0 (V (Proc.devRef .tc main_arg2))) := by
  after_results_simp <;> rfl
set_option maxHeartbeats 8000000 in
theorem step3_v90 : StableHlo.after (hostOps3 (F := Ideal)) V (Proc.devRef .tc main_v90)
    = Spec.gz (V (Proc.devRef .tc main_v72_1)) (Spec.prow1 (V (Proc.devRef .tc main_arg2))) := by
  after_results_simp <;> rfl
set_option maxHeartbeats 8000000 in
theorem step3_v99 : StableHlo.after (hostOps3 (F := Ideal)) V (Proc.devRef .tc main_v99)
    = Spec.gz (V (Proc.devRef .tc main_v72_1)) (Spec.prow0 (V (Proc.devRef .tc main_arg3))) := by
  after_results_simp <;> rfl
set_option maxHeartbeats 8000000 in
theorem step3_v108 : StableHlo.after (hostOps3 (F := Ideal)) V (Proc.devRef .tc main_v108)
    = Spec.gz (V (Proc.devRef .tc main_v72_1)) (Spec.prow1 (V (Proc.devRef .tc main_arg3))) := by
  after_results_simp <;> rfl

/-- The last host stretch re-lays the 1×1 loss as a scalar. -/
theorem step4_v110 : StableHlo.after (hostOps4 (F := Ideal)) V (Proc.devRef .tc main_v110)
    = shapeCast S_ (V (Proc.devRef .tc main_v109)) shapeCasts_S1x1_S_ := by
  after_results_simp <;> rfl
end Steps

/-! ## The second result is the reference's loss of the arguments -/

section Join

/-! The two programs' row and gather pieces are the same functions (one definition deep). -/
theorem prow0_eq (a : (⟨S2x400000, .i32⟩ : BufTy).Contents (Elt Ideal)) : Spec.prow0 (F := Ideal) a = Cert.ReferenceIdeal.Spec.prow0 a := rfl
theorem prow1_eq (a : (⟨S2x400000, .i32⟩ : BufTy).Contents (Elt Ideal)) : Spec.prow1 (F := Ideal) a = Cert.ReferenceIdeal.Spec.prow1 a := rfl
theorem gz_eq (z : (⟨S50000x100, .f32⟩ : BufTy).Contents (Elt Ideal)) (v : (⟨S400000, .i32⟩ : BufTy).Contents (Elt Ideal)) :
    Spec.gz (F := Ideal) z v = Cert.ReferenceIdeal.Spec.gz z v := rfl

variable (m : (ℓ : Loc nD τ sig) → Buf (Elt Ideal) ℓ) (ρ : Dev nD → PrngReg)

/-! The two pair tables reach the stretch before region 3 as launched. -/
theorem pass_arg2_0_8 (c : Dev nD) :
    W8 m ρ c (Proc.devRef .tc main_arg2) = W0 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)

theorem pass_arg3_0_8 (c : Dev nD) :
    W8 m ρ c (Proc.devRef .tc main_arg3) = W0 m ρ c (Proc.devRef .tc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)

theorem W8_arg2 (c : Dev nD) : W8 m ρ c (Proc.devRef .tc main_arg2) = (m ((c : Thread nD τ).loc main_arg2)) := (pass_arg2_0_8 m ρ c).trans rfl
theorem W8_arg3 (c : Dev nD) : W8 m ρ c (Proc.devRef .tc main_arg3) = (m ((c : Thread nD τ).loc main_arg3)) := (pass_arg3_0_8 m ρ c).trans rfl

/-! The four arrays region 3 reads: the rows of the reference's `z` at the two rows of each pair table. -/
theorem W9_v81 (c : Dev nD) : W9 m ρ c (Proc.devRef .tc main_v81) = Cert.ReferenceIdeal.Spec.gz (Cert.ReferenceIdeal.Spec.zz (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13))) (Cert.ReferenceIdeal.Spec.prow0 (m ((c : Thread nD τ).loc main_arg2))) := by
  have h : W9 m ρ c (Proc.devRef .tc main_v81) = _ := step3_v81 (W8 m ρ c)
  rw [h, BridgeOut.keyZ, W8_arg2, gz_eq, prow0_eq]
theorem W9_v90 (c : Dev nD) : W9 m ρ c (Proc.devRef .tc main_v90) = Cert.ReferenceIdeal.Spec.gz (Cert.ReferenceIdeal.Spec.zz (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13))) (Cert.ReferenceIdeal.Spec.prow1 (m ((c : Thread nD τ).loc main_arg2))) := by
  have h : W9 m ρ c (Proc.devRef .tc main_v90) = _ := step3_v90 (W8 m ρ c)
  rw [h, BridgeOut.keyZ, W8_arg2, gz_eq, prow1_eq]
theorem W9_v99 (c : Dev nD) : W9 m ρ c (Proc.devRef .tc main_v99) = Cert.ReferenceIdeal.Spec.gz (Cert.ReferenceIdeal.Spec.zz (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13))) (Cert.ReferenceIdeal.Spec.prow0 (m ((c : Thread nD τ).loc main_arg3))) := by
  have h : W9 m ρ c (Proc.devRef .tc main_v99) = _ := step3_v99 (W8 m ρ c)
  rw [h, BridgeOut.keyZ, W8_arg3, gz_eq, prow0_eq]
theorem W9_v108 (c : Dev nD) : W9 m ρ c (Proc.devRef .tc main_v108) = Cert.ReferenceIdeal.Spec.gz (Cert.ReferenceIdeal.Spec.zz (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13))) (Cert.ReferenceIdeal.Spec.prow1 (m ((c : Thread nD τ).loc main_arg3))) := by
  have h : W9 m ρ c (Proc.devRef .tc main_v108) = _ := step3_v108 (W8 m ρ c)
  rw [h, BridgeOut.keyZ, W8_arg3, gz_eq, prow1_eq]

/-- THE SECOND RESULT of the kernel program is the reference's loss of the arguments, given that region 3's loss
    value is the reference's two loss terms of the four arrays the region reads. -/
theorem key1_of
    (hjoin : ∀ (V : (c : Dev nD) → (b : Ref sig .tc) → Buf (Elt Ideal) ((c : Thread nD τ).loc b)) (c : Dev nD),
      Reg3Value.lossVal V c = addf (Cert.ReferenceIdeal.Spec.lossPos (F := Ideal) (V c main_v81) (V c main_v90))
        (Cert.ReferenceIdeal.Spec.lossNeg (F := Ideal) (V c main_v99) (V c main_v108)) ValueIdx.ix0)
    (c : Dev nD) :
    W12 m ρ c (Proc.devRef .tc main_v110) = Cert.ReferenceIdeal.Spec.lossAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) := by
  have h12 : W12 m ρ c (Proc.devRef .tc main_v110) = W11 m ρ c (Proc.devRef .tc main_v110) := W12_of_ne m ρ c main_v110 (by decide)
  have h11 : W11 m ρ c (Proc.devRef .tc main_v110) = _ := step4_v110 (W10 m ρ c)
  have h10 : W10 m ρ c (Proc.devRef .tc main_v109) = Reg3Value.result (V9 m ρ) c :=
    (W10_arr m ρ c 4).trans (Reg3Value.arr_last (V9 m ρ) c)
  rw [h12, h11, h10]
  funext j
  show Reg3Value.lossVal (V9 m ρ) c = _
  rw [hjoin (V9 m ρ) c, ValueIdx.eq_ix0 j,
    show V9 m ρ c main_v81 = _ from W9_v81 m ρ c, show V9 m ρ c main_v90 = _ from W9_v90 m ρ c,
    show V9 m ρ c main_v99 = _ from W9_v99 m ρ c, show V9 m ρ c main_v108 = _ from W9_v108 m ρ c]
  rfl

end Join

end Cert.KernelIdeal.BridgeLoss

end
-- ==== Proof.LibLoss.lean ====
/-
  EXTENDED-REAL FACTS FOR A LOG-SIGMOID LOSS.

  The logistic function of any extended real (an infinity included) is a real number between 0 and 1, so the
  logarithm of `σ(x) + ε` and of `1 - σ(x) + ε` for a real `ε > 0` is a real number, and so is any finite sum of such
  terms. Over real numbers the two ways of writing a mean loss agree: `(0 - (a + b)) / n = -(a / n) + -(b / n)` for a
  real `n ≠ 0` (over the extended reals negation does not distribute over a sum of opposite infinities, which is why
  the summands are first shown to be real).
-/
import Idealize.ShloMosaic.PureOps.Ideal

noncomputable section

open scoped BigOperators

namespace Cert.Lib

open Idealize.ShloMosaic

/-- An extended real that is a real number. -/
def IsRealE (x : EReal) : Prop := ∃ r : ℝ, x = (r : EReal)

theorem IsRealE.add {x y : EReal} (hx : IsRealE x) (hy : IsRealE y) : IsRealE (x + y) := by
  obtain ⟨a, rfl⟩ := hx; obtain ⟨b, rfl⟩ := hy; exact ⟨a + b, (EReal.coe_add a b).symm⟩

theorem IsRealE.zero : IsRealE (0 : EReal) := ⟨0, EReal.coe_zero.symm⟩

theorem IsRealE.sum {ι : Type*} (s : Finset ι) (f : ι → EReal) (h : ∀ i ∈ s, IsRealE (f i)) : IsRealE (∑ i ∈ s, f i) := by
  classical
  induction s using Finset.induction_on with
  | empty => simpa using IsRealE.zero
  | insert a s ha ih =>
    rw [Finset.sum_insert ha]
    exact (h a (Finset.mem_insert_self a s)).add (ih fun i hi => h i (Finset.mem_insert_of_mem hi))

/-- The logistic function of any extended real is a real number in [0, 1]. -/
theorem logistic_mem (x : EReal) : ∃ s : ℝ, 0 ≤ s ∧ s ≤ 1 ∧ Ideal.logistic x = (s : EReal) := by
  induction x using EReal.rec with
  | bot => exact ⟨0, le_refl _, zero_le_one, by rw [Ideal.logistic_bot]; rfl⟩
  | top => exact ⟨1, zero_le_one, le_refl _, by rw [Ideal.logistic_top]; rfl⟩
  | coe r =>
    have hpos : (0 : ℝ) < 1 + Real.exp (-r) := by positivity
    refine ⟨(1 + Real.exp (-r))⁻¹, le_of_lt (inv_pos.mpr hpos), ?_, Ideal.logistic_coe r⟩
    exact inv_le_one_of_one_le₀ (by linarith [Real.exp_pos (-r)])

/-- The logarithm of a positive real is a real. -/
theorem log_coe_pos {y : ℝ} (hy : 0 < y) : Ideal.log (y : EReal) = (Real.log y : EReal) := by
  rw [Ideal.log_coe, if_neg (not_le.mpr hy)]

/-- `log (σ(x) + ε)` is a real number, for a real `ε > 0`. -/
theorem log_logistic_add_real (x : EReal) {ε : ℝ} (hε : 0 < ε) : IsRealE (Ideal.log (Ideal.logistic x + (ε : EReal))) := by
  obtain ⟨s, h0, _, hs⟩ := logistic_mem x
  rw [hs, ← EReal.coe_add, log_coe_pos (by linarith)]
  exact ⟨_, rfl⟩

/-- `log (1 - σ(x) + ε)` is a real number, for a real `ε > 0`. -/
theorem log_one_sub_logistic_add_real (x : EReal) {ε : ℝ} (hε : 0 < ε) :
    IsRealE (Ideal.log ((1 : EReal) - Ideal.logistic x + (ε : EReal))) := by
  obtain ⟨s, _, h1, hs⟩ := logistic_mem x
  rw [hs, ← EReal.coe_one, ← EReal.coe_sub, ← EReal.coe_add, log_coe_pos (by linarith)]
  exact ⟨_, rfl⟩

/-- Over real numbers the two spellings of the mean loss agree. -/
theorem neg_sum_div_eq {a b : EReal} (ha : IsRealE a) (hb : IsRealE b) {n : ℝ} (hn : n ≠ 0) :
    Ideal.div (0 - (a + b)) (n : EReal) = -(Ideal.div a (n : EReal)) + -(Ideal.div b (n : EReal)) := by
  obtain ⟨x, rfl⟩ := ha; obtain ⟨y, rfl⟩ := hb
  rw [Ideal.div_coe hn, Ideal.div_coe hn, Ideal.div_coe hn]
  rw [← EReal.coe_add, ← EReal.coe_zero, ← EReal.coe_sub, ← EReal.coe_mul, ← EReal.coe_mul, ← EReal.coe_mul,
    ← EReal.coe_neg, ← EReal.coe_neg, ← EReal.coe_add]
  congr 1
  ring

/-- The float word `1.0` denotes 1. -/
theorem ofBits_one : Ideal.ofBits .f32 0x3F800000#32 = 1 := by
  simp [Ideal.ofBits, Ideal.ieee, -EReal.coe_mul]; norm_num

/-- The float word `0.0` denotes 0. -/
theorem ofBits_zero : Ideal.ofBits .f32 0x00000000#32 = 0 := by
  simp [Ideal.ofBits, Ideal.ieee]

/-- The float word `4.0e5` denotes the real 400000. -/
theorem ofBits_400000 : Ideal.ofBits .f32 0x48C35000#32 = ((400000 : ℝ) : EReal) := by
  simp [Ideal.ofBits, Ideal.ieee, -EReal.coe_mul]; norm_num

/-- The float word nearest `1e-15` denotes a positive real. -/
theorem ofBits_eps_pos : ∃ ε : ℝ, 0 < ε ∧ Ideal.ofBits .f32 0x26901D7D#32 = (ε : EReal) := by
  refine ⟨_, ?_, by simp [Ideal.ofBits, Ideal.ieee, -EReal.coe_mul]; rfl⟩
  norm_num

end Cert.Lib

end
-- ==== Proof.KI.LossBridge.lean ====
/-
  THE LOSS BRIDGE. Region 3 leaves in the output array zero minus the total, over the 80 tiles of 5000 pairs, of the
  tiles' two partial sums, divided by 400000. The reference computes minus the mean of the positive terms plus minus the
  mean of the negative terms over all 400000 pairs. Stated here: both sides' terms as functions of a pair's score (the
  inner product of two rows of 100), the kernel's lane and row sums and the reference's host sums read as finite sums,
  the regrouping of 400000 rows into 80 tiles, and the equality of the two spellings, which holds because every term
  is a real number (negation does not distribute over sums of opposite infinities).
-/
import proofs.«176792_j62921270886524_2_alg».proof.Proof.KI.Reg3Value
import proofs.«176792_j62921270886524_2_alg».proof.Proof.LibRowReads
import proofs.«176792_j62921270886524_2_alg».proof.Proof.RefSpec
import proofs.«176792_j62921270886524_2_alg».proof.Proof.LibLoss
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.LossBridge

open Idealize.ShloMosaic Idealize.ShloMosaic.ValueIdx Idealize.ShloMosaic.TcCoe

/-! ## Indices: the source index of a one-axis reduction, spelled by coordinates -/

theorem lift_row {m n : ℕ} (h : (⟨2, ![m, n]⟩ : Shape).Reduces [1] ⟨1, ![m]⟩) (r : Fin m) (k : Fin n) :
    h.lift (ix1 r) k = ix2 r k := by
  funext c; apply Fin.ext
  show h.liftVal (ix1 r) k.val c = (ix2 r k c).val
  unfold Shape.Reduces.liftVal
  match c with
  | ⟨0, _⟩ => simp
  | ⟨1, _⟩ => simp

theorem lift_col {m : ℕ} (h : (⟨2, ![m, 1]⟩ : Shape).Reduces [0] ⟨1, ![1]⟩) (j : Fin 1) (r : Fin m) :
    h.lift (ix1 j) r = ix2 r j := by
  funext c; apply Fin.ext
  show h.liftVal (ix1 j) r.val c = (ix2 r j c).val
  unfold Shape.Reduces.liftVal
  match c with
  | ⟨0, _⟩ => simp
  | ⟨1, _⟩ => simp

/-- A rank-1 index set is its coordinate's. -/
def idxEquiv1 {n : ℕ} : (⟨1, ![n]⟩ : Shape).Idx ≃ Fin n where
  toFun j := j 0
  invFun := ix1
  left_inv j := (eq_ix1 j).symm
  right_inv _ := rfl

theorem sum_idx1 {n : ℕ} (f : (⟨1, ![n]⟩ : Shape).Idx → EReal) : ∑ j, f j = ∑ i : Fin n, f (ix1 i) :=
  (Equiv.sum_comp (idxEquiv1 (n := n)).symm f).symm

/-! ## The two summands, as functions of a score -/

/-- The float word nearest 1e-15, at the ideal values. -/
abbrev eps : EReal := Ideal.ofBits .f32 0x26901D7D#32
/-- A positive pair's term: the logarithm of the logistic of the score, plus ε. -/
def fpos (s : EReal) : EReal := Ideal.log (Ideal.logistic s + eps)
/-- A negative pair's term: the logarithm of one minus the logistic of the score, plus ε. -/
def fneg (s : EReal) : EReal := Ideal.log ((1 : EReal) - Ideal.logistic s + eps)
/-- The score of row `i`: the inner product of the two rows. -/
def dot {m : ℕ} (u v : (⟨2, ![m, 100]⟩ : Shape).Idx → EReal) (i : Fin m) : EReal := ∑ k : Fin 100, u (ix2 i k) * v (ix2 i k)

/-! ## The reference's two losses read at their one index -/

section Ref
open Cert.ReferenceIdeal Cert.ReferenceIdeal.Gen Cert.ReferenceIdeal.Spec

theorem red2 : S400000x100.Reduces [1] S400000 := by decide

/-- The reference's score of pair `i`. -/
theorem score_ref (u v : (⟨S400000x100, .f32⟩ : BufTy).Contents (Elt Ideal)) (i : Fin 400000) :
    (Host.reduceAdd (mulf u v) (constant (F := Ideal) S_ .f32 0x00000000#32) reducesTo_S400000x100_S400000_d1 h_S_ : FVec Ideal S400000 .f32) (ix1 i) = dot u v i := by
  unfold Host.reduceAdd
  rw [Ideal.hostReduceAdd_def, Ideal.hostReduceAdd_single _ red2]
  show Ideal.ofBits .f32 0x00000000#32 + _ = _
  rw [Ideal.ofBits_zero_f32, zero_add]
  refine Finset.sum_congr rfl fun k _ => ?_
  exact congrArg (fun j => u j * v j) (lift_row red2 i k)

end Ref

/-! ## The kernel's two partial sums of a block pair, read at their one index -/

section Kernel
open Cert.KernelIdeal Cert.KernelIdeal.Gen Cert.KernelIdeal.Reg3Value

/-- The first partial sum of a block pair: over its 5000 rows, the positive term of the row's score. -/
theorem posVec_apply (x0 x1 : Vec Ideal S5000x100 .f32) :
    posVec x0 x1 j00 = ∑ r : Fin 5000, fpos (dot x0 x1 r) := by
  unfold posVec
  refine (shapeCast_apply _ shapeCasts_S1_S1x1 j00 (ix1 (0 : Fin 1)) ?_).trans ?_
  · rw [Shape.rowMajor_val_one, Shape.rowMajor_val_two]; rfl
  refine (Ideal.multiReduction_add_single _ _ reduces_S5000x1_S1 _ _ (ix1 0)).trans ?_
  refine Finset.sum_congr rfl fun r _ => ?_
  refine (congrArg _ (lift_col reduces_S5000x1_S1 0 r)).trans ?_
  show Ideal.log (Ideal.logistic (shapeCast S5000x1 _ shapeCasts_S5000_S5000x1 (ix2 r 0)) + eps) = fpos (dot x0 x1 r)
  unfold fpos
  refine congrArg (fun s => Ideal.log (Ideal.logistic s + eps)) ?_
  refine (shapeCast_apply _ shapeCasts_S5000_S5000x1 (ix2 r 0) (ix1 r) ?_).trans ?_
  · rw [Shape.rowMajor_val_one, Shape.rowMajor_val_two]; simp
  refine (Ideal.multiReduction_add_single _ _ reduces_S5000x100_S5000 _ _ (ix1 r)).trans ?_
  refine Finset.sum_congr rfl fun k _ => ?_
  refine (congrArg _ (lift_row reduces_S5000x100_S5000 r k)).trans ?_
  show shapeCast S5000x100 x0 _ (ix2 r k) * shapeCast S5000x100 x1 _ (ix2 r k) = _
  rw [shapeCast_self, shapeCast_self]

end Kernel

section Kernel2
open Cert.KernelIdeal Cert.KernelIdeal.Gen Cert.KernelIdeal.Reg3Value

/-- The second partial sum of a block pair: over its 5000 rows, the negative term of the row's score. -/
theorem negVec_apply (x2 x3 : Vec Ideal S5000x100 .f32) :
    negVec x2 x3 j00 = ∑ r : Fin 5000, fneg (dot x2 x3 r) := by
  unfold negVec k3_pay5
  refine (shapeCast_apply _ shapeCasts_S1_S1x1 j00 (ix1 (0 : Fin 1)) ?_).trans ?_
  · rw [Shape.rowMajor_val_one, Shape.rowMajor_val_two]; rfl
  refine (Ideal.multiReduction_add_single _ _ reduces_S5000x1_S1 _ _ (ix1 0)).trans ?_
  refine Finset.sum_congr rfl fun r _ => ?_
  refine (congrArg _ (lift_col reduces_S5000x1_S1 0 r)).trans ?_
  show Ideal.log (Ideal.ofBits .f32 0x3F800000#32 - Ideal.logistic (shapeCast S5000x1 _ shapeCasts_S5000_S5000x1 (ix2 r 0)) + eps) = fneg (dot x2 x3 r)
  unfold fneg
  rw [Cert.Lib.ofBits_one]
  refine congrArg (fun s => Ideal.log ((1 : EReal) - Ideal.logistic s + eps)) ?_
  refine (shapeCast_apply _ shapeCasts_S5000_S5000x1 (ix2 r 0) (ix1 r) ?_).trans ?_
  · rw [Shape.rowMajor_val_one, Shape.rowMajor_val_two]; simp
  refine (Ideal.multiReduction_add_single _ _ reduces_S5000x100_S5000 _ _ (ix1 r)).trans ?_
  refine Finset.sum_congr rfl fun k _ => ?_
  refine (congrArg _ (lift_row reduces_S5000x100_S5000 r k)).trans ?_
  show shapeCast S5000x100 x2 _ (ix2 r k) * shapeCast S5000x100 x3 _ (ix2 r k) = _
  rw [shapeCast_self, shapeCast_self]

end Kernel2

section Ref2
open Cert.ReferenceIdeal Cert.ReferenceIdeal.Gen Cert.ReferenceIdeal.Spec

/-- A constant broadcast over the 400000 pairs reads the constant's number. -/
theorem bconst_at (w : BitVec 32) (j : S400000.Idx) :
    (broadcastInDim S400000 ![] bcast_S_S400000 (constant (F := Ideal) S_ .f32 w) : FVec Ideal S400000 .f32) j = Ideal.ofBits .f32 w := rfl

/-- The positive term as the reference writes it, over any vector of scores and any vectors holding 1 and ε. -/
theorem term_pos_gen (s one e : FVec Ideal S400000 .f32) (j : S400000.Idx) (h1 : one j = 1) (he : e j = eps) :
    Host.log (addf (Host.divf one (addf one (Host.exp (Host.negf s)))) e) j = fpos (s j) := by
  show Ideal.log (Ideal.div (one j) (one j + Ideal.exp (-(s j))) + e j) = _
  rw [h1, he]; rfl

/-- The negative term likewise. -/
theorem term_neg_gen (s one e : FVec Ideal S400000 .f32) (j : S400000.Idx) (h1 : one j = 1) (he : e j = eps) :
    Host.log (addf (subf one (Host.divf one (addf one (Host.exp (Host.negf s))))) e) j = fneg (s j) := by
  show Ideal.log (one j - Ideal.div (one j) (one j + Ideal.exp (-(s j))) + e j) = _
  rw [h1, he]; rfl

/-- Minus the mean of 400000 terms, as the reference writes it, read at its one index. -/
theorem mean_ref (X : FVec Ideal S400000 .f32) (j : S_.Idx) :
    (Host.negf (Host.divf (Host.reduceAdd X (constant (F := Ideal) S_ .f32 0x00000000#32) reducesTo_S400000_S_d0 h_S_) (constant (F := Ideal) S_ .f32 0x48C35000#32)) : FVec Ideal S_ .f32) j
      = -(Ideal.div (∑ i : Fin 400000, X (ix1 i)) (Ideal.ofBits .f32 0x48C35000#32)) := by
  unfold Host.reduceAdd
  show -(Ideal.div (Ideal.hostReduceAdd reducesTo_S400000_S_d0 X (Ideal.ofBits .f32 0x00000000#32) j) (Ideal.ofBits .f32 0x48C35000#32)) = _
  rw [Ideal.hostReduceAdd_total (t := S_) reducesTo_S400000_S_d0 (fun b => b.elim0), Ideal.ofBits_zero_f32, zero_add, sum_idx1]

/-- The reference's positive loss: minus the mean of the positive terms of the 400000 scores. -/
theorem lossPos_apply (u v : (⟨S400000x100, .f32⟩ : BufTy).Contents (Elt Ideal)) (j : S_.Idx) :
    lossPos u v j = -(Ideal.div (∑ i : Fin 400000, fpos (dot u v i)) (Ideal.ofBits .f32 0x48C35000#32)) := by
  refine (mean_ref _ j).trans ?_
  refine congrArg (fun f : Fin 400000 → EReal => -(Ideal.div (∑ i, f i) (Ideal.ofBits .f32 0x48C35000#32))) (funext fun i => ?_)
  exact (term_pos_gen _ _ _ (ix1 i) ((bconst_at _ _).trans Cert.Lib.ofBits_one) (bconst_at _ _)).trans (congrArg fpos (score_ref u v i))

/-- The reference's negative loss: minus the mean of the negative terms of the 400000 scores. -/
theorem lossNeg_apply (u v : (⟨S400000x100, .f32⟩ : BufTy).Contents (Elt Ideal)) (j : S_.Idx) :
    lossNeg u v j = -(Ideal.div (∑ i : Fin 400000, fneg (dot u v i)) (Ideal.ofBits .f32 0x48C35000#32)) := by
  refine (mean_ref _ j).trans ?_
  refine congrArg (fun f : Fin 400000 → EReal => -(Ideal.div (∑ i, f i) (Ideal.ofBits .f32 0x48C35000#32))) (funext fun i => ?_)
  exact (term_neg_gen _ _ _ (ix1 i) ((bconst_at _ _).trans Cert.Lib.ofBits_one) (bconst_at _ _)).trans (congrArg fneg (score_ref u v i))

end Ref2

/-! ## Regrouping the 400000 rows into 80 tiles of 5000 -/

theorem lt_tile (t : Fin 80) (r : Fin 5000) : t.val * 5000 + r.val < 400000 := by
  have := t.isLt; have := r.isLt; omega

theorem sum_tiles (g : Fin 400000 → EReal) :
    ∑ i : Fin 400000, g i = ∑ t : Fin 80, ∑ r : Fin 5000, g ⟨t.val * 5000 + r.val, lt_tile t r⟩ := by
  have h : 80 * 5000 = 400000 := by norm_num
  rw [← Equiv.sum_comp (finCongr h) g, ← Equiv.sum_comp finProdFinEquiv, Fintype.sum_prod_type]
  refine Finset.sum_congr rfl fun t _ => Finset.sum_congr rfl fun r _ => congrArg g (Fin.ext ?_)
  show r.val + 5000 * t.val = t.val * 5000 + r.val
  omega

/-! ## The terms are real numbers -/

theorem fpos_real (s : EReal) : Cert.Lib.IsRealE (fpos s) := by
  obtain ⟨ε, hε, he⟩ := Cert.Lib.ofBits_eps_pos
  unfold fpos eps; rw [he]; exact Cert.Lib.log_logistic_add_real s hε
theorem fneg_real (s : EReal) : Cert.Lib.IsRealE (fneg s) := by
  obtain ⟨ε, hε, he⟩ := Cert.Lib.ofBits_eps_pos
  unfold fneg eps; rw [he]; exact Cert.Lib.log_one_sub_logistic_add_real s hε

/-! ## The bridge -/

section Bridge
open Cert.ReferenceIdeal Cert.ReferenceIdeal.Gen Cert.KernelIdeal.Reg3Value

/-- THE BRIDGE. For pair tables `zp0 zp1` (positive pairs) and `zn0 zn1` (negative pairs) of 400000 rows, and blocks
    `B·  t` that are their tiles of 5000 rows (`h·`: block `t`'s row `r` is row `5000 t + r`), the kernel's value — zero
    minus the total of all the tiles' partial sums, divided by 400000 — is the reference's loss: the two are the same
    sum of real numbers, grouped by tiles on one side and split into two means on the other. -/
theorem loss_bridge (zp0 zp1 zn0 zn1 : (⟨S400000x100, .f32⟩ : BufTy).Contents (Elt Ideal))
    (B0 B1 B2 B3 : Fin 80 → Vec Ideal Cert.KernelIdeal.S5000x100 .f32)
    (h0 : ∀ (t : Fin 80) (r : Fin 5000) (k : Fin 100) (i : Fin 400000), i.val = t.val * 5000 + r.val → B0 t (ix2 r k) = zp0 (ix2 i k))
    (h1 : ∀ (t : Fin 80) (r : Fin 5000) (k : Fin 100) (i : Fin 400000), i.val = t.val * 5000 + r.val → B1 t (ix2 r k) = zp1 (ix2 i k))
    (h2 : ∀ (t : Fin 80) (r : Fin 5000) (k : Fin 100) (i : Fin 400000), i.val = t.val * 5000 + r.val → B2 t (ix2 r k) = zn0 (ix2 i k))
    (h3 : ∀ (t : Fin 80) (r : Fin 5000) (k : Fin 100) (i : Fin 400000), i.val = t.val * 5000 + r.val → B3 t (ix2 r k) = zn1 (ix2 i k))
    (j : S_.Idx) :
    Ideal.div (0 - ((∑ t : Fin 80, posVec (B0 t) (B1 t) j00) + (∑ t : Fin 80, negVec (B2 t) (B3 t) j00))) (Ideal.ofBits .f32 0x48C35000#32)
      = (addf (Spec.lossPos zp0 zp1) (Spec.lossNeg zn0 zn1) : FVec Ideal S_ .f32) j := by
  have hA : ∑ t : Fin 80, posVec (B0 t) (B1 t) j00 = ∑ i : Fin 400000, fpos (dot zp0 zp1 i) := by
    rw [sum_tiles]
    refine Finset.sum_congr rfl fun t _ => ?_
    rw [posVec_apply]
    refine Finset.sum_congr rfl fun r _ => congrArg fpos ?_
    unfold dot
    refine Finset.sum_congr rfl fun k _ => ?_
    rw [h0 t r k ⟨t.val * 5000 + r.val, lt_tile t r⟩ rfl, h1 t r k ⟨t.val * 5000 + r.val, lt_tile t r⟩ rfl]
  have hB : ∑ t : Fin 80, negVec (B2 t) (B3 t) j00 = ∑ i : Fin 400000, fneg (dot zn0 zn1 i) := by
    rw [sum_tiles]
    refine Finset.sum_congr rfl fun t _ => ?_
    rw [negVec_apply]
    refine Finset.sum_congr rfl fun r _ => congrArg fneg ?_
    unfold dot
    refine Finset.sum_congr rfl fun k _ => ?_
    rw [h2 t r k ⟨t.val * 5000 + r.val, lt_tile t r⟩ rfl, h3 t r k ⟨t.val * 5000 + r.val, lt_tile t r⟩ rfl]
  show _ = Spec.lossPos zp0 zp1 j + Spec.lossNeg zn0 zn1 j
  rw [hA, hB, lossPos_apply, lossNeg_apply, Cert.Lib.ofBits_400000]
  exact Cert.Lib.neg_sum_div_eq (Cert.Lib.IsRealE.sum _ _ fun i _ => fpos_real _) (Cert.Lib.IsRealE.sum _ _ fun i _ => fneg_real _) (by norm_num)

end Bridge

/-! ## The join: the region's loss value is the reference's loss of the four gathered arrays as the region finds them -/

section Join
open Cert.KernelIdeal Cert.KernelIdeal.Gen Cert.KernelIdeal.Reg3 Cert.KernelIdeal.Reg3Value

/-- The printed index maps of the four input windows, decided over the grid: block `t` of the rows, the one column block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

/-! Each input window's block at point `t` is rows `5000 t … 5000 t + 4999` of its array. -/
theorem iblk0_at (c : Dev nD) (t : Fin cfg3.N) (r : Fin 5000) (k : Fin 100) (i : Fin 400000) (hi : i.val = t.val * 5000 + r.val) :
    (iblk V c 0 t : Vec Ideal S5000x100 .f32) (ix2 r k) = (V c main_v81 : S400000x100.Idx → EReal) (ix2 i k) := by
  obtain ⟨e00, e01, e10, e11, e20, e21, e30, e31⟩ := idx_facts3 t
  show V c main_v81 (((cfg3.win 0).blk t).view.emb (ix2 r k)) = V c main_v81 (ix2 i k)
  refine congrArg _ (funext fun a => Fin.ext ?_)
  match a with
  | ⟨0, _⟩ => show win3_0.index t (0 : Fin 2) * 5000 + 1 * r.val = i.val; omega
  | ⟨1, _⟩ => show win3_0.index t (1 : Fin 2) * 100 + 1 * k.val = k.val; omega
theorem iblk1_at (c : Dev nD) (t : Fin cfg3.N) (r : Fin 5000) (k : Fin 100) (i : Fin 400000) (hi : i.val = t.val * 5000 + r.val) :
    (iblk V c 1 t : Vec Ideal S5000x100 .f32) (ix2 r k) = (V c main_v90 : S400000x100.Idx → EReal) (ix2 i k) := by
  obtain ⟨e00, e01, e10, e11, e20, e21, e30, e31⟩ := idx_facts3 t
  show V c main_v90 (((cfg3.win 1).blk t).view.emb (ix2 r k)) = V c main_v90 (ix2 i k)
  refine congrArg _ (funext fun a => Fin.ext ?_)
  match a with
  | ⟨0, _⟩ => show win3_1.index t (0 : Fin 2) * 5000 + 1 * r.val = i.val; omega
  | ⟨1, _⟩ => show win3_1.index t (1 : Fin 2) * 100 + 1 * k.val = k.val; omega
theorem iblk2_at (c : Dev nD) (t : Fin cfg3.N) (r : Fin 5000) (k : Fin 100) (i : Fin 400000) (hi : i.val = t.val * 5000 + r.val) :
    (iblk V c 2 t : Vec Ideal S5000x100 .f32) (ix2 r k) = (V c main_v99 : S400000x100.Idx → EReal) (ix2 i k) := by
  obtain ⟨e00, e01, e10, e11, e20, e21, e30, e31⟩ := idx_facts3 t
  show V c main_v99 (((cfg3.win 2).blk t).view.emb (ix2 r k)) = V c main_v99 (ix2 i k)
  refine congrArg _ (funext fun a => Fin.ext ?_)
  match a with
  | ⟨0, _⟩ => show win3_2.index t (0 : Fin 2) * 5000 + 1 * r.val = i.val; omega
  | ⟨1, _⟩ => show win3_2.index t (1 : Fin 2) * 100 + 1 * k.val = k.val; omega
theorem iblk3_at (c : Dev nD) (t : Fin cfg3.N) (r : Fin 5000) (k : Fin 100) (i : Fin 400000) (hi : i.val = t.val * 5000 + r.val) :
    (iblk V c 3 t : Vec Ideal S5000x100 .f32) (ix2 r k) = (V c main_v108 : S400000x100.Idx → EReal) (ix2 i k) := by
  obtain ⟨e00, e01, e10, e11, e20, e21, e30, e31⟩ := idx_facts3 t
  show V c main_v108 (((cfg3.win 3).blk t).view.emb (ix2 r k)) = V c main_v108 (ix2 i k)
  refine congrArg _ (funext fun a => Fin.ext ?_)
  match a with
  | ⟨0, _⟩ => show win3_3.index t (0 : Fin 2) * 5000 + 1 * r.val = i.val; omega
  | ⟨1, _⟩ => show win3_3.index t (1 : Fin 2) * 100 + 1 * k.val = k.val; omega

/-- A position below 80 as a grid point. -/
abbrev pt (t : Fin 80) : Fin cfg3.N := ⟨t.val, lt_of_lt_of_eq t.isLt (show cfg3.N = 80 from N_3).symm⟩

/-- THE JOIN: the loss value region 3 leaves is the reference's loss — its two negated means added — of the four
    gathered arrays as the region finds them, at the one index of the scalar shape. -/
theorem loss_join (c : Dev nD) (j : Cert.ReferenceIdeal.S_.Idx) :
    lossVal V c = (addf (Cert.ReferenceIdeal.Spec.lossPos (F := Ideal) (V c main_v81) (V c main_v90))
      (Cert.ReferenceIdeal.Spec.lossNeg (F := Ideal) (V c main_v99) (V c main_v108)) : FVec Ideal Cert.ReferenceIdeal.S_ .f32) j := by
  have hp : ∑ t : Fin 80, posSum V c t = ∑ t : Fin 80, posVec (iblk V c 0 (pt t)) (iblk V c 1 (pt t)) j00 :=
    Finset.sum_congr rfl fun t _ => by unfold posSum; rw [posAt_lt V c t.val (pt t).isLt]
  have hn : ∑ t : Fin 80, negSum V c t = ∑ t : Fin 80, negVec (iblk V c 2 (pt t)) (iblk V c 3 (pt t)) j00 :=
    Finset.sum_congr rfl fun t _ => by unfold negSum; rw [negAt_lt V c t.val (pt t).isLt]
  unfold lossVal
  rw [hp, hn]
  exact loss_bridge (V c main_v81) (V c main_v90) (V c main_v99) (V c main_v108)
    (fun t => iblk V c 0 (pt t)) (fun t => iblk V c 1 (pt t)) (fun t => iblk V c 2 (pt t)) (fun t => iblk V c 3 (pt t))
    (fun t r k i hi => iblk0_at V c (pt t) r k i hi) (fun t r k i hi => iblk1_at V c (pt t) r k i hi)
    (fun t r k i hi => iblk2_at V c (pt t) r k i hi) (fun t r k i hi => iblk3_at V c (pt t) r k i hi) j

end Join

end Cert.KernelIdeal.LossBridge

end
-- ==== Proof.Bridge.lean ====
/-
  The two idealized programs end with equal results. The kernel program's run ends with every unscoped buffer at the
  last boundary's contents; its two float results there are the reference's named compositions of the argument arrays
  (Proof/KI/BridgeOut.lean, Proof/KI/BridgeLoss.lean). The reference's run ends with its results at its own composed
  terms, which are those compositions by unfolding the names; the two programs' arguments agree by hypothesis.
-/
import proofs.«176792_j62921270886524_2_alg».proof.Defs
import proofs.«176792_j62921270886524_2_alg».proof.Proof.KI.Run
import proofs.«176792_j62921270886524_2_alg».proof.Proof.KI.BridgeOut
import proofs.«176792_j62921270886524_2_alg».proof.Proof.KI.BridgeLoss
import proofs.«176792_j62921270886524_2_alg».proof.Proof.KI.LossBridge
import proofs.«176792_j62921270886524_2_alg».proof.Proof.RefRunP
import proofs.«176792_j62921270886524_2_alg».proof.Proof.RefSpec
import proofs.«176792_j62921270886524_2_alg».proof.Proof.Gen.Pre_finite_inputs

set_option maxRecDepth 16384

noncomputable section

namespace Cert.Proof.Bridge

open Idealize.ShloMosaic Idealize.ShloMosaic.TcCoe Idealize.SL.Sem

section Ref
open Cert.ReferenceIdeal Cert.ReferenceIdeal.Gen

variable (m : (ℓ : Loc nD τ sig) → Buf (Elt Ideal) ℓ) (c : Dev nD)

set_option maxHeartbeats 4000000 in
/-- The reference's first result term is the named composition `out` of its argument arrays. -/
theorem res0 : Cert.ReferenceIdeal.ValueP.res_main_v241 (F := Ideal) m c
    = Spec.out (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.ValueP.res_main_v241; rfl

set_option maxHeartbeats 4000000 in
/-- The reference's second result term is the named composition `lossAll` of its argument arrays. -/
theorem res1 : Cert.ReferenceIdeal.ValueP.res_main_v188 (F := Ideal) m c
    = Spec.lossAll (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13)) := by
  unfold Cert.ReferenceIdeal.ValueP.res_main_v188; rfl

end Ref

/-- THE VALUE CLAIM: from memories agreeing on the arguments both idealized programs run to the end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Run.W12 m ρ c (Proc.devRef .tc Cert.KernelIdeal.main_v129), fun c => Cert.KernelIdeal.Run.W12 m ρ c (Proc.devRef .tc Cert.KernelIdeal.main_v110),
    fun c => m ((c.tc : Thread Cert.KernelIdeal.nD Cert.KernelIdeal.τ).loc Cert.KernelIdeal.main_arg14), fun c => m ((c.tc : Thread Cert.KernelIdeal.nD Cert.KernelIdeal.τ).loc Cert.KernelIdeal.main_arg15), ?_, ?_⟩
  · exact (θ_run Cert.KernelIdeal.defs _ _).mono (fun r h c =>
      ⟨h c _ (Cert.KernelIdeal.Run.mem_uc Cert.KernelIdeal.main_v129 (by decide)), h c _ (Cert.KernelIdeal.Run.mem_uc Cert.KernelIdeal.main_v110 (by decide)),
       (h c _ (Cert.KernelIdeal.Run.mem_uc Cert.KernelIdeal.main_arg14 (by decide))).trans (Cert.KernelIdeal.Run.W12_main_arg14 m ρ c),
       (h c _ (Cert.KernelIdeal.Run.mem_uc Cert.KernelIdeal.main_arg15 (by decide))).trans (Cert.KernelIdeal.Run.W12_main_arg15 m ρ c),
       (h c _ (Cert.KernelIdeal.Run.mem_uc Cert.KernelIdeal.main_arg0 (by decide))).trans (Cert.KernelIdeal.Run.W12_main_arg0 m ρ c),
       (h c _ (Cert.KernelIdeal.Run.mem_uc Cert.KernelIdeal.main_arg1 (by decide))).trans (Cert.KernelIdeal.Run.W12_main_arg1 m ρ c),
       (h c _ (Cert.KernelIdeal.Run.mem_uc Cert.KernelIdeal.main_arg2 (by decide))).trans (Cert.KernelIdeal.Run.W12_main_arg2 m ρ c),
       (h c _ (Cert.KernelIdeal.Run.mem_uc Cert.KernelIdeal.main_arg3 (by decide))).trans (Cert.KernelIdeal.Run.W12_main_arg3 m ρ c),
       (h c _ (Cert.KernelIdeal.Run.mem_uc Cert.KernelIdeal.main_arg4 (by decide))).trans (Cert.KernelIdeal.Run.W12_main_arg4 m ρ c),
       (h c _ (Cert.KernelIdeal.Run.mem_uc Cert.KernelIdeal.main_arg5 (by decide))).trans (Cert.KernelIdeal.Run.W12_main_arg5 m ρ c),
       (h c _ (Cert.KernelIdeal.Run.mem_uc Cert.KernelIdeal.main_arg6 (by decide))).trans (Cert.KernelIdeal.Run.W12_main_arg6 m ρ c),
       (h c _ (Cert.KernelIdeal.Run.mem_uc Cert.KernelIdeal.main_arg7 (by decide))).trans (Cert.KernelIdeal.Run.W12_main_arg7 m ρ c),
       (h c _ (Cert.KernelIdeal.Run.mem_uc Cert.KernelIdeal.main_arg8 (by decide))).trans (Cert.KernelIdeal.Run.W12_main_arg8 m ρ c),
       (h c _ (Cert.KernelIdeal.Run.mem_uc Cert.KernelIdeal.main_arg9 (by decide))).trans (Cert.KernelIdeal.Run.W12_main_arg9 m ρ c),
       (h c _ (Cert.KernelIdeal.Run.mem_uc Cert.KernelIdeal.main_arg10 (by decide))).trans (Cert.KernelIdeal.Run.W12_main_arg10 m ρ c),
       (h c _ (Cert.KernelIdeal.Run.mem_uc Cert.KernelIdeal.main_arg11 (by decide))).trans (Cert.KernelIdeal.Run.W12_main_arg11 m ρ c),
       (h c _ (Cert.KernelIdeal.Run.mem_uc Cert.KernelIdeal.main_arg12 (by decide))).trans (Cert.KernelIdeal.Run.W12_main_arg12 m ρ c),
       (h c _ (Cert.KernelIdeal.Run.mem_uc Cert.KernelIdeal.main_arg13 (by decide))).trans (Cert.KernelIdeal.Run.W12_main_arg13 m ρ c),
       (h c _ (Cert.KernelIdeal.Run.mem_uc Cert.KernelIdeal.main_arg14 (by decide))).trans (Cert.KernelIdeal.Run.W12_main_arg14 m ρ c),
       (h c _ (Cert.KernelIdeal.Run.mem_uc Cert.KernelIdeal.main_arg15 (by decide))).trans (Cert.KernelIdeal.Run.W12_main_arg15 m ρ c)⟩)
      (Cert.KernelIdeal.Run.run_all m ρ)
  · refine (θ_run Cert.ReferenceIdeal.defs _ _).mono (fun r h c => ?_) (Cert.ReferenceIdeal.ValueP.run (F := Ideal) m' ρ')
    obtain ⟨h0, h1, h2, h3, hargs⟩ := h c
    obtain ⟨e0, e1, e2, e3, e4, e5, e6, e7, e8, e9, e10, e11, e12, e13, e14, e15⟩ := hagree c
    refine ⟨h0.trans ?_, h1.trans ?_, h2.trans e14, h3.trans e15, hargs⟩
    · rw [res0 m' c, e0, e1, e4, e5, e6, e7, e8, e9, e10, e11]
      exact (Cert.KernelIdeal.BridgeOut.key0 m ρ c).symm
    · rw [res1 m' c, e0, e1, e2, e3, e4, e5, e6, e7, e12, e13]
      exact (Cert.KernelIdeal.BridgeLoss.key1_of m ρ (fun V c => Cert.KernelIdeal.LossBridge.loss_join V c ValueIdx.ix0) c).symm

end Cert.Proof.Bridge

end
-- ==== Proof.lean ====
/-
  The certificate of the five-region graph-convolution kernel against its plain reference.

  The kernel program is three Chebyshev layers, two linear heads and a link-prediction loss, each dense part a
  pipelined kernel region over blocks of rows and each sparse part (degrees, edge weights, the gather–weight–scatter of
  the scaled Laplacian, the gathers of the link pairs) a stretch of host operations; the reference is the same
  mathematics as one straight line of host operations. Both frames of the kernel program (as printed, and idealized)
  are the run of its twelve segments: three host stretches, then five regions with a host stretch before each
  (Proof/K/Run.lean, Proof/KI/Run.lean). The reference's frame is its run read back. The idealized programs agree:
  a region's result array is the reference's layer of the region's input arrays (a block-wise matrix product into a
  zero accumulator is the plain sum; a change of float format is the identity), the host stretches are the reference's
  own operations, and the loss accumulated tile by tile, negated and divided once, is the sum of the two negated means
  because every logarithm under the sums is a real number. No rewrite was applied to idealize the kernel.
-/
import proofs.«176792_j62921270886524_2_alg».proof.Defs
import proofs.«176792_j62921270886524_2_alg».proof.Proof.Gen.Kernel
import proofs.«176792_j62921270886524_2_alg».proof.Proof.Gen.KernelIdeal
import proofs.«176792_j62921270886524_2_alg».proof.Proof.Gen.ReferenceIdeal
import proofs.«176792_j62921270886524_2_alg».proof.Proof.Gen.Pre_finite_inputs
import proofs.«176792_j62921270886524_2_alg».proof.Proof.K.Run
import proofs.«176792_j62921270886524_2_alg».proof.Proof.KI.Run
import proofs.«176792_j62921270886524_2_alg».proof.Proof.RefRunP
import proofs.«176792_j62921270886524_2_alg».proof.Proof.Bridge
import Idealize.ShloMosaic.Adequacy
import Idealize.ShloMosaic.Init

noncomputable section

namespace Cert.Proof

open Idealize.ShloMosaic Idealize.SL.Sem

/-- The kernel program as printed runs to the end, nothing faulting, its arguments unchanged. -/
theorem frame_k : Cert.frame_Kernel (hKernel := Cert.Kernel.Gen.facts) (hPre_finite_inputs := Cert.Pre_finite_inputs.Gen.facts) :=
  fun m ρ _ => Cert.Kernel.Run.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Run.frame m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.ValueP.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Proof.Bridge.algebraic⟩

end Cert.Proof

end
